-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v162)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v162) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v227) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S4x128 : Shape := ⟨2, ![4, 128]⟩
abbrev S40x128 : Shape := ⟨2, ![40, 128]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S4x128 : S_.BroadcastsInDim S4x128 (![] : Fin 0 → Fin S4x128.rank)
  reducesTo_S4x128_S_d0_1 : S4x128.ReducesTo [0, 1] S_
  bcast_S_S40x128 : S_.BroadcastsInDim S40x128 (![] : Fin 0 → Fin S40x128.rank)
  reducesTo_S40x128_S_d0_1 : S40x128.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S40x128 .f32) (main_arg9 : FVec F S40 .f32) (main_v33 : IVec S_ 1) : IVec S_ 1 :=
  let main_v34 : FVec F S40x128 .f32 := Host.absf main_arg8
  let main_cst_12 : FVec F S_ .f32 := constant S_ .f32 0x7F800000#32
  let main_v35 : FVec F S40x128 .f32 := broadcastInDim S40x128 ![] bcast_S_S40x128 main_cst_12
  let main_v36 : IVec S40x128 1 := cmpf .olt main_v34 main_v35
  let main_c_13 : IVec S_ 1 := constantI S_ 1 1#1
  let main_v37 : IVec S_ 1 := (fun x v => Host.reduce IntOp.andi x v reducesTo_S40x128_S_d0_1 h_S_) main_v36 main_c_13
  let main_v38 : IVec S_ 1 := andi main_v33 main_v37
  let main_v39 : FVec F S40 .f32 := Host.absf main_arg9
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg5 : FVec F S3x128 .f32) (main_arg6 : FVec F S4x128 .f32) (main_arg7 : FVec F S4x128 .f32) (main_arg8 : FVec F S40x128 .f32) (main_arg9 : FVec F S40 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S4x128 .f32 := Host.absf main_arg6
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S4x128 .f32 := Host.absf main_arg7
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128 .f32) (main_arg4 : FVec F S3x128x128 .f32) (main_arg5 : FVec F S3x128 .f32) (main_arg6 : FVec F S4x128 .f32) (main_arg7 : FVec F S4x128 .f32) (main_arg8 : FVec F S40x128 .f32) (main_arg9 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S4x128 : Shape := ⟨2, ![4, 128]⟩
abbrev S40x128 : Shape := ⟨2, ![40, 128]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1x128 : Shape := ⟨2, ![1, 128]⟩
abbrev S5000x128 : Shape := ⟨2, ![5000, 128]⟩
abbrev S1600000x128 : Shape := ⟨2, ![1600000, 128]⟩
abbrev S1x128x128 : Shape := ⟨3, ![1, 128, 128]⟩
abbrev S128x40 : Shape := ⟨2, ![128, 40]⟩
abbrev S1x40 : Shape := ⟨2, ![1, 40]⟩
abbrev S100000x40 : Shape := ⟨2, ![100000, 40]⟩
abbrev S5000x40 : Shape := ⟨2, ![5000, 40]⟩

abbrev nBuf : Space → Nat
  | .hbm => 209
  | .vmem => 76
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S3x128x128, .f32⟩
  | 5 => ⟨S3x128, .f32⟩
  | 6 => ⟨S4x128, .f32⟩
  | 7 => ⟨S4x128, .f32⟩
  | 8 => ⟨S40x128, .f32⟩
  | 9 => ⟨S40, .f32⟩
  | 10 => ⟨S1x1600000, .i32⟩
  | 11 => ⟨S1600000, .i32⟩
  | 12 => ⟨S1x1600000, .i32⟩
  | 13 => ⟨S1600000, .i32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S100000, .i1⟩
  | 23 => ⟨S_, .f32⟩
  | 24 => ⟨S100000, .f32⟩
  | 25 => ⟨S100000, .f32⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000, .f32⟩
  | 49 => ⟨S1600000, .f32⟩
  | 50 => ⟨S128x128, .f32⟩
  | 51 => ⟨S1x128, .f32⟩
  | 52 => ⟨S100000x128, .f32⟩
  | 53 => ⟨S1x128, .f32⟩
  | 54 => ⟨S1x128, .f32⟩
  | 55 => ⟨S128, .f32⟩
  | 56 => ⟨S_, .f32⟩
  | 57 => ⟨S128, .f32⟩
  | 58 => ⟨S128, .f32⟩
  | 59 => ⟨S128, .f32⟩
  | 60 => ⟨S_, .f32⟩
  | 61 => ⟨S128, .f32⟩
  | 62 => ⟨S128, .f32⟩
  | 63 => ⟨S128, .f32⟩
  | 64 => ⟨S128, .f32⟩
  | 65 => ⟨S1x128, .f32⟩
  | 66 => ⟨S128, .f32⟩
  | 67 => ⟨S1x128, .f32⟩
  | 68 => ⟨S128, .f32⟩
  | 69 => ⟨S1x128, .f32⟩
  | 70 => ⟨S1x128, .f32⟩
  | 71 => ⟨S1x128, .f32⟩
  | 72 => ⟨S1x128, .f32⟩
  | 73 => ⟨S100000x128, .f32⟩
  | 74 => ⟨S1600000x1, .f32⟩
  | 75 => ⟨S_, .i32⟩
  | 76 => ⟨S1600000, .i32⟩
  | 77 => ⟨S1600000, .i1⟩
  | 78 => ⟨S_, .i32⟩
  | 79 => ⟨S1600000, .i32⟩
  | 80 => ⟨S1600000, .i32⟩
  | 81 => ⟨S1600000, .i32⟩
  | 82 => ⟨S1600000x1, .i32⟩
  | 83 => ⟨S1600000x128, .f32⟩
  | 84 => ⟨S1600000x128, .f32⟩
  | 85 => ⟨S1600000x128, .f32⟩
  | 86 => ⟨S_, .f32⟩
  | 87 => ⟨S100000x128, .f32⟩
  | 88 => ⟨S1600000x1, .i32⟩
  | 89 => ⟨S100000x128, .f32⟩
  | 90 => ⟨S1x128x128, .f32⟩
  | 91 => ⟨S128x128, .f32⟩
  | 92 => ⟨S128x128, .f32⟩
  | 93 => ⟨S1x128, .f32⟩
  | 94 => ⟨S128, .f32⟩
  | 95 => ⟨S1x128, .f32⟩
  | 96 => ⟨S100000x128, .f32⟩
  | 97 => ⟨S1x128, .f32⟩
  | 98 => ⟨S1x128, .f32⟩
  | 99 => ⟨S128, .f32⟩
  | 100 => ⟨S_, .f32⟩
  | 101 => ⟨S128, .f32⟩
  | 102 => ⟨S128, .f32⟩
  | 103 => ⟨S128, .f32⟩
  | 104 => ⟨S_, .f32⟩
  | 105 => ⟨S128, .f32⟩
  | 106 => ⟨S128, .f32⟩
  | 107 => ⟨S128, .f32⟩
  | 108 => ⟨S128, .f32⟩
  | 109 => ⟨S1x128, .f32⟩
  | 110 => ⟨S128, .f32⟩
  | 111 => ⟨S1x128, .f32⟩
  | 112 => ⟨S128, .f32⟩
  | 113 => ⟨S1x128, .f32⟩
  | 114 => ⟨S1x128, .f32⟩
  | 115 => ⟨S1x128, .f32⟩
  | 116 => ⟨S1x128, .f32⟩
  | 117 => ⟨S100000x128, .f32⟩
  | 118 => ⟨S1600000x1, .f32⟩
  | 119 => ⟨S_, .i32⟩
  | 120 => ⟨S1600000, .i32⟩
  | 121 => ⟨S1600000, .i1⟩
  | 122 => ⟨S_, .i32⟩
  | 123 => ⟨S1600000, .i32⟩
  | 124 => ⟨S1600000, .i32⟩
  | 125 => ⟨S1600000, .i32⟩
  | 126 => ⟨S1600000x1, .i32⟩
  | 127 => ⟨S1600000x128, .f32⟩
  | _ => ⟨S100000x128, .f32⟩

abbrev hbmTy0_1 (i : Nat) : BufTy := match i % 128 with
  | 0 => ⟨S1600000x128, .f32⟩
  | 1 => ⟨S1600000x128, .f32⟩
  | 2 => ⟨S_, .f32⟩
  | 3 => ⟨S100000x128, .f32⟩
  | 4 => ⟨S1600000x1, .i32⟩
  | 5 => ⟨S100000x128, .f32⟩
  | 6 => ⟨S1x128x128, .f32⟩
  | 7 => ⟨S128x128, .f32⟩
  | 8 => ⟨S128x128, .f32⟩
  | 9 => ⟨S1x128, .f32⟩
  | 10 => ⟨S128, .f32⟩
  | 11 => ⟨S1x128, .f32⟩
  | 12 => ⟨S100000x128, .f32⟩
  | 13 => ⟨S1x128, .f32⟩
  | 14 => ⟨S1x128, .f32⟩
  | 15 => ⟨S128, .f32⟩
  | 16 => ⟨S_, .f32⟩
  | 17 => ⟨S128, .f32⟩
  | 18 => ⟨S128, .f32⟩
  | 19 => ⟨S128, .f32⟩
  | 20 => ⟨S_, .f32⟩
  | 21 => ⟨S128, .f32⟩
  | 22 => ⟨S128, .f32⟩
  | 23 => ⟨S128, .f32⟩
  | 24 => ⟨S128, .f32⟩
  | 25 => ⟨S1x128, .f32⟩
  | 26 => ⟨S128, .f32⟩
  | 27 => ⟨S1x128, .f32⟩
  | 28 => ⟨S128, .f32⟩
  | 29 => ⟨S1x128, .f32⟩
  | 30 => ⟨S1x128, .f32⟩
  | 31 => ⟨S1x128, .f32⟩
  | 32 => ⟨S1x128, .f32⟩
  | 33 => ⟨S100000x128, .f32⟩
  | 34 => ⟨S1600000x1, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000x128, .f32⟩
  | 44 => ⟨S1600000x128, .f32⟩
  | 45 => ⟨S1600000x128, .f32⟩
  | 46 => ⟨S_, .f32⟩
  | 47 => ⟨S100000x128, .f32⟩
  | 48 => ⟨S1600000x1, .i32⟩
  | 49 => ⟨S100000x128, .f32⟩
  | 50 => ⟨S1x128x128, .f32⟩
  | 51 => ⟨S128x128, .f32⟩
  | 52 => ⟨S128x128, .f32⟩
  | 53 => ⟨S1x128, .f32⟩
  | 54 => ⟨S128, .f32⟩
  | 55 => ⟨S1x128, .f32⟩
  | 56 => ⟨S100000x128, .f32⟩
  | 57 => ⟨S1x128, .f32⟩
  | 58 => ⟨S1x128, .f32⟩
  | 59 => ⟨S128, .f32⟩
  | 60 => ⟨S_, .f32⟩
  | 61 => ⟨S128, .f32⟩
  | 62 => ⟨S128, .f32⟩
  | 63 => ⟨S128, .f32⟩
  | 64 => ⟨S_, .f32⟩
  | 65 => ⟨S128, .f32⟩
  | 66 => ⟨S128, .f32⟩
  | 67 => ⟨S128, .f32⟩
  | 68 => ⟨S128, .f32⟩
  | 69 => ⟨S1x128, .f32⟩
  | 70 => ⟨S128, .f32⟩
  | 71 => ⟨S1x128, .f32⟩
  | 72 => ⟨S128, .f32⟩
  | 73 => ⟨S1x128, .f32⟩
  | 74 => ⟨S1x128, .f32⟩
  | 75 => ⟨S1x128, .f32⟩
  | 76 => ⟨S1x128, .f32⟩
  | 77 => ⟨S100000x128, .f32⟩
  | 78 => ⟨S128x40, .f32⟩
  | 79 => ⟨S1x40, .f32⟩
  | 80 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S1x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S1x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S128x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S1x128, .f32⟩
  | .local _ .vmem, ⟨41, _⟩ => ⟨S1x128, .f32⟩
  | .local _ .vmem, ⟨42, _⟩ => ⟨S5000x128, .f32⟩
  | .local _ .vmem, ⟨43, _⟩ => ⟨S5000x128, .f32⟩
  | .local _ .vmem, ⟨44, _⟩ => ⟨S1x128, .f32⟩
  | .local _ .vmem, ⟨45, _⟩ => ⟨S1x128, .f32⟩
  | .local _ .vmem, ⟨46, _⟩ => ⟨S1x128, .f32⟩
  | .local _ .vmem, ⟨47, _⟩ => ⟨S1x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | .local _ .vmem, ⟨54, _⟩ => ⟨S128x128, .f32⟩
  | .local _ .vmem, ⟨55, _⟩ => ⟨S1x128, .f32⟩
  | .local _ .vmem, ⟨56, _⟩ => ⟨S5000x128, .f32⟩
  | .local _ .vmem, ⟨57, _⟩ => ⟨S5000x128, .f32⟩
  | .local _ .vmem, ⟨58, _⟩ => ⟨S1x128, .f32⟩
  | .local _ .vmem, ⟨59, _⟩ => ⟨S1x128, .f32⟩
  | .local _ .vmem, ⟨60, _⟩ => ⟨S5000x128, .f32⟩
  | .local _ .vmem, ⟨61, _⟩ => ⟨S5000x128, .f32⟩
  | .local _ .vmem, ⟨62, _⟩ => ⟨S1x128, .f32⟩
  | .local _ .vmem, ⟨63, _⟩ => ⟨S1x128, .f32⟩
  | .local _ .vmem, ⟨64, _⟩ => ⟨S1x128, .f32⟩
  | .local _ .vmem, ⟨65, _⟩ => ⟨S1x128, .f32⟩
  | .local _ .vmem, ⟨66, _⟩ => ⟨S5000x128, .f32⟩
  | .local _ .vmem, ⟨67, _⟩ => ⟨S5000x128, .f32⟩
  | .local _ .vmem, ⟨68, _⟩ => ⟨S5000x128, .f32⟩
  | .local _ .vmem, ⟨69, _⟩ => ⟨S5000x128, .f32⟩
  | .local _ .vmem, ⟨70, _⟩ => ⟨S5000x128, .f32⟩
  | .local _ .vmem, ⟨71, _⟩ => ⟨S5000x128, .f32⟩
  | .local _ .vmem, ⟨72, _⟩ => ⟨S128x40, .f32⟩
  | .local _ .vmem, ⟨73, _⟩ => ⟨S1x40, .f32⟩
  | .local _ .vmem, ⟨74, _⟩ => ⟨S5000x40, .f32⟩
  | .local _ .vmem, ⟨75, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | _, _ => false

abbrev semScoped : Fin 0 → Bool
  | ⟨_, h⟩ => absurd h (Nat.not_lt_zero _)

abbrev dmaSemScoped : Fin 76 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | _ => false

abbrev sig : RefSig :=
  ofTc nBuf bufTy 0 76 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_5 : Ref sig .tc := ⟨.hbm, 40, rfl⟩
abbrev main_v21 : Ref sig .tc := ⟨.hbm, 41, rfl⟩
abbrev main_v22 : Ref sig .tc := ⟨.hbm, 42, rfl⟩
abbrev main_c_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31_0 : Ref sig .tc := ⟨.hbm, 52, rfl⟩
abbrev main_v31_1 : Ref sig .tc := ⟨.hbm, 53, rfl⟩
abbrev main_v31_2 : Ref sig .tc := ⟨.hbm, 54, rfl⟩
abbrev main_v32 : Ref sig .tc := ⟨.hbm, 55, rfl⟩
abbrev main_cst_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_8 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_c_9 : Ref sig .tc := ⟨.hbm, 75, rfl⟩
abbrev main_v50 : Ref sig .tc := ⟨.hbm, 76, rfl⟩
abbrev main_v51 : Ref sig .tc := ⟨.hbm, 77, rfl⟩
abbrev main_c_10 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68_0 : Ref sig .tc := ⟨.hbm, 96, rfl⟩
abbrev main_v68_1 : Ref sig .tc := ⟨.hbm, 97, rfl⟩
abbrev main_v68_2 : Ref sig .tc := ⟨.hbm, 98, rfl⟩
abbrev main_v69 : Ref sig .tc := ⟨.hbm, 99, rfl⟩
abbrev main_cst_12 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_13 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_c_14 : Ref sig .tc := ⟨.hbm, 119, rfl⟩
abbrev main_v87 : Ref sig .tc := ⟨.hbm, 120, rfl⟩
abbrev main_v88 : Ref sig .tc := ⟨.hbm, 121, rfl⟩
abbrev main_c_15 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_cst_16 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105_0 : Ref sig .tc := ⟨.hbm, 140, rfl⟩
abbrev main_v105_1 : Ref sig .tc := ⟨.hbm, 141, rfl⟩
abbrev main_v105_2 : Ref sig .tc := ⟨.hbm, 142, rfl⟩
abbrev main_v106 : Ref sig .tc := ⟨.hbm, 143, rfl⟩
abbrev main_cst_17 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_cst_18 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_c_19 : Ref sig .tc := ⟨.hbm, 163, rfl⟩
abbrev main_v124 : Ref sig .tc := ⟨.hbm, 164, rfl⟩
abbrev main_v125 : Ref sig .tc := ⟨.hbm, 165, rfl⟩
abbrev main_c_20 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_cst_21 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142_0 : Ref sig .tc := ⟨.hbm, 184, rfl⟩
abbrev main_v142_1 : Ref sig .tc := ⟨.hbm, 185, rfl⟩
abbrev main_v142_2 : Ref sig .tc := ⟨.hbm, 186, rfl⟩
abbrev main_v143 : Ref sig .tc := ⟨.hbm, 187, rfl⟩
abbrev main_cst_22 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_cst_23 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg5_0 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc3_stg6_0 : Ref sig .tc := ⟨.vmem, 32, rfl⟩
abbrev cc3_stg6_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg3_1 : Ref sig .tc := ⟨.vmem, 39, rfl⟩
abbrev cc4_stg4_0 : Ref sig .tc := ⟨.vmem, 40, rfl⟩
abbrev cc4_stg5_0 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg2_0 : Ref sig .tc := ⟨.vmem, 45, rfl⟩
abbrev cc5_stg3_0 : Ref sig .tc := ⟨.vmem, 46, rfl⟩
abbrev cc5_stg4_0 : Ref sig .tc := ⟨.vmem, 47, rfl⟩
abbrev cc5_stg5_0 : Ref sig .tc := ⟨.vmem, 48, rfl⟩
abbrev cc5_stg5_1 : Ref sig .tc := ⟨.vmem, 49, rfl⟩
abbrev cc5_stg6_0 : Ref sig .tc := ⟨.vmem, 50, rfl⟩
abbrev cc5_stg6_1 : Ref sig .tc := ⟨.vmem, 51, rfl⟩
abbrev cc6_stg0_0 : Ref sig .tc := ⟨.vmem, 52, rfl⟩
abbrev cc6_stg0_1 : Ref sig .tc := ⟨.vmem, 53, rfl⟩
abbrev cc6_stg1_0 : Ref sig .tc := ⟨.vmem, 54, rfl⟩
abbrev cc6_stg2_0 : Ref sig .tc := ⟨.vmem, 55, rfl⟩
abbrev cc6_stg3_0 : Ref sig .tc := ⟨.vmem, 56, rfl⟩
abbrev cc6_stg3_1 : Ref sig .tc := ⟨.vmem, 57, rfl⟩
abbrev cc6_stg4_0 : Ref sig .tc := ⟨.vmem, 58, rfl⟩
abbrev cc6_stg5_0 : Ref sig .tc := ⟨.vmem, 59, rfl⟩
abbrev cc7_stg0_0 : Ref sig .tc := ⟨.vmem, 60, rfl⟩
abbrev cc7_stg0_1 : Ref sig .tc := ⟨.vmem, 61, rfl⟩
abbrev cc7_stg1_0 : Ref sig .tc := ⟨.vmem, 62, rfl⟩
abbrev cc7_stg2_0 : Ref sig .tc := ⟨.vmem, 63, rfl⟩
abbrev cc7_stg3_0 : Ref sig .tc := ⟨.vmem, 64, rfl⟩
abbrev cc7_stg4_0 : Ref sig .tc := ⟨.vmem, 65, rfl⟩
abbrev cc7_stg5_0 : Ref sig .tc := ⟨.vmem, 66, rfl⟩
abbrev cc7_stg5_1 : Ref sig .tc := ⟨.vmem, 67, rfl⟩
abbrev cc7_stg6_0 : Ref sig .tc := ⟨.vmem, 68, rfl⟩
abbrev cc7_stg6_1 : Ref sig .tc := ⟨.vmem, 69, rfl⟩
abbrev cc8_stg0_0 : Ref sig .tc := ⟨.vmem, 70, rfl⟩
abbrev cc8_stg0_1 : Ref sig .tc := ⟨.vmem, 71, rfl⟩
abbrev cc8_stg1_0 : Ref sig .tc := ⟨.vmem, 72, rfl⟩
abbrev cc8_stg2_0 : Ref sig .tc := ⟨.vmem, 73, rfl⟩
abbrev cc8_stg3_0 : Ref sig .tc := ⟨.vmem, 74, rfl⟩
abbrev cc8_stg3_1 : Ref sig .tc := ⟨.vmem, 75, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem5_0 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31
abbrev cc3_sem6_0 : DmaSem sig := 32
abbrev cc3_sem6_1 : DmaSem sig := 33
abbrev cc4_sem0_0 : DmaSem sig := 34
abbrev cc4_sem0_1 : DmaSem sig := 35
abbrev cc4_sem1_0 : DmaSem sig := 36
abbrev cc4_sem2_0 : DmaSem sig := 37
abbrev cc4_sem3_0 : DmaSem sig := 38
abbrev cc4_sem3_1 : DmaSem sig := 39
abbrev cc4_sem4_0 : DmaSem sig := 40
abbrev cc4_sem5_0 : DmaSem sig := 41
abbrev cc5_sem0_0 : DmaSem sig := 42
abbrev cc5_sem0_1 : DmaSem sig := 43
abbrev cc5_sem1_0 : DmaSem sig := 44
abbrev cc5_sem2_0 : DmaSem sig := 45
abbrev cc5_sem3_0 : DmaSem sig := 46
abbrev cc5_sem4_0 : DmaSem sig := 47
abbrev cc5_sem5_0 : DmaSem sig := 48
abbrev cc5_sem5_1 : DmaSem sig := 49
abbrev cc5_sem6_0 : DmaSem sig := 50
abbrev cc5_sem6_1 : DmaSem sig := 51
abbrev cc6_sem0_0 : DmaSem sig := 52
abbrev cc6_sem0_1 : DmaSem sig := 53
abbrev cc6_sem1_0 : DmaSem sig := 54
abbrev cc6_sem2_0 : DmaSem sig := 55
abbrev cc6_sem3_0 : DmaSem sig := 56
abbrev cc6_sem3_1 : DmaSem sig := 57
abbrev cc6_sem4_0 : DmaSem sig := 58
abbrev cc6_sem5_0 : DmaSem sig := 59
abbrev cc7_sem0_0 : DmaSem sig := 60
abbrev cc7_sem0_1 : DmaSem sig := 61
abbrev cc7_sem1_0 : DmaSem sig := 62
abbrev cc7_sem2_0 : DmaSem sig := 63
abbrev cc7_sem3_0 : DmaSem sig := 64
abbrev cc7_sem4_0 : DmaSem sig := 65
abbrev cc7_sem5_0 : DmaSem sig := 66
abbrev cc7_sem5_1 : DmaSem sig := 67
abbrev cc7_sem6_0 : DmaSem sig := 68
abbrev cc7_sem6_1 : DmaSem sig := 69
abbrev cc8_sem0_0 : DmaSem sig := 70
abbrev cc8_sem0_1 : DmaSem sig := 71
abbrev cc8_sem1_0 : DmaSem sig := 72
abbrev cc8_sem2_0 : DmaSem sig := 73
abbrev cc8_sem3_0 : DmaSem sig := 74
abbrev cc8_sem3_1 : DmaSem sig := 75

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S5000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 2 → Memref sig .tc .vmem S5000x128 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x40 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x40 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S5000x40 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  transposes_S128x128_S128x128_1_0 : S128x128.Transposes [1, 0] S128x128
  shapeCasts_S128_S1x128 : S128.ShapeCasts S1x128
  inb_S1x128_S1x128_0_0 : ∀ a, (![0, 0] : Fin 2 → Nat) a + S1x128.size a ≤ S1x128.size a
  h_S1x128 : 0 < S1x128.numel
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S1x128_S1x128 : S1x128.ShapeCasts S1x128
  broadcasts_S1x128_S5000x128 : S1x128.Broadcasts S5000x128
  reduces_S5000x128_S128 : S5000x128.Reduces [0] S128
  shapeCasts_S1x128_S128 : S1x128.ShapeCasts S128
  bcast_S_S128 : S_.BroadcastsInDim S128 (![] : Fin 0 → Fin S128.rank)
  slices_S4x128_S1x128_0_0 : S4x128.Slices ![0, 0] S1x128
  shapeCasts_S5000x128_S5000x128 : S5000x128.ShapeCasts S5000x128
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  slices_S4x128_S1x128_1_0 : S4x128.Slices ![1, 0] S1x128
  slices_S3x128x128_S1x128x128_1_0_0 : S3x128x128.Slices ![1, 0, 0] S1x128x128
  slices_S3x128_S1x128_1_0 : S3x128.Slices ![1, 0] S1x128
  slices_S4x128_S1x128_2_0 : S4x128.Slices ![2, 0] S1x128
  slices_S3x128x128_S1x128x128_2_0_0 : S3x128x128.Slices ![2, 0, 0] S1x128x128
  slices_S3x128_S1x128_2_0 : S3x128.Slices ![2, 0] S1x128
  slices_S4x128_S1x128_3_0 : S4x128.Slices ![3, 0] S1x128
  transposes_S40x128_S128x40_1_0 : S40x128.Transposes [1, 0] S128x40
  shapeCasts_S40_S1x40 : S40.ShapeCasts S1x40
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S100000x128.size a
  hwx3_6 : ∀ i : grid3.Coords, EltTy.bits .f32 = 32 ∨ (Rect.block (s := S100000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S100000x128.size a
  hwx4_3 : ∀ i : grid4.Coords, EltTy.bits .f32 = 32 ∨ (Rect.block (s := S100000x128) S5000x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S100000x128.size a
  hwx5_6 : ∀ i : grid5.Coords, EltTy.bits .f32 = 32 ∨ (Rect.block (s := S100000x128) S5000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x128.size a ≤ S100000x128.size a
  hwx6_3 : ∀ i : grid6.Coords, EltTy.bits .f32 = 32 ∨ (Rect.block (s := S100000x128) S5000x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x128.size a ≤ S100000x128.size a
  hwx7_5 : ∀ i : grid7.Coords, EltTy.bits .f32 = 32 ∨ (Rect.block (s := S100000x128) S5000x128.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S5000x128.size a ≤ S100000x128.size a
  hwx7_6 : ∀ i : grid7.Coords, EltTy.bits .f32 = 32 ∨ (Rect.block (s := S100000x128) S5000x128.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S100000x128.size a
  hwx8_0 : ∀ i : grid8.Coords, EltTy.bits .f32 = 32 ∨ (Rect.block (s := S100000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x40.size a ≤ S128x40.size a
  hwx8_1 : ∀ i : grid8.Coords, EltTy.bits .f32 = 32 ∨ (Rect.block (s := S128x40) S128x40.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x40.size a ≤ S1x40.size a
  hwx8_2 : ∀ i : grid8.Coords, EltTy.bits .f32 = 32 ∨ (Rect.block (s := S1x40) S1x40.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S5000x40.size a ≤ S100000x40.size a
  hwx8_3 : ∀ i : grid8.Coords, EltTy.bits .f32 = 32 ∨ (Rect.block (s := S100000x40) S5000x40.size (cc8_transform_3 i) (hinb8_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31_0) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v31_1) S1x128.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31_2) S1x128.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v31_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v61) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v64) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v67) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v68_0) S5000x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v68_1) S1x128.size cc2_transform_4 reads2_4 true true 1 stage2_4 sem2_4
    hrank2 hreads2_4 hinb2_4 nbuf2_4 (Memref.isWhole_whole _) hwx2_4 hstage2_4

abbrev win2_5 : Pipeline.Window sig grid2 :=
  Pipeline.Window.ofSpec (Memref.whole main_v68_2) S1x128.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v68_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v81) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v82) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v83) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v84) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v48) S5000x128.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v85) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v98) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v101) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v104) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v105_0) S5000x128.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v105_1) S1x128.size cc4_transform_4 reads4_4 true true 1 stage4_4 sem4_4
    hrank4 hreads4_4 hinb4_4 nbuf4_4 (Memref.isWhole_whole _) hwx4_4 hstage4_4

abbrev win4_5 : Pipeline.Window sig grid4 :=
  Pipeline.Window.ofSpec (Memref.whole main_v105_2) S1x128.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v105_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v118) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v119) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v120) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v121) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v48) S5000x128.size cc5_transform_5 reads5_5 false false 2 stage5_5 sem5_5
    hrank5 hreads5_5 hinb5_5 nbuf5_5 (Memref.isWhole_whole _) hwx5_5 hstage5_5

abbrev win5_6 : Pipeline.Window sig grid5 :=
  Pipeline.Window.ofSpec (Memref.whole main_v122) S5000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v135) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v138) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v141) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v142_0) S5000x128.size cc6_transform_3 reads6_3 true false 2 stage6_3 sem6_3
    hrank6 hreads6_3 hinb6_3 nbuf6_3 (Memref.isWhole_whole _) hwx6_3 hstage6_3

abbrev win6_4 : Pipeline.Window sig grid6 :=
  Pipeline.Window.ofSpec (Memref.whole main_v142_1) S1x128.size cc6_transform_4 reads6_4 true true 1 stage6_4 sem6_4
    hrank6 hreads6_4 hinb6_4 nbuf6_4 (Memref.isWhole_whole _) hwx6_4 hstage6_4

abbrev win6_5 : Pipeline.Window sig grid6 :=
  Pipeline.Window.ofSpec (Memref.whole main_v142_2) S1x128.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v142_0) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v155) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v156) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v157) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v158) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v48) S5000x128.size cc7_transform_5 reads7_5 false false 2 stage7_5 sem7_5
    hrank7 hreads7_5 hinb7_5 nbuf7_5 (Memref.isWhole_whole _) hwx7_5 hstage7_5

abbrev win7_6 : Pipeline.Window sig grid7 :=
  Pipeline.Window.ofSpec (Memref.whole main_v159) S5000x128.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v159) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v160) S128x40.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v161) S1x40.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v162) S5000x40.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S4x128 : Shape := ⟨2, ![4, 128]⟩
abbrev S40x128 : Shape := ⟨2, ![40, 128]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1x128 : Shape := ⟨2, ![1, 128]⟩
abbrev S1600000x128 : Shape := ⟨2, ![1600000, 128]⟩
abbrev S1x128x128 : Shape := ⟨3, ![1, 128, 128]⟩
abbrev S128x40 : Shape := ⟨2, ![128, 40]⟩
abbrev S100000x40 : Shape := ⟨2, ![100000, 40]⟩
abbrev S1x40 : Shape := ⟨2, ![1, 40]⟩

abbrev nBuf : Space → Nat
  | .hbm => 286
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S3x128x128, .f32⟩
  | 5 => ⟨S3x128, .f32⟩
  | 6 => ⟨S4x128, .f32⟩
  | 7 => ⟨S4x128, .f32⟩
  | 8 => ⟨S40x128, .f32⟩
  | 9 => ⟨S40, .f32⟩
  | 10 => ⟨S1x1600000, .i32⟩
  | 11 => ⟨S1600000, .i32⟩
  | 12 => ⟨S1x1600000, .i32⟩
  | 13 => ⟨S1600000, .i32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S100000, .i1⟩
  | 23 => ⟨S_, .f32⟩
  | 24 => ⟨S100000, .f32⟩
  | 25 => ⟨S100000, .f32⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000, .f32⟩
  | 49 => ⟨S1600000, .f32⟩
  | 50 => ⟨S128x128, .f32⟩
  | 51 => ⟨S100000x128, .f32⟩
  | 52 => ⟨S1x128, .f32⟩
  | 53 => ⟨S100000x128, .f32⟩
  | 54 => ⟨S100000x128, .f32⟩
  | 55 => ⟨S1x128, .f32⟩
  | 56 => ⟨S128, .f32⟩
  | 57 => ⟨S1x128, .f32⟩
  | 58 => ⟨S128, .f32⟩
  | 59 => ⟨S_, .f32⟩
  | 60 => ⟨S128, .f32⟩
  | 61 => ⟨S_, .f32⟩
  | 62 => ⟨S128, .f32⟩
  | 63 => ⟨S128, .f32⟩
  | 64 => ⟨S1x128, .f32⟩
  | 65 => ⟨S100000x128, .f32⟩
  | 66 => ⟨S100000x128, .f32⟩
  | 67 => ⟨S100000x128, .f32⟩
  | 68 => ⟨S_, .f32⟩
  | 69 => ⟨S128, .f32⟩
  | 70 => ⟨S_, .f32⟩
  | 71 => ⟨S128, .f32⟩
  | 72 => ⟨S128, .f32⟩
  | 73 => ⟨S1x128, .f32⟩
  | 74 => ⟨S100000x128, .f32⟩
  | 75 => ⟨S100000x128, .f32⟩
  | 76 => ⟨S1x128, .f32⟩
  | 77 => ⟨S100000x128, .f32⟩
  | 78 => ⟨S100000x128, .f32⟩
  | 79 => ⟨S_, .f32⟩
  | 80 => ⟨S128, .f32⟩
  | 81 => ⟨S128, .f32⟩
  | 82 => ⟨S128, .f32⟩
  | 83 => ⟨S1x128, .f32⟩
  | 84 => ⟨S100000x128, .f32⟩
  | 85 => ⟨S100000x128, .f32⟩
  | 86 => ⟨S1x128, .f32⟩
  | 87 => ⟨S100000x128, .f32⟩
  | 88 => ⟨S100000x128, .f32⟩
  | 89 => ⟨S_, .f32⟩
  | 90 => ⟨S100000x128, .f32⟩
  | 91 => ⟨S100000x128, .f32⟩
  | 92 => ⟨S1600000x1, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000x128, .f32⟩
  | 102 => ⟨S1600000x128, .f32⟩
  | 103 => ⟨S1600000x128, .f32⟩
  | 104 => ⟨S_, .f32⟩
  | 105 => ⟨S100000x128, .f32⟩
  | 106 => ⟨S1600000x1, .i32⟩
  | 107 => ⟨S100000x128, .f32⟩
  | 108 => ⟨S1x128x128, .f32⟩
  | 109 => ⟨S128x128, .f32⟩
  | 110 => ⟨S128x128, .f32⟩
  | 111 => ⟨S100000x128, .f32⟩
  | 112 => ⟨S1x128, .f32⟩
  | 113 => ⟨S128, .f32⟩
  | 114 => ⟨S1x128, .f32⟩
  | 115 => ⟨S100000x128, .f32⟩
  | 116 => ⟨S100000x128, .f32⟩
  | 117 => ⟨S1x128, .f32⟩
  | 118 => ⟨S128, .f32⟩
  | 119 => ⟨S1x128, .f32⟩
  | 120 => ⟨S128, .f32⟩
  | 121 => ⟨S_, .f32⟩
  | 122 => ⟨S128, .f32⟩
  | 123 => ⟨S_, .f32⟩
  | 124 => ⟨S128, .f32⟩
  | 125 => ⟨S128, .f32⟩
  | 126 => ⟨S1x128, .f32⟩
  | 127 => ⟨S100000x128, .f32⟩
  | _ => ⟨S100000x128, .f32⟩

abbrev hbmTy0_1 (i : Nat) : BufTy := match i % 128 with
  | 0 => ⟨S100000x128, .f32⟩
  | 1 => ⟨S100000x128, .f32⟩
  | 2 => ⟨S_, .f32⟩
  | 3 => ⟨S128, .f32⟩
  | 4 => ⟨S_, .f32⟩
  | 5 => ⟨S128, .f32⟩
  | 6 => ⟨S128, .f32⟩
  | 7 => ⟨S1x128, .f32⟩
  | 8 => ⟨S100000x128, .f32⟩
  | 9 => ⟨S100000x128, .f32⟩
  | 10 => ⟨S1x128, .f32⟩
  | 11 => ⟨S100000x128, .f32⟩
  | 12 => ⟨S100000x128, .f32⟩
  | 13 => ⟨S_, .f32⟩
  | 14 => ⟨S128, .f32⟩
  | 15 => ⟨S128, .f32⟩
  | 16 => ⟨S128, .f32⟩
  | 17 => ⟨S1x128, .f32⟩
  | 18 => ⟨S100000x128, .f32⟩
  | 19 => ⟨S100000x128, .f32⟩
  | 20 => ⟨S1x128, .f32⟩
  | 21 => ⟨S100000x128, .f32⟩
  | 22 => ⟨S100000x128, .f32⟩
  | 23 => ⟨S_, .f32⟩
  | 24 => ⟨S100000x128, .f32⟩
  | 25 => ⟨S100000x128, .f32⟩
  | 26 => ⟨S100000x128, .f32⟩
  | 27 => ⟨S1600000x1, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000x128, .f32⟩
  | 37 => ⟨S1600000x128, .f32⟩
  | 38 => ⟨S1600000x128, .f32⟩
  | 39 => ⟨S_, .f32⟩
  | 40 => ⟨S100000x128, .f32⟩
  | 41 => ⟨S1600000x1, .i32⟩
  | 42 => ⟨S100000x128, .f32⟩
  | 43 => ⟨S1x128x128, .f32⟩
  | 44 => ⟨S128x128, .f32⟩
  | 45 => ⟨S128x128, .f32⟩
  | 46 => ⟨S100000x128, .f32⟩
  | 47 => ⟨S1x128, .f32⟩
  | 48 => ⟨S128, .f32⟩
  | 49 => ⟨S1x128, .f32⟩
  | 50 => ⟨S100000x128, .f32⟩
  | 51 => ⟨S100000x128, .f32⟩
  | 52 => ⟨S1x128, .f32⟩
  | 53 => ⟨S128, .f32⟩
  | 54 => ⟨S1x128, .f32⟩
  | 55 => ⟨S128, .f32⟩
  | 56 => ⟨S_, .f32⟩
  | 57 => ⟨S128, .f32⟩
  | 58 => ⟨S_, .f32⟩
  | 59 => ⟨S128, .f32⟩
  | 60 => ⟨S128, .f32⟩
  | 61 => ⟨S1x128, .f32⟩
  | 62 => ⟨S100000x128, .f32⟩
  | 63 => ⟨S100000x128, .f32⟩
  | 64 => ⟨S100000x128, .f32⟩
  | 65 => ⟨S_, .f32⟩
  | 66 => ⟨S128, .f32⟩
  | 67 => ⟨S_, .f32⟩
  | 68 => ⟨S128, .f32⟩
  | 69 => ⟨S128, .f32⟩
  | 70 => ⟨S1x128, .f32⟩
  | 71 => ⟨S100000x128, .f32⟩
  | 72 => ⟨S100000x128, .f32⟩
  | 73 => ⟨S1x128, .f32⟩
  | 74 => ⟨S100000x128, .f32⟩
  | 75 => ⟨S100000x128, .f32⟩
  | 76 => ⟨S_, .f32⟩
  | 77 => ⟨S128, .f32⟩
  | 78 => ⟨S128, .f32⟩
  | 79 => ⟨S128, .f32⟩
  | 80 => ⟨S1x128, .f32⟩
  | 81 => ⟨S100000x128, .f32⟩
  | 82 => ⟨S100000x128, .f32⟩
  | 83 => ⟨S1x128, .f32⟩
  | 84 => ⟨S100000x128, .f32⟩
  | 85 => ⟨S100000x128, .f32⟩
  | 86 => ⟨S_, .f32⟩
  | 87 => ⟨S100000x128, .f32⟩
  | 88 => ⟨S100000x128, .f32⟩
  | 89 => ⟨S100000x128, .f32⟩
  | 90 => ⟨S1600000x1, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000x128, .f32⟩
  | 100 => ⟨S1600000x128, .f32⟩
  | 101 => ⟨S1600000x128, .f32⟩
  | 102 => ⟨S_, .f32⟩
  | 103 => ⟨S100000x128, .f32⟩
  | 104 => ⟨S1600000x1, .i32⟩
  | 105 => ⟨S100000x128, .f32⟩
  | 106 => ⟨S1x128x128, .f32⟩
  | 107 => ⟨S128x128, .f32⟩
  | 108 => ⟨S128x128, .f32⟩
  | 109 => ⟨S100000x128, .f32⟩
  | 110 => ⟨S1x128, .f32⟩
  | 111 => ⟨S128, .f32⟩
  | 112 => ⟨S1x128, .f32⟩
  | 113 => ⟨S100000x128, .f32⟩
  | 114 => ⟨S100000x128, .f32⟩
  | 115 => ⟨S1x128, .f32⟩
  | 116 => ⟨S128, .f32⟩
  | 117 => ⟨S1x128, .f32⟩
  | 118 => ⟨S128, .f32⟩
  | 119 => ⟨S_, .f32⟩
  | 120 => ⟨S128, .f32⟩
  | 121 => ⟨S_, .f32⟩
  | 122 => ⟨S128, .f32⟩
  | 123 => ⟨S128, .f32⟩
  | 124 => ⟨S1x128, .f32⟩
  | 125 => ⟨S100000x128, .f32⟩
  | 126 => ⟨S100000x128, .f32⟩
  | 127 => ⟨S100000x128, .f32⟩
  | _ => ⟨S100000x128, .f32⟩

abbrev hbmTy0_2 (i : Nat) : BufTy := match i % 128 with
  | 0 => ⟨S_, .f32⟩
  | 1 => ⟨S128, .f32⟩
  | 2 => ⟨S_, .f32⟩
  | 3 => ⟨S128, .f32⟩
  | 4 => ⟨S128, .f32⟩
  | 5 => ⟨S1x128, .f32⟩
  | 6 => ⟨S100000x128, .f32⟩
  | 7 => ⟨S100000x128, .f32⟩
  | 8 => ⟨S1x128, .f32⟩
  | 9 => ⟨S100000x128, .f32⟩
  | 10 => ⟨S100000x128, .f32⟩
  | 11 => ⟨S_, .f32⟩
  | 12 => ⟨S128, .f32⟩
  | 13 => ⟨S128, .f32⟩
  | 14 => ⟨S128, .f32⟩
  | 15 => ⟨S1x128, .f32⟩
  | 16 => ⟨S100000x128, .f32⟩
  | 17 => ⟨S100000x128, .f32⟩
  | 18 => ⟨S1x128, .f32⟩
  | 19 => ⟨S100000x128, .f32⟩
  | 20 => ⟨S100000x128, .f32⟩
  | 21 => ⟨S_, .f32⟩
  | 22 => ⟨S100000x128, .f32⟩
  | 23 => ⟨S100000x128, .f32⟩
  | 24 => ⟨S100000x128, .f32⟩
  | 25 => ⟨S128x40, .f32⟩
  | 26 => ⟨S100000x40, .f32⟩
  | 27 => ⟨S1x40, .f32⟩
  | 28 => ⟨S100000x40, .f32⟩
  | 29 => ⟨S100000x40, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_5 : Ref sig .tc := ⟨.hbm, 40, rfl⟩
abbrev main_v21 : Ref sig .tc := ⟨.hbm, 41, rfl⟩
abbrev main_v22 : Ref sig .tc := ⟨.hbm, 42, rfl⟩
abbrev main_c_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_7 : Ref sig .tc := ⟨.hbm, 59, rfl⟩
abbrev main_v38 : Ref sig .tc := ⟨.hbm, 60, rfl⟩
abbrev main_cst_8 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_9 : Ref sig .tc := ⟨.hbm, 68, rfl⟩
abbrev main_v45 : Ref sig .tc := ⟨.hbm, 69, rfl⟩
abbrev main_cst_10 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_11 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_call1_cst : Ref sig .tc := ⟨.hbm, 89, rfl⟩
abbrev main_call1_v0 : Ref sig .tc := ⟨.hbm, 90, rfl⟩
abbrev main_v63 : Ref sig .tc := ⟨.hbm, 91, rfl⟩
abbrev main_v64 : Ref sig .tc := ⟨.hbm, 92, rfl⟩
abbrev main_c_12 : Ref sig .tc := ⟨.hbm, 93, rfl⟩
abbrev main_v65 : Ref sig .tc := ⟨.hbm, 94, rfl⟩
abbrev main_v66 : Ref sig .tc := ⟨.hbm, 95, rfl⟩
abbrev main_c_13 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_14 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_cst_15 : Ref sig .tc := ⟨.hbm, 121, rfl⟩
abbrev main_v90 : Ref sig .tc := ⟨.hbm, 122, rfl⟩
abbrev main_cst_16 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_cst_17 : Ref sig .tc := ⟨.hbm, 130, rfl⟩
abbrev main_v97 : Ref sig .tc := ⟨.hbm, 131, rfl⟩
abbrev main_cst_18 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_cst_19 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_call2_cst : Ref sig .tc := ⟨.hbm, 151, rfl⟩
abbrev main_call2_v0 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_c_20 : Ref sig .tc := ⟨.hbm, 156, rfl⟩
abbrev main_v118 : Ref sig .tc := ⟨.hbm, 157, rfl⟩
abbrev main_v119 : Ref sig .tc := ⟨.hbm, 158, rfl⟩
abbrev main_c_21 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_cst_22 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_cst_23 : Ref sig .tc := ⟨.hbm, 184, rfl⟩
abbrev main_v143 : Ref sig .tc := ⟨.hbm, 185, rfl⟩
abbrev main_cst_24 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_cst_25 : Ref sig .tc := ⟨.hbm, 193, rfl⟩
abbrev main_v150 : Ref sig .tc := ⟨.hbm, 194, rfl⟩
abbrev main_cst_26 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_cst_27 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_call3_cst : Ref sig .tc := ⟨.hbm, 214, rfl⟩
abbrev main_call3_v0 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_c_28 : Ref sig .tc := ⟨.hbm, 219, rfl⟩
abbrev main_v171 : Ref sig .tc := ⟨.hbm, 220, rfl⟩
abbrev main_v172 : Ref sig .tc := ⟨.hbm, 221, rfl⟩
abbrev main_c_29 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_cst_30 : Ref sig .tc := ⟨.hbm, 230, rfl⟩
abbrev main_v180 : Ref sig .tc := ⟨.hbm, 231, rfl⟩
abbrev main_v181 : Ref sig .tc := ⟨.hbm, 232, rfl⟩
abbrev main_v182 : Ref sig .tc := ⟨.hbm, 233, rfl⟩
abbrev main_v183 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_v189 : Ref sig .tc := ⟨.hbm, 240, rfl⟩
abbrev main_v190 : Ref sig .tc := ⟨.hbm, 241, rfl⟩
abbrev main_v191 : Ref sig .tc := ⟨.hbm, 242, rfl⟩
abbrev main_v192 : Ref sig .tc := ⟨.hbm, 243, rfl⟩
abbrev main_v193 : Ref sig .tc := ⟨.hbm, 244, rfl⟩
abbrev main_v194 : Ref sig .tc := ⟨.hbm, 245, rfl⟩
abbrev main_v195 : Ref sig .tc := ⟨.hbm, 246, rfl⟩
abbrev main_cst_31 : Ref sig .tc := ⟨.hbm, 247, rfl⟩
abbrev main_v196 : Ref sig .tc := ⟨.hbm, 248, rfl⟩
abbrev main_cst_32 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_v200 : Ref sig .tc := ⟨.hbm, 253, rfl⟩
abbrev main_v201 : Ref sig .tc := ⟨.hbm, 254, rfl⟩
abbrev main_v202 : Ref sig .tc := ⟨.hbm, 255, rfl⟩
abbrev main_cst_33 : Ref sig .tc := ⟨.hbm, 256, rfl⟩
abbrev main_v203 : Ref sig .tc := ⟨.hbm, 257, rfl⟩
abbrev main_cst_34 : Ref sig .tc := ⟨.hbm, 258, rfl⟩
abbrev main_v204 : Ref sig .tc := ⟨.hbm, 259, rfl⟩
abbrev main_v205 : Ref sig .tc := ⟨.hbm, 260, rfl⟩
abbrev main_v206 : Ref sig .tc := ⟨.hbm, 261, rfl⟩
abbrev main_v207 : Ref sig .tc := ⟨.hbm, 262, rfl⟩
abbrev main_v208 : Ref sig .tc := ⟨.hbm, 263, rfl⟩
abbrev main_v209 : Ref sig .tc := ⟨.hbm, 264, rfl⟩
abbrev main_v210 : Ref sig .tc := ⟨.hbm, 265, rfl⟩
abbrev main_v211 : Ref sig .tc := ⟨.hbm, 266, rfl⟩
abbrev main_cst_35 : Ref sig .tc := ⟨.hbm, 267, rfl⟩
abbrev main_v212 : Ref sig .tc := ⟨.hbm, 268, rfl⟩
abbrev main_v213 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_v217 : Ref sig .tc := ⟨.hbm, 273, rfl⟩
abbrev main_v218 : Ref sig .tc := ⟨.hbm, 274, rfl⟩
abbrev main_v219 : Ref sig .tc := ⟨.hbm, 275, rfl⟩
abbrev main_v220 : Ref sig .tc := ⟨.hbm, 276, rfl⟩
abbrev main_call4_cst : Ref sig .tc := ⟨.hbm, 277, rfl⟩
abbrev main_call4_v0 : Ref sig .tc := ⟨.hbm, 278, rfl⟩
abbrev main_v221 : Ref sig .tc := ⟨.hbm, 279, rfl⟩
abbrev main_v222 : Ref sig .tc := ⟨.hbm, 280, rfl⟩
abbrev main_v223 : Ref sig .tc := ⟨.hbm, 281, rfl⟩
abbrev main_v224 : Ref sig .tc := ⟨.hbm, 282, rfl⟩
abbrev main_v225 : Ref sig .tc := ⟨.hbm, 283, rfl⟩
abbrev main_v226 : Ref sig .tc := ⟨.hbm, 284, rfl⟩
abbrev main_v227 : Ref sig .tc := ⟨.hbm, 285, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S4x128_S1x128_0_0 : S4x128.Slices ![0, 0] S1x128
  shapeCasts_S1x128_S128 : S1x128.ShapeCasts S128
  reducesTo_S100000x128_S128_d0 : S100000x128.ReducesTo [0] S128
  h_S_ : 0 < S_.numel
  bcast_S_S128 : S_.BroadcastsInDim S128 (![] : Fin 0 → Fin S128.rank)
  bcast_S_S100000x128 : S_.BroadcastsInDim S100000x128 (![] : Fin 0 → Fin S100000x128.rank)
  bcast_S1600000x1_S1600000x128_0_1 : S1600000x1.BroadcastsInDim S1600000x128 (![0, 1] : Fin 2 → Fin S1600000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  slices_S4x128_S1x128_1_0 : S4x128.Slices ![1, 0] S1x128
  slices_S3x128x128_S1x128x128_1_0_0 : S3x128x128.Slices ![1, 0, 0] S1x128x128
  slices_S3x128_S1x128_1_0 : S3x128.Slices ![1, 0] S1x128
  slices_S4x128_S1x128_2_0 : S4x128.Slices ![2, 0] S1x128
  slices_S3x128x128_S1x128x128_2_0_0 : S3x128x128.Slices ![2, 0, 0] S1x128x128
  slices_S3x128_S1x128_2_0 : S3x128.Slices ![2, 0] S1x128
  slices_S4x128_S1x128_3_0 : S4x128.Slices ![3, 0] S1x128
  transposes_S40x128_S128x40_1_0 : S40x128.Transposes [1, 0] S128x40
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x40_S100000x40_1_0_0_1_n_n_wf : DotDims.WF S100000x128 S128x40 S100000x40 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.KernelRun.lean ====
/-
  The idealized kernel's program, run from any launch memory: every weakly fair execution ends, nothing faulting, with
  the result array holding what the last boundary of the program's fold of host stretches and kernel regions leaves
  at the result buffer, and with every argument array as launched. The launch is the one that gives the frame; only
  the final read differs: it also reads the result buffer.
-/
import proofs.«143695_j28905129902721_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result array named: the last boundary's contents at the result buffer. -/
theorem run : θ_run defs (onTc (τ := τ) (main (F := F))) ⟨m, fun _ => 0, ρ⟩ (fun r => ∀ c : Dev nD,
      r.2.mem ((c.tc : Thread nD τ).loc main_v162) = W20 m ρ c (Proc.devRef .tc main_v162)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c =>
      ⟨h c _ (mem_uc main_v162 (by decide)),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c),
       (h c _ (mem_uc main_arg4 (by decide))).trans (W20_main_arg4 m ρ c),
       (h c _ (mem_uc main_arg5 (by decide))).trans (W20_main_arg5 m ρ c),
       (h c _ (mem_uc main_arg6 (by decide))).trans (W20_main_arg6 m ρ c),
       (h c _ (mem_uc main_arg7 (by decide))).trans (W20_main_arg7 m ρ c),
       (h c _ (mem_uc main_arg8 (by decide))).trans (W20_main_arg8 m ρ c),
       (h c _ (mem_uc main_arg9 (by decide))).trans (W20_main_arg9 m ρ c)⟩)

end Cert.KernelIdeal.Named

end
-- ==== Proof.LibPlainDot.lean ====
/-
  A plain matrix product at the exact extended reals: for dimension numbers that contract the left operand's
  second axis against the right operand's first (no batch axis), the contraction sum at the output entry (p, q)
  is the sum over k of left (p, k) times right (k, q). From that, two readings of "rows times columns plus a row
  vector": a matrix unit's product into a zero accumulator with the vector re-laid as one row and repeated down the
  rows, and a host contraction with the vector broadcast in two steps. Both are the function `affine`. Also: the
  logistic function is one over one plus the exponential of the negated argument, on every extended real.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibPlainDot

open Idealize.ShloMosaic Idealize.ShloMosaic.ValueIdx

/-- The output entry (p, q) of rows-times-columns plus a row vector: the sum over k of x (p, k) · w (k, q), plus b q. -/
def affine {M K N : ℕ} (x : FVec Ideal ⟨2, ![M, K]⟩ .f32) (w : FVec Ideal ⟨2, ![K, N]⟩ .f32) (b : FVec Ideal ⟨1, ![N]⟩ .f32) :
    FVec Ideal ⟨2, ![M, N]⟩ .f32 :=
  fun i => (∑ k : Fin K, x (ix2 (n0 := M) (i 0) k) * w (ix2 (n1 := N) k (i 1))) + b (ix1 (n := N) (i 1))

theorem affine_apply {M K N : ℕ} (x : FVec Ideal ⟨2, ![M, K]⟩ .f32) (w : FVec Ideal ⟨2, ![K, N]⟩ .f32) (b : FVec Ideal ⟨1, ![N]⟩ .f32)
    (p : Fin M) (q : Fin N) : affine x w b (ix2 p q) = (∑ k : Fin K, x (ix2 p k) * w (ix2 k q)) + b (ix1 q) := rfl

/-- A block of T rows of `affine`: when x holds rows r … r + T − 1 of X, and w and b are W and B, the block's entry at y
    is `affine X W B` at the array index i whose row is r plus y's row and whose column is y's. -/
theorem affine_rows {M K N T : ℕ} (X : FVec Ideal ⟨2, ![M, K]⟩ .f32) (W : FVec Ideal ⟨2, ![K, N]⟩ .f32) (B : FVec Ideal ⟨1, ![N]⟩ .f32)
    (x : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = X (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    affine x w b y = affine X W B i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [affine_apply, affine_apply, hb]
  refine congrArg (· + B (ix1 q')) (Finset.sum_congr rfl fun k _ => ?_)
  rw [hx p k (h0 ▸ p'.isLt), hw, ← hp']

/-- The contraction index of a plain product is its one coordinate, so the contraction sum is a sum over `Fin K`. -/
theorem plain_sum {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  simp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have c1 : D.lhsContracting = [1] := by subst hD; rfl
  have c2 : D.rhsContracting = [0] := by subst hD; rfl
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ =>
      subst hD
      unfold DotDims.lhsIdx
      split
      · rename_i hb; exact absurd hb List.not_mem_nil
      · split
        · rfl
        · rename_i hn; exact absurd (List.mem_singleton.mpr rfl) hn
    | ⟨1, _⟩ => exact (D.lhsIdx_val_of_single c1 _ _).trans hk)
  have er : D.rhsIdx (ix2 p q) ((contrEquiv1 D K hr hs).symm k) = ix2 k q := funext fun a => Fin.ext (by
    match a with
    | ⟨0, _⟩ => exact (D.rhsIdx_val_of_single c2 _ _).trans hk
    | ⟨1, _⟩ =>
      subst hD
      unfold DotDims.rhsIdx
      split
      · rename_i hb; exact absurd hb List.not_mem_nil
      · split
        · rfl
        · rename_i hn; exact absurd (List.mem_singleton.mpr rfl) hn)
  rw [el, er]

/-- A matrix unit's product of two operands narrowed to bf16 into a zero accumulator, plus a vector re-laid as one
    row and repeated down the rows: at (p, q) it is `affine`. Narrowing is the identity on exact values. -/
theorem matmul_bias_apply {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hb : FTy.bf16.bits < FTy.f32.bits)
    (hc : (⟨1, ![N]⟩ : Shape).ShapeCasts ⟨2, ![1, N]⟩) (hbc : (⟨2, ![1, N]⟩ : Shape).Broadcasts ⟨2, ![M, N]⟩)
    (p : Fin M) (q : Fin N) :
    addf (matmul d none (truncf .bf16 x hb) (truncf .bf16 w hb) (constant ⟨2, ![M, N]⟩ .f32 0x00000000#32))
        (broadcastTo ⟨2, ![M, N]⟩ (shapeCast ⟨2, ![1, N]⟩ b hc) hbc) (ix2 p q)
      = affine x w b (ix2 p q) := by
  rw [affine_apply, addf_apply, broadcastTo_1b_ab_apply, shapeCast_a_1a_apply]
  refine congrArg (· + b (ix1 q)) ?_
  refine (Ideal.matmul_constant_zero_apply d none _ _ (ix2 p q)).trans ?_
  exact plain_sum d h1 h2 h3 h4 h5 h6 x w p q

/-- A vector broadcast to one row reads, at (u, i), the vector at i. -/
theorem bcast_a_1a_apply {a : ℕ} (x : (⟨1, ![a]⟩ : Shape).Idx → EReal)
    (h : (⟨1, ![a]⟩ : Shape).BroadcastsInDim ⟨2, ![1, a]⟩ ![1]) (u : Fin 1) (i : Fin a) :
    broadcastInDim ⟨2, ![1, a]⟩ ![1] h x (ix2 u i) = x (ix1 i) :=
  broadcastInDim_apply _ h x _ _ (fun ax => match ax with
    | ⟨0, _⟩ => by
      show i.val = if a = 1 then 0 else i.val
      split
      · have := i.isLt; omega
      · rfl)

/-- One row broadcast down the rows reads, at (p, c), the row at c. -/
theorem bcast_1b_ab_apply {a b : ℕ} (v : (⟨2, ![1, b]⟩ : Shape).Idx → EReal)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ (ix2 (0 : Fin 1) c) (fun ax => match ax with
    | ⟨0, _⟩ => by
      show (0 : ℕ) = if (1 : ℕ) = 1 then 0 else p.val
      rw [if_pos rfl]
    | ⟨1, _⟩ => by
      show c.val = if b = 1 then 0 else c.val
      split
      · have := c.isLt; omega
      · rfl)

/-- A host contraction of the same kind plus the vector broadcast to one row and then down the rows: `affine`. -/
theorem dot_bias_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1]) :
    addf (Host.dotGeneral (F := Ideal) d none x w)
        (broadcastInDim ⟨2, ![M, N]⟩ ![0, 1] hbc (broadcastInDim ⟨2, ![1, N]⟩ ![1] hr b))
      = affine x w b := by
  funext j
  obtain ⟨p, q, rfl⟩ : ∃ (p : Fin M) (q : Fin N), j = ix2 p q := ⟨j 0, j 1, eq_ix2 j⟩
  rw [affine_apply, addf_apply, bcast_1b_ab_apply, bcast_a_1a_apply]
  refine congrArg (· + b (ix1 q)) ?_
  simp only [Host.dotGeneral]
  rw [Ideal.dotGeneral_apply]
  exact plain_sum d h1 h2 h3 h4 h5 h6 x w p q

/-- The float word of 1.0 denotes the extended real one. -/
theorem one_f32 : Ideal.ofBits .f32 0x3F800000#32 = 1 := IdealRules.sign_bit.ideal_onePat .f32

/-- The host's spelling of the logistic function — one over (one plus the exponential of the negation), the ones
    broadcast constants — is, entry by entry, the logistic function a vector unit applies. -/
theorem host_sigmoid_eq {s : Shape} (y : FVec Ideal s .f32) (h : (⟨0, ![]⟩ : Shape).BroadcastsInDim s ![]) :
    Host.divf (F := Ideal) (broadcastInDim s ![] h (constant (F := Ideal) ⟨0, ![]⟩ .f32 0x3F800000#32))
        (addf (broadcastInDim s ![] h (constant (F := Ideal) ⟨0, ![]⟩ .f32 0x3F800000#32)) (Host.exp (F := Ideal) (Host.negf (F := Ideal) y)))
      = logistic y := by
  funext i
  simp only [Host.divf, Host.exp, Host.negf, addf, logistic, broadcastInDim, constant, Ideal.hostDivf_def, Ideal.logistic_def,
    Ideal.ofBits_def, one_f32, Ideal.logistic, Ideal.addf_def, Ideal.hostUnary_exp_def, Ideal.hostNegf_def, Ideal.negf_def]

/-- One graph layer's update of the node features: the logistic function of (features plus aggregated neighbours) times
    the weights plus the bias. -/
def ginLayer {M K N : ℕ} (h n : FVec Ideal ⟨2, ![M, K]⟩ .f32) (w : FVec Ideal ⟨2, ![K, N]⟩ .f32) (b : FVec Ideal ⟨1, ![N]⟩ .f32) :
    FVec Ideal ⟨2, ![M, N]⟩ .f32 :=
  fun i => Ideal.logistic (affine (fun j => h j + n j) w b i)

/-- The vector unit's form: the two operands (each through an identity re-lay) added, narrowed, multiplied into a zero
    accumulator, the bias row added, the logistic function applied. -/
theorem gin_pay_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x n : FVec Ideal ⟨2, ![M, K]⟩ .f32) (w : FVec Ideal ⟨2, ![K, N]⟩ .f32) (b : FVec Ideal ⟨1, ![N]⟩ .f32)
    (hb : FTy.bf16.bits < FTy.f32.bits) (hs : (⟨2, ![M, K]⟩ : Shape).ShapeCasts ⟨2, ![M, K]⟩)
    (hc : (⟨1, ![N]⟩ : Shape).ShapeCasts ⟨2, ![1, N]⟩) (hbc : (⟨2, ![1, N]⟩ : Shape).Broadcasts ⟨2, ![M, N]⟩) :
    logistic (addf (matmul d none (truncf .bf16 (addf (shapeCast ⟨2, ![M, K]⟩ x hs) (shapeCast ⟨2, ![M, K]⟩ n hs)) hb) (truncf .bf16 w hb)
        (constant ⟨2, ![M, N]⟩ .f32 0x00000000#32)) (broadcastTo ⟨2, ![M, N]⟩ (shapeCast ⟨2, ![1, N]⟩ b hc) hbc))
      = ginLayer x n w b := by
  funext j
  obtain ⟨p, q, rfl⟩ : ∃ (p : Fin M) (q : Fin N), j = ix2 p q := ⟨j 0, j 1, eq_ix2 j⟩
  rw [shapeCast_self, shapeCast_self]
  show Ideal.logistic _ = Ideal.logistic _
  exact congrArg Ideal.logistic (matmul_bias_apply d h1 h2 h3 h4 h5 h6 (addf x n) w b hb hc hbc p q)

/-- A block of T rows of a layer's update, as `affine_rows`. -/
theorem ginLayer_rows {M K N T : ℕ} (H Nb : FVec Ideal ⟨2, ![M, K]⟩ .f32) (W : FVec Ideal ⟨2, ![K, N]⟩ .f32) (B : FVec Ideal ⟨1, ![N]⟩ .f32)
    (x n : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = H (ix2 ⟨r + p.val, hp⟩ k))
    (hn : ∀ (p : Fin T) (k : Fin K) (hp : r + p.val < M), n (ix2 p k) = Nb (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    ginLayer x n w b y = ginLayer H Nb W B i :=
  congrArg Ideal.logistic (affine_rows (fun j => H j + Nb j) W B (fun j => x j + n j) w b r
    (fun p k hp => by show x (ix2 p k) + n (ix2 p k) = _; rw [hx p k hp, hn p k hp]) hw hb y i hi0 hi1)

/-- The host's form: the contraction of the sum with the weights, the bias broadcast in two steps, and the logistic
    function spelt as one over one plus the exponential of the negation. -/
theorem host_gin_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (h n : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1])
    (hone : (⟨0, ![]⟩ : Shape).BroadcastsInDim ⟨2, ![M, N]⟩ ![]) :
    Host.divf (F := Ideal) (broadcastInDim ⟨2, ![M, N]⟩ ![] hone (constant (F := Ideal) ⟨0, ![]⟩ .f32 0x3F800000#32))
        (addf (broadcastInDim ⟨2, ![M, N]⟩ ![] hone (constant (F := Ideal) ⟨0, ![]⟩ .f32 0x3F800000#32))
          (Host.exp (F := Ideal) (Host.negf (F := Ideal) (addf (Host.dotGeneral (F := Ideal) d none (addf h n) w)
            (broadcastInDim ⟨2, ![M, N]⟩ ![0, 1] hbc (broadcastInDim ⟨2, ![1, N]⟩ ![1] hr b))))))
      = ginLayer h n w b := by
  rw [host_sigmoid_eq, dot_bias_eq d h1 h2 h3 h4 h5 h6 (addf h n) w b hr hbc]
  rfl

end Cert.LibPlainDot

end
-- ==== Proof.LibMatProd.lean ====
/-
  The product of two matrices over the extended reals, entry by entry: entry (p, q) of x times w is the sum over k of
  x (p, k) · w (k, q). Three readings of it. A host contraction of x's second axis with w's first axis is this product.
  A matrix unit's product of the two operands narrowed to bf16, accumulated into zeros, is this product, since
  narrowing changes nothing on exact values. And a band of consecutive rows of the product is the product of that band
  of rows of x with w, which is what one block of a row-tiled computation holds.
-/
import proofs.«143695_j28905129902721_1_alg».proof.Proof.LibPlainDot

noncomputable section

namespace Cert.LibMatProd

open Idealize.ShloMosaic Idealize.ShloMosaic.ValueIdx Cert.LibPlainDot

/-- Entry (p, q) of rows times columns: the sum over k of x (p, k) · w (k, q). -/
def matProd {M K N : ℕ} (x : FVec Ideal ⟨2, ![M, K]⟩ .f32) (w : FVec Ideal ⟨2, ![K, N]⟩ .f32) : FVec Ideal ⟨2, ![M, N]⟩ .f32 :=
  fun i => ∑ k : Fin K, x (ix2 (n0 := M) (i 0) k) * w (ix2 (n1 := N) k (i 1))

theorem matProd_apply {M K N : ℕ} (x : FVec Ideal ⟨2, ![M, K]⟩ .f32) (w : FVec Ideal ⟨2, ![K, N]⟩ .f32) (p : Fin M) (q : Fin N) :
    matProd x w (ix2 p q) = ∑ k : Fin K, x (ix2 p k) * w (ix2 k q) := rfl

/-- A host contraction of the left operand's second axis with the right operand's first axis is the matrix product. -/
theorem host_dot_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) :
    Host.dotGeneral (F := Ideal) d none x w = matProd x w := by
  funext j
  obtain ⟨p, q, rfl⟩ : ∃ (p : Fin M) (q : Fin N), j = ix2 p q := ⟨j 0, j 1, eq_ix2 j⟩
  rw [matProd_apply]
  simp only [Host.dotGeneral]
  rw [Ideal.dotGeneral_apply]
  exact plain_sum d h1 h2 h3 h4 h5 h6 x w p q

/-- A matrix unit's product of two operands narrowed to bf16, accumulated into zeros, is the matrix product of the
    operands themselves: on exact values narrowing is the identity and the zero accumulator adds nothing. -/
theorem matmul_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (hb : FTy.bf16.bits < FTy.f32.bits) :
    matmul d none (truncf .bf16 x hb) (truncf .bf16 w hb) (constant ⟨2, ![M, N]⟩ .f32 0x00000000#32) = matProd x w := by
  funext j
  obtain ⟨p, q, rfl⟩ : ∃ (p : Fin M) (q : Fin N), j = ix2 p q := ⟨j 0, j 1, eq_ix2 j⟩
  rw [matProd_apply]
  refine (Ideal.matmul_constant_zero_apply d none _ _ (ix2 p q)).trans ?_
  exact plain_sum d h1 h2 h3 h4 h5 h6 x w p q

/-- Rows r, …, r + T − 1 of a product: when x holds those rows of X and w is W, the entry of x times w at y is the entry
    of X times W at the index whose row is r plus y's row and whose column is y's. -/
theorem matProd_rows {M K N T : ℕ} (X : FVec Ideal ⟨2, ![M, K]⟩ .f32) (W : FVec Ideal ⟨2, ![K, N]⟩ .f32)
    (x : FVec Ideal ⟨2, ![T, K]⟩ .f32) (w : FVec Ideal ⟨2, ![K, N]⟩ .f32) (r : ℕ)
    (hx : ∀ (p : Fin T) (k : Fin K) (hp : r + p.val < M), x (ix2 p k) = X (ix2 ⟨r + p.val, hp⟩ k))
    (hw : ∀ z, w z = W z)
    (y : (⟨2, ![T, N]⟩ : Shape).Idx) (i : (⟨2, ![M, N]⟩ : Shape).Idx)
    (hi0 : (i 0).val = r + (y 0).val) (hi1 : (i 1).val = (y 1).val) :
    matProd x w y = matProd X W i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [matProd_apply, matProd_apply]
  refine Finset.sum_congr rfl fun k _ => ?_
  rw [hx p k (h0 ▸ p'.isLt), hw, ← hp']

end Cert.LibMatProd

end
-- ==== Proof.Spec.lean ====
/-
  The dense stages of one layer of a graph network, entry by entry over the extended reals.

  A layer takes a matrix X of M rows and N columns (one row per node). Its stages:
  * lin    — rows times columns plus a one-row bias: entry (p, q) is the sum over k of A (p, k) · W (k, q), plus b (0, q);
  * tot    — the column totals, as one row: entry (0, q) is the sum over the rows r of X (r, q);
  * totSq  — the column totals of the squares;
  * meanOf — the totals divided by the number of rows (a float word both programs share);
  * varOf  — the mean of the squares minus the square of the mean (one pass over the rows);
  * varRef — the mean of the squared deviations from the mean (two passes over the rows);
  * normRelu — subtract the mean, scale by γ and by the reciprocal square root of the variance plus a small offset,
    shift by β, clip below at zero; normReluRes adds a residual matrix to that.
  The two variance forms agree on matrices of real numbers (the module Algebra); on the extended reals they need not.
-/
import proofs.«143695_j28905129902721_1_alg».proof.Proof.LibMatProd

noncomputable section

open scoped BigOperators

namespace Cert.Gcn

open Idealize.ShloMosaic Idealize.ShloMosaic.ValueIdx Cert.LibMatProd

/-- A matrix of extended reals with `a` rows and `b` columns. -/
abbrev Mat (a b : ℕ) := FVec Ideal ⟨2, ![a, b]⟩ .f32

/-- The small offset added to a variance before the reciprocal square root. -/
def eps : EReal := Ideal.ofBits .f32 0x3727C5AC#32
/-- The number of rows, as the float word the programs divide by. -/
def cnt : EReal := Ideal.ofBits .f32 0x47C35000#32

/-- Every entry is a real number (neither infinity). -/
def IsReal {s : Shape} (f : s.Idx → EReal) : Prop := ∀ i, ∃ r : ℝ, f i = (r : EReal)

/-- Rows times columns plus a one-row bias. -/
def lin {M K N : ℕ} (A : Mat M K) (W : Mat K N) (b : Mat 1 N) : Mat M N :=
  fun i => matProd A W i + b (ix2 (n0 := 1) (n1 := N) (0 : Fin 1) (i 1))

theorem lin_apply {M K N : ℕ} (A : Mat M K) (W : Mat K N) (b : Mat 1 N) (p : Fin M) (q : Fin N) :
    lin A W b (ix2 p q) = (∑ k : Fin K, A (ix2 p k) * W (ix2 k q)) + b (ix2 (0 : Fin 1) q) := rfl

/-- The column totals, as one row. -/
def tot {M N : ℕ} (X : Mat M N) : Mat 1 N := fun j => ∑ r : Fin M, X (ix2 (n0 := M) (n1 := N) r (j 1))

theorem tot_apply {M N : ℕ} (X : Mat M N) (u : Fin 1) (q : Fin N) : tot X (ix2 u q) = ∑ r : Fin M, X (ix2 r q) := rfl

/-- The column totals of the squares, as one row. -/
def totSq {M N : ℕ} (X : Mat M N) : Mat 1 N :=
  fun j => ∑ r : Fin M, X (ix2 (n0 := M) (n1 := N) r (j 1)) * X (ix2 (n0 := M) (n1 := N) r (j 1))

theorem totSq_apply {M N : ℕ} (X : Mat M N) (u : Fin 1) (q : Fin N) :
    totSq X (ix2 u q) = ∑ r : Fin M, X (ix2 r q) * X (ix2 r q) := rfl

/-- Totals divided by the number of rows. -/
def meanOf {N : ℕ} (S : Mat 1 N) : Mat 1 N := fun j => Ideal.div (S j) cnt

/-- The mean of the squares minus the square of the mean. -/
def varOf {N : ℕ} (S Q : Mat 1 N) : Mat 1 N :=
  fun j => Ideal.div (Q j) cnt - Ideal.div (S j) cnt * Ideal.div (S j) cnt

/-- The mean of the squared deviations from the column mean. -/
def varRef {M N : ℕ} (X : Mat M N) : Mat 1 N :=
  fun j => Ideal.div (∑ r : Fin M, (X (ix2 (n0 := M) (n1 := N) r (j 1)) - Ideal.div (tot X j) cnt)
      * (X (ix2 (n0 := M) (n1 := N) r (j 1)) - Ideal.div (tot X j) cnt)) cnt

/-- Normalise by column, scale, shift, clip below at zero. -/
def normRelu {M N : ℕ} (X : Mat M N) (mu v g be : Mat 1 N) : Mat M N :=
  fun i => max (g (ix2 (n0 := 1) (n1 := N) (0 : Fin 1) (i 1)) * (X i - mu (ix2 (n0 := 1) (n1 := N) (0 : Fin 1) (i 1)))
      * Ideal.rsqrt (v (ix2 (n0 := 1) (n1 := N) (0 : Fin 1) (i 1)) + eps)
      + be (ix2 (n0 := 1) (n1 := N) (0 : Fin 1) (i 1))) (Ideal.ofBits .f32 0x00000000#32)

theorem normRelu_apply {M N : ℕ} (X : Mat M N) (mu v g be : Mat 1 N) (p : Fin M) (q : Fin N) :
    normRelu X mu v g be (ix2 p q)
      = max (g (ix2 (0 : Fin 1) q) * (X (ix2 p q) - mu (ix2 (0 : Fin 1) q)) * Ideal.rsqrt (v (ix2 (0 : Fin 1) q) + eps)
          + be (ix2 (0 : Fin 1) q)) (Ideal.ofBits .f32 0x00000000#32) := rfl

/-- The same with a residual matrix added after the clip. -/
def normReluRes {M N : ℕ} (X : Mat M N) (mu v g be : Mat 1 N) (R : Mat M N) : Mat M N :=
  fun i => normRelu X mu v g be i + R i

theorem normReluRes_apply {M N : ℕ} (X : Mat M N) (mu v g be : Mat 1 N) (R : Mat M N) (p : Fin M) (q : Fin N) :
    normReluRes X mu v g be R (ix2 p q) = normRelu X mu v g be (ix2 p q) + R (ix2 p q) := rfl

/-- Row `k` of a matrix, as one row. -/
def rowOf {R N : ℕ} (G : Mat R N) (k : Fin R) : Mat 1 N := fun j => G (ix2 (n0 := R) (n1 := N) k (j 1))

/-- A vector laid as one row. -/
def rowV {N : ℕ} (b : FVec Ideal ⟨1, ![N]⟩ .f32) : Mat 1 N := fun j => b (ix1 (n := N) (j 1))

/-- The transpose. -/
def tr {A B : ℕ} (W : Mat A B) : Mat B A := fun i => W (ix2 (n0 := A) (n1 := B) (i 1) (i 0))

/-- Slab `k` of a stack of square matrices, transposed. -/
def trSlab {L A B : ℕ} (W : FVec Ideal ⟨3, ![L, A, B]⟩ .f32) (k : Fin L) : Mat B A :=
  fun i => W (ix3 (n0 := L) (n1 := A) (n2 := B) k (i 1) (i 0))

end Cert.Gcn

end
-- ==== Proof.Sparse.lean ====
/-
  One round of message passing over the edges, as both programs compute it with the same host operations: every edge
  (row r, column c) picks row r of the node matrix H (the integer taken signed and clamped to the rows), scales it by
  the edge's weight — the product of the two end points' inverse square root degrees —, and the scaled rows are added
  into a zero matrix at row c (an edge whose column integer is no row contributes nowhere). The edge list is the only
  other input; the node matrix is a parameter, so that the same function serves every layer.
-/
import proofs.«143695_j28905129902721_1_alg».proof.Proof.Spec
import proofs.«143695_j28905129902721_1_alg».proof.Proof.ReadP

noncomputable section

namespace Cert.Gcn.Sparse

open Cert.ReferenceIdeal Cert.ReferenceIdeal.Read Idealize.ShloMosaic Cert.Gcn

/-- The scaled rows of `H` picked along the edges, added into zeros at the edges' columns. -/
def agg (x1 : (⟨S2x1600000, .i32⟩ : BufTy).Contents (Elt Ideal)) (H : Mat 100000 128) : Mat 100000 128 :=
  Host.scatterAdd (F := Ideal) scatter_S100000x128_S1600000x1_S1600000x128_1_0_0_1 (val_main_v74 (F := Ideal))
    (val_main_v75 (F := Ideal) x1)
    (mulf (val_main_v72 (F := Ideal) x1)
      (Host.gather gather_S100000x128_S1600000x1_S1600000x128_1_0_n_n_0_1_1128 H (val_main_v70 (F := Ideal) x1)))

/-- The reference's first aggregation is this function of its first hidden matrix. -/
theorem v76_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x6 x7 : (⟨S4x128, .f32⟩ : BufTy).Contents (Elt Ideal)) :
    val_main_v76 (F := Ideal) x0 x1 x2 x3 x6 x7 = agg x1 (val_main_v63 (F := Ideal) x0 x2 x3 x6 x7) := rfl

end Cert.Gcn.Sparse

end
-- ==== Proof.ModelDefs.lean ====
/-
  The whole network as two compositions of the same stages, differing only in how each layer's column variance is
  taken: in one pass (the mean of the squares minus the square of the mean) or in two (the mean of the squared
  deviations from the mean). The first composition is what the tiled program computes, the second what the plain
  program computes; a layer is a product with a weight matrix plus a bias row, a column normalisation with scale and
  shift clipped at zero, and (after the first layer) the first layer's output added back; between layers the hidden
  matrix is aggregated along the edges.
-/
import proofs.«143695_j28905129902721_1_alg».proof.Proof.Spec
import proofs.«143695_j28905129902721_1_alg».proof.Proof.Sparse

noncomputable section

namespace Cert.Gcn.Model

open Idealize.ShloMosaic Cert.Gcn Cert.Gcn.Sparse

/-- The integer edge list's type. -/
abbrev Edges := (⟨Cert.ReferenceIdeal.S2x1600000, .i32⟩ : BufTy).Contents (Elt Ideal)

section
variable (x0 : Mat 100000 128) (x1 : Edges) (x2 : Mat 128 128) (x3 : FVec Ideal ⟨1, ![128]⟩ .f32)
  (x4 : FVec Ideal ⟨3, ![3, 128, 128]⟩ .f32) (x5 : Mat 3 128) (x6 x7 : Mat 4 128) (x8 : Mat 40 128)
  (x9 : FVec Ideal ⟨1, ![40]⟩ .f32)

/-- The first product: the node features times the transposed weights plus the bias row. -/
def L0 : Mat 100000 128 := lin x0 (tr x2) (rowV x3)

/-! ### With the one-pass variance -/

def KH0 : Mat 100000 128 :=
  normRelu (L0 x0 x2 x3) (meanOf (tot (L0 x0 x2 x3))) (varOf (tot (L0 x0 x2 x3)) (totSq (L0 x0 x2 x3))) (rowOf x6 0) (rowOf x7 0)
def KL1 : Mat 100000 128 := lin (agg x1 (KH0 x0 x2 x3 x6 x7)) (trSlab x4 0) (rowOf x5 0)
def KH1 : Mat 100000 128 :=
  normReluRes (KL1 x0 x1 x2 x3 x4 x5 x6 x7) (meanOf (tot (KL1 x0 x1 x2 x3 x4 x5 x6 x7)))
    (varOf (tot (KL1 x0 x1 x2 x3 x4 x5 x6 x7)) (totSq (KL1 x0 x1 x2 x3 x4 x5 x6 x7))) (rowOf x6 1) (rowOf x7 1) (KH0 x0 x2 x3 x6 x7)
def KL2 : Mat 100000 128 := lin (agg x1 (KH1 x0 x1 x2 x3 x4 x5 x6 x7)) (trSlab x4 1) (rowOf x5 1)
def KH2 : Mat 100000 128 :=
  normReluRes (KL2 x0 x1 x2 x3 x4 x5 x6 x7) (meanOf (tot (KL2 x0 x1 x2 x3 x4 x5 x6 x7)))
    (varOf (tot (KL2 x0 x1 x2 x3 x4 x5 x6 x7)) (totSq (KL2 x0 x1 x2 x3 x4 x5 x6 x7))) (rowOf x6 2) (rowOf x7 2) (KH0 x0 x2 x3 x6 x7)
def KL3 : Mat 100000 128 := lin (agg x1 (KH2 x0 x1 x2 x3 x4 x5 x6 x7)) (trSlab x4 2) (rowOf x5 2)
def KH3 : Mat 100000 128 :=
  normReluRes (KL3 x0 x1 x2 x3 x4 x5 x6 x7) (meanOf (tot (KL3 x0 x1 x2 x3 x4 x5 x6 x7)))
    (varOf (tot (KL3 x0 x1 x2 x3 x4 x5 x6 x7)) (totSq (KL3 x0 x1 x2 x3 x4 x5 x6 x7))) (rowOf x6 3) (rowOf x7 3) (KH0 x0 x2 x3 x6 x7)
def KOut : Mat 100000 40 := lin (KH3 x0 x1 x2 x3 x4 x5 x6 x7) (tr x8) (rowV x9)

/-! ### With the two-pass variance -/

def RH0 : Mat 100000 128 :=
  normRelu (L0 x0 x2 x3) (meanOf (tot (L0 x0 x2 x3))) (varRef (L0 x0 x2 x3)) (rowOf x6 0) (rowOf x7 0)
def RL1 : Mat 100000 128 := lin (agg x1 (RH0 x0 x2 x3 x6 x7)) (trSlab x4 0) (rowOf x5 0)
def RH1 : Mat 100000 128 :=
  normReluRes (RL1 x0 x1 x2 x3 x4 x5 x6 x7) (meanOf (tot (RL1 x0 x1 x2 x3 x4 x5 x6 x7)))
    (varRef (RL1 x0 x1 x2 x3 x4 x5 x6 x7)) (rowOf x6 1) (rowOf x7 1) (RH0 x0 x2 x3 x6 x7)
def RL2 : Mat 100000 128 := lin (agg x1 (RH1 x0 x1 x2 x3 x4 x5 x6 x7)) (trSlab x4 1) (rowOf x5 1)
def RH2 : Mat 100000 128 :=
  normReluRes (RL2 x0 x1 x2 x3 x4 x5 x6 x7) (meanOf (tot (RL2 x0 x1 x2 x3 x4 x5 x6 x7)))
    (varRef (RL2 x0 x1 x2 x3 x4 x5 x6 x7)) (rowOf x6 2) (rowOf x7 2) (RH0 x0 x2 x3 x6 x7)
def RL3 : Mat 100000 128 := lin (agg x1 (RH2 x0 x1 x2 x3 x4 x5 x6 x7)) (trSlab x4 2) (rowOf x5 2)
def RH3 : Mat 100000 128 :=
  normReluRes (RL3 x0 x1 x2 x3 x4 x5 x6 x7) (meanOf (tot (RL3 x0 x1 x2 x3 x4 x5 x6 x7)))
    (varRef (RL3 x0 x1 x2 x3 x4 x5 x6 x7)) (rowOf x6 3) (rowOf x7 3) (RH0 x0 x2 x3 x6 x7)
def ROut : Mat 100000 40 := lin (RH3 x0 x1 x2 x3 x4 x5 x6 x7) (tr x8) (rowV x9)

end

end Cert.Gcn.Model

end
-- ==== Proof.Glue.lean ====
/-
  The small re-layouts the kernel's program performs on the host between its regions, each read as one of the layer's
  stages: column totals re-laid as a vector, divided by the row count and re-laid as a row are the mean row; the same
  with the squares' totals, less the squared mean, is the one-pass variance row; one row sliced out of a stack of rows,
  flattened and re-laid is that row; one square slab sliced out of a stack, flattened and transposed is the transposed
  slab; a transposed matrix and a vector re-laid as one row are what they say.
-/
import proofs.«143695_j28905129902721_1_alg».proof.Proof.Spec
import Idealize.ShloMosaic.Lib.ValueLayout
import Idealize.ShloMosaic.Lib.Pipeline.Value

noncomputable section

namespace Cert.Gcn.Glue

open Idealize.ShloMosaic Idealize.ShloMosaic.ValueIdx Cert.Gcn

/-- The row count broadcast over a vector is the row count at every entry. -/
theorem cnt_splat {N : ℕ} (hb : (⟨0, ![]⟩ : Shape).BroadcastsInDim ⟨1, ![N]⟩ ![]) (i : (⟨1, ![N]⟩ : Shape).Idx) :
    broadcastInDim ⟨1, ![N]⟩ ![] hb (constant (F := Ideal) ⟨0, ![]⟩ .f32 0x47C35000#32) i = cnt := rfl

/-- Totals re-laid as a vector, divided by the row count, re-laid as one row: the mean row. -/
theorem mean_glue {N : ℕ} (S : Mat 1 N) (h1 : (⟨2, ![1, N]⟩ : Shape).ShapeCasts ⟨1, ![N]⟩)
    (h2 : (⟨1, ![N]⟩ : Shape).ShapeCasts ⟨2, ![1, N]⟩) (hb : (⟨0, ![]⟩ : Shape).BroadcastsInDim ⟨1, ![N]⟩ ![]) :
    shapeCast ⟨2, ![1, N]⟩ (Host.divf (F := Ideal) (shapeCast ⟨1, ![N]⟩ S h1)
      (broadcastInDim ⟨1, ![N]⟩ ![] hb (constant (F := Ideal) ⟨0, ![]⟩ .f32 0x47C35000#32))) h2 = meanOf S := by
  funext j
  obtain ⟨u, q, rfl⟩ : ∃ (u : Fin 1) (q : Fin N), j = ix2 u q := ⟨j 0, j 1, eq_ix2 j⟩
  obtain rfl : u = 0 := Subsingleton.elim _ _
  rw [shapeCast_a_1a_apply]
  show Ideal.div (shapeCast ⟨1, ![N]⟩ S h1 (ix1 q)) cnt = Ideal.div (S (ix2 0 q)) cnt
  rw [shapeCast_1a_a_apply]

/-- The squares' totals over the row count, less the square of the totals over the row count: the one-pass variance row. -/
theorem var_glue {N : ℕ} (S Q : Mat 1 N) (h1 : (⟨2, ![1, N]⟩ : Shape).ShapeCasts ⟨1, ![N]⟩)
    (h2 : (⟨1, ![N]⟩ : Shape).ShapeCasts ⟨2, ![1, N]⟩) (hb : (⟨0, ![]⟩ : Shape).BroadcastsInDim ⟨1, ![N]⟩ ![]) :
    shapeCast ⟨2, ![1, N]⟩
      (subf (Host.divf (F := Ideal) (shapeCast ⟨1, ![N]⟩ Q h1)
          (broadcastInDim ⟨1, ![N]⟩ ![] hb (constant (F := Ideal) ⟨0, ![]⟩ .f32 0x47C35000#32)))
        (mulf (Host.divf (F := Ideal) (shapeCast ⟨1, ![N]⟩ S h1)
            (broadcastInDim ⟨1, ![N]⟩ ![] hb (constant (F := Ideal) ⟨0, ![]⟩ .f32 0x47C35000#32)))
          (Host.divf (F := Ideal) (shapeCast ⟨1, ![N]⟩ S h1)
            (broadcastInDim ⟨1, ![N]⟩ ![] hb (constant (F := Ideal) ⟨0, ![]⟩ .f32 0x47C35000#32))))) h2
      = varOf S Q := by
  funext j
  obtain ⟨u, q, rfl⟩ : ∃ (u : Fin 1) (q : Fin N), j = ix2 u q := ⟨j 0, j 1, eq_ix2 j⟩
  obtain rfl : u = 0 := Subsingleton.elim _ _
  rw [shapeCast_a_1a_apply]
  show Ideal.div (shapeCast ⟨1, ![N]⟩ Q h1 (ix1 q)) cnt
      - Ideal.div (shapeCast ⟨1, ![N]⟩ S h1 (ix1 q)) cnt * Ideal.div (shapeCast ⟨1, ![N]⟩ S h1 (ix1 q)) cnt
    = Ideal.div (Q (ix2 0 q)) cnt - Ideal.div (S (ix2 0 q)) cnt * Ideal.div (S (ix2 0 q)) cnt
  rw [shapeCast_1a_a_apply, shapeCast_1a_a_apply]

/-- Row `k` sliced out of `R` rows, flattened to a vector and re-laid as one row, is that row. -/
theorem row_glue {R N : ℕ} (G : Mat R N) (k : Fin R) (hs : (⟨2, ![R, N]⟩ : Shape).Slices ![k.val, 0] ⟨2, ![1, N]⟩)
    (h1 : (⟨2, ![1, N]⟩ : Shape).ShapeCasts ⟨1, ![N]⟩) (h2 : (⟨1, ![N]⟩ : Shape).ShapeCasts ⟨2, ![1, N]⟩) :
    shapeCast ⟨2, ![1, N]⟩ (shapeCast ⟨1, ![N]⟩ (extractStridedSlice ⟨2, ![1, N]⟩ ![k.val, 0] G hs) h1) h2 = rowOf G k := by
  funext j
  obtain ⟨u, q, rfl⟩ : ∃ (u : Fin 1) (q : Fin N), j = ix2 u q := ⟨j 0, j 1, eq_ix2 j⟩
  obtain rfl : u = 0 := Subsingleton.elim _ _
  rw [shapeCast_a_1a_apply, shapeCast_1a_a_apply]
  exact extractStridedSlice_apply _ G hs _ (ix2 k q) (fun a => match a with
    | ⟨0, _⟩ => by show k.val = k.val + 0; omega
    | ⟨1, _⟩ => by show q.val = 0 + q.val; omega)

/-- Slab `k` sliced out of a stack of `L` matrices, flattened to a matrix and transposed, is the transposed slab. -/
theorem slab_glue {L A B : ℕ} (W : FVec Ideal ⟨3, ![L, A, B]⟩ .f32) (k : Fin L)
    (hs : (⟨3, ![L, A, B]⟩ : Shape).Slices ![k.val, 0, 0] ⟨3, ![1, A, B]⟩)
    (h1 : (⟨3, ![1, A, B]⟩ : Shape).ShapeCasts ⟨2, ![A, B]⟩) (ht : (⟨2, ![A, B]⟩ : Shape).Transposes [1, 0] ⟨2, ![B, A]⟩) :
    transpose ⟨2, ![B, A]⟩ [1, 0] (shapeCast ⟨2, ![A, B]⟩ (extractStridedSlice ⟨3, ![1, A, B]⟩ ![k.val, 0, 0] W hs) h1) ht
      = trSlab W k := by
  funext j
  obtain ⟨p, q, rfl⟩ : ∃ (p : Fin B) (q : Fin A), j = ix2 p q := ⟨j 0, j 1, eq_ix2 j⟩
  rw [transpose_ix2_apply, shapeCast_1ab_ab_apply]
  exact extractStridedSlice_apply _ W hs _ (ix3 k q p) (fun a => match a with
    | ⟨0, _⟩ => by show k.val = k.val + 0; omega
    | ⟨1, _⟩ => by show q.val = 0 + q.val; omega
    | ⟨2, _⟩ => by show p.val = 0 + p.val; omega)

/-- A transposed matrix. -/
theorem tr_glue {A B : ℕ} (W : Mat A B) (ht : (⟨2, ![A, B]⟩ : Shape).Transposes [1, 0] ⟨2, ![B, A]⟩) :
    transpose ⟨2, ![B, A]⟩ [1, 0] W ht = tr W := by
  funext j
  obtain ⟨p, q, rfl⟩ : ∃ (p : Fin B) (q : Fin A), j = ix2 p q := ⟨j 0, j 1, eq_ix2 j⟩
  rw [transpose_ix2_apply]
  rfl

/-- A vector re-laid as one row. -/
theorem rowV_glue {N : ℕ} (b : FVec Ideal ⟨1, ![N]⟩ .f32) (h : (⟨1, ![N]⟩ : Shape).ShapeCasts ⟨2, ![1, N]⟩) :
    shapeCast ⟨2, ![1, N]⟩ b h = rowV b := by
  funext j
  obtain ⟨u, q, rfl⟩ : ∃ (u : Fin 1) (q : Fin N), j = ix2 u q := ⟨j 0, j 1, eq_ix2 j⟩
  rw [shapeCast_a_1a_apply]
  rfl

end Cert.Gcn.Glue

end
-- ==== Proof.KernelEdges.lean ====
/-
  The edge quantities of the tiled program — the row integers, the column integers and the edge weights, computed on
  the host from the edge list before the first region — are, as functions of the edge list, the plain program's: both
  programs apply the same host operations to the same argument. This holds for any float values, so it is stated for
  any, and used at the exact ones.
-/
import proofs.«143695_j28905129902721_1_alg».proof.Proof.Gen.KernelIdeal.Frame
import proofs.«143695_j28905129902721_1_alg».proof.Proof.ReadP
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe Idealize.ShloMosaic.Tactic Idealize.SL.Sem Idealize.ShloMosaic.StableHlo

variable {F : FTy → Type} [FloatOps F]
variable (m : (ℓ : Loc nD τ sig) → Buf (Elt F) ℓ) (ρ : Dev nD → PrngReg) (c : Dev nD)

set_option maxHeartbeats 8000000 in
theorem v1_W3 : W3 m ρ c (Proc.devRef .tc main_v1)
    = Cert.ReferenceIdeal.Read.val_main_v1 (F := F) (m ((c.tc : Thread nD τ).loc main_arg1)) := by
  show StableHlo.after hostOps0_2 (StableHlo.after hostOps0_1 (StableHlo.after hostOps0 (W0 m ρ c))) (Proc.devRef .tc main_v1) = _
  after_results_simp
  all_goals rfl

set_option maxHeartbeats 8000000 in
theorem v3_W3 : W3 m ρ c (Proc.devRef .tc main_v3)
    = Cert.ReferenceIdeal.Read.val_main_v3 (F := F) (m ((c.tc : Thread nD τ).loc main_arg1)) := by
  show StableHlo.after hostOps0_2 (StableHlo.after hostOps0_1 (StableHlo.after hostOps0 (W0 m ρ c))) (Proc.devRef .tc main_v3) = _
  after_results_simp
  all_goals rfl

set_option maxHeartbeats 8000000 in
theorem v28_W3 : W3 m ρ c (Proc.devRef .tc main_v28)
    = Cert.ReferenceIdeal.Read.val_main_v28 (F := F) (m ((c.tc : Thread nD τ).loc main_arg1)) := by
  show StableHlo.after hostOps0_2 (StableHlo.after hostOps0_1 (StableHlo.after hostOps0 (W0 m ρ c))) (Proc.devRef .tc main_v28) = _
  after_results_simp
  all_goals rfl

end Cert.KernelIdeal.Val

end
-- ==== Proof.LibFirstAxis.lean ====
/-
  A sum over the FIRST axis of a rank-2 array, read at an index written by coordinates, for any extents: at column `u`
  it is the `Fin`-indexed sum over the rows `k` of the entries `(k, u)`. (The last-axis form — a row sum — has the same
  shape with the roles of the axes exchanged; this is the column sum that follows it when a whole matrix is totalled in
  two steps.)
-/
import Idealize.ShloMosaic.Lib.Pipeline.Value
import Idealize.ShloMosaic.Lib.ValueIdx
import Idealize.ShloMosaic.PureOps.Ideal.Laws

namespace Cert.LibFirstAxis

open Idealize.ShloMosaic Idealize.ShloMosaic.ValueIdx

/-- The reduced index of a sum over the first axis of an `[a, b]` array, with the coordinate put back: `(k, u)`. -/
theorem lift_first2 {a b : ℕ} (h : (⟨2, ![a, b]⟩ : Shape).Reduces [0] (⟨1, ![b]⟩ : Shape)) (u : Fin b)
    (k : Fin ((⟨2, ![a, b]⟩ : Shape).size 0)) : h.lift (ix1 u) k = ix2 (⟨k.val, k.isLt⟩ : Fin a) u := by
  funext ax; apply Fin.ext
  fin_cases ax <;> rfl

/-- The sum over the first axis of an `[a, b]` array at the ideal values, at `u`: the sum over `k` of the entries `(k, u)`. -/
theorem sum_first2_apply {a b : ℕ} {φ : FTy} (src : FVec Ideal ⟨2, ![a, b]⟩ φ) (acc : BitVec φ.bits)
    (h : (⟨2, ![a, b]⟩ : Shape).Reduces [0] (⟨1, ![b]⟩ : Shape)) (hφ : FKind.Formats φ) (hacc : acc = FKind.add.neutral φ hφ)
    (u : Fin b) :
    multiReduction .add [0] ⟨1, ![b]⟩ src acc h hφ hacc (ix1 u) = ∑ k : Fin a, src (ix2 k u) :=
  (Ideal.multiReduction_add_single src acc h hφ hacc (ix1 u)).trans
    (Finset.sum_congr rfl fun k _ => congrArg src (lift_first2 h u k))

end Cert.LibFirstAxis
-- ==== Proof.StatsLib.lean ====
/-
  Column totals of a tall matrix, gathered one band of rows at a time.

  A matrix X of M = T · P rows is cut into P bands of T consecutive rows. Three facts about one band, and one about
  the running totals over the bands:
  * the product of a band with W (both operands narrowed, accumulated into zeros) plus the one-row bias repeated down
    the rows is `lin` of the band, and entry (p, q) of it is entry (r + p, q) of `lin` of the whole matrix when the
    band starts at row r;
  * a carried row plus the sum over the first axis of a band, laid back as one row, is the carried row plus `tot` of
    the band; with the band's entrywise squares it is the carried row plus `totSq` of the band;
  * if a row S starts at 0 plus the first band's totals and each later band adds its totals, then after band n it holds
    the totals of the first T · (n + 1) rows, and after the last band the totals of all M rows.
  Sums over a prefix of the rows are written over `Finset.range`, reading X as zero past its last row, so that a
  prefix of T · (n + 1) rows splits as the prefix of T · n rows and the next T rows. Addition on the extended reals is
  a commutative monoid, which is all the regrouping uses.
-/
import proofs.«143695_j28905129902721_1_alg».proof.Proof.Spec
import proofs.«143695_j28905129902721_1_alg».proof.Proof.LibFirstAxis
import Idealize.ShloMosaic.Lib.Pipeline.Value
import Idealize.ShloMosaic.Lib.ValueIdx
import Idealize.ShloMosaic.Lib.ValueLayout

noncomputable section

open scoped BigOperators

namespace Cert.Gcn.StatsLib

open Idealize.ShloMosaic Idealize.ShloMosaic.ValueIdx Cert.LibMatProd Cert.LibFirstAxis Cert.Gcn

/-! ## One band's payloads -/

/-- The band times W, operands narrowed, into zeros, plus the bias row repeated down the rows: `lin` of the band.
    Narrowing is the identity on exact values, the zero accumulator adds nothing, and row p of the repeated bias is
    the bias row. -/
theorem band_lin {T K N : ℕ} (d : DotDims ⟨2, ![T, K]⟩ ⟨2, ![K, N]⟩ ⟨2, ![T, N]⟩)
    (h1 : d.lhsContracting = [1]) (h2 : d.rhsContracting = [0]) (h3 : d.lhsNonContracting = [0])
    (h4 : d.rhsNonContracting = [1]) (h5 : d.lhsBatch = []) (h6 : d.rhsBatch = [])
    (hb : FTy.bf16.bits < FTy.f32.bits)
    (hw : (⟨2, ![K, N]⟩ : Shape).ShapeCasts ⟨2, ![K, N]⟩) (hr : (⟨2, ![1, N]⟩ : Shape).ShapeCasts ⟨2, ![1, N]⟩)
    (hbc : (⟨2, ![1, N]⟩ : Shape).Broadcasts ⟨2, ![T, N]⟩)
    (x : FVec Ideal ⟨2, ![T, K]⟩ .f32) (w : FVec Ideal ⟨2, ![K, N]⟩ .f32) (b : FVec Ideal ⟨2, ![1, N]⟩ .f32) :
    addf (matmul d none (truncf .bf16 x hb) (truncf .bf16 (shapeCast ⟨2, ![K, N]⟩ w hw) hb)
          (constant ⟨2, ![T, N]⟩ .f32 0x00000000#32))
        (broadcastTo ⟨2, ![T, N]⟩ (shapeCast ⟨2, ![1, N]⟩ b hr) hbc) = lin x w b := by
  rw [shapeCast_self, shapeCast_self, matmul_eq d h1 h2 h3 h4 h5 h6 x w hb]
  funext j
  obtain ⟨p, q, rfl⟩ : ∃ (p : Fin T) (q : Fin N), j = ix2 p q := ⟨j 0, j 1, eq_ix2 j⟩
  rw [addf_apply, broadcastTo_1b_ab_apply]
  rfl

/-- A carried row plus the first-axis sum of a band, laid back as one row: the carried row plus the band's column
    totals. -/
theorem band_tot {T N : ℕ} (Y : FVec Ideal ⟨2, ![T, N]⟩ .f32) (acc : BitVec FTy.f32.bits)
    (h : (⟨2, ![T, N]⟩ : Shape).Reduces [0] (⟨1, ![N]⟩ : Shape)) (hφ : FKind.Formats FTy.f32)
    (hacc : acc = FKind.add.neutral FTy.f32 hφ)
    (hr : (⟨2, ![1, N]⟩ : Shape).ShapeCasts ⟨2, ![1, N]⟩) (hu : (⟨1, ![N]⟩ : Shape).ShapeCasts ⟨2, ![1, N]⟩)
    (xo : FVec Ideal ⟨2, ![1, N]⟩ .f32) :
    addf (shapeCast ⟨2, ![1, N]⟩ xo hr)
        (shapeCast ⟨2, ![1, N]⟩ (multiReduction .add [0] ⟨1, ![N]⟩ Y acc h hφ hacc) hu)
      = fun j => xo j + tot Y j := by
  rw [shapeCast_self]
  funext j
  obtain ⟨u, q, rfl⟩ : ∃ (u : Fin 1) (q : Fin N), j = ix2 u q := ⟨j 0, j 1, eq_ix2 j⟩
  rw [addf_apply, shapeCast_a_1a_apply]
  refine congrArg (xo (ix2 u q) + ·) ?_
  exact sum_first2_apply Y acc h hφ hacc q

/-- The column totals of the entrywise squares are the totals of the squares. -/
theorem tot_mulf_self {T N : ℕ} (Y : FVec Ideal ⟨2, ![T, N]⟩ .f32) : tot (mulf Y Y) = totSq Y := rfl

/-! ## A band inside the whole matrix -/

/-- Entry (p, q) of `lin` of a band that starts at row r is entry (r + p, q) of `lin` of the whole matrix: the band
    of the product is the product of the band, and the bias row is shared. -/
theorem lin_band {M K N T : ℕ} (A : Mat M K) (W : Mat K N) (b : Mat 1 N) (x : Mat T K) (w : Mat K N) (b' : Mat 1 N)
    (r : ℕ) (hx : ∀ (p : Fin T) (k : Fin K) (hp : r + p.val < M), x (ix2 p k) = A (ix2 ⟨r + p.val, hp⟩ k))
    (hw : ∀ z, w z = W z) (hb : ∀ z, b' z = b z) (p : Fin T) (q : Fin N) (hp : r + p.val < M) :
    lin x w b' (ix2 p q) = lin A W b (ix2 ⟨r + p.val, hp⟩ q) := by
  show matProd x w (ix2 p q) + b' (ix2 (0 : Fin 1) q) = matProd A W (ix2 ⟨r + p.val, hp⟩ q) + b (ix2 (0 : Fin 1) q)
  rw [matProd_rows A W x w r hx hw (ix2 p q) (ix2 ⟨r + p.val, hp⟩ q) rfl rfl, hb]

/-- A function of a two-coordinate index takes the same value at two indices whose coordinates agree. -/
theorem apply_congr2 {a b : ℕ} {α : Type} (G : (⟨2, ![a, b]⟩ : Shape).Idx → α) (y i : (⟨2, ![a, b]⟩ : Shape).Idx)
    (h0 : (i 0).val = (y 0).val) (h1 : (i 1).val = (y 1).val) : G y = G i := by
  refine congrArg G ?_
  funext d
  apply Fin.ext
  match d with
  | ⟨0, _⟩ => exact h0.symm
  | ⟨1, _⟩ => exact h1.symm

/-! ## Rows read past the end as zero, and sums over a prefix of the rows -/

/-- Row r of X at column q; zero past the last row. -/
def rowAt {M N : ℕ} (X : Mat M N) (r : ℕ) (q : Fin N) : EReal :=
  if h : r < M then X (ix2 ⟨r, h⟩ q) else 0

theorem rowAt_of_lt {M N : ℕ} (X : Mat M N) (r : ℕ) (q : Fin N) (h : r < M) : rowAt X r q = X (ix2 ⟨r, h⟩ q) :=
  dif_pos h

/-- The column totals of f of the entries, as one row. With f the identity these are `tot`, with f the square
    `totSq`. -/
def totF {M N : ℕ} (f : EReal → EReal) (X : Mat M N) : Mat 1 N :=
  fun j => ∑ r : Fin M, f (X (ix2 (n0 := M) (n1 := N) r (j 1)))

theorem tot_eq_totF {M N : ℕ} (X : Mat M N) : tot X = totF (fun x => x) X := rfl

theorem totSq_eq_totF {M N : ℕ} (X : Mat M N) : totSq X = totF (fun x => x * x) X := rfl

/-- A sum over all M rows is the sum over the first M row numbers. -/
theorem sum_rows {M N : ℕ} (f : EReal → EReal) (X : Mat M N) (q : Fin N) :
    ∑ r : Fin M, f (X (ix2 r q)) = ∑ r ∈ Finset.range M, f (rowAt X r q) := by
  rw [← Fin.sum_univ_eq_sum_range (fun r => f (rowAt X r q)) M]
  exact Finset.sum_congr rfl fun r _ => by rw [rowAt_of_lt X r.val q r.isLt]

/-- A sum over the T rows of a band that starts at row a is the sum over the row numbers a, …, a + T − 1 of X. -/
theorem sum_band {M N T : ℕ} (f : EReal → EReal) (X : Mat M N) (B : Mat T N) (a : ℕ) (ha : a + T ≤ M)
    (hB : ∀ (p : Fin T) (q : Fin N) (hp : a + p.val < M), B (ix2 p q) = X (ix2 ⟨a + p.val, hp⟩ q)) (q : Fin N) :
    ∑ p : Fin T, f (B (ix2 p q)) = ∑ p ∈ Finset.range T, f (rowAt X (a + p) q) := by
  rw [← Fin.sum_univ_eq_sum_range (fun p => f (rowAt X (a + p) q)) T]
  refine Finset.sum_congr rfl fun p _ => ?_
  have hp : a + p.val < M := lt_of_lt_of_le (Nat.add_lt_add_left p.isLt a) ha
  rw [hB p q hp, rowAt_of_lt X (a + p.val) q hp]

/-! ## The running totals, in closed form -/

/-- A row that starts at 0 plus the first band's totals and to which each later band adds its totals holds, after band
    n, the totals over the first T · (n + 1) rows of X. By induction on n: the prefix of T · (n + 2) rows is the
    prefix of T · (n + 1) rows followed by the next T rows. -/
theorem totals_closed {M N T P : ℕ} (hM : T * P = M) (f : EReal → EReal) (X : Mat M N)
    (B : (n : ℕ) → n < P → Mat T N)
    (hB : ∀ (n : ℕ) (hn : n < P) (p : Fin T) (q : Fin N) (hp : T * n + p.val < M),
      B n hn (ix2 p q) = X (ix2 ⟨T * n + p.val, hp⟩ q))
    (S : (n : ℕ) → n < P → Mat 1 N)
    (h0 : ∀ h : 0 < P, S 0 h = fun j => 0 + totF f (B 0 h) j)
    (hs : ∀ (n : ℕ) (h : n + 1 < P), S (n + 1) h = fun j => S n (Nat.lt_of_succ_lt h) j + totF f (B (n + 1) h) j) :
    ∀ (n : ℕ) (h : n < P), S n h = fun j => ∑ r ∈ Finset.range (T * (n + 1)), f (rowAt X r (j 1)) := by
  have hle : ∀ (n : ℕ), n < P → T * n + T ≤ M := fun n h => by
    rw [← hM, ← Nat.mul_succ]; exact Nat.mul_le_mul_left T h
  intro n
  induction n with
  | zero =>
    intro h
    rw [h0 h]
    funext j
    rw [zero_add]
    show ∑ p : Fin T, f (B 0 h (ix2 p (j 1))) = _
    rw [sum_band f X (B 0 h) (T * 0) (hle 0 h) (hB 0 h) (j 1), Nat.zero_add, Nat.mul_one]
    exact Finset.sum_congr rfl fun p _ => by rw [Nat.mul_zero, Nat.zero_add]
  | succ n ih =>
    intro h
    rw [hs n h, ih (Nat.lt_of_succ_lt h)]
    funext j
    show (∑ r ∈ Finset.range (T * (n + 1)), f (rowAt X r (j 1))) + ∑ p : Fin T, f (B (n + 1) h (ix2 p (j 1))) = _
    rw [sum_band f X (B (n + 1) h) (T * (n + 1)) (hle (n + 1) h) (hB (n + 1) h) (j 1), Nat.mul_succ T (n + 1),
      Finset.sum_range_add]

/-- The totals over the first M row numbers are the totals over all rows. -/
theorem range_full {M N : ℕ} (f : EReal → EReal) (X : Mat M N) :
    (fun j : (⟨2, ![1, N]⟩ : Shape).Idx => ∑ r ∈ Finset.range M, f (rowAt X r (j 1))) = totF f X := by
  funext j
  exact (sum_rows f X (j 1)).symm

end Cert.Gcn.StatsLib

end
-- ==== Proof.Stats0.lean ====
/-
  A statistics stage of the network: the rows of the input times W plus a one-row bias, together with the column
  totals of the result and of its squares.

  The stage walks the 100000 rows in 20 bands of 5000. At band t it forms the band B_t of `lin A W b` (rows 5000 t, …,
  5000 t + 4999): the band of A times W plus the bias row repeated down the rows. It writes B_t to its place in the first
  result. Into a second and a third result, each one row of 128 columns, it adds the column totals of B_t and of the
  squares of B_t; both rows are set to zero before band 0 and are written out after band 19 only. So after band n the two
  rows hold the totals over the first 5000 (n + 1) rows of `lin A W b`, and after band 19 over all 100000 rows: `tot`
  and `totSq` of `lin A W b`. The first result is `lin A W b` because the bands tile the rows.
-/
import proofs.«143695_j28905129902721_1_alg».proof.Proof.Spec
import proofs.«143695_j28905129902721_1_alg».proof.Proof.Gen.KernelIdeal.Frame
import proofs.«143695_j28905129902721_1_alg».proof.Proof.LibFirstAxis
import proofs.«143695_j28905129902721_1_alg».proof.Proof.StatsLib
import Idealize.ShloMosaic.Lib.Pipeline.Value
import Idealize.ShloMosaic.Lib.Tactic

noncomputable section

open scoped BigOperators

namespace Cert.Gcn.Stats0

open Cert.KernelIdeal Cert.KernelIdeal.Gen Cert.Gcn Cert.Gcn.StatsLib
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-! ## What one band's step leaves in each result's block -/

section Pieces

variable {F : FTy → Type} [FloatOps F]

/-- At band 0 the first result's block is left holding the band's payload. -/
theorem left_A_3 (c : Dev nD) (i : grid0.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond0_0 i)
    (x0 : Vec F S5000x128 .f32) (x1 : Vec F S128x128 .f32) (x2 : Vec F S1x128 .f32) :
    out0_A_3 c i a1 h1 a2 h2 a3 h3 a4 h4 a5 h5 a6 h6 hc x0 x1 x2 = k0_pay3 x0 x1 x2 := by
  unfold out0_A_3
  rw [View.read_writes_eq_canon _ _ _ (cover0_A_3 c i a1 h1 a2 h2 a3 h3 a4 h4 a5 h5 a6 h6 hc x0 x1 x2)]
  unfold kernelRun0_A
  dsimp only
  rw [View.canon_unit_zero hz]
  simp only [View.readAt_eq_ld, h1.read_unread, h2.read_unread, h3.read_unread,
    View.ld_unit_zero (S := S5000x128) hz, View.ld_unit_zero (S := S128x128) hz, View.ld_unit_zero (S := S1x128) hz]

/-- At band 0 the totals row is set to zero, read back, and left holding zero plus the band's totals. -/
theorem left_A_4 (c : Dev nD) (i : grid0.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond0_0 i)
    (x0 : Vec F S5000x128 .f32) (x1 : Vec F S128x128 .f32) (x2 : Vec F S1x128 .f32) :
    out0_A_4 c i a1 h1 a2 h2 a3 h3 a4 h4 a5 h5 a6 h6 hc x0 x1 x2 = k0_pay4 x0 x1 x2 k0_pay1 := by
  unfold out0_A_4
  rw [View.read_writes_eq_canon _ _ _ (cover0_A_4 c i a1 h1 a2 h2 a3 h3 a4 h4 a5 h5 a6 h6 hc x0 x1 x2)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread,
    View.ld_unit_zero (S := S5000x128) hz, View.ld_unit_zero (S := S128x128) hz, View.ld_unit_zero (S := S1x128) hz]

/-- The same for the row of totals of squares. -/
theorem left_A_5 (c : Dev nD) (i : grid0.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond0_0 i)
    (x0 : Vec F S5000x128 .f32) (x1 : Vec F S128x128 .f32) (x2 : Vec F S1x128 .f32) :
    out0_A_5 c i a1 h1 a2 h2 a3 h3 a4 h4 a5 h5 a6 h6 hc x0 x1 x2 = k0_pay5 x0 x1 x2 k0_pay2 := by
  unfold out0_A_5
  rw [View.read_writes_eq_canon _ _ _ (cover0_A_5 c i a1 h1 a2 h2 a3 h3 a4 h4 a5 h5 a6 h6 hc x0 x1 x2)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread,
    View.ld_unit_zero (S := S5000x128) hz, View.ld_unit_zero (S := S128x128) hz, View.ld_unit_zero (S := S1x128) hz]

/-- At a later band the first result's block is again left holding the band's payload. -/
theorem left_B_3 (c : Dev nD) (i : grid0.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond0_0 i)
    (x0 : Vec F S5000x128 .f32) (x1 : Vec F S128x128 .f32) (x2 : Vec F S1x128 .f32) (xo4 xo5 : Vec F S1x128 .f32) :
    out0_B_3 c i a1 h1 a2 h2 a3 h3 a4 h4 a5 h5 a6 h6 hc x0 x1 x2 xo4 xo5 = k0_pay3 x0 x1 x2 := by
  unfold out0_B_3
  rw [View.read_writes_eq_canon _ _ _ (cover0_B_3 c i a1 h1 a2 h2 a3 h3 a4 h4 a5 h5 a6 h6 hc x0 x1 x2 xo4 xo5)]
  unfold kernelRun0_B
  dsimp only
  rw [View.canon_unit_zero hz]
  simp only [View.readAt_eq_ld, h1.read_unread, h2.read_unread, h3.read_unread,
    View.ld_unit_zero (S := S5000x128) hz, View.ld_unit_zero (S := S128x128) hz, View.ld_unit_zero (S := S1x128) hz]

/-- At a later band the totals row, holding xo4, is left holding xo4 plus the band's totals. -/
theorem left_B_4 (c : Dev nD) (i : grid0.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond0_0 i)
    (x0 : Vec F S5000x128 .f32) (x1 : Vec F S128x128 .f32) (x2 : Vec F S1x128 .f32) (xo4 xo5 : Vec F S1x128 .f32) :
    out0_B_4 c i a1 h1 a2 h2 a3 h3 a4 h4 a5 h5 a6 h6 hc x0 x1 x2 xo4 xo5 = k0_pay4 x0 x1 x2 xo4 := by
  unfold out0_B_4
  rw [View.read_writes_eq_canon _ _ _ (cover0_B_4 c i a1 h1 a2 h2 a3 h3 a4 h4 a5 h5 a6 h6 hc x0 x1 x2 xo4 xo5)]
  unfold kernelRun0_B
  dsimp only
  rw [View.canon_unit_zero hz]
  simp only [View.readAt_eq_ld, h1.read_unread, h2.read_unread, h3.read_unread, h5.read_unread,
    View.ld_unit_zero (S := S5000x128) hz, View.ld_unit_zero (S := S128x128) hz, View.ld_unit_zero (S := S1x128) hz]

/-- The same for the row of totals of squares, holding xo5. -/
theorem left_B_5 (c : Dev nD) (i : grid0.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond0_0 i)
    (x0 : Vec F S5000x128 .f32) (x1 : Vec F S128x128 .f32) (x2 : Vec F S1x128 .f32) (xo4 xo5 : Vec F S1x128 .f32) :
    out0_B_5 c i a1 h1 a2 h2 a3 h3 a4 h4 a5 h5 a6 h6 hc x0 x1 x2 xo4 xo5 = k0_pay5 x0 x1 x2 xo5 := by
  unfold out0_B_5
  rw [View.read_writes_eq_canon _ _ _ (cover0_B_5 c i a1 h1 a2 h2 a3 h3 a4 h4 a5 h5 a6 h6 hc x0 x1 x2 xo4 xo5)]
  unfold kernelRun0_B
  dsimp only
  rw [View.canon_unit_zero hz]
  simp only [View.readAt_eq_ld, h1.read_unread, h2.read_unread, h3.read_unread, h6.read_unread,
    View.ld_unit_zero (S := S5000x128) hz, View.ld_unit_zero (S := S128x128) hz, View.ld_unit_zero (S := S1x128) hz]

end Pieces

/-! ## The payloads, over the extended reals -/

/-- The zero row the totals start from. -/
theorem zero_row1 : (k0_pay1 (F := Ideal) : FVec Ideal S1x128 .f32) = fun _ => 0 := by
  funext j
  show Ideal.ofBits .f32 0x00000000#32 = 0
  exact Ideal.ofBits_zero_f32

theorem zero_row2 : (k0_pay2 (F := Ideal) : FVec Ideal S1x128 .f32) = fun _ => 0 := by
  funext j
  show Ideal.ofBits .f32 0x00000000#32 = 0
  exact Ideal.ofBits_zero_f32

/-- The band's payload is `lin` of the band. -/
theorem pay3_eq (x0 : Vec Ideal S5000x128 .f32) (x1 : Vec Ideal S128x128 .f32) (x2 : Vec Ideal S1x128 .f32) :
    k0_pay3 (F := Ideal) x0 x1 x2 = lin x0 x1 x2 := by
  unfold k0_pay3
  exact band_lin dot_S5000x128_S128x128_S5000x128_1_0_0_1_n_n rfl rfl rfl rfl rfl rfl bitsLt_bf16_f32
    shapeCasts_S128x128_S128x128 shapeCasts_S1x128_S1x128 broadcasts_S1x128_S5000x128 x0 x1 x2

/-- The totals row after a band: what it held plus the band's column totals. -/
theorem pay4_eq (x0 : Vec Ideal S5000x128 .f32) (x1 : Vec Ideal S128x128 .f32) (x2 : Vec Ideal S1x128 .f32)
    (xo : Vec Ideal S1x128 .f32) :
    k0_pay4 (F := Ideal) x0 x1 x2 xo = fun j => xo j + totF (fun x => x) (lin x0 x1 x2) j := by
  unfold k0_pay4
  rw [pay3_eq]
  exact band_tot (lin x0 x1 x2) 0x00000000#32 reduces_S5000x128_S128 (.inl rfl) rfl shapeCasts_S1x128_S1x128
    shapeCasts_S128_S1x128 xo

/-- The row of totals of squares after a band: what it held plus the band's column totals of squares. -/
theorem pay5_eq (x0 : Vec Ideal S5000x128 .f32) (x1 : Vec Ideal S128x128 .f32) (x2 : Vec Ideal S1x128 .f32)
    (xo : Vec Ideal S1x128 .f32) :
    k0_pay5 (F := Ideal) x0 x1 x2 xo = fun j => xo j + totF (fun x => x * x) (lin x0 x1 x2) j := by
  unfold k0_pay5
  rw [pay3_eq]
  exact band_tot (mulf (lin x0 x1 x2) (lin x0 x1 x2)) 0x00000000#32 reduces_S5000x128_S128 (.inl rfl) rfl
    shapeCasts_S1x128_S1x128 shapeCasts_S128_S1x128 xo

/-! ## The blocks the bands read -/

variable (V : (c : Dev nD) → (b : Ref sig .tc) → Buf (Elt Ideal) ((c : Thread nD τ).loc b))

/-- Where each block sits: the input's and the first result's block at band t start at row block t; the weights, the
    bias and the two totals rows are always block 0. Decided over the 20 bands. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The input's block at band t is rows 5000 t, …, 5000 t + 4999 of the input. -/
theorem blk_in (c : Dev nD) (t : Fin cfg0.N) (p : Fin 5000) (k : Fin 128) (hp : 5000 * t.val + p.val < 100000) :
    (iblk0 V c 0 t : Vec Ideal S5000x128 .f32) (ix2 p k) = V c main_arg0 (ix2 ⟨5000 * t.val + p.val, hp⟩ k) := by
  obtain ⟨e0, e1, -⟩ := idx_facts t
  unfold iblk0
  rw [View.read_apply]
  show V c main_arg0 _ = V c main_arg0 _
  refine congrArg _ ?_
  funext a
  apply Fin.ext
  match a with
  | ⟨0, _⟩ => show win0_0.index t (0 : Fin 2) * 5000 + 1 * p.val = 5000 * t.val + p.val; rw [e0]; omega
  | ⟨1, _⟩ => show win0_0.index t (1 : Fin 2) * 128 + 1 * k.val = k.val; rw [e1]; omega

/-- The weights' block is the whole weight matrix at every band. -/
theorem blk_w (c : Dev nD) (t : Fin cfg0.N) (z : S128x128.Idx) :
    (iblk0 V c 1 t : Vec Ideal S128x128 .f32) z = V c main_v29 z := by
  obtain ⟨-, -, e0, e1, -⟩ := idx_facts t
  unfold iblk0
  rw [View.read_apply]
  show V c main_v29 _ = V c main_v29 _
  refine congrArg _ ?_
  funext a
  apply Fin.ext
  match a with
  | ⟨0, _⟩ => show win0_1.index t (0 : Fin 2) * 128 + 1 * (z 0).val = (z 0).val; rw [e0]; omega
  | ⟨1, _⟩ => show win0_1.index t (1 : Fin 2) * 128 + 1 * (z 1).val = (z 1).val; rw [e1]; omega

/-- The bias's block is the whole bias row at every band. -/
theorem blk_b (c : Dev nD) (t : Fin cfg0.N) (z : S1x128.Idx) :
    (iblk0 V c 2 t : Vec Ideal S1x128 .f32) z = V c main_v30 z := by
  obtain ⟨-, -, -, -, e0, e1, -⟩ := idx_facts t
  unfold iblk0
  rw [View.read_apply]
  show V c main_v30 _ = V c main_v30 _
  refine congrArg _ ?_
  funext a
  apply Fin.ext
  match a with
  | ⟨0, _⟩ => show win0_2.index t (0 : Fin 2) * 1 + 1 * (z 0).val = (z 0).val; rw [e0]; omega
  | ⟨1, _⟩ => show win0_2.index t (1 : Fin 2) * 128 + 1 * (z 1).val = (z 1).val; rw [e1]; omega

/-- `lin` of band t's blocks, entry (p, q), is entry (5000 t + p, q) of `lin` of the whole arrays. -/
theorem band_entry (c : Dev nD) (t : Fin cfg0.N) (p : Fin 5000) (q : Fin 128) (hp : 5000 * t.val + p.val < 100000) :
    lin (iblk0 V c 0 t : Vec Ideal S5000x128 .f32) (iblk0 V c 1 t : Vec Ideal S128x128 .f32)
        (iblk0 V c 2 t : Vec Ideal S1x128 .f32) (ix2 p q)
      = (lin (V c main_arg0) (V c main_v29) (V c main_v30)) (ix2 ⟨5000 * t.val + p.val, hp⟩ q) :=
  lin_band (V c main_arg0) (V c main_v29) (V c main_v30) _ _ _ (5000 * t.val) (fun p k hp => blk_in V c t p k hp)
    (blk_w V c t) (blk_b V c t) p q hp

/-! ## What the three blocks hold after each band -/

/-- After any band the first result's block holds `lin` of the band's blocks. -/
theorem first_after (c : Dev nD) (t : Fin cfg0.N) :
    (outsAt0 V c t.val t.isLt).1 = lin (iblk0 V c 0 t : Vec Ideal S5000x128 .f32)
      (iblk0 V c 1 t : Vec Ideal S128x128 .f32) (iblk0 V c 2 t : Vec Ideal S1x128 .f32) := by
  by_cases h0 : t.val % 20 = 0
  · rw [outsAt0_A V c t h0]
    dsimp only
    refine (left_A_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t)).trans ?_
    exact pay3_eq (iblk0 V c 0 t) (iblk0 V c 1 t) (iblk0 V c 2 t)
  · rw [outsAt0_B V c t h0]
    dsimp only
    refine (left_B_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t)
      (outsAt0 V c (t.val - 1) (Nat.lt_of_le_of_lt (Nat.sub_le _ _) t.isLt)).2.1 (outsAt0 V c (t.val - 1) (Nat.lt_of_le_of_lt (Nat.sub_le _ _) t.isLt)).2.2).trans ?_
    exact pay3_eq (iblk0 V c 0 t) (iblk0 V c 1 t) (iblk0 V c 2 t)

/-- After band 0 the totals row holds zero plus band 0's totals. -/
theorem tot_first (c : Dev nD) (h : 0 < cfg0.N) :
    (outsAt0 V c 0 h).2.1 = fun j => 0 + totF (fun x => x) (lin (iblk0 V c 0 ⟨0, h⟩ : Vec Ideal S5000x128 .f32)
      (iblk0 V c 1 ⟨0, h⟩ : Vec Ideal S128x128 .f32) (iblk0 V c 2 ⟨0, h⟩ : Vec Ideal S1x128 .f32)) j := by
  have e := congrArg (fun x => x.2.1) (outsAt0_A V c ⟨0, h⟩ rfl)
  refine e.trans ?_
  let t : Fin cfg0.N := ⟨0, h⟩
  refine (left_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr rfl) (iblk0 V c 0 t) (iblk0 V c 1 t) (iblk0 V c 2 t)).trans ?_
  rw [pay4_eq, zero_row1]

/-- After a later band it holds what it held plus that band's totals. -/
theorem tot_next (c : Dev nD) (n : ℕ) (h : n + 1 < cfg0.N) :
    (outsAt0 V c (n + 1) h).2.1 = fun j => (outsAt0 V c n (Nat.lt_of_succ_lt h)).2.1 j
      + totF (fun x => x) (lin (iblk0 V c 0 ⟨n + 1, h⟩ : Vec Ideal S5000x128 .f32)
          (iblk0 V c 1 ⟨n + 1, h⟩ : Vec Ideal S128x128 .f32) (iblk0 V c 2 ⟨n + 1, h⟩ : Vec Ideal S1x128 .f32)) j := by
  have hN : cfg0.N = 20 := N_0
  let t : Fin cfg0.N := ⟨n + 1, h⟩
  have hB : ¬t.val % 20 = 0 := by show ¬(n + 1) % 20 = 0; omega
  have e := congrArg (fun x => x.2.1) (outsAt0_B V c t hB)
  refine e.trans ?_
  refine (left_B_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun hh => hB ((hcond0_0 t).mp hh)) (iblk0 V c 0 t) (iblk0 V c 1 t) (iblk0 V c 2 t)
    (outsAt0 V c (t.val - 1) (Nat.lt_of_le_of_lt (Nat.sub_le _ _) t.isLt)).2.1 (outsAt0 V c (t.val - 1) (Nat.lt_of_le_of_lt (Nat.sub_le _ _) t.isLt)).2.2).trans ?_
  rw [pay4_eq]
  rfl

/-- The same two steps for the row of totals of squares. -/
theorem sq_first (c : Dev nD) (h : 0 < cfg0.N) :
    (outsAt0 V c 0 h).2.2 = fun j => 0 + totF (fun x => x * x) (lin (iblk0 V c 0 ⟨0, h⟩ : Vec Ideal S5000x128 .f32)
      (iblk0 V c 1 ⟨0, h⟩ : Vec Ideal S128x128 .f32) (iblk0 V c 2 ⟨0, h⟩ : Vec Ideal S1x128 .f32)) j := by
  have e := congrArg (fun x => x.2.2) (outsAt0_A V c ⟨0, h⟩ rfl)
  refine e.trans ?_
  let t : Fin cfg0.N := ⟨0, h⟩
  refine (left_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr rfl) (iblk0 V c 0 t) (iblk0 V c 1 t) (iblk0 V c 2 t)).trans ?_
  rw [pay5_eq, zero_row2]

theorem sq_next (c : Dev nD) (n : ℕ) (h : n + 1 < cfg0.N) :
    (outsAt0 V c (n + 1) h).2.2 = fun j => (outsAt0 V c n (Nat.lt_of_succ_lt h)).2.2 j
      + totF (fun x => x * x) (lin (iblk0 V c 0 ⟨n + 1, h⟩ : Vec Ideal S5000x128 .f32)
          (iblk0 V c 1 ⟨n + 1, h⟩ : Vec Ideal S128x128 .f32) (iblk0 V c 2 ⟨n + 1, h⟩ : Vec Ideal S1x128 .f32)) j := by
  have hN : cfg0.N = 20 := N_0
  let t : Fin cfg0.N := ⟨n + 1, h⟩
  have hB : ¬t.val % 20 = 0 := by show ¬(n + 1) % 20 = 0; omega
  have e := congrArg (fun x => x.2.2) (outsAt0_B V c t hB)
  refine e.trans ?_
  refine (left_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun hh => hB ((hcond0_0 t).mp hh)) (iblk0 V c 0 t) (iblk0 V c 1 t) (iblk0 V c 2 t)
    (outsAt0 V c (t.val - 1) (Nat.lt_of_le_of_lt (Nat.sub_le _ _) t.isLt)).2.1 (outsAt0 V c (t.val - 1) (Nat.lt_of_le_of_lt (Nat.sub_le _ _) t.isLt)).2.2).trans ?_
  rw [pay5_eq]
  rfl

/-- So after band n the totals row holds the totals of f of the entries over the first 5000 (n + 1) rows of
    `lin` of the whole arrays: the running totals in closed form. -/
theorem tot_closed (c : Dev nD) (n : ℕ) (h : n < cfg0.N) :
    (outsAt0 V c n h).2.1
      = fun j => ∑ r ∈ Finset.range (5000 * (n + 1)), rowAt (lin (V c main_arg0) (V c main_v29) (V c main_v30)) r (j 1) :=
  totals_closed (M := 100000) (N := 128) (T := 5000) (P := cfg0.N) (by rw [show cfg0.N = 20 from N_0])
    (fun x => x) (lin (V c main_arg0) (V c main_v29) (V c main_v30))
    (fun n h => lin (iblk0 V c 0 ⟨n, h⟩ : Vec Ideal S5000x128 .f32) (iblk0 V c 1 ⟨n, h⟩ : Vec Ideal S128x128 .f32)
      (iblk0 V c 2 ⟨n, h⟩ : Vec Ideal S1x128 .f32))
    (fun n hn p q hp => band_entry V c ⟨n, hn⟩ p q hp)
    (fun n h => (outsAt0 V c n h).2.1) (tot_first V c) (tot_next V c) n h

theorem sq_closed (c : Dev nD) (n : ℕ) (h : n < cfg0.N) :
    (outsAt0 V c n h).2.2
      = fun j => ∑ r ∈ Finset.range (5000 * (n + 1)), rowAt (lin (V c main_arg0) (V c main_v29) (V c main_v30)) r (j 1) * rowAt (lin (V c main_arg0) (V c main_v29) (V c main_v30)) r (j 1) :=
  totals_closed (M := 100000) (N := 128) (T := 5000) (P := cfg0.N) (by rw [show cfg0.N = 20 from N_0])
    (fun x => x * x) (lin (V c main_arg0) (V c main_v29) (V c main_v30))
    (fun n h => lin (iblk0 V c 0 ⟨n, h⟩ : Vec Ideal S5000x128 .f32) (iblk0 V c 1 ⟨n, h⟩ : Vec Ideal S128x128 .f32)
      (iblk0 V c 2 ⟨n, h⟩ : Vec Ideal S1x128 .f32))
    (fun n hn p q hp => band_entry V c ⟨n, hn⟩ p q hp)
    (fun n h => (outsAt0 V c n h).2.2) (sq_first V c) (sq_next V c) n h

/-- The same at any index y of the band's block and any index i of the whole result whose row is 5000 t plus y's and
    whose column is y's. -/
theorem band_at (c : Dev nD) (t : Fin cfg0.N) (y : S5000x128.Idx) (i : S100000x128.Idx)
    (hi0 : (i 0).val = 5000 * t.val + (y 0).val) (hi1 : (i 1).val = (y 1).val) :
    lin (iblk0 V c 0 t : Vec Ideal S5000x128 .f32) (iblk0 V c 1 t : Vec Ideal S128x128 .f32)
        (iblk0 V c 2 t : Vec Ideal S1x128 .f32) y = (lin (V c main_arg0) (V c main_v29) (V c main_v30)) i := by
  obtain ⟨p, q, rfl⟩ : ∃ (p : Fin 5000) (q : Fin 128), y = ix2 p q := ⟨y 0, y 1, eq_ix2 y⟩
  obtain ⟨p', q', rfl⟩ : ∃ (p' : Fin 100000) (q' : Fin 128), i = ix2 p' q' := ⟨i 0, i 1, eq_ix2 i⟩
  have h0 : p'.val = 5000 * t.val + p.val := hi0
  have h1 : q' = q := Fin.ext hi1
  subst h1
  have hp : 5000 * t.val + p.val < 100000 := h0 ▸ p'.isLt
  have hp' : p' = ⟨5000 * t.val + p.val, hp⟩ := Fin.ext h0
  rw [hp']
  exact band_entry V c t p q' hp

/-! ## The three results after the last band -/

/-- What band t writes to the first result is block t of `lin` of the whole arrays. -/
theorem flushed3 (c : Dev nD) (t : Fin cfg0.N) :
    (dat0 V c).flushed 3 t = ((cfg0.win 3).blk t).view.read (Elt Ideal) (lin (V c main_arg0) (V c main_v29) (V c main_v30)) := by
  obtain ⟨-, -, -, -, -, -, e0, e1, -⟩ := idx_facts t
  show (cfg0.win 3).cut (grid0.coords t) ((dat0 V c).after 3 t) = _
  rw [after0_3, first_after V c t]
  funext y
  rw [View.read_apply]
  refine band_at V c t y _ ?_ ?_
  · show win0_3.index t (0 : Fin 2) * 5000 + 1 * (y 0).val = 5000 * t.val + (y 0).val
    rw [e0]; omega
  · show win0_3.index t (1 : Fin 2) * 128 + 1 * (y 1).val = (y 1).val
    rw [e1]; omega

/-- An index lies in band t's block of the first result iff, on each axis, its coordinate lies in the block's range. -/
theorem mem_blk3 (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v31_0).slice (win0_3.rect t)).set ↔ _
  rw [View.set_slice_whole, Rect.mem_set_unit]
  exact Iff.rfl

/-- Row r of the first result is written by band r / 5000. -/
theorem cover3 (i : S100000x128.Idx) :
    ∃ t : Fin cfg0.N, (cfg0.win 3).flush t = true ∧ i ∈ ((cfg0.win 3).blk t).view.set := by
  have hN : cfg0.N = 20 := N_0
  have hi0 : (i 0).val < 100000 := (i 0).isLt
  have hi1 : (i 1).val < 128 := (i 1).isLt
  have ht : (i 0).val / 5000 < cfg0.N := by rw [hN]; omega
  obtain ⟨-, -, -, -, -, -, e0, e1, -⟩ := idx_facts ⟨(i 0).val / 5000, ht⟩
  refine ⟨⟨(i 0).val / 5000, ht⟩, flush0_3 _, ?_⟩
  rw [mem_blk3]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_3.index ⟨(i 0).val / 5000, ht⟩ (1 : Fin 2) * 128 ≤ (i 1).val
      ∧ (i 1).val < win0_3.index ⟨(i 0).val / 5000, ht⟩ (1 : Fin 2) * 128 + 128
    rw [e1]; omega

/-- The first result is `lin` of the whole arrays: the 20 bands tile its rows. -/
theorem lin_arr (c : Dev nD) :
    (dat0 (F := Ideal) V c).arrAt 3 cfg0.N = lin (V c main_arg0) (V c main_v29) (V c main_v30) :=
  (dat0 V c).arrAt_eq_of_cover 3 (lin (V c main_arg0) (V c main_v29) (V c main_v30)) (fun t _ => flushed3 V c t) (cover3)

/-- The band after which the two rows are written out is the last one. -/
theorem last_of_flush4 (t : Fin cfg0.N) (hf : (cfg0.win 4).flush t = true) : t.val = 19 := by
  have hN : cfg0.N = 20 := N_0
  have := (flush0_4 t).mp hf
  have := t.isLt
  omega

theorem last_of_flush5 (t : Fin cfg0.N) (hf : (cfg0.win 5).flush t = true) : t.val = 19 := by
  have hN : cfg0.N = 20 := N_0
  have := (flush0_5 t).mp hf
  have := t.isLt
  omega

theorem rows_all : 5000 * (19 + 1) = 100000 := by norm_num

/-- After the last band the totals row holds the column totals of all 100000 rows. -/
theorem tot_last (c : Dev nD) (t : Fin cfg0.N) (h19 : t.val = 19) :
    (outsAt0 V c t.val t.isLt).2.1 = tot (lin (V c main_arg0) (V c main_v29) (V c main_v30)) := by
  rw [tot_closed V c t.val t.isLt, h19, rows_all, tot_eq_totF]
  exact range_full (fun x => x) (lin (V c main_arg0) (V c main_v29) (V c main_v30))

theorem sq_last (c : Dev nD) (t : Fin cfg0.N) (h19 : t.val = 19) :
    (outsAt0 V c t.val t.isLt).2.2 = totSq (lin (V c main_arg0) (V c main_v29) (V c main_v30)) := by
  rw [sq_closed V c t.val t.isLt, h19, rows_all, totSq_eq_totF]
  exact range_full (fun x => x * x) (lin (V c main_arg0) (V c main_v29) (V c main_v30))

/-- Through the block the last band writes, a one-row array reads as itself: that block is the whole array. Stated for
    any row G, so that nothing about G is opened. -/
theorem read_row4 (t : Fin cfg0.N) (G : S1x128.Idx → Elt Ideal .f32) :
    (cfg0.win 4).cut (grid0.coords t) G = ((cfg0.win 4).blk t).view.read (Elt Ideal) G := by
  obtain ⟨-, -, -, -, -, -, -, -, e0, e1, -⟩ := idx_facts t
  funext y
  rw [View.read_apply]
  refine apply_congr2 G y _ ?_ ?_
  · show win0_4.index t (0 : Fin 2) * 1 + 1 * (y 0).val = (y 0).val
    rw [e0]; omega
  · show win0_4.index t (1 : Fin 2) * 128 + 1 * (y 1).val = (y 1).val
    rw [e1]; omega

/-- What the last band writes to the second result is the whole row `tot`. -/
theorem flushed4 (c : Dev nD) (t : Fin cfg0.N) (hf : (cfg0.win 4).flush t = true) :
    (dat0 V c).flushed 4 t = ((cfg0.win 4).blk t).view.read (Elt Ideal) (tot (lin (V c main_arg0) (V c main_v29) (V c main_v30))) := by
  show (cfg0.win 4).cut (grid0.coords t) ((dat0 V c).after 4 t) = _
  rw [after0_4, tot_last V c t (last_of_flush4 t hf)]
  exact read_row4 t (tot (lin (V c main_arg0) (V c main_v29) (V c main_v30)))

theorem read_row5 (t : Fin cfg0.N) (G : S1x128.Idx → Elt Ideal .f32) :
    (cfg0.win 5).cut (grid0.coords t) G = ((cfg0.win 5).blk t).view.read (Elt Ideal) G := by
  obtain ⟨-, -, -, -, -, -, -, -, -, -, e0, e1⟩ := idx_facts t
  funext y
  rw [View.read_apply]
  refine apply_congr2 G y _ ?_ ?_
  · show win0_5.index t (0 : Fin 2) * 1 + 1 * (y 0).val = (y 0).val
    rw [e0]; omega
  · show win0_5.index t (1 : Fin 2) * 128 + 1 * (y 1).val = (y 1).val
    rw [e1]; omega

/-- What the last band writes to the third result is the whole row `totSq`. -/
theorem flushed5 (c : Dev nD) (t : Fin cfg0.N) (hf : (cfg0.win 5).flush t = true) :
    (dat0 V c).flushed 5 t = ((cfg0.win 5).blk t).view.read (Elt Ideal) (totSq (lin (V c main_arg0) (V c main_v29) (V c main_v30))) := by
  show (cfg0.win 5).cut (grid0.coords t) ((dat0 V c).after 5 t) = _
  rw [after0_5, sq_last V c t (last_of_flush5 t hf)]
  exact read_row5 t (totSq (lin (V c main_arg0) (V c main_v29) (V c main_v30)))

theorem mem_blk4 (t : Fin cfg0.N) (i : S1x128.Idx) :
    i ∈ ((cfg0.win 4).blk t).view.set ↔ ∀ a : Fin 2, win0_4.index t a * S1x128.size a ≤ (i a).val
      ∧ (i a).val < win0_4.index t a * S1x128.size a + S1x128.size a := by
  show i ∈ ((View.whole main_v31_1).slice (win0_4.rect t)).set ↔ _
  rw [View.set_slice_whole, Rect.mem_set_unit]
  exact Iff.rfl

theorem mem_blk5 (t : Fin cfg0.N) (i : S1x128.Idx) :
    i ∈ ((cfg0.win 5).blk t).view.set ↔ ∀ a : Fin 2, win0_5.index t a * S1x128.size a ≤ (i a).val
      ∧ (i a).val < win0_5.index t a * S1x128.size a + S1x128.size a := by
  show i ∈ ((View.whole main_v31_2).slice (win0_5.rect t)).set ↔ _
  rw [View.set_slice_whole, Rect.mem_set_unit]
  exact Iff.rfl

/-- Every entry of a one-row result lies in the block the last band writes. -/
theorem cover4 (i : S1x128.Idx) :
    ∃ t : Fin cfg0.N, (cfg0.win 4).flush t = true ∧ i ∈ ((cfg0.win 4).blk t).view.set := by
  have hN : cfg0.N = 20 := N_0
  have hi0 : (i 0).val < 1 := (i 0).isLt
  have hi1 : (i 1).val < 128 := (i 1).isLt
  have ht : 19 < cfg0.N := by rw [hN]; omega
  obtain ⟨-, -, -, -, -, -, -, -, e0, e1, -⟩ := idx_facts ⟨19, ht⟩
  refine ⟨⟨19, ht⟩, (flush0_4 _).mpr rfl, ?_⟩
  rw [mem_blk4]
  intro a
  match a with
  | ⟨0, _⟩ =>
    show win0_4.index ⟨19, ht⟩ (0 : Fin 2) * 1 ≤ (i 0).val ∧ (i 0).val < win0_4.index ⟨19, ht⟩ (0 : Fin 2) * 1 + 1
    rw [e0]; omega
  | ⟨1, _⟩ =>
    show win0_4.index ⟨19, ht⟩ (1 : Fin 2) * 128 ≤ (i 1).val ∧ (i 1).val < win0_4.index ⟨19, ht⟩ (1 : Fin 2) * 128 + 128
    rw [e1]; omega

theorem cover5 (i : S1x128.Idx) :
    ∃ t : Fin cfg0.N, (cfg0.win 5).flush t = true ∧ i ∈ ((cfg0.win 5).blk t).view.set := by
  have hN : cfg0.N = 20 := N_0
  have hi0 : (i 0).val < 1 := (i 0).isLt
  have hi1 : (i 1).val < 128 := (i 1).isLt
  have ht : 19 < cfg0.N := by rw [hN]; omega
  obtain ⟨-, -, -, -, -, -, -, -, -, -, e0, e1⟩ := idx_facts ⟨19, ht⟩
  refine ⟨⟨19, ht⟩, (flush0_5 _).mpr rfl, ?_⟩
  rw [mem_blk5]
  intro a
  match a with
  | ⟨0, _⟩ =>
    show win0_5.index ⟨19, ht⟩ (0 : Fin 2) * 1 ≤ (i 0).val ∧ (i 0).val < win0_5.index ⟨19, ht⟩ (0 : Fin 2) * 1 + 1
    rw [e0]; omega
  | ⟨1, _⟩ =>
    show win0_5.index ⟨19, ht⟩ (1 : Fin 2) * 128 ≤ (i 1).val ∧ (i 1).val < win0_5.index ⟨19, ht⟩ (1 : Fin 2) * 128 + 128
    rw [e1]; omega

/-- The second result is the column totals of `lin` of the whole arrays. -/
theorem tot_arr (c : Dev nD) :
    (dat0 (F := Ideal) V c).arrAt 4 cfg0.N = tot (lin (V c main_arg0) (V c main_v29) (V c main_v30)) :=
  (dat0 V c).arrAt_eq_of_cover 4 (tot (lin (V c main_arg0) (V c main_v29) (V c main_v30))) (flushed4 V c) (cover4)

/-- The third result is the column totals of the squares of `lin` of the whole arrays. -/
theorem totSq_arr (c : Dev nD) :
    (dat0 (F := Ideal) V c).arrAt 5 cfg0.N = totSq (lin (V c main_arg0) (V c main_v29) (V c main_v30)) :=
  (dat0 V c).arrAt_eq_of_cover 5 (totSq (lin (V c main_arg0) (V c main_v29) (V c main_v30))) (flushed5 V c) (cover5)

end Cert.Gcn.Stats0

end
-- ==== Proof.Stats2.lean ====
/-
  A statistics stage of the network: the rows of the input times W plus a one-row bias, together with the column
  totals of the result and of its squares.

  The stage walks the 100000 rows in 20 bands of 5000. At band t it forms the band B_t of `lin A W b` (rows 5000 t, …,
  5000 t + 4999): the band of A times W plus the bias row repeated down the rows. It writes B_t to its place in the first
  result. Into a second and a third result, each one row of 128 columns, it adds the column totals of B_t and of the
  squares of B_t; both rows are set to zero before band 0 and are written out after band 19 only. So after band n the two
  rows hold the totals over the first 5000 (n + 1) rows of `lin A W b`, and after band 19 over all 100000 rows: `tot`
  and `totSq` of `lin A W b`. The first result is `lin A W b` because the bands tile the rows.
-/
import proofs.«143695_j28905129902721_1_alg».proof.Proof.Spec
import proofs.«143695_j28905129902721_1_alg».proof.Proof.Gen.KernelIdeal.Frame
import proofs.«143695_j28905129902721_1_alg».proof.Proof.LibFirstAxis
import proofs.«143695_j28905129902721_1_alg».proof.Proof.StatsLib
import Idealize.ShloMosaic.Lib.Pipeline.Value
import Idealize.ShloMosaic.Lib.Tactic

noncomputable section

open scoped BigOperators

namespace Cert.Gcn.Stats2

open Cert.KernelIdeal Cert.KernelIdeal.Gen Cert.Gcn Cert.Gcn.StatsLib
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-! ## What one band's step leaves in each result's block -/

section Pieces

variable {F : FTy → Type} [FloatOps F]

/-- At band 0 the first result's block is left holding the band's payload. -/
theorem left_A_3 (c : Dev nD) (i : grid2.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond2_0 i)
    (x0 : Vec F S5000x128 .f32) (x1 : Vec F S128x128 .f32) (x2 : Vec F S1x128 .f32) :
    out2_A_3 c i a1 h1 a2 h2 a3 h3 a4 h4 a5 h5 a6 h6 hc x0 x1 x2 = k2_pay3 x0 x1 x2 := by
  unfold out2_A_3
  rw [View.read_writes_eq_canon _ _ _ (cover2_A_3 c i a1 h1 a2 h2 a3 h3 a4 h4 a5 h5 a6 h6 hc x0 x1 x2)]
  unfold kernelRun2_A
  dsimp only
  rw [View.canon_unit_zero hz]
  simp only [View.readAt_eq_ld, h1.read_unread, h2.read_unread, h3.read_unread,
    View.ld_unit_zero (S := S5000x128) hz, View.ld_unit_zero (S := S128x128) hz, View.ld_unit_zero (S := S1x128) hz]

/-- At band 0 the totals row is set to zero, read back, and left holding zero plus the band's totals. -/
theorem left_A_4 (c : Dev nD) (i : grid2.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond2_0 i)
    (x0 : Vec F S5000x128 .f32) (x1 : Vec F S128x128 .f32) (x2 : Vec F S1x128 .f32) :
    out2_A_4 c i a1 h1 a2 h2 a3 h3 a4 h4 a5 h5 a6 h6 hc x0 x1 x2 = k2_pay4 x0 x1 x2 k2_pay1 := by
  unfold out2_A_4
  rw [View.read_writes_eq_canon _ _ _ (cover2_A_4 c i a1 h1 a2 h2 a3 h3 a4 h4 a5 h5 a6 h6 hc x0 x1 x2)]
  unfold kernelRun2_A
  dsimp only
  sl_unfold_words
  rw [View.canon_cons_unit_zero (S := S1x128) hz, View.readCov_unit_zero (S := S1x128) _ hz]
  simp only [View.readAt_eq_ld, h1.read_unread, h2.read_unread, h3.read_unread,
    View.ld_unit_zero (S := S5000x128) hz, View.ld_unit_zero (S := S128x128) hz, View.ld_unit_zero (S := S1x128) hz]

/-- The same for the row of totals of squares. -/
theorem left_A_5 (c : Dev nD) (i : grid2.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond2_0 i)
    (x0 : Vec F S5000x128 .f32) (x1 : Vec F S128x128 .f32) (x2 : Vec F S1x128 .f32) :
    out2_A_5 c i a1 h1 a2 h2 a3 h3 a4 h4 a5 h5 a6 h6 hc x0 x1 x2 = k2_pay5 x0 x1 x2 k2_pay2 := by
  unfold out2_A_5
  rw [View.read_writes_eq_canon _ _ _ (cover2_A_5 c i a1 h1 a2 h2 a3 h3 a4 h4 a5 h5 a6 h6 hc x0 x1 x2)]
  unfold kernelRun2_A
  dsimp only
  sl_unfold_words
  rw [View.canon_cons_unit_zero (S := S1x128) hz, View.readCov_unit_zero (S := S1x128) _ hz]
  simp only [View.readAt_eq_ld, h1.read_unread, h2.read_unread, h3.read_unread,
    View.ld_unit_zero (S := S5000x128) hz, View.ld_unit_zero (S := S128x128) hz, View.ld_unit_zero (S := S1x128) hz]

/-- At a later band the first result's block is again left holding the band's payload. -/
theorem left_B_3 (c : Dev nD) (i : grid2.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond2_0 i)
    (x0 : Vec F S5000x128 .f32) (x1 : Vec F S128x128 .f32) (x2 : Vec F S1x128 .f32) (xo4 xo5 : Vec F S1x128 .f32) :
    out2_B_3 c i a1 h1 a2 h2 a3 h3 a4 h4 a5 h5 a6 h6 hc x0 x1 x2 xo4 xo5 = k2_pay3 x0 x1 x2 := by
  unfold out2_B_3
  rw [View.read_writes_eq_canon _ _ _ (cover2_B_3 c i a1 h1 a2 h2 a3 h3 a4 h4 a5 h5 a6 h6 hc x0 x1 x2 xo4 xo5)]
  unfold kernelRun2_B
  dsimp only
  rw [View.canon_unit_zero hz]
  simp only [View.readAt_eq_ld, h1.read_unread, h2.read_unread, h3.read_unread,
    View.ld_unit_zero (S := S5000x128) hz, View.ld_unit_zero (S := S128x128) hz, View.ld_unit_zero (S := S1x128) hz]

/-- At a later band the totals row, holding xo4, is left holding xo4 plus the band's totals. -/
theorem left_B_4 (c : Dev nD) (i : grid2.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond2_0 i)
    (x0 : Vec F S5000x128 .f32) (x1 : Vec F S128x128 .f32) (x2 : Vec F S1x128 .f32) (xo4 xo5 : Vec F S1x128 .f32) :
    out2_B_4 c i a1 h1 a2 h2 a3 h3 a4 h4 a5 h5 a6 h6 hc x0 x1 x2 xo4 xo5 = k2_pay4 x0 x1 x2 xo4 := by
  unfold out2_B_4
  rw [View.read_writes_eq_canon _ _ _ (cover2_B_4 c i a1 h1 a2 h2 a3 h3 a4 h4 a5 h5 a6 h6 hc x0 x1 x2 xo4 xo5)]
  unfold kernelRun2_B
  dsimp only
  rw [View.canon_unit_zero hz]
  simp only [View.readAt_eq_ld, h1.read_unread, h2.read_unread, h3.read_unread, h5.read_unread,
    View.ld_unit_zero (S := S5000x128) hz, View.ld_unit_zero (S := S128x128) hz, View.ld_unit_zero (S := S1x128) hz]

/-- The same for the row of totals of squares, holding xo5. -/
theorem left_B_5 (c : Dev nD) (i : grid2.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond2_0 i)
    (x0 : Vec F S5000x128 .f32) (x1 : Vec F S128x128 .f32) (x2 : Vec F S1x128 .f32) (xo4 xo5 : Vec F S1x128 .f32) :
    out2_B_5 c i a1 h1 a2 h2 a3 h3 a4 h4 a5 h5 a6 h6 hc x0 x1 x2 xo4 xo5 = k2_pay5 x0 x1 x2 xo5 := by
  unfold out2_B_5
  rw [View.read_writes_eq_canon _ _ _ (cover2_B_5 c i a1 h1 a2 h2 a3 h3 a4 h4 a5 h5 a6 h6 hc x0 x1 x2 xo4 xo5)]
  unfold kernelRun2_B
  dsimp only
  rw [View.canon_unit_zero hz]
  simp only [View.readAt_eq_ld, h1.read_unread, h2.read_unread, h3.read_unread, h6.read_unread,
    View.ld_unit_zero (S := S5000x128) hz, View.ld_unit_zero (S := S128x128) hz, View.ld_unit_zero (S := S1x128) hz]

end Pieces

/-! ## The payloads, over the extended reals -/

/-- The zero row the totals start from. -/
theorem zero_row1 : (k2_pay1 (F := Ideal) : FVec Ideal S1x128 .f32) = fun _ => 0 := by
  funext j
  show Ideal.ofBits .f32 0x00000000#32 = 0
  exact Ideal.ofBits_zero_f32

theorem zero_row2 : (k2_pay2 (F := Ideal) : FVec Ideal S1x128 .f32) = fun _ => 0 := by
  funext j
  show Ideal.ofBits .f32 0x00000000#32 = 0
  exact Ideal.ofBits_zero_f32

/-- The band's payload is `lin` of the band; the band first passes through a cast to its own shape, which changes
    nothing. -/
theorem pay3_eq (x0 : Vec Ideal S5000x128 .f32) (x1 : Vec Ideal S128x128 .f32) (x2 : Vec Ideal S1x128 .f32) :
    k2_pay3 (F := Ideal) x0 x1 x2 = lin x0 x1 x2 := by
  unfold k2_pay3
  refine (band_lin dot_S5000x128_S128x128_S5000x128_1_0_0_1_n_n rfl rfl rfl rfl rfl rfl bitsLt_bf16_f32
    shapeCasts_S128x128_S128x128 shapeCasts_S1x128_S1x128 broadcasts_S1x128_S5000x128
    (shapeCast S5000x128 x0 shapeCasts_S5000x128_S5000x128) x1 x2).trans ?_
  rw [shapeCast_self]

/-- The totals row after a band: what it held plus the band's column totals. -/
theorem pay4_eq (x0 : Vec Ideal S5000x128 .f32) (x1 : Vec Ideal S128x128 .f32) (x2 : Vec Ideal S1x128 .f32)
    (xo : Vec Ideal S1x128 .f32) :
    k2_pay4 (F := Ideal) x0 x1 x2 xo = fun j => xo j + totF (fun x => x) (lin x0 x1 x2) j := by
  unfold k2_pay4
  rw [pay3_eq]
  exact band_tot (lin x0 x1 x2) 0x00000000#32 reduces_S5000x128_S128 (.inl rfl) rfl shapeCasts_S1x128_S1x128
    shapeCasts_S128_S1x128 xo

/-- The row of totals of squares after a band: what it held plus the band's column totals of squares. -/
theorem pay5_eq (x0 : Vec Ideal S5000x128 .f32) (x1 : Vec Ideal S128x128 .f32) (x2 : Vec Ideal S1x128 .f32)
    (xo : Vec Ideal S1x128 .f32) :
    k2_pay5 (F := Ideal) x0 x1 x2 xo = fun j => xo j + totF (fun x => x * x) (lin x0 x1 x2) j := by
  unfold k2_pay5
  rw [pay3_eq]
  exact band_tot (mulf (lin x0 x1 x2) (lin x0 x1 x2)) 0x00000000#32 reduces_S5000x128_S128 (.inl rfl) rfl
    shapeCasts_S1x128_S1x128 shapeCasts_S128_S1x128 xo

/-! ## The blocks the bands read -/

variable (V : (c : Dev nD) → (b : Ref sig .tc) → Buf (Elt Ideal) ((c : Thread nD τ).loc b))

/-- Where each block sits: the input's and the first result's block at band t start at row block t; the weights, the
    bias and the two totals rows are always block 0. Decided over the 20 bands. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- The input's block at band t is rows 5000 t, …, 5000 t + 4999 of the input. -/
theorem blk_in (c : Dev nD) (t : Fin cfg2.N) (p : Fin 5000) (k : Fin 128) (hp : 5000 * t.val + p.val < 100000) :
    (iblk2 V c 0 t : Vec Ideal S5000x128 .f32) (ix2 p k) = V c main_v61 (ix2 ⟨5000 * t.val + p.val, hp⟩ k) := by
  obtain ⟨e0, e1, -⟩ := idx_facts t
  unfold iblk2
  rw [View.read_apply]
  show V c main_v61 _ = V c main_v61 _
  refine congrArg _ ?_
  funext a
  apply Fin.ext
  match a with
  | ⟨0, _⟩ => show win2_0.index t (0 : Fin 2) * 5000 + 1 * p.val = 5000 * t.val + p.val; rw [e0]; omega
  | ⟨1, _⟩ => show win2_0.index t (1 : Fin 2) * 128 + 1 * k.val = k.val; rw [e1]; omega

/-- The weights' block is the whole weight matrix at every band. -/
theorem blk_w (c : Dev nD) (t : Fin cfg2.N) (z : S128x128.Idx) :
    (iblk2 V c 1 t : Vec Ideal S128x128 .f32) z = V c main_v64 z := by
  obtain ⟨-, -, e0, e1, -⟩ := idx_facts t
  unfold iblk2
  rw [View.read_apply]
  show V c main_v64 _ = V c main_v64 _
  refine congrArg _ ?_
  funext a
  apply Fin.ext
  match a with
  | ⟨0, _⟩ => show win2_1.index t (0 : Fin 2) * 128 + 1 * (z 0).val = (z 0).val; rw [e0]; omega
  | ⟨1, _⟩ => show win2_1.index t (1 : Fin 2) * 128 + 1 * (z 1).val = (z 1).val; rw [e1]; omega

/-- The bias's block is the whole bias row at every band. -/
theorem blk_b (c : Dev nD) (t : Fin cfg2.N) (z : S1x128.Idx) :
    (iblk2 V c 2 t : Vec Ideal S1x128 .f32) z = V c main_v67 z := by
  obtain ⟨-, -, -, -, e0, e1, -⟩ := idx_facts t
  unfold iblk2
  rw [View.read_apply]
  show V c main_v67 _ = V c main_v67 _
  refine congrArg _ ?_
  funext a
  apply Fin.ext
  match a with
  | ⟨0, _⟩ => show win2_2.index t (0 : Fin 2) * 1 + 1 * (z 0).val = (z 0).val; rw [e0]; omega
  | ⟨1, _⟩ => show win2_2.index t (1 : Fin 2) * 128 + 1 * (z 1).val = (z 1).val; rw [e1]; omega

/-- `lin` of band t's blocks, entry (p, q), is entry (5000 t + p, q) of `lin` of the whole arrays. -/
theorem band_entry (c : Dev nD) (t : Fin cfg2.N) (p : Fin 5000) (q : Fin 128) (hp : 5000 * t.val + p.val < 100000) :
    lin (iblk2 V c 0 t : Vec Ideal S5000x128 .f32) (iblk2 V c 1 t : Vec Ideal S128x128 .f32)
        (iblk2 V c 2 t : Vec Ideal S1x128 .f32) (ix2 p q)
      = (lin (V c main_v61) (V c main_v64) (V c main_v67)) (ix2 ⟨5000 * t.val + p.val, hp⟩ q) :=
  lin_band (V c main_v61) (V c main_v64) (V c main_v67) _ _ _ (5000 * t.val) (fun p k hp => blk_in V c t p k hp)
    (blk_w V c t) (blk_b V c t) p q hp

/-! ## What the three blocks hold after each band -/

/-- After any band the first result's block holds `lin` of the band's blocks. -/
theorem first_after (c : Dev nD) (t : Fin cfg2.N) :
    (outsAt2 V c t.val t.isLt).1 = lin (iblk2 V c 0 t : Vec Ideal S5000x128 .f32)
      (iblk2 V c 1 t : Vec Ideal S128x128 .f32) (iblk2 V c 2 t : Vec Ideal S1x128 .f32) := by
  by_cases h0 : t.val % 20 = 0
  · rw [outsAt2_A V c t h0]
    dsimp only
    refine (left_A_3 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (iblk2 V c 0 t) (iblk2 V c 1 t) (iblk2 V c 2 t)).trans ?_
    exact pay3_eq (iblk2 V c 0 t) (iblk2 V c 1 t) (iblk2 V c 2 t)
  · rw [outsAt2_B V c t h0]
    dsimp only
    refine (left_B_3 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (iblk2 V c 0 t) (iblk2 V c 1 t) (iblk2 V c 2 t)
      (outsAt2 V c (t.val - 1) (Nat.lt_of_le_of_lt (Nat.sub_le _ _) t.isLt)).2.1 (outsAt2 V c (t.val - 1) (Nat.lt_of_le_of_lt (Nat.sub_le _ _) t.isLt)).2.2).trans ?_
    exact pay3_eq (iblk2 V c 0 t) (iblk2 V c 1 t) (iblk2 V c 2 t)

/-- After band 0 the totals row holds zero plus band 0's totals. -/
theorem tot_first (c : Dev nD) (h : 0 < cfg2.N) :
    (outsAt2 V c 0 h).2.1 = fun j => 0 + totF (fun x => x) (lin (iblk2 V c 0 ⟨0, h⟩ : Vec Ideal S5000x128 .f32)
      (iblk2 V c 1 ⟨0, h⟩ : Vec Ideal S128x128 .f32) (iblk2 V c 2 ⟨0, h⟩ : Vec Ideal S1x128 .f32)) j := by
  have e := congrArg (fun x => x.2.1) (outsAt2_A V c ⟨0, h⟩ rfl)
  refine e.trans ?_
  let t : Fin cfg2.N := ⟨0, h⟩
  refine (left_A_4 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr rfl) (iblk2 V c 0 t) (iblk2 V c 1 t) (iblk2 V c 2 t)).trans ?_
  rw [pay4_eq, zero_row1]

/-- After a later band it holds what it held plus that band's totals. -/
theorem tot_next (c : Dev nD) (n : ℕ) (h : n + 1 < cfg2.N) :
    (outsAt2 V c (n + 1) h).2.1 = fun j => (outsAt2 V c n (Nat.lt_of_succ_lt h)).2.1 j
      + totF (fun x => x) (lin (iblk2 V c 0 ⟨n + 1, h⟩ : Vec Ideal S5000x128 .f32)
          (iblk2 V c 1 ⟨n + 1, h⟩ : Vec Ideal S128x128 .f32) (iblk2 V c 2 ⟨n + 1, h⟩ : Vec Ideal S1x128 .f32)) j := by
  have hN : cfg2.N = 20 := N_2
  let t : Fin cfg2.N := ⟨n + 1, h⟩
  have hB : ¬t.val % 20 = 0 := by show ¬(n + 1) % 20 = 0; omega
  have e := congrArg (fun x => x.2.1) (outsAt2_B V c t hB)
  refine e.trans ?_
  refine (left_B_4 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (fun hh => hB ((hcond2_0 t).mp hh)) (iblk2 V c 0 t) (iblk2 V c 1 t) (iblk2 V c 2 t)
    (outsAt2 V c (t.val - 1) (Nat.lt_of_le_of_lt (Nat.sub_le _ _) t.isLt)).2.1 (outsAt2 V c (t.val - 1) (Nat.lt_of_le_of_lt (Nat.sub_le _ _) t.isLt)).2.2).trans ?_
  rw [pay4_eq]
  rfl

/-- The same two steps for the row of totals of squares. -/
theorem sq_first (c : Dev nD) (h : 0 < cfg2.N) :
    (outsAt2 V c 0 h).2.2 = fun j => 0 + totF (fun x => x * x) (lin (iblk2 V c 0 ⟨0, h⟩ : Vec Ideal S5000x128 .f32)
      (iblk2 V c 1 ⟨0, h⟩ : Vec Ideal S128x128 .f32) (iblk2 V c 2 ⟨0, h⟩ : Vec Ideal S1x128 .f32)) j := by
  have e := congrArg (fun x => x.2.2) (outsAt2_A V c ⟨0, h⟩ rfl)
  refine e.trans ?_
  let t : Fin cfg2.N := ⟨0, h⟩
  refine (left_A_5 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr rfl) (iblk2 V c 0 t) (iblk2 V c 1 t) (iblk2 V c 2 t)).trans ?_
  rw [pay5_eq, zero_row2]

theorem sq_next (c : Dev nD) (n : ℕ) (h : n + 1 < cfg2.N) :
    (outsAt2 V c (n + 1) h).2.2 = fun j => (outsAt2 V c n (Nat.lt_of_succ_lt h)).2.2 j
      + totF (fun x => x * x) (lin (iblk2 V c 0 ⟨n + 1, h⟩ : Vec Ideal S5000x128 .f32)
          (iblk2 V c 1 ⟨n + 1, h⟩ : Vec Ideal S128x128 .f32) (iblk2 V c 2 ⟨n + 1, h⟩ : Vec Ideal S1x128 .f32)) j := by
  have hN : cfg2.N = 20 := N_2
  let t : Fin cfg2.N := ⟨n + 1, h⟩
  have hB : ¬t.val % 20 = 0 := by show ¬(n + 1) % 20 = 0; omega
  have e := congrArg (fun x => x.2.2) (outsAt2_B V c t hB)
  refine e.trans ?_
  refine (left_B_5 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (fun hh => hB ((hcond2_0 t).mp hh)) (iblk2 V c 0 t) (iblk2 V c 1 t) (iblk2 V c 2 t)
    (outsAt2 V c (t.val - 1) (Nat.lt_of_le_of_lt (Nat.sub_le _ _) t.isLt)).2.1 (outsAt2 V c (t.val - 1) (Nat.lt_of_le_of_lt (Nat.sub_le _ _) t.isLt)).2.2).trans ?_
  rw [pay5_eq]
  rfl

/-- So after band n the totals row holds the totals of f of the entries over the first 5000 (n + 1) rows of
    `lin` of the whole arrays: the running totals in closed form. -/
theorem tot_closed (c : Dev nD) (n : ℕ) (h : n < cfg2.N) :
    (outsAt2 V c n h).2.1
      = fun j => ∑ r ∈ Finset.range (5000 * (n + 1)), rowAt (lin (V c main_v61) (V c main_v64) (V c main_v67)) r (j 1) :=
  totals_closed (M := 100000) (N := 128) (T := 5000) (P := cfg2.N) (by rw [show cfg2.N = 20 from N_2])
    (fun x => x) (lin (V c main_v61) (V c main_v64) (V c main_v67))
    (fun n h => lin (iblk2 V c 0 ⟨n, h⟩ : Vec Ideal S5000x128 .f32) (iblk2 V c 1 ⟨n, h⟩ : Vec Ideal S128x128 .f32)
      (iblk2 V c 2 ⟨n, h⟩ : Vec Ideal S1x128 .f32))
    (fun n hn p q hp => band_entry V c ⟨n, hn⟩ p q hp)
    (fun n h => (outsAt2 V c n h).2.1) (tot_first V c) (tot_next V c) n h

theorem sq_closed (c : Dev nD) (n : ℕ) (h : n < cfg2.N) :
    (outsAt2 V c n h).2.2
      = fun j => ∑ r ∈ Finset.range (5000 * (n + 1)), rowAt (lin (V c main_v61) (V c main_v64) (V c main_v67)) r (j 1) * rowAt (lin (V c main_v61) (V c main_v64) (V c main_v67)) r (j 1) :=
  totals_closed (M := 100000) (N := 128) (T := 5000) (P := cfg2.N) (by rw [show cfg2.N = 20 from N_2])
    (fun x => x * x) (lin (V c main_v61) (V c main_v64) (V c main_v67))
    (fun n h => lin (iblk2 V c 0 ⟨n, h⟩ : Vec Ideal S5000x128 .f32) (iblk2 V c 1 ⟨n, h⟩ : Vec Ideal S128x128 .f32)
      (iblk2 V c 2 ⟨n, h⟩ : Vec Ideal S1x128 .f32))
    (fun n hn p q hp => band_entry V c ⟨n, hn⟩ p q hp)
    (fun n h => (outsAt2 V c n h).2.2) (sq_first V c) (sq_next V c) n h

/-- The same at any index y of the band's block and any index i of the whole result whose row is 5000 t plus y's and
    whose column is y's. -/
theorem band_at (c : Dev nD) (t : Fin cfg2.N) (y : S5000x128.Idx) (i : S100000x128.Idx)
    (hi0 : (i 0).val = 5000 * t.val + (y 0).val) (hi1 : (i 1).val = (y 1).val) :
    lin (iblk2 V c 0 t : Vec Ideal S5000x128 .f32) (iblk2 V c 1 t : Vec Ideal S128x128 .f32)
        (iblk2 V c 2 t : Vec Ideal S1x128 .f32) y = (lin (V c main_v61) (V c main_v64) (V c main_v67)) i := by
  obtain ⟨p, q, rfl⟩ : ∃ (p : Fin 5000) (q : Fin 128), y = ix2 p q := ⟨y 0, y 1, eq_ix2 y⟩
  obtain ⟨p', q', rfl⟩ : ∃ (p' : Fin 100000) (q' : Fin 128), i = ix2 p' q' := ⟨i 0, i 1, eq_ix2 i⟩
  have h0 : p'.val = 5000 * t.val + p.val := hi0
  have h1 : q' = q := Fin.ext hi1
  subst h1
  have hp : 5000 * t.val + p.val < 100000 := h0 ▸ p'.isLt
  have hp' : p' = ⟨5000 * t.val + p.val, hp⟩ := Fin.ext h0
  rw [hp']
  exact band_entry V c t p q' hp

/-! ## The three results after the last band -/

/-- What band t writes to the first result is block t of `lin` of the whole arrays. -/
theorem flushed3 (c : Dev nD) (t : Fin cfg2.N) :
    (dat2 V c).flushed 3 t = ((cfg2.win 3).blk t).view.read (Elt Ideal) (lin (V c main_v61) (V c main_v64) (V c main_v67)) := by
  obtain ⟨-, -, -, -, -, -, e0, e1, -⟩ := idx_facts t
  show (cfg2.win 3).cut (grid2.coords t) ((dat2 V c).after 3 t) = _
  rw [after2_3, first_after V c t]
  funext y
  rw [View.read_apply]
  refine band_at V c t y _ ?_ ?_
  · show win2_3.index t (0 : Fin 2) * 5000 + 1 * (y 0).val = 5000 * t.val + (y 0).val
    rw [e0]; omega
  · show win2_3.index t (1 : Fin 2) * 128 + 1 * (y 1).val = (y 1).val
    rw [e1]; omega

/-- An index lies in band t's block of the first result iff, on each axis, its coordinate lies in the block's range. -/
theorem mem_blk3 (t : Fin cfg2.N) (i : S100000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v68_0).slice (win2_3.rect t)).set ↔ _
  rw [View.set_slice_whole, Rect.mem_set_unit]
  exact Iff.rfl

/-- Row r of the first result is written by band r / 5000. -/
theorem cover3 (i : S100000x128.Idx) :
    ∃ t : Fin cfg2.N, (cfg2.win 3).flush t = true ∧ i ∈ ((cfg2.win 3).blk t).view.set := by
  have hN : cfg2.N = 20 := N_2
  have hi0 : (i 0).val < 100000 := (i 0).isLt
  have hi1 : (i 1).val < 128 := (i 1).isLt
  have ht : (i 0).val / 5000 < cfg2.N := by rw [hN]; omega
  obtain ⟨-, -, -, -, -, -, e0, e1, -⟩ := idx_facts ⟨(i 0).val / 5000, ht⟩
  refine ⟨⟨(i 0).val / 5000, ht⟩, flush2_3 _, ?_⟩
  rw [mem_blk3]
  intro a
  match a with
  | ⟨0, _⟩ =>
    show win2_3.index ⟨(i 0).val / 5000, ht⟩ (0 : Fin 2) * 5000 ≤ (i 0).val
      ∧ (i 0).val < win2_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win2_3.index ⟨(i 0).val / 5000, ht⟩ (1 : Fin 2) * 128 ≤ (i 1).val
      ∧ (i 1).val < win2_3.index ⟨(i 0).val / 5000, ht⟩ (1 : Fin 2) * 128 + 128
    rw [e1]; omega

/-- The first result is `lin` of the whole arrays: the 20 bands tile its rows. -/
theorem lin_arr (c : Dev nD) :
    (dat2 (F := Ideal) V c).arrAt 3 cfg2.N = lin (V c main_v61) (V c main_v64) (V c main_v67) :=
  (dat2 V c).arrAt_eq_of_cover 3 (lin (V c main_v61) (V c main_v64) (V c main_v67)) (fun t _ => flushed3 V c t) (cover3)

/-- The band after which the two rows are written out is the last one. -/
theorem last_of_flush4 (t : Fin cfg2.N) (hf : (cfg2.win 4).flush t = true) : t.val = 19 := by
  have hN : cfg2.N = 20 := N_2
  have := (flush2_4 t).mp hf
  have := t.isLt
  omega

theorem last_of_flush5 (t : Fin cfg2.N) (hf : (cfg2.win 5).flush t = true) : t.val = 19 := by
  have hN : cfg2.N = 20 := N_2
  have := (flush2_5 t).mp hf
  have := t.isLt
  omega

theorem rows_all : 5000 * (19 + 1) = 100000 := by norm_num

/-- After the last band the totals row holds the column totals of all 100000 rows. -/
theorem tot_last (c : Dev nD) (t : Fin cfg2.N) (h19 : t.val = 19) :
    (outsAt2 V c t.val t.isLt).2.1 = tot (lin (V c main_v61) (V c main_v64) (V c main_v67)) := by
  rw [tot_closed V c t.val t.isLt, h19, rows_all, tot_eq_totF]
  exact range_full (fun x => x) (lin (V c main_v61) (V c main_v64) (V c main_v67))

theorem sq_last (c : Dev nD) (t : Fin cfg2.N) (h19 : t.val = 19) :
    (outsAt2 V c t.val t.isLt).2.2 = totSq (lin (V c main_v61) (V c main_v64) (V c main_v67)) := by
  rw [sq_closed V c t.val t.isLt, h19, rows_all, totSq_eq_totF]
  exact range_full (fun x => x * x) (lin (V c main_v61) (V c main_v64) (V c main_v67))

/-- Through the block the last band writes, a one-row array reads as itself: that block is the whole array. Stated for
    any row G, so that nothing about G is opened. -/
theorem read_row4 (t : Fin cfg2.N) (G : S1x128.Idx → Elt Ideal .f32) :
    (cfg2.win 4).cut (grid2.coords t) G = ((cfg2.win 4).blk t).view.read (Elt Ideal) G := by
  obtain ⟨-, -, -, -, -, -, -, -, e0, e1, -⟩ := idx_facts t
  funext y
  rw [View.read_apply]
  refine apply_congr2 G y _ ?_ ?_
  · show win2_4.index t (0 : Fin 2) * 1 + 1 * (y 0).val = (y 0).val
    rw [e0]; omega
  · show win2_4.index t (1 : Fin 2) * 128 + 1 * (y 1).val = (y 1).val
    rw [e1]; omega

/-- What the last band writes to the second result is the whole row `tot`. -/
theorem flushed4 (c : Dev nD) (t : Fin cfg2.N) (hf : (cfg2.win 4).flush t = true) :
    (dat2 V c).flushed 4 t = ((cfg2.win 4).blk t).view.read (Elt Ideal) (tot (lin (V c main_v61) (V c main_v64) (V c main_v67))) := by
  show (cfg2.win 4).cut (grid2.coords t) ((dat2 V c).after 4 t) = _
  rw [after2_4, tot_last V c t (last_of_flush4 t hf)]
  exact read_row4 t (tot (lin (V c main_v61) (V c main_v64) (V c main_v67)))

theorem read_row5 (t : Fin cfg2.N) (G : S1x128.Idx → Elt Ideal .f32) :
    (cfg2.win 5).cut (grid2.coords t) G = ((cfg2.win 5).blk t).view.read (Elt Ideal) G := by
  obtain ⟨-, -, -, -, -, -, -, -, -, -, e0, e1⟩ := idx_facts t
  funext y
  rw [View.read_apply]
  refine apply_congr2 G y _ ?_ ?_
  · show win2_5.index t (0 : Fin 2) * 1 + 1 * (y 0).val = (y 0).val
    rw [e0]; omega
  · show win2_5.index t (1 : Fin 2) * 128 + 1 * (y 1).val = (y 1).val
    rw [e1]; omega

/-- What the last band writes to the third result is the whole row `totSq`. -/
theorem flushed5 (c : Dev nD) (t : Fin cfg2.N) (hf : (cfg2.win 5).flush t = true) :
    (dat2 V c).flushed 5 t = ((cfg2.win 5).blk t).view.read (Elt Ideal) (totSq (lin (V c main_v61) (V c main_v64) (V c main_v67))) := by
  show (cfg2.win 5).cut (grid2.coords t) ((dat2 V c).after 5 t) = _
  rw [after2_5, sq_last V c t (last_of_flush5 t hf)]
  exact read_row5 t (totSq (lin (V c main_v61) (V c main_v64) (V c main_v67)))

theorem mem_blk4 (t : Fin cfg2.N) (i : S1x128.Idx) :
    i ∈ ((cfg2.win 4).blk t).view.set ↔ ∀ a : Fin 2, win2_4.index t a * S1x128.size a ≤ (i a).val
      ∧ (i a).val < win2_4.index t a * S1x128.size a + S1x128.size a := by
  show i ∈ ((View.whole main_v68_1).slice (win2_4.rect t)).set ↔ _
  rw [View.set_slice_whole, Rect.mem_set_unit]
  exact Iff.rfl

theorem mem_blk5 (t : Fin cfg2.N) (i : S1x128.Idx) :
    i ∈ ((cfg2.win 5).blk t).view.set ↔ ∀ a : Fin 2, win2_5.index t a * S1x128.size a ≤ (i a).val
      ∧ (i a).val < win2_5.index t a * S1x128.size a + S1x128.size a := by
  show i ∈ ((View.whole main_v68_2).slice (win2_5.rect t)).set ↔ _
  rw [View.set_slice_whole, Rect.mem_set_unit]
  exact Iff.rfl

/-- Every entry of a one-row result lies in the block the last band writes. -/
theorem cover4 (i : S1x128.Idx) :
    ∃ t : Fin cfg2.N, (cfg2.win 4).flush t = true ∧ i ∈ ((cfg2.win 4).blk t).view.set := by
  have hN : cfg2.N = 20 := N_2
  have hi0 : (i 0).val < 1 := (i 0).isLt
  have hi1 : (i 1).val < 128 := (i 1).isLt
  have ht : 19 < cfg2.N := by rw [hN]; omega
  obtain ⟨-, -, -, -, -, -, -, -, e0, e1, -⟩ := idx_facts ⟨19, ht⟩
  refine ⟨⟨19, ht⟩, (flush2_4 _).mpr rfl, ?_⟩
  rw [mem_blk4]
  intro a
  match a with
  | ⟨0, _⟩ =>
    show win2_4.index ⟨19, ht⟩ (0 : Fin 2) * 1 ≤ (i 0).val ∧ (i 0).val < win2_4.index ⟨19, ht⟩ (0 : Fin 2) * 1 + 1
    rw [e0]; omega
  | ⟨1, _⟩ =>
    show win2_4.index ⟨19, ht⟩ (1 : Fin 2) * 128 ≤ (i 1).val ∧ (i 1).val < win2_4.index ⟨19, ht⟩ (1 : Fin 2) * 128 + 128
    rw [e1]; omega

theorem cover5 (i : S1x128.Idx) :
    ∃ t : Fin cfg2.N, (cfg2.win 5).flush t = true ∧ i ∈ ((cfg2.win 5).blk t).view.set := by
  have hN : cfg2.N = 20 := N_2
  have hi0 : (i 0).val < 1 := (i 0).isLt
  have hi1 : (i 1).val < 128 := (i 1).isLt
  have ht : 19 < cfg2.N := by rw [hN]; omega
  obtain ⟨-, -, -, -, -, -, -, -, -, -, e0, e1⟩ := idx_facts ⟨19, ht⟩
  refine ⟨⟨19, ht⟩, (flush2_5 _).mpr rfl, ?_⟩
  rw [mem_blk5]
  intro a
  match a with
  | ⟨0, _⟩ =>
    show win2_5.index ⟨19, ht⟩ (0 : Fin 2) * 1 ≤ (i 0).val ∧ (i 0).val < win2_5.index ⟨19, ht⟩ (0 : Fin 2) * 1 + 1
    rw [e0]; omega
  | ⟨1, _⟩ =>
    show win2_5.index ⟨19, ht⟩ (1 : Fin 2) * 128 ≤ (i 1).val ∧ (i 1).val < win2_5.index ⟨19, ht⟩ (1 : Fin 2) * 128 + 128
    rw [e1]; omega

/-- The second result is the column totals of `lin` of the whole arrays. -/
theorem tot_arr (c : Dev nD) :
    (dat2 (F := Ideal) V c).arrAt 4 cfg2.N = tot (lin (V c main_v61) (V c main_v64) (V c main_v67)) :=
  (dat2 V c).arrAt_eq_of_cover 4 (tot (lin (V c main_v61) (V c main_v64) (V c main_v67))) (flushed4 V c) (cover4)

/-- The third result is the column totals of the squares of `lin` of the whole arrays. -/
theorem totSq_arr (c : Dev nD) :
    (dat2 (F := Ideal) V c).arrAt 5 cfg2.N = totSq (lin (V c main_v61) (V c main_v64) (V c main_v67)) :=
  (dat2 V c).arrAt_eq_of_cover 5 (totSq (lin (V c main_v61) (V c main_v64) (V c main_v67))) (flushed5 V c) (cover5)

end Cert.Gcn.Stats2

end
-- ==== Proof.Stats4.lean ====
/-
  A statistics stage of the network: the rows of the input times W plus a one-row bias, together with the column
  totals of the result and of its squares.

  The stage walks the 100000 rows in 20 bands of 5000. At band t it forms the band B_t of `lin A W b` (rows 5000 t, …,
  5000 t + 4999): the band of A times W plus the bias row repeated down the rows. It writes B_t to its place in the first
  result. Into a second and a third result, each one row of 128 columns, it adds the column totals of B_t and of the
  squares of B_t; both rows are set to zero before band 0 and are written out after band 19 only. So after band n the two
  rows hold the totals over the first 5000 (n + 1) rows of `lin A W b`, and after band 19 over all 100000 rows: `tot`
  and `totSq` of `lin A W b`. The first result is `lin A W b` because the bands tile the rows.
-/
import proofs.«143695_j28905129902721_1_alg».proof.Proof.Spec
import proofs.«143695_j28905129902721_1_alg».proof.Proof.Gen.KernelIdeal.Frame
import proofs.«143695_j28905129902721_1_alg».proof.Proof.LibFirstAxis
import proofs.«143695_j28905129902721_1_alg».proof.Proof.StatsLib
import Idealize.ShloMosaic.Lib.Pipeline.Value
import Idealize.ShloMosaic.Lib.Tactic

noncomputable section

open scoped BigOperators

namespace Cert.Gcn.Stats4

open Cert.KernelIdeal Cert.KernelIdeal.Gen Cert.Gcn Cert.Gcn.StatsLib
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-! ## What one band's step leaves in each result's block -/

section Pieces

variable {F : FTy → Type} [FloatOps F]

/-- At band 0 the first result's block is left holding the band's payload. -/
theorem left_A_3 (c : Dev nD) (i : grid4.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond4_0 i)
    (x0 : Vec F S5000x128 .f32) (x1 : Vec F S128x128 .f32) (x2 : Vec F S1x128 .f32) :
    out4_A_3 c i a1 h1 a2 h2 a3 h3 a4 h4 a5 h5 a6 h6 hc x0 x1 x2 = k4_pay3 x0 x1 x2 := by
  unfold out4_A_3
  rw [View.read_writes_eq_canon _ _ _ (cover4_A_3 c i a1 h1 a2 h2 a3 h3 a4 h4 a5 h5 a6 h6 hc x0 x1 x2)]
  unfold kernelRun4_A
  dsimp only
  rw [View.canon_unit_zero hz]
  simp only [View.readAt_eq_ld, h1.read_unread, h2.read_unread, h3.read_unread,
    View.ld_unit_zero (S := S5000x128) hz, View.ld_unit_zero (S := S128x128) hz, View.ld_unit_zero (S := S1x128) hz]

/-- At band 0 the totals row is set to zero, read back, and left holding zero plus the band's totals. -/
theorem left_A_4 (c : Dev nD) (i : grid4.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond4_0 i)
    (x0 : Vec F S5000x128 .f32) (x1 : Vec F S128x128 .f32) (x2 : Vec F S1x128 .f32) :
    out4_A_4 c i a1 h1 a2 h2 a3 h3 a4 h4 a5 h5 a6 h6 hc x0 x1 x2 = k4_pay4 x0 x1 x2 k4_pay1 := by
  unfold out4_A_4
  rw [View.read_writes_eq_canon _ _ _ (cover4_A_4 c i a1 h1 a2 h2 a3 h3 a4 h4 a5 h5 a6 h6 hc x0 x1 x2)]
  unfold kernelRun4_A
  dsimp only
  sl_unfold_words
  rw [View.canon_cons_unit_zero (S := S1x128) hz, View.readCov_unit_zero (S := S1x128) _ hz]
  simp only [View.readAt_eq_ld, h1.read_unread, h2.read_unread, h3.read_unread,
    View.ld_unit_zero (S := S5000x128) hz, View.ld_unit_zero (S := S128x128) hz, View.ld_unit_zero (S := S1x128) hz]

/-- The same for the row of totals of squares. -/
theorem left_A_5 (c : Dev nD) (i : grid4.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond4_0 i)
    (x0 : Vec F S5000x128 .f32) (x1 : Vec F S128x128 .f32) (x2 : Vec F S1x128 .f32) :
    out4_A_5 c i a1 h1 a2 h2 a3 h3 a4 h4 a5 h5 a6 h6 hc x0 x1 x2 = k4_pay5 x0 x1 x2 k4_pay2 := by
  unfold out4_A_5
  rw [View.read_writes_eq_canon _ _ _ (cover4_A_5 c i a1 h1 a2 h2 a3 h3 a4 h4 a5 h5 a6 h6 hc x0 x1 x2)]
  unfold kernelRun4_A
  dsimp only
  sl_unfold_words
  rw [View.canon_cons_unit_zero (S := S1x128) hz, View.readCov_unit_zero (S := S1x128) _ hz]
  simp only [View.readAt_eq_ld, h1.read_unread, h2.read_unread, h3.read_unread,
    View.ld_unit_zero (S := S5000x128) hz, View.ld_unit_zero (S := S128x128) hz, View.ld_unit_zero (S := S1x128) hz]

/-- At a later band the first result's block is again left holding the band's payload. -/
theorem left_B_3 (c : Dev nD) (i : grid4.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond4_0 i)
    (x0 : Vec F S5000x128 .f32) (x1 : Vec F S128x128 .f32) (x2 : Vec F S1x128 .f32) (xo4 xo5 : Vec F S1x128 .f32) :
    out4_B_3 c i a1 h1 a2 h2 a3 h3 a4 h4 a5 h5 a6 h6 hc x0 x1 x2 xo4 xo5 = k4_pay3 x0 x1 x2 := by
  unfold out4_B_3
  rw [View.read_writes_eq_canon _ _ _ (cover4_B_3 c i a1 h1 a2 h2 a3 h3 a4 h4 a5 h5 a6 h6 hc x0 x1 x2 xo4 xo5)]
  unfold kernelRun4_B
  dsimp only
  rw [View.canon_unit_zero hz]
  simp only [View.readAt_eq_ld, h1.read_unread, h2.read_unread, h3.read_unread,
    View.ld_unit_zero (S := S5000x128) hz, View.ld_unit_zero (S := S128x128) hz, View.ld_unit_zero (S := S1x128) hz]

/-- At a later band the totals row, holding xo4, is left holding xo4 plus the band's totals. -/
theorem left_B_4 (c : Dev nD) (i : grid4.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond4_0 i)
    (x0 : Vec F S5000x128 .f32) (x1 : Vec F S128x128 .f32) (x2 : Vec F S1x128 .f32) (xo4 xo5 : Vec F S1x128 .f32) :
    out4_B_4 c i a1 h1 a2 h2 a3 h3 a4 h4 a5 h5 a6 h6 hc x0 x1 x2 xo4 xo5 = k4_pay4 x0 x1 x2 xo4 := by
  unfold out4_B_4
  rw [View.read_writes_eq_canon _ _ _ (cover4_B_4 c i a1 h1 a2 h2 a3 h3 a4 h4 a5 h5 a6 h6 hc x0 x1 x2 xo4 xo5)]
  unfold kernelRun4_B
  dsimp only
  rw [View.canon_unit_zero hz]
  simp only [View.readAt_eq_ld, h1.read_unread, h2.read_unread, h3.read_unread, h5.read_unread,
    View.ld_unit_zero (S := S5000x128) hz, View.ld_unit_zero (S := S128x128) hz, View.ld_unit_zero (S := S1x128) hz]

/-- The same for the row of totals of squares, holding xo5. -/
theorem left_B_5 (c : Dev nD) (i : grid4.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond4_0 i)
    (x0 : Vec F S5000x128 .f32) (x1 : Vec F S128x128 .f32) (x2 : Vec F S1x128 .f32) (xo4 xo5 : Vec F S1x128 .f32) :
    out4_B_5 c i a1 h1 a2 h2 a3 h3 a4 h4 a5 h5 a6 h6 hc x0 x1 x2 xo4 xo5 = k4_pay5 x0 x1 x2 xo5 := by
  unfold out4_B_5
  rw [View.read_writes_eq_canon _ _ _ (cover4_B_5 c i a1 h1 a2 h2 a3 h3 a4 h4 a5 h5 a6 h6 hc x0 x1 x2 xo4 xo5)]
  unfold kernelRun4_B
  dsimp only
  rw [View.canon_unit_zero hz]
  simp only [View.readAt_eq_ld, h1.read_unread, h2.read_unread, h3.read_unread, h6.read_unread,
    View.ld_unit_zero (S := S5000x128) hz, View.ld_unit_zero (S := S128x128) hz, View.ld_unit_zero (S := S1x128) hz]

end Pieces

/-! ## The payloads, over the extended reals -/

/-- The zero row the totals start from. -/
theorem zero_row1 : (k4_pay1 (F := Ideal) : FVec Ideal S1x128 .f32) = fun _ => 0 := by
  funext j
  show Ideal.ofBits .f32 0x00000000#32 = 0
  exact Ideal.ofBits_zero_f32

theorem zero_row2 : (k4_pay2 (F := Ideal) : FVec Ideal S1x128 .f32) = fun _ => 0 := by
  funext j
  show Ideal.ofBits .f32 0x00000000#32 = 0
  exact Ideal.ofBits_zero_f32

/-- The band's payload is `lin` of the band; the band first passes through a cast to its own shape, which changes
    nothing. -/
theorem pay3_eq (x0 : Vec Ideal S5000x128 .f32) (x1 : Vec Ideal S128x128 .f32) (x2 : Vec Ideal S1x128 .f32) :
    k4_pay3 (F := Ideal) x0 x1 x2 = lin x0 x1 x2 := by
  unfold k4_pay3
  refine (band_lin dot_S5000x128_S128x128_S5000x128_1_0_0_1_n_n rfl rfl rfl rfl rfl rfl bitsLt_bf16_f32
    shapeCasts_S128x128_S128x128 shapeCasts_S1x128_S1x128 broadcasts_S1x128_S5000x128
    (shapeCast S5000x128 x0 shapeCasts_S5000x128_S5000x128) x1 x2).trans ?_
  rw [shapeCast_self]

/-- The totals row after a band: what it held plus the band's column totals. -/
theorem pay4_eq (x0 : Vec Ideal S5000x128 .f32) (x1 : Vec Ideal S128x128 .f32) (x2 : Vec Ideal S1x128 .f32)
    (xo : Vec Ideal S1x128 .f32) :
    k4_pay4 (F := Ideal) x0 x1 x2 xo = fun j => xo j + totF (fun x => x) (lin x0 x1 x2) j := by
  unfold k4_pay4
  rw [pay3_eq]
  exact band_tot (lin x0 x1 x2) 0x00000000#32 reduces_S5000x128_S128 (.inl rfl) rfl shapeCasts_S1x128_S1x128
    shapeCasts_S128_S1x128 xo

/-- The row of totals of squares after a band: what it held plus the band's column totals of squares. -/
theorem pay5_eq (x0 : Vec Ideal S5000x128 .f32) (x1 : Vec Ideal S128x128 .f32) (x2 : Vec Ideal S1x128 .f32)
    (xo : Vec Ideal S1x128 .f32) :
    k4_pay5 (F := Ideal) x0 x1 x2 xo = fun j => xo j + totF (fun x => x * x) (lin x0 x1 x2) j := by
  unfold k4_pay5
  rw [pay3_eq]
  exact band_tot (mulf (lin x0 x1 x2) (lin x0 x1 x2)) 0x00000000#32 reduces_S5000x128_S128 (.inl rfl) rfl
    shapeCasts_S1x128_S1x128 shapeCasts_S128_S1x128 xo

/-! ## The blocks the bands read -/

variable (V : (c : Dev nD) → (b : Ref sig .tc) → Buf (Elt Ideal) ((c : Thread nD τ).loc b))

/-- Where each block sits: the input's and the first result's block at band t start at row block t; the weights, the
    bias and the two totals rows are always block 0. Decided over the 20 bands. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

/-- The input's block at band t is rows 5000 t, …, 5000 t + 4999 of the input. -/
theorem blk_in (c : Dev nD) (t : Fin cfg4.N) (p : Fin 5000) (k : Fin 128) (hp : 5000 * t.val + p.val < 100000) :
    (iblk4 V c 0 t : Vec Ideal S5000x128 .f32) (ix2 p k) = V c main_v98 (ix2 ⟨5000 * t.val + p.val, hp⟩ k) := by
  obtain ⟨e0, e1, -⟩ := idx_facts t
  unfold iblk4
  rw [View.read_apply]
  show V c main_v98 _ = V c main_v98 _
  refine congrArg _ ?_
  funext a
  apply Fin.ext
  match a with
  | ⟨0, _⟩ => show win4_0.index t (0 : Fin 2) * 5000 + 1 * p.val = 5000 * t.val + p.val; rw [e0]; omega
  | ⟨1, _⟩ => show win4_0.index t (1 : Fin 2) * 128 + 1 * k.val = k.val; rw [e1]; omega

/-- The weights' block is the whole weight matrix at every band. -/
theorem blk_w (c : Dev nD) (t : Fin cfg4.N) (z : S128x128.Idx) :
    (iblk4 V c 1 t : Vec Ideal S128x128 .f32) z = V c main_v101 z := by
  obtain ⟨-, -, e0, e1, -⟩ := idx_facts t
  unfold iblk4
  rw [View.read_apply]
  show V c main_v101 _ = V c main_v101 _
  refine congrArg _ ?_
  funext a
  apply Fin.ext
  match a with
  | ⟨0, _⟩ => show win4_1.index t (0 : Fin 2) * 128 + 1 * (z 0).val = (z 0).val; rw [e0]; omega
  | ⟨1, _⟩ => show win4_1.index t (1 : Fin 2) * 128 + 1 * (z 1).val = (z 1).val; rw [e1]; omega

/-- The bias's block is the whole bias row at every band. -/
theorem blk_b (c : Dev nD) (t : Fin cfg4.N) (z : S1x128.Idx) :
    (iblk4 V c 2 t : Vec Ideal S1x128 .f32) z = V c main_v104 z := by
  obtain ⟨-, -, -, -, e0, e1, -⟩ := idx_facts t
  unfold iblk4
  rw [View.read_apply]
  show V c main_v104 _ = V c main_v104 _
  refine congrArg _ ?_
  funext a
  apply Fin.ext
  match a with
  | ⟨0, _⟩ => show win4_2.index t (0 : Fin 2) * 1 + 1 * (z 0).val = (z 0).val; rw [e0]; omega
  | ⟨1, _⟩ => show win4_2.index t (1 : Fin 2) * 128 + 1 * (z 1).val = (z 1).val; rw [e1]; omega

/-- `lin` of band t's blocks, entry (p, q), is entry (5000 t + p, q) of `lin` of the whole arrays. -/
theorem band_entry (c : Dev nD) (t : Fin cfg4.N) (p : Fin 5000) (q : Fin 128) (hp : 5000 * t.val + p.val < 100000) :
    lin (iblk4 V c 0 t : Vec Ideal S5000x128 .f32) (iblk4 V c 1 t : Vec Ideal S128x128 .f32)
        (iblk4 V c 2 t : Vec Ideal S1x128 .f32) (ix2 p q)
      = (lin (V c main_v98) (V c main_v101) (V c main_v104)) (ix2 ⟨5000 * t.val + p.val, hp⟩ q) :=
  lin_band (V c main_v98) (V c main_v101) (V c main_v104) _ _ _ (5000 * t.val) (fun p k hp => blk_in V c t p k hp)
    (blk_w V c t) (blk_b V c t) p q hp

/-! ## What the three blocks hold after each band -/

/-- After any band the first result's block holds `lin` of the band's blocks. -/
theorem first_after (c : Dev nD) (t : Fin cfg4.N) :
    (outsAt4 V c t.val t.isLt).1 = lin (iblk4 V c 0 t : Vec Ideal S5000x128 .f32)
      (iblk4 V c 1 t : Vec Ideal S128x128 .f32) (iblk4 V c 2 t : Vec Ideal S1x128 .f32) := by
  by_cases h0 : t.val % 20 = 0
  · rw [outsAt4_A V c t h0]
    dsimp only
    refine (left_A_3 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) ((hcond4_0 t).mpr h0) (iblk4 V c 0 t) (iblk4 V c 1 t) (iblk4 V c 2 t)).trans ?_
    exact pay3_eq (iblk4 V c 0 t) (iblk4 V c 1 t) (iblk4 V c 2 t)
  · rw [outsAt4_B V c t h0]
    dsimp only
    refine (left_B_3 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (fun h => h0 ((hcond4_0 t).mp h)) (iblk4 V c 0 t) (iblk4 V c 1 t) (iblk4 V c 2 t)
      (outsAt4 V c (t.val - 1) (Nat.lt_of_le_of_lt (Nat.sub_le _ _) t.isLt)).2.1 (outsAt4 V c (t.val - 1) (Nat.lt_of_le_of_lt (Nat.sub_le _ _) t.isLt)).2.2).trans ?_
    exact pay3_eq (iblk4 V c 0 t) (iblk4 V c 1 t) (iblk4 V c 2 t)

/-- After band 0 the totals row holds zero plus band 0's totals. -/
theorem tot_first (c : Dev nD) (h : 0 < cfg4.N) :
    (outsAt4 V c 0 h).2.1 = fun j => 0 + totF (fun x => x) (lin (iblk4 V c 0 ⟨0, h⟩ : Vec Ideal S5000x128 .f32)
      (iblk4 V c 1 ⟨0, h⟩ : Vec Ideal S128x128 .f32) (iblk4 V c 2 ⟨0, h⟩ : Vec Ideal S1x128 .f32)) j := by
  have e := congrArg (fun x => x.2.1) (outsAt4_A V c ⟨0, h⟩ rfl)
  refine e.trans ?_
  let t : Fin cfg4.N := ⟨0, h⟩
  refine (left_A_4 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) ((hcond4_0 t).mpr rfl) (iblk4 V c 0 t) (iblk4 V c 1 t) (iblk4 V c 2 t)).trans ?_
  rw [pay4_eq, zero_row1]

/-- After a later band it holds what it held plus that band's totals. -/
theorem tot_next (c : Dev nD) (n : ℕ) (h : n + 1 < cfg4.N) :
    (outsAt4 V c (n + 1) h).2.1 = fun j => (outsAt4 V c n (Nat.lt_of_succ_lt h)).2.1 j
      + totF (fun x => x) (lin (iblk4 V c 0 ⟨n + 1, h⟩ : Vec Ideal S5000x128 .f32)
          (iblk4 V c 1 ⟨n + 1, h⟩ : Vec Ideal S128x128 .f32) (iblk4 V c 2 ⟨n + 1, h⟩ : Vec Ideal S1x128 .f32)) j := by
  have hN : cfg4.N = 20 := N_4
  let t : Fin cfg4.N := ⟨n + 1, h⟩
  have hB : ¬t.val % 20 = 0 := by show ¬(n + 1) % 20 = 0; omega
  have e := congrArg (fun x => x.2.1) (outsAt4_B V c t hB)
  refine e.trans ?_
  refine (left_B_4 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (fun hh => hB ((hcond4_0 t).mp hh)) (iblk4 V c 0 t) (iblk4 V c 1 t) (iblk4 V c 2 t)
    (outsAt4 V c (t.val - 1) (Nat.lt_of_le_of_lt (Nat.sub_le _ _) t.isLt)).2.1 (outsAt4 V c (t.val - 1) (Nat.lt_of_le_of_lt (Nat.sub_le _ _) t.isLt)).2.2).trans ?_
  rw [pay4_eq]
  rfl

/-- The same two steps for the row of totals of squares. -/
theorem sq_first (c : Dev nD) (h : 0 < cfg4.N) :
    (outsAt4 V c 0 h).2.2 = fun j => 0 + totF (fun x => x * x) (lin (iblk4 V c 0 ⟨0, h⟩ : Vec Ideal S5000x128 .f32)
      (iblk4 V c 1 ⟨0, h⟩ : Vec Ideal S128x128 .f32) (iblk4 V c 2 ⟨0, h⟩ : Vec Ideal S1x128 .f32)) j := by
  have e := congrArg (fun x => x.2.2) (outsAt4_A V c ⟨0, h⟩ rfl)
  refine e.trans ?_
  let t : Fin cfg4.N := ⟨0, h⟩
  refine (left_A_5 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) ((hcond4_0 t).mpr rfl) (iblk4 V c 0 t) (iblk4 V c 1 t) (iblk4 V c 2 t)).trans ?_
  rw [pay5_eq, zero_row2]

theorem sq_next (c : Dev nD) (n : ℕ) (h : n + 1 < cfg4.N) :
    (outsAt4 V c (n + 1) h).2.2 = fun j => (outsAt4 V c n (Nat.lt_of_succ_lt h)).2.2 j
      + totF (fun x => x * x) (lin (iblk4 V c 0 ⟨n + 1, h⟩ : Vec Ideal S5000x128 .f32)
          (iblk4 V c 1 ⟨n + 1, h⟩ : Vec Ideal S128x128 .f32) (iblk4 V c 2 ⟨n + 1, h⟩ : Vec Ideal S1x128 .f32)) j := by
  have hN : cfg4.N = 20 := N_4
  let t : Fin cfg4.N := ⟨n + 1, h⟩
  have hB : ¬t.val % 20 = 0 := by show ¬(n + 1) % 20 = 0; omega
  have e := congrArg (fun x => x.2.2) (outsAt4_B V c t hB)
  refine e.trans ?_
  refine (left_B_5 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (fun hh => hB ((hcond4_0 t).mp hh)) (iblk4 V c 0 t) (iblk4 V c 1 t) (iblk4 V c 2 t)
    (outsAt4 V c (t.val - 1) (Nat.lt_of_le_of_lt (Nat.sub_le _ _) t.isLt)).2.1 (outsAt4 V c (t.val - 1) (Nat.lt_of_le_of_lt (Nat.sub_le _ _) t.isLt)).2.2).trans ?_
  rw [pay5_eq]
  rfl

/-- So after band n the totals row holds the totals of f of the entries over the first 5000 (n + 1) rows of
    `lin` of the whole arrays: the running totals in closed form. -/
theorem tot_closed (c : Dev nD) (n : ℕ) (h : n < cfg4.N) :
    (outsAt4 V c n h).2.1
      = fun j => ∑ r ∈ Finset.range (5000 * (n + 1)), rowAt (lin (V c main_v98) (V c main_v101) (V c main_v104)) r (j 1) :=
  totals_closed (M := 100000) (N := 128) (T := 5000) (P := cfg4.N) (by rw [show cfg4.N = 20 from N_4])
    (fun x => x) (lin (V c main_v98) (V c main_v101) (V c main_v104))
    (fun n h => lin (iblk4 V c 0 ⟨n, h⟩ : Vec Ideal S5000x128 .f32) (iblk4 V c 1 ⟨n, h⟩ : Vec Ideal S128x128 .f32)
      (iblk4 V c 2 ⟨n, h⟩ : Vec Ideal S1x128 .f32))
    (fun n hn p q hp => band_entry V c ⟨n, hn⟩ p q hp)
    (fun n h => (outsAt4 V c n h).2.1) (tot_first V c) (tot_next V c) n h

theorem sq_closed (c : Dev nD) (n : ℕ) (h : n < cfg4.N) :
    (outsAt4 V c n h).2.2
      = fun j => ∑ r ∈ Finset.range (5000 * (n + 1)), rowAt (lin (V c main_v98) (V c main_v101) (V c main_v104)) r (j 1) * rowAt (lin (V c main_v98) (V c main_v101) (V c main_v104)) r (j 1) :=
  totals_closed (M := 100000) (N := 128) (T := 5000) (P := cfg4.N) (by rw [show cfg4.N = 20 from N_4])
    (fun x => x * x) (lin (V c main_v98) (V c main_v101) (V c main_v104))
    (fun n h => lin (iblk4 V c 0 ⟨n, h⟩ : Vec Ideal S5000x128 .f32) (iblk4 V c 1 ⟨n, h⟩ : Vec Ideal S128x128 .f32)
      (iblk4 V c 2 ⟨n, h⟩ : Vec Ideal S1x128 .f32))
    (fun n hn p q hp => band_entry V c ⟨n, hn⟩ p q hp)
    (fun n h => (outsAt4 V c n h).2.2) (sq_first V c) (sq_next V c) n h

/-- The same at any index y of the band's block and any index i of the whole result whose row is 5000 t plus y's and
    whose column is y's. -/
theorem band_at (c : Dev nD) (t : Fin cfg4.N) (y : S5000x128.Idx) (i : S100000x128.Idx)
    (hi0 : (i 0).val = 5000 * t.val + (y 0).val) (hi1 : (i 1).val = (y 1).val) :
    lin (iblk4 V c 0 t : Vec Ideal S5000x128 .f32) (iblk4 V c 1 t : Vec Ideal S128x128 .f32)
        (iblk4 V c 2 t : Vec Ideal S1x128 .f32) y = (lin (V c main_v98) (V c main_v101) (V c main_v104)) i := by
  obtain ⟨p, q, rfl⟩ : ∃ (p : Fin 5000) (q : Fin 128), y = ix2 p q := ⟨y 0, y 1, eq_ix2 y⟩
  obtain ⟨p', q', rfl⟩ : ∃ (p' : Fin 100000) (q' : Fin 128), i = ix2 p' q' := ⟨i 0, i 1, eq_ix2 i⟩
  have h0 : p'.val = 5000 * t.val + p.val := hi0
  have h1 : q' = q := Fin.ext hi1
  subst h1
  have hp : 5000 * t.val + p.val < 100000 := h0 ▸ p'.isLt
  have hp' : p' = ⟨5000 * t.val + p.val, hp⟩ := Fin.ext h0
  rw [hp']
  exact band_entry V c t p q' hp

/-! ## The three results after the last band -/

/-- What band t writes to the first result is block t of `lin` of the whole arrays. -/
theorem flushed3 (c : Dev nD) (t : Fin cfg4.N) :
    (dat4 V c).flushed 3 t = ((cfg4.win 3).blk t).view.read (Elt Ideal) (lin (V c main_v98) (V c main_v101) (V c main_v104)) := by
  obtain ⟨-, -, -, -, -, -, e0, e1, -⟩ := idx_facts t
  show (cfg4.win 3).cut (grid4.coords t) ((dat4 V c).after 3 t) = _
  rw [after4_3, first_after V c t]
  funext y
  rw [View.read_apply]
  refine band_at V c t y _ ?_ ?_
  · show win4_3.index t (0 : Fin 2) * 5000 + 1 * (y 0).val = 5000 * t.val + (y 0).val
    rw [e0]; omega
  · show win4_3.index t (1 : Fin 2) * 128 + 1 * (y 1).val = (y 1).val
    rw [e1]; omega

/-- An index lies in band t's block of the first result iff, on each axis, its coordinate lies in the block's range. -/
theorem mem_blk3 (t : Fin cfg4.N) (i : S100000x128.Idx) :
    i ∈ ((cfg4.win 3).blk t).view.set ↔ ∀ a : Fin 2, win4_3.index t a * S5000x128.size a ≤ (i a).val
      ∧ (i a).val < win4_3.index t a * S5000x128.size a + S5000x128.size a := by
  show i ∈ ((View.whole main_v105_0).slice (win4_3.rect t)).set ↔ _
  rw [View.set_slice_whole, Rect.mem_set_unit]
  exact Iff.rfl

/-- Row r of the first result is written by band r / 5000. -/
theorem cover3 (i : S100000x128.Idx) :
    ∃ t : Fin cfg4.N, (cfg4.win 3).flush t = true ∧ i ∈ ((cfg4.win 3).blk t).view.set := by
  have hN : cfg4.N = 20 := N_4
  have hi0 : (i 0).val < 100000 := (i 0).isLt
  have hi1 : (i 1).val < 128 := (i 1).isLt
  have ht : (i 0).val / 5000 < cfg4.N := by rw [hN]; omega
  obtain ⟨-, -, -, -, -, -, e0, e1, -⟩ := idx_facts ⟨(i 0).val / 5000, ht⟩
  refine ⟨⟨(i 0).val / 5000, ht⟩, flush4_3 _, ?_⟩
  rw [mem_blk3]
  intro a
  match a with
  | ⟨0, _⟩ =>
    show win4_3.index ⟨(i 0).val / 5000, ht⟩ (0 : Fin 2) * 5000 ≤ (i 0).val
      ∧ (i 0).val < win4_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win4_3.index ⟨(i 0).val / 5000, ht⟩ (1 : Fin 2) * 128 ≤ (i 1).val
      ∧ (i 1).val < win4_3.index ⟨(i 0).val / 5000, ht⟩ (1 : Fin 2) * 128 + 128
    rw [e1]; omega

/-- The first result is `lin` of the whole arrays: the 20 bands tile its rows. -/
theorem lin_arr (c : Dev nD) :
    (dat4 (F := Ideal) V c).arrAt 3 cfg4.N = lin (V c main_v98) (V c main_v101) (V c main_v104) :=
  (dat4 V c).arrAt_eq_of_cover 3 (lin (V c main_v98) (V c main_v101) (V c main_v104)) (fun t _ => flushed3 V c t) (cover3)

/-- The band after which the two rows are written out is the last one. -/
theorem last_of_flush4 (t : Fin cfg4.N) (hf : (cfg4.win 4).flush t = true) : t.val = 19 := by
  have hN : cfg4.N = 20 := N_4
  have := (flush4_4 t).mp hf
  have := t.isLt
  omega

theorem last_of_flush5 (t : Fin cfg4.N) (hf : (cfg4.win 5).flush t = true) : t.val = 19 := by
  have hN : cfg4.N = 20 := N_4
  have := (flush4_5 t).mp hf
  have := t.isLt
  omega

theorem rows_all : 5000 * (19 + 1) = 100000 := by norm_num

/-- After the last band the totals row holds the column totals of all 100000 rows. -/
theorem tot_last (c : Dev nD) (t : Fin cfg4.N) (h19 : t.val = 19) :
    (outsAt4 V c t.val t.isLt).2.1 = tot (lin (V c main_v98) (V c main_v101) (V c main_v104)) := by
  rw [tot_closed V c t.val t.isLt, h19, rows_all, tot_eq_totF]
  exact range_full (fun x => x) (lin (V c main_v98) (V c main_v101) (V c main_v104))

theorem sq_last (c : Dev nD) (t : Fin cfg4.N) (h19 : t.val = 19) :
    (outsAt4 V c t.val t.isLt).2.2 = totSq (lin (V c main_v98) (V c main_v101) (V c main_v104)) := by
  rw [sq_closed V c t.val t.isLt, h19, rows_all, totSq_eq_totF]
  exact range_full (fun x => x * x) (lin (V c main_v98) (V c main_v101) (V c main_v104))

/-- Through the block the last band writes, a one-row array reads as itself: that block is the whole array. Stated for
    any row G, so that nothing about G is opened. -/
theorem read_row4 (t : Fin cfg4.N) (G : S1x128.Idx → Elt Ideal .f32) :
    (cfg4.win 4).cut (grid4.coords t) G = ((cfg4.win 4).blk t).view.read (Elt Ideal) G := by
  obtain ⟨-, -, -, -, -, -, -, -, e0, e1, -⟩ := idx_facts t
  funext y
  rw [View.read_apply]
  refine apply_congr2 G y _ ?_ ?_
  · show win4_4.index t (0 : Fin 2) * 1 + 1 * (y 0).val = (y 0).val
    rw [e0]; omega
  · show win4_4.index t (1 : Fin 2) * 128 + 1 * (y 1).val = (y 1).val
    rw [e1]; omega

/-- What the last band writes to the second result is the whole row `tot`. -/
theorem flushed4 (c : Dev nD) (t : Fin cfg4.N) (hf : (cfg4.win 4).flush t = true) :
    (dat4 V c).flushed 4 t = ((cfg4.win 4).blk t).view.read (Elt Ideal) (tot (lin (V c main_v98) (V c main_v101) (V c main_v104))) := by
  show (cfg4.win 4).cut (grid4.coords t) ((dat4 V c).after 4 t) = _
  rw [after4_4, tot_last V c t (last_of_flush4 t hf)]
  exact read_row4 t (tot (lin (V c main_v98) (V c main_v101) (V c main_v104)))

theorem read_row5 (t : Fin cfg4.N) (G : S1x128.Idx → Elt Ideal .f32) :
    (cfg4.win 5).cut (grid4.coords t) G = ((cfg4.win 5).blk t).view.read (Elt Ideal) G := by
  obtain ⟨-, -, -, -, -, -, -, -, -, -, e0, e1⟩ := idx_facts t
  funext y
  rw [View.read_apply]
  refine apply_congr2 G y _ ?_ ?_
  · show win4_5.index t (0 : Fin 2) * 1 + 1 * (y 0).val = (y 0).val
    rw [e0]; omega
  · show win4_5.index t (1 : Fin 2) * 128 + 1 * (y 1).val = (y 1).val
    rw [e1]; omega

/-- What the last band writes to the third result is the whole row `totSq`. -/
theorem flushed5 (c : Dev nD) (t : Fin cfg4.N) (hf : (cfg4.win 5).flush t = true) :
    (dat4 V c).flushed 5 t = ((cfg4.win 5).blk t).view.read (Elt Ideal) (totSq (lin (V c main_v98) (V c main_v101) (V c main_v104))) := by
  show (cfg4.win 5).cut (grid4.coords t) ((dat4 V c).after 5 t) = _
  rw [after4_5, sq_last V c t (last_of_flush5 t hf)]
  exact read_row5 t (totSq (lin (V c main_v98) (V c main_v101) (V c main_v104)))

theorem mem_blk4 (t : Fin cfg4.N) (i : S1x128.Idx) :
    i ∈ ((cfg4.win 4).blk t).view.set ↔ ∀ a : Fin 2, win4_4.index t a * S1x128.size a ≤ (i a).val
      ∧ (i a).val < win4_4.index t a * S1x128.size a + S1x128.size a := by
  show i ∈ ((View.whole main_v105_1).slice (win4_4.rect t)).set ↔ _
  rw [View.set_slice_whole, Rect.mem_set_unit]
  exact Iff.rfl

theorem mem_blk5 (t : Fin cfg4.N) (i : S1x128.Idx) :
    i ∈ ((cfg4.win 5).blk t).view.set ↔ ∀ a : Fin 2, win4_5.index t a * S1x128.size a ≤ (i a).val
      ∧ (i a).val < win4_5.index t a * S1x128.size a + S1x128.size a := by
  show i ∈ ((View.whole main_v105_2).slice (win4_5.rect t)).set ↔ _
  rw [View.set_slice_whole, Rect.mem_set_unit]
  exact Iff.rfl

/-- Every entry of a one-row result lies in the block the last band writes. -/
theorem cover4 (i : S1x128.Idx) :
    ∃ t : Fin cfg4.N, (cfg4.win 4).flush t = true ∧ i ∈ ((cfg4.win 4).blk t).view.set := by
  have hN : cfg4.N = 20 := N_4
  have hi0 : (i 0).val < 1 := (i 0).isLt
  have hi1 : (i 1).val < 128 := (i 1).isLt
  have ht : 19 < cfg4.N := by rw [hN]; omega
  obtain ⟨-, -, -, -, -, -, -, -, e0, e1, -⟩ := idx_facts ⟨19, ht⟩
  refine ⟨⟨19, ht⟩, (flush4_4 _).mpr rfl, ?_⟩
  rw [mem_blk4]
  intro a
  match a with
  | ⟨0, _⟩ =>
    show win4_4.index ⟨19, ht⟩ (0 : Fin 2) * 1 ≤ (i 0).val ∧ (i 0).val < win4_4.index ⟨19, ht⟩ (0 : Fin 2) * 1 + 1
    rw [e0]; omega
  | ⟨1, _⟩ =>
    show win4_4.index ⟨19, ht⟩ (1 : Fin 2) * 128 ≤ (i 1).val ∧ (i 1).val < win4_4.index ⟨19, ht⟩ (1 : Fin 2) * 128 + 128
    rw [e1]; omega

theorem cover5 (i : S1x128.Idx) :
    ∃ t : Fin cfg4.N, (cfg4.win 5).flush t = true ∧ i ∈ ((cfg4.win 5).blk t).view.set := by
  have hN : cfg4.N = 20 := N_4
  have hi0 : (i 0).val < 1 := (i 0).isLt
  have hi1 : (i 1).val < 128 := (i 1).isLt
  have ht : 19 < cfg4.N := by rw [hN]; omega
  obtain ⟨-, -, -, -, -, -, -, -, -, -, e0, e1⟩ := idx_facts ⟨19, ht⟩
  refine ⟨⟨19, ht⟩, (flush4_5 _).mpr rfl, ?_⟩
  rw [mem_blk5]
  intro a
  match a with
  | ⟨0, _⟩ =>
    show win4_5.index ⟨19, ht⟩ (0 : Fin 2) * 1 ≤ (i 0).val ∧ (i 0).val < win4_5.index ⟨19, ht⟩ (0 : Fin 2) * 1 + 1
    rw [e0]; omega
  | ⟨1, _⟩ =>
    show win4_5.index ⟨19, ht⟩ (1 : Fin 2) * 128 ≤ (i 1).val ∧ (i 1).val < win4_5.index ⟨19, ht⟩ (1 : Fin 2) * 128 + 128
    rw [e1]; omega

/-- The second result is the column totals of `lin` of the whole arrays. -/
theorem tot_arr (c : Dev nD) :
    (dat4 (F := Ideal) V c).arrAt 4 cfg4.N = tot (lin (V c main_v98) (V c main_v101) (V c main_v104)) :=
  (dat4 V c).arrAt_eq_of_cover 4 (tot (lin (V c main_v98) (V c main_v101) (V c main_v104))) (flushed4 V c) (cover4)

/-- The third result is the column totals of the squares of `lin` of the whole arrays. -/
theorem totSq_arr (c : Dev nD) :
    (dat4 (F := Ideal) V c).arrAt 5 cfg4.N = totSq (lin (V c main_v98) (V c main_v101) (V c main_v104)) :=
  (dat4 V c).arrAt_eq_of_cover 5 (totSq (lin (V c main_v98) (V c main_v101) (V c main_v104))) (flushed5 V c) (cover5)

end Cert.Gcn.Stats4

end
-- ==== Proof.Stats6.lean ====
/-
  A statistics stage of the network: the rows of the input times W plus a one-row bias, together with the column
  totals of the result and of its squares.

  The stage walks the 100000 rows in 20 bands of 5000. At band t it forms the band B_t of `lin A W b` (rows 5000 t, …,
  5000 t + 4999): the band of A times W plus the bias row repeated down the rows. It writes B_t to its place in the first
  result. Into a second and a third result, each one row of 128 columns, it adds the column totals of B_t and of the
  squares of B_t; both rows are set to zero before band 0 and are written out after band 19 only. So after band n the two
  rows hold the totals over the first 5000 (n + 1) rows of `lin A W b`, and after band 19 over all 100000 rows: `tot`
  and `totSq` of `lin A W b`. The first result is `lin A W b` because the bands tile the rows.
-/
import proofs.«143695_j28905129902721_1_alg».proof.Proof.Spec
import proofs.«143695_j28905129902721_1_alg».proof.Proof.Gen.KernelIdeal.Frame
import proofs.«143695_j28905129902721_1_alg».proof.Proof.LibFirstAxis
import proofs.«143695_j28905129902721_1_alg».proof.Proof.StatsLib
import Idealize.ShloMosaic.Lib.Pipeline.Value
import Idealize.ShloMosaic.Lib.Tactic

noncomputable section

open scoped BigOperators

namespace Cert.Gcn.Stats6

open Cert.KernelIdeal Cert.KernelIdeal.Gen Cert.Gcn Cert.Gcn.StatsLib
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-! ## What one band's step leaves in each result's block -/

section Pieces

variable {F : FTy → Type} [FloatOps F]

/-- At band 0 the first result's block is left holding the band's payload. -/
theorem left_A_3 (c : Dev nD) (i : grid6.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond6_0 i)
    (x0 : Vec F S5000x128 .f32) (x1 : Vec F S128x128 .f32) (x2 : Vec F S1x128 .f32) :
    out6_A_3 c i a1 h1 a2 h2 a3 h3 a4 h4 a5 h5 a6 h6 hc x0 x1 x2 = k6_pay3 x0 x1 x2 := by
  unfold out6_A_3
  rw [View.read_writes_eq_canon _ _ _ (cover6_A_3 c i a1 h1 a2 h2 a3 h3 a4 h4 a5 h5 a6 h6 hc x0 x1 x2)]
  unfold kernelRun6_A
  dsimp only
  rw [View.canon_unit_zero hz]
  simp only [View.readAt_eq_ld, h1.read_unread, h2.read_unread, h3.read_unread,
    View.ld_unit_zero (S := S5000x128) hz, View.ld_unit_zero (S := S128x128) hz, View.ld_unit_zero (S := S1x128) hz]

/-- At band 0 the totals row is set to zero, read back, and left holding zero plus the band's totals. -/
theorem left_A_4 (c : Dev nD) (i : grid6.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond6_0 i)
    (x0 : Vec F S5000x128 .f32) (x1 : Vec F S128x128 .f32) (x2 : Vec F S1x128 .f32) :
    out6_A_4 c i a1 h1 a2 h2 a3 h3 a4 h4 a5 h5 a6 h6 hc x0 x1 x2 = k6_pay4 x0 x1 x2 k6_pay1 := by
  unfold out6_A_4
  rw [View.read_writes_eq_canon _ _ _ (cover6_A_4 c i a1 h1 a2 h2 a3 h3 a4 h4 a5 h5 a6 h6 hc x0 x1 x2)]
  unfold kernelRun6_A
  dsimp only
  sl_unfold_words
  rw [View.canon_cons_unit_zero (S := S1x128) hz, View.readCov_unit_zero (S := S1x128) _ hz]
  simp only [View.readAt_eq_ld, h1.read_unread, h2.read_unread, h3.read_unread,
    View.ld_unit_zero (S := S5000x128) hz, View.ld_unit_zero (S := S128x128) hz, View.ld_unit_zero (S := S1x128) hz]

/-- The same for the row of totals of squares. -/
theorem left_A_5 (c : Dev nD) (i : grid6.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond6_0 i)
    (x0 : Vec F S5000x128 .f32) (x1 : Vec F S128x128 .f32) (x2 : Vec F S1x128 .f32) :
    out6_A_5 c i a1 h1 a2 h2 a3 h3 a4 h4 a5 h5 a6 h6 hc x0 x1 x2 = k6_pay5 x0 x1 x2 k6_pay2 := by
  unfold out6_A_5
  rw [View.read_writes_eq_canon _ _ _ (cover6_A_5 c i a1 h1 a2 h2 a3 h3 a4 h4 a5 h5 a6 h6 hc x0 x1 x2)]
  unfold kernelRun6_A
  dsimp only
  sl_unfold_words
  rw [View.canon_cons_unit_zero (S := S1x128) hz, View.readCov_unit_zero (S := S1x128) _ hz]
  simp only [View.readAt_eq_ld, h1.read_unread, h2.read_unread, h3.read_unread,
    View.ld_unit_zero (S := S5000x128) hz, View.ld_unit_zero (S := S128x128) hz, View.ld_unit_zero (S := S1x128) hz]

/-- At a later band the first result's block is again left holding the band's payload. -/
theorem left_B_3 (c : Dev nD) (i : grid6.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond6_0 i)
    (x0 : Vec F S5000x128 .f32) (x1 : Vec F S128x128 .f32) (x2 : Vec F S1x128 .f32) (xo4 xo5 : Vec F S1x128 .f32) :
    out6_B_3 c i a1 h1 a2 h2 a3 h3 a4 h4 a5 h5 a6 h6 hc x0 x1 x2 xo4 xo5 = k6_pay3 x0 x1 x2 := by
  unfold out6_B_3
  rw [View.read_writes_eq_canon _ _ _ (cover6_B_3 c i a1 h1 a2 h2 a3 h3 a4 h4 a5 h5 a6 h6 hc x0 x1 x2 xo4 xo5)]
  unfold kernelRun6_B
  dsimp only
  rw [View.canon_unit_zero hz]
  simp only [View.readAt_eq_ld, h1.read_unread, h2.read_unread, h3.read_unread,
    View.ld_unit_zero (S := S5000x128) hz, View.ld_unit_zero (S := S128x128) hz, View.ld_unit_zero (S := S1x128) hz]

/-- At a later band the totals row, holding xo4, is left holding xo4 plus the band's totals. -/
theorem left_B_4 (c : Dev nD) (i : grid6.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond6_0 i)
    (x0 : Vec F S5000x128 .f32) (x1 : Vec F S128x128 .f32) (x2 : Vec F S1x128 .f32) (xo4 xo5 : Vec F S1x128 .f32) :
    out6_B_4 c i a1 h1 a2 h2 a3 h3 a4 h4 a5 h5 a6 h6 hc x0 x1 x2 xo4 xo5 = k6_pay4 x0 x1 x2 xo4 := by
  unfold out6_B_4
  rw [View.read_writes_eq_canon _ _ _ (cover6_B_4 c i a1 h1 a2 h2 a3 h3 a4 h4 a5 h5 a6 h6 hc x0 x1 x2 xo4 xo5)]
  unfold kernelRun6_B
  dsimp only
  rw [View.canon_unit_zero hz]
  simp only [View.readAt_eq_ld, h1.read_unread, h2.read_unread, h3.read_unread, h5.read_unread,
    View.ld_unit_zero (S := S5000x128) hz, View.ld_unit_zero (S := S128x128) hz, View.ld_unit_zero (S := S1x128) hz]

/-- The same for the row of totals of squares, holding xo5. -/
theorem left_B_5 (c : Dev nD) (i : grid6.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond6_0 i)
    (x0 : Vec F S5000x128 .f32) (x1 : Vec F S128x128 .f32) (x2 : Vec F S1x128 .f32) (xo4 xo5 : Vec F S1x128 .f32) :
    out6_B_5 c i a1 h1 a2 h2 a3 h3 a4 h4 a5 h5 a6 h6 hc x0 x1 x2 xo4 xo5 = k6_pay5 x0 x1 x2 xo5 := by
  unfold out6_B_5
  rw [View.read_writes_eq_canon _ _ _ (cover6_B_5 c i a1 h1 a2 h2 a3 h3 a4 h4 a5 h5 a6 h6 hc x0 x1 x2 xo4 xo5)]
  unfold kernelRun6_B
  dsimp only
  rw [View.canon_unit_zero hz]
  simp only [View.readAt_eq_ld, h1.read_unread, h2.read_unread, h3.read_unread, h6.read_unread,
    View.ld_unit_zero (S := S5000x128) hz, View.ld_unit_zero (S := S128x128) hz, View.ld_unit_zero (S := S1x128) hz]

end Pieces

/-! ## The payloads, over the extended reals -/

/-- The zero row the totals start from. -/
theorem zero_row1 : (k6_pay1 (F := Ideal) : FVec Ideal S1x128 .f32) = fun _ => 0 := by
  funext j
  show Ideal.ofBits .f32 0x00000000#32 = 0
  exact Ideal.ofBits_zero_f32

theorem zero_row2 : (k6_pay2 (F := Ideal) : FVec Ideal S1x128 .f32) = fun _ => 0 := by
  funext j
  show Ideal.ofBits .f32 0x00000000#32 = 0
  exact Ideal.ofBits_zero_f32

/-- The band's payload is `lin` of the band; the band first passes through a cast to its own shape, which changes
    nothing. -/
theorem pay3_eq (x0 : Vec Ideal S5000x128 .f32) (x1 : Vec Ideal S128x128 .f32) (x2 : Vec Ideal S1x128 .f32) :
    k6_pay3 (F := Ideal) x0 x1 x2 = lin x0 x1 x2 := by
  unfold k6_pay3
  refine (band_lin dot_S5000x128_S128x128_S5000x128_1_0_0_1_n_n rfl rfl rfl rfl rfl rfl bitsLt_bf16_f32
    shapeCasts_S128x128_S128x128 shapeCasts_S1x128_S1x128 broadcasts_S1x128_S5000x128
    (shapeCast S5000x128 x0 shapeCasts_S5000x128_S5000x128) x1 x2).trans ?_
  rw [shapeCast_self]

/-- The totals row after a band: what it held plus the band's column totals. -/
theorem pay4_eq (x0 : Vec Ideal S5000x128 .f32) (x1 : Vec Ideal S128x128 .f32) (x2 : Vec Ideal S1x128 .f32)
    (xo : Vec Ideal S1x128 .f32) :
    k6_pay4 (F := Ideal) x0 x1 x2 xo = fun j => xo j + totF (fun x => x) (lin x0 x1 x2) j := by
  unfold k6_pay4
  rw [pay3_eq]
  exact band_tot (lin x0 x1 x2) 0x00000000#32 reduces_S5000x128_S128 (.inl rfl) rfl shapeCasts_S1x128_S1x128
    shapeCasts_S128_S1x128 xo

/-- The row of totals of squares after a band: what it held plus the band's column totals of squares. -/
theorem pay5_eq (x0 : Vec Ideal S5000x128 .f32) (x1 : Vec Ideal S128x128 .f32) (x2 : Vec Ideal S1x128 .f32)
    (xo : Vec Ideal S1x128 .f32) :
    k6_pay5 (F := Ideal) x0 x1 x2 xo = fun j => xo j + totF (fun x => x * x) (lin x0 x1 x2) j := by
  unfold k6_pay5
  rw [pay3_eq]
  exact band_tot (mulf (lin x0 x1 x2) (lin x0 x1 x2)) 0x00000000#32 reduces_S5000x128_S128 (.inl rfl) rfl
    shapeCasts_S1x128_S1x128 shapeCasts_S128_S1x128 xo

/-! ## The blocks the bands read -/

variable (V : (c : Dev nD) → (b : Ref sig .tc) → Buf (Elt Ideal) ((c : Thread nD τ).loc b))

/-- Where each block sits: the input's and the first result's block at band t start at row block t; the weights, the
    bias and the two totals rows are always block 0. Decided over the 20 bands. -/
theorem idx_facts : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0 :=
  (by decide +kernel : ∀ t : Fin grid6.N, _)

/-- The input's block at band t is rows 5000 t, …, 5000 t + 4999 of the input. -/
theorem blk_in (c : Dev nD) (t : Fin cfg6.N) (p : Fin 5000) (k : Fin 128) (hp : 5000 * t.val + p.val < 100000) :
    (iblk6 V c 0 t : Vec Ideal S5000x128 .f32) (ix2 p k) = V c main_v135 (ix2 ⟨5000 * t.val + p.val, hp⟩ k) := by
  obtain ⟨e0, e1, -⟩ := idx_facts t
  unfold iblk6
  rw [View.read_apply]
  show V c main_v135 _ = V c main_v135 _
  refine congrArg _ ?_
  funext a
  apply Fin.ext
  match a with
  | ⟨0, _⟩ => show win6_0.index t (0 : Fin 2) * 5000 + 1 * p.val = 5000 * t.val + p.val; rw [e0]; omega
  | ⟨1, _⟩ => show win6_0.index t (1 : Fin 2) * 128 + 1 * k.val = k.val; rw [e1]; omega

/-- The weights' block is the whole weight matrix at every band. -/
theorem blk_w (c : Dev nD) (t : Fin cfg6.N) (z : S128x128.Idx) :
    (iblk6 V c 1 t : Vec Ideal S128x128 .f32) z = V c main_v138 z := by
  obtain ⟨-, -, e0, e1, -⟩ := idx_facts t
  unfold iblk6
  rw [View.read_apply]
  show V c main_v138 _ = V c main_v138 _
  refine congrArg _ ?_
  funext a
  apply Fin.ext
  match a with
  | ⟨0, _⟩ => show win6_1.index t (0 : Fin 2) * 128 + 1 * (z 0).val = (z 0).val; rw [e0]; omega
  | ⟨1, _⟩ => show win6_1.index t (1 : Fin 2) * 128 + 1 * (z 1).val = (z 1).val; rw [e1]; omega

/-- The bias's block is the whole bias row at every band. -/
theorem blk_b (c : Dev nD) (t : Fin cfg6.N) (z : S1x128.Idx) :
    (iblk6 V c 2 t : Vec Ideal S1x128 .f32) z = V c main_v141 z := by
  obtain ⟨-, -, -, -, e0, e1, -⟩ := idx_facts t
  unfold iblk6
  rw [View.read_apply]
  show V c main_v141 _ = V c main_v141 _
  refine congrArg _ ?_
  funext a
  apply Fin.ext
  match a with
  | ⟨0, _⟩ => show win6_2.index t (0 : Fin 2) * 1 + 1 * (z 0).val = (z 0).val; rw [e0]; omega
  | ⟨1, _⟩ => show win6_2.index t (1 : Fin 2) * 128 + 1 * (z 1).val = (z 1).val; rw [e1]; omega

/-- `lin` of band t's blocks, entry (p, q), is entry (5000 t + p, q) of `lin` of the whole arrays. -/
theorem band_entry (c : Dev nD) (t : Fin cfg6.N) (p : Fin 5000) (q : Fin 128) (hp : 5000 * t.val + p.val < 100000) :
    lin (iblk6 V c 0 t : Vec Ideal S5000x128 .f32) (iblk6 V c 1 t : Vec Ideal S128x128 .f32)
        (iblk6 V c 2 t : Vec Ideal S1x128 .f32) (ix2 p q)
      = (lin (V c main_v135) (V c main_v138) (V c main_v141)) (ix2 ⟨5000 * t.val + p.val, hp⟩ q) :=
  lin_band (V c main_v135) (V c main_v138) (V c main_v141) _ _ _ (5000 * t.val) (fun p k hp => blk_in V c t p k hp)
    (blk_w V c t) (blk_b V c t) p q hp

/-! ## What the three blocks hold after each band -/

/-- After any band the first result's block holds `lin` of the band's blocks. -/
theorem first_after (c : Dev nD) (t : Fin cfg6.N) :
    (outsAt6 V c t.val t.isLt).1 = lin (iblk6 V c 0 t : Vec Ideal S5000x128 .f32)
      (iblk6 V c 1 t : Vec Ideal S128x128 .f32) (iblk6 V c 2 t : Vec Ideal S1x128 .f32) := by
  by_cases h0 : t.val % 20 = 0
  · rw [outsAt6_A V c t h0]
    dsimp only
    refine (left_A_3 (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) ((hcond6_0 t).mpr h0) (iblk6 V c 0 t) (iblk6 V c 1 t) (iblk6 V c 2 t)).trans ?_
    exact pay3_eq (iblk6 V c 0 t) (iblk6 V c 1 t) (iblk6 V c 2 t)
  · rw [outsAt6_B V c t h0]
    dsimp only
    refine (left_B_3 (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (fun h => h0 ((hcond6_0 t).mp h)) (iblk6 V c 0 t) (iblk6 V c 1 t) (iblk6 V c 2 t)
      (outsAt6 V c (t.val - 1) (Nat.lt_of_le_of_lt (Nat.sub_le _ _) t.isLt)).2.1 (outsAt6 V c (t.val - 1) (Nat.lt_of_le_of_lt (Nat.sub_le _ _) t.isLt)).2.2).trans ?_
    exact pay3_eq (iblk6 V c 0 t) (iblk6 V c 1 t) (iblk6 V c 2 t)

/-- After band 0 the totals row holds zero plus band 0's totals. -/
theorem tot_first (c : Dev nD) (h : 0 < cfg6.N) :
    (outsAt6 V c 0 h).2.1 = fun j => 0 + totF (fun x => x) (lin (iblk6 V c 0 ⟨0, h⟩ : Vec Ideal S5000x128 .f32)
      (iblk6 V c 1 ⟨0, h⟩ : Vec Ideal S128x128 .f32) (iblk6 V c 2 ⟨0, h⟩ : Vec Ideal S1x128 .f32)) j := by
  have e := congrArg (fun x => x.2.1) (outsAt6_A V c ⟨0, h⟩ rfl)
  refine e.trans ?_
  let t : Fin cfg6.N := ⟨0, h⟩
  refine (left_A_4 (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) ((hcond6_0 t).mpr rfl) (iblk6 V c 0 t) (iblk6 V c 1 t) (iblk6 V c 2 t)).trans ?_
  rw [pay4_eq, zero_row1]

/-- After a later band it holds what it held plus that band's totals. -/
theorem tot_next (c : Dev nD) (n : ℕ) (h : n + 1 < cfg6.N) :
    (outsAt6 V c (n + 1) h).2.1 = fun j => (outsAt6 V c n (Nat.lt_of_succ_lt h)).2.1 j
      + totF (fun x => x) (lin (iblk6 V c 0 ⟨n + 1, h⟩ : Vec Ideal S5000x128 .f32)
          (iblk6 V c 1 ⟨n + 1, h⟩ : Vec Ideal S128x128 .f32) (iblk6 V c 2 ⟨n + 1, h⟩ : Vec Ideal S1x128 .f32)) j := by
  have hN : cfg6.N = 20 := N_6
  let t : Fin cfg6.N := ⟨n + 1, h⟩
  have hB : ¬t.val % 20 = 0 := by show ¬(n + 1) % 20 = 0; omega
  have e := congrArg (fun x => x.2.1) (outsAt6_B V c t hB)
  refine e.trans ?_
  refine (left_B_4 (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (fun hh => hB ((hcond6_0 t).mp hh)) (iblk6 V c 0 t) (iblk6 V c 1 t) (iblk6 V c 2 t)
    (outsAt6 V c (t.val - 1) (Nat.lt_of_le_of_lt (Nat.sub_le _ _) t.isLt)).2.1 (outsAt6 V c (t.val - 1) (Nat.lt_of_le_of_lt (Nat.sub_le _ _) t.isLt)).2.2).trans ?_
  rw [pay4_eq]
  rfl

/-- The same two steps for the row of totals of squares. -/
theorem sq_first (c : Dev nD) (h : 0 < cfg6.N) :
    (outsAt6 V c 0 h).2.2 = fun j => 0 + totF (fun x => x * x) (lin (iblk6 V c 0 ⟨0, h⟩ : Vec Ideal S5000x128 .f32)
      (iblk6 V c 1 ⟨0, h⟩ : Vec Ideal S128x128 .f32) (iblk6 V c 2 ⟨0, h⟩ : Vec Ideal S1x128 .f32)) j := by
  have e := congrArg (fun x => x.2.2) (outsAt6_A V c ⟨0, h⟩ rfl)
  refine e.trans ?_
  let t : Fin cfg6.N := ⟨0, h⟩
  refine (left_A_5 (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) ((hcond6_0 t).mpr rfl) (iblk6 V c 0 t) (iblk6 V c 1 t) (iblk6 V c 2 t)).trans ?_
  rw [pay5_eq, zero_row2]

theorem sq_next (c : Dev nD) (n : ℕ) (h : n + 1 < cfg6.N) :
    (outsAt6 V c (n + 1) h).2.2 = fun j => (outsAt6 V c n (Nat.lt_of_succ_lt h)).2.2 j
      + totF (fun x => x * x) (lin (iblk6 V c 0 ⟨n + 1, h⟩ : Vec Ideal S5000x128 .f32)
          (iblk6 V c 1 ⟨n + 1, h⟩ : Vec Ideal S128x128 .f32) (iblk6 V c 2 ⟨n + 1, h⟩ : Vec Ideal S1x128 .f32)) j := by
  have hN : cfg6.N = 20 := N_6
  let t : Fin cfg6.N := ⟨n + 1, h⟩
  have hB : ¬t.val % 20 = 0 := by show ¬(n + 1) % 20 = 0; omega
  have e := congrArg (fun x => x.2.2) (outsAt6_B V c t hB)
  refine e.trans ?_
  refine (left_B_5 (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (fun hh => hB ((hcond6_0 t).mp hh)) (iblk6 V c 0 t) (iblk6 V c 1 t) (iblk6 V c 2 t)
    (outsAt6 V c (t.val - 1) (Nat.lt_of_le_of_lt (Nat.sub_le _ _) t.isLt)).2.1 (outsAt6 V c (t.val - 1) (Nat.lt_of_le_of_lt (Nat.sub_le _ _) t.isLt)).2.2).trans ?_
  rw [pay5_eq]
  rfl

/-- So after band n the totals row holds the totals of f of the entries over the first 5000 (n + 1) rows of
    `lin` of the whole arrays: the running totals in closed form. -/
theorem tot_closed (c : Dev nD) (n : ℕ) (h : n < cfg6.N) :
    (outsAt6 V c n h).2.1
      = fun j => ∑ r ∈ Finset.range (5000 * (n + 1)), rowAt (lin (V c main_v135) (V c main_v138) (V c main_v141)) r (j 1) :=
  totals_closed (M := 100000) (N := 128) (T := 5000) (P := cfg6.N) (by rw [show cfg6.N = 20 from N_6])
    (fun x => x) (lin (V c main_v135) (V c main_v138) (V c main_v141))
    (fun n h => lin (iblk6 V c 0 ⟨n, h⟩ : Vec Ideal S5000x128 .f32) (iblk6 V c 1 ⟨n, h⟩ : Vec Ideal S128x128 .f32)
      (iblk6 V c 2 ⟨n, h⟩ : Vec Ideal S1x128 .f32))
    (fun n hn p q hp => band_entry V c ⟨n, hn⟩ p q hp)
    (fun n h => (outsAt6 V c n h).2.1) (tot_first V c) (tot_next V c) n h

theorem sq_closed (c : Dev nD) (n : ℕ) (h : n < cfg6.N) :
    (outsAt6 V c n h).2.2
      = fun j => ∑ r ∈ Finset.range (5000 * (n + 1)), rowAt (lin (V c main_v135) (V c main_v138) (V c main_v141)) r (j 1) * rowAt (lin (V c main_v135) (V c main_v138) (V c main_v141)) r (j 1) :=
  totals_closed (M := 100000) (N := 128) (T := 5000) (P := cfg6.N) (by rw [show cfg6.N = 20 from N_6])
    (fun x => x * x) (lin (V c main_v135) (V c main_v138) (V c main_v141))
    (fun n h => lin (iblk6 V c 0 ⟨n, h⟩ : Vec Ideal S5000x128 .f32) (iblk6 V c 1 ⟨n, h⟩ : Vec Ideal S128x128 .f32)
      (iblk6 V c 2 ⟨n, h⟩ : Vec Ideal S1x128 .f32))
    (fun n hn p q hp => band_entry V c ⟨n, hn⟩ p q hp)
    (fun n h => (outsAt6 V c n h).2.2) (sq_first V c) (sq_next V c) n h

/-- The same at any index y of the band's block and any index i of the whole result whose row is 5000 t plus y's and
    whose column is y's. -/
theorem band_at (c : Dev nD) (t : Fin cfg6.N) (y : S5000x128.Idx) (i : S100000x128.Idx)
    (hi0 : (i 0).val = 5000 * t.val + (y 0).val) (hi1 : (i 1).val = (y 1).val) :
    lin (iblk6 V c 0 t : Vec Ideal S5000x128 .f32) (iblk6 V c 1 t : Vec Ideal S128x128 .f32)
        (iblk6 V c 2 t : Vec Ideal S1x128 .f32) y = (lin (V c main_v135) (V c main_v138) (V c main_v141)) i := by
  obtain ⟨p, q, rfl⟩ : ∃ (p : Fin 5000) (q : Fin 128), y = ix2 p q := ⟨y 0, y 1, eq_ix2 y⟩
  obtain ⟨p', q', rfl⟩ : ∃ (p' : Fin 100000) (q' : Fin 128), i = ix2 p' q' := ⟨i 0, i 1, eq_ix2 i⟩
  have h0 : p'.val = 5000 * t.val + p.val := hi0
  have h1 : q' = q := Fin.ext hi1
  subst h1
  have hp : 5000 * t.val + p.val < 100000 := h0 ▸ p'.isLt
  have hp' : p' = ⟨5000 * t.val + p.val, hp⟩ := Fin.ext h0
  rw [hp']
  exact band_entry V c t p q' hp

/-! ## The three results after the last band -/

/-- What band t writes to the first result is block t of `lin` of the whole arrays. -/
theorem flushed3 (c : Dev nD) (t : Fin cfg6.N) :
    (dat6 V c).flushed 3 t = ((cfg6.win 3).blk t).view.read (Elt Ideal) (lin (V c main_v135) (V c main_v138) (V c main_v141)) := by
  obtain ⟨-, -, -, -, -, -, e0, e1, -⟩ := idx_facts t
  show (cfg6.win 3).cut (grid6.coords t) ((dat6 V c).after 3 t) = _
  rw [after6_3, first_after V c t]
  funext y
  rw [View.read_apply]
  refine band_at V c t y _ ?_ ?_
  · show win6_3.index t (0 : Fin 2) * 5000 + 1 * (y 0).val = 5000 * t.val + (y 0).val
    rw [e0]; omega
  · show win6_3.index t (1 : Fin 2) * 128 + 1 * (y 1).val = (y 1).val
    rw [e1]; omega

/-- An index lies in band t's block of the first result iff, on each axis, its coordinate lies in the block's range. -/
theorem mem_blk3 (t : Fin cfg6.N) (i : S100000x128.Idx) :
    i ∈ ((cfg6.win 3).blk t).view.set ↔ ∀ a : Fin 2, win6_3.index t a * S5000x128.size a ≤ (i a).val
      ∧ (i a).val < win6_3.index t a * S5000x128.size a + S5000x128.size a := by
  show i ∈ ((View.whole main_v142_0).slice (win6_3.rect t)).set ↔ _
  rw [View.set_slice_whole, Rect.mem_set_unit]
  exact Iff.rfl

/-- Row r of the first result is written by band r / 5000. -/
theorem cover3 (i : S100000x128.Idx) :
    ∃ t : Fin cfg6.N, (cfg6.win 3).flush t = true ∧ i ∈ ((cfg6.win 3).blk t).view.set := by
  have hN : cfg6.N = 20 := N_6
  have hi0 : (i 0).val < 100000 := (i 0).isLt
  have hi1 : (i 1).val < 128 := (i 1).isLt
  have ht : (i 0).val / 5000 < cfg6.N := by rw [hN]; omega
  obtain ⟨-, -, -, -, -, -, e0, e1, -⟩ := idx_facts ⟨(i 0).val / 5000, ht⟩
  refine ⟨⟨(i 0).val / 5000, ht⟩, flush6_3 _, ?_⟩
  rw [mem_blk3]
  intro a
  match a with
  | ⟨0, _⟩ =>
    show win6_3.index ⟨(i 0).val / 5000, ht⟩ (0 : Fin 2) * 5000 ≤ (i 0).val
      ∧ (i 0).val < win6_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win6_3.index ⟨(i 0).val / 5000, ht⟩ (1 : Fin 2) * 128 ≤ (i 1).val
      ∧ (i 1).val < win6_3.index ⟨(i 0).val / 5000, ht⟩ (1 : Fin 2) * 128 + 128
    rw [e1]; omega

/-- The first result is `lin` of the whole arrays: the 20 bands tile its rows. -/
theorem lin_arr (c : Dev nD) :
    (dat6 (F := Ideal) V c).arrAt 3 cfg6.N = lin (V c main_v135) (V c main_v138) (V c main_v141) :=
  (dat6 V c).arrAt_eq_of_cover 3 (lin (V c main_v135) (V c main_v138) (V c main_v141)) (fun t _ => flushed3 V c t) (cover3)

/-- The band after which the two rows are written out is the last one. -/
theorem last_of_flush4 (t : Fin cfg6.N) (hf : (cfg6.win 4).flush t = true) : t.val = 19 := by
  have hN : cfg6.N = 20 := N_6
  have := (flush6_4 t).mp hf
  have := t.isLt
  omega

theorem last_of_flush5 (t : Fin cfg6.N) (hf : (cfg6.win 5).flush t = true) : t.val = 19 := by
  have hN : cfg6.N = 20 := N_6
  have := (flush6_5 t).mp hf
  have := t.isLt
  omega

theorem rows_all : 5000 * (19 + 1) = 100000 := by norm_num

/-- After the last band the totals row holds the column totals of all 100000 rows. -/
theorem tot_last (c : Dev nD) (t : Fin cfg6.N) (h19 : t.val = 19) :
    (outsAt6 V c t.val t.isLt).2.1 = tot (lin (V c main_v135) (V c main_v138) (V c main_v141)) := by
  rw [tot_closed V c t.val t.isLt, h19, rows_all, tot_eq_totF]
  exact range_full (fun x => x) (lin (V c main_v135) (V c main_v138) (V c main_v141))

theorem sq_last (c : Dev nD) (t : Fin cfg6.N) (h19 : t.val = 19) :
    (outsAt6 V c t.val t.isLt).2.2 = totSq (lin (V c main_v135) (V c main_v138) (V c main_v141)) := by
  rw [sq_closed V c t.val t.isLt, h19, rows_all, totSq_eq_totF]
  exact range_full (fun x => x * x) (lin (V c main_v135) (V c main_v138) (V c main_v141))

/-- Through the block the last band writes, a one-row array reads as itself: that block is the whole array. Stated for
    any row G, so that nothing about G is opened. -/
theorem read_row4 (t : Fin cfg6.N) (G : S1x128.Idx → Elt Ideal .f32) :
    (cfg6.win 4).cut (grid6.coords t) G = ((cfg6.win 4).blk t).view.read (Elt Ideal) G := by
  obtain ⟨-, -, -, -, -, -, -, -, e0, e1, -⟩ := idx_facts t
  funext y
  rw [View.read_apply]
  refine apply_congr2 G y _ ?_ ?_
  · show win6_4.index t (0 : Fin 2) * 1 + 1 * (y 0).val = (y 0).val
    rw [e0]; omega
  · show win6_4.index t (1 : Fin 2) * 128 + 1 * (y 1).val = (y 1).val
    rw [e1]; omega

/-- What the last band writes to the second result is the whole row `tot`. -/
theorem flushed4 (c : Dev nD) (t : Fin cfg6.N) (hf : (cfg6.win 4).flush t = true) :
    (dat6 V c).flushed 4 t = ((cfg6.win 4).blk t).view.read (Elt Ideal) (tot (lin (V c main_v135) (V c main_v138) (V c main_v141))) := by
  show (cfg6.win 4).cut (grid6.coords t) ((dat6 V c).after 4 t) = _
  rw [after6_4, tot_last V c t (last_of_flush4 t hf)]
  exact read_row4 t (tot (lin (V c main_v135) (V c main_v138) (V c main_v141)))

theorem read_row5 (t : Fin cfg6.N) (G : S1x128.Idx → Elt Ideal .f32) :
    (cfg6.win 5).cut (grid6.coords t) G = ((cfg6.win 5).blk t).view.read (Elt Ideal) G := by
  obtain ⟨-, -, -, -, -, -, -, -, -, -, e0, e1⟩ := idx_facts t
  funext y
  rw [View.read_apply]
  refine apply_congr2 G y _ ?_ ?_
  · show win6_5.index t (0 : Fin 2) * 1 + 1 * (y 0).val = (y 0).val
    rw [e0]; omega
  · show win6_5.index t (1 : Fin 2) * 128 + 1 * (y 1).val = (y 1).val
    rw [e1]; omega

/-- What the last band writes to the third result is the whole row `totSq`. -/
theorem flushed5 (c : Dev nD) (t : Fin cfg6.N) (hf : (cfg6.win 5).flush t = true) :
    (dat6 V c).flushed 5 t = ((cfg6.win 5).blk t).view.read (Elt Ideal) (totSq (lin (V c main_v135) (V c main_v138) (V c main_v141))) := by
  show (cfg6.win 5).cut (grid6.coords t) ((dat6 V c).after 5 t) = _
  rw [after6_5, sq_last V c t (last_of_flush5 t hf)]
  exact read_row5 t (totSq (lin (V c main_v135) (V c main_v138) (V c main_v141)))

theorem mem_blk4 (t : Fin cfg6.N) (i : S1x128.Idx) :
    i ∈ ((cfg6.win 4).blk t).view.set ↔ ∀ a : Fin 2, win6_4.index t a * S1x128.size a ≤ (i a).val
      ∧ (i a).val < win6_4.index t a * S1x128.size a + S1x128.size a := by
  show i ∈ ((View.whole main_v142_1).slice (win6_4.rect t)).set ↔ _
  rw [View.set_slice_whole, Rect.mem_set_unit]
  exact Iff.rfl

theorem mem_blk5 (t : Fin cfg6.N) (i : S1x128.Idx) :
    i ∈ ((cfg6.win 5).blk t).view.set ↔ ∀ a : Fin 2, win6_5.index t a * S1x128.size a ≤ (i a).val
      ∧ (i a).val < win6_5.index t a * S1x128.size a + S1x128.size a := by
  show i ∈ ((View.whole main_v142_2).slice (win6_5.rect t)).set ↔ _
  rw [View.set_slice_whole, Rect.mem_set_unit]
  exact Iff.rfl

/-- Every entry of a one-row result lies in the block the last band writes. -/
theorem cover4 (i : S1x128.Idx) :
    ∃ t : Fin cfg6.N, (cfg6.win 4).flush t = true ∧ i ∈ ((cfg6.win 4).blk t).view.set := by
  have hN : cfg6.N = 20 := N_6
  have hi0 : (i 0).val < 1 := (i 0).isLt
  have hi1 : (i 1).val < 128 := (i 1).isLt
  have ht : 19 < cfg6.N := by rw [hN]; omega
  obtain ⟨-, -, -, -, -, -, -, -, e0, e1, -⟩ := idx_facts ⟨19, ht⟩
  refine ⟨⟨19, ht⟩, (flush6_4 _).mpr rfl, ?_⟩
  rw [mem_blk4]
  intro a
  match a with
  | ⟨0, _⟩ =>
    show win6_4.index ⟨19, ht⟩ (0 : Fin 2) * 1 ≤ (i 0).val ∧ (i 0).val < win6_4.index ⟨19, ht⟩ (0 : Fin 2) * 1 + 1
    rw [e0]; omega
  | ⟨1, _⟩ =>
    show win6_4.index ⟨19, ht⟩ (1 : Fin 2) * 128 ≤ (i 1).val ∧ (i 1).val < win6_4.index ⟨19, ht⟩ (1 : Fin 2) * 128 + 128
    rw [e1]; omega

theorem cover5 (i : S1x128.Idx) :
    ∃ t : Fin cfg6.N, (cfg6.win 5).flush t = true ∧ i ∈ ((cfg6.win 5).blk t).view.set := by
  have hN : cfg6.N = 20 := N_6
  have hi0 : (i 0).val < 1 := (i 0).isLt
  have hi1 : (i 1).val < 128 := (i 1).isLt
  have ht : 19 < cfg6.N := by rw [hN]; omega
  obtain ⟨-, -, -, -, -, -, -, -, -, -, e0, e1⟩ := idx_facts ⟨19, ht⟩
  refine ⟨⟨19, ht⟩, (flush6_5 _).mpr rfl, ?_⟩
  rw [mem_blk5]
  intro a
  match a with
  | ⟨0, _⟩ =>
    show win6_5.index ⟨19, ht⟩ (0 : Fin 2) * 1 ≤ (i 0).val ∧ (i 0).val < win6_5.index ⟨19, ht⟩ (0 : Fin 2) * 1 + 1
    rw [e0]; omega
  | ⟨1, _⟩ =>
    show win6_5.index ⟨19, ht⟩ (1 : Fin 2) * 128 ≤ (i 1).val ∧ (i 1).val < win6_5.index ⟨19, ht⟩ (1 : Fin 2) * 128 + 128
    rw [e1]; omega

/-- The second result is the column totals of `lin` of the whole arrays. -/
theorem tot_arr (c : Dev nD) :
    (dat6 (F := Ideal) V c).arrAt 4 cfg6.N = tot (lin (V c main_v135) (V c main_v138) (V c main_v141)) :=
  (dat6 V c).arrAt_eq_of_cover 4 (tot (lin (V c main_v135) (V c main_v138) (V c main_v141))) (flushed4 V c) (cover4)

/-- The third result is the column totals of the squares of `lin` of the whole arrays. -/
theorem totSq_arr (c : Dev nD) :
    (dat6 (F := Ideal) V c).arrAt 5 cfg6.N = totSq (lin (V c main_v135) (V c main_v138) (V c main_v141)) :=
  (dat6 V c).arrAt_eq_of_cover 5 (totSq (lin (V c main_v135) (V c main_v138) (V c main_v141))) (flushed5 V c) (cover5)

end Cert.Gcn.Stats6

end
-- ==== Proof.NormLib.lean ====
/-
  Normalising a matrix a band of rows at a time.

  The normalised matrix has, in row r and column q, the entry of X there minus the column's mean, scaled by the column's
  γ and by the reciprocal square root of the column's variance plus a small offset, shifted by the column's β, and
  clipped below at zero. The mean, variance, γ and β are one row each: they depend on the column alone. So a band of
  consecutive rows of the normalised matrix is the normalised band: entry (p, q) of the band computed from rows
  r, …, r + T − 1 of X and the same four rows is entry (r + p, q) of the whole. Adding a residual band after the clip
  gives the band of the normalised matrix plus the residual matrix.

  Here: the tree of vector operations on a band of 5000 rows and 128 columns, read at an entry, is that formula (with
  and without the residual), and the band statement above for matrices of any size.
-/
import proofs.«143695_j28905129902721_1_alg».proof.Proof.Spec
import proofs.«143695_j28905129902721_1_alg».proof.Proof.Gen.KernelIdeal.Skeleton
import Idealize.ShloMosaic.Lib.Pipeline.Value
import Idealize.ShloMosaic.Lib.ValueLayout

noncomputable section

namespace Cert.Gcn.NormLib

open Idealize.ShloMosaic Idealize.ShloMosaic.ValueIdx
open Cert.KernelIdeal Cert.KernelIdeal.Gen Cert.Gcn

/-- The offsets of a rectangle that starts at the origin of a matrix. -/
theorem zero_offsets : (![0, 0] : Fin 2 → Nat) = fun _ => 0 := funext fun a => by fin_cases a <;> rfl

/-! ## The operations on one band, read at an entry -/

/-- Entry (p, q) of the band without residual: γ (x − μ) · rsqrt (v + offset) + β, clipped below at zero, the four rows
    read at column q. The arguments come in the order variance, γ, band, mean, β. -/
theorem pay1_entry (v g : FVec Ideal S1x128 .f32) (x : FVec Ideal S5000x128 .f32) (mu be : FVec Ideal S1x128 .f32)
    (p : Fin 5000) (q : Fin 128) :
    k1_pay1 v g x mu be (ix2 p q) = normRelu (M := 5000) (N := 128) x mu v g be (ix2 p q) := by
  rw [normRelu_apply]
  unfold k1_pay1
  simp only [shapeCast_self]
  simp only [maximumf_apply, addf_apply, mulf_apply, subf_apply, broadcastTo_1b_ab_apply, broadcast_apply]
  rfl

/-- Entry (p, q) of the band with a residual band r added after the clip. -/
theorem pay3_entry (v g : FVec Ideal S1x128 .f32) (x : FVec Ideal S5000x128 .f32) (mu be : FVec Ideal S1x128 .f32)
    (r : FVec Ideal S5000x128 .f32) (p : Fin 5000) (q : Fin 128) :
    k3_pay1 v g x mu be r (ix2 p q) = normReluRes (M := 5000) (N := 128) x mu v g be r (ix2 p q) := by
  rw [normReluRes_apply, normRelu_apply]
  unfold k3_pay1
  simp only [shapeCast_self]
  simp only [maximumf_apply, addf_apply, mulf_apply, subf_apply, broadcastTo_1b_ab_apply, broadcast_apply]
  rfl

/-- The same tree of operations, in the third normalising region. -/
theorem pay5_entry (v g : FVec Ideal S1x128 .f32) (x : FVec Ideal S5000x128 .f32) (mu be : FVec Ideal S1x128 .f32)
    (r : FVec Ideal S5000x128 .f32) (p : Fin 5000) (q : Fin 128) :
    k5_pay1 v g x mu be r (ix2 p q) = normReluRes (M := 5000) (N := 128) x mu v g be r (ix2 p q) := by
  rw [normReluRes_apply, normRelu_apply]
  unfold k5_pay1
  simp only [shapeCast_self]
  simp only [maximumf_apply, addf_apply, mulf_apply, subf_apply, broadcastTo_1b_ab_apply, broadcast_apply]
  rfl

/-- The same tree of operations, in the fourth normalising region. -/
theorem pay7_entry (v g : FVec Ideal S1x128 .f32) (x : FVec Ideal S5000x128 .f32) (mu be : FVec Ideal S1x128 .f32)
    (r : FVec Ideal S5000x128 .f32) (p : Fin 5000) (q : Fin 128) :
    k7_pay1 v g x mu be r (ix2 p q) = normReluRes (M := 5000) (N := 128) x mu v g be r (ix2 p q) := by
  rw [normReluRes_apply, normRelu_apply]
  unfold k7_pay1
  simp only [shapeCast_self]
  simp only [maximumf_apply, addf_apply, mulf_apply, subf_apply, broadcastTo_1b_ab_apply, broadcast_apply]
  rfl

/-! ## A band of the normalised matrix is the normalised band -/

/-- When x at (p, q) is X at the index i, whose column is q, and the band's four rows agree with the whole's at column
    q, the normalised band at (p, q) is the normalised matrix at i. -/
theorem normRelu_rows {M N T : ℕ} (X : Mat M N) (mu v g be : Mat 1 N) (x : Mat T N) (mu' v' g' be' : Mat 1 N)
    (p : Fin T) (q : Fin N) (i : (⟨2, ![M, N]⟩ : Shape).Idx)
    (hi1 : (i 1).val = q.val)
    (hx : x (ix2 p q) = X i)
    (hmu : mu' (ix2 (0 : Fin 1) q) = mu (ix2 (0 : Fin 1) q))
    (hv : v' (ix2 (0 : Fin 1) q) = v (ix2 (0 : Fin 1) q))
    (hg : g' (ix2 (0 : Fin 1) q) = g (ix2 (0 : Fin 1) q))
    (hbe : be' (ix2 (0 : Fin 1) q) = be (ix2 (0 : Fin 1) q)) :
    normRelu x mu' v' g' be' (ix2 p q) = normRelu X mu v g be i := by
  obtain ⟨p', q', rfl⟩ : ∃ (p' : Fin M) (q' : Fin N), i = ix2 p' q' := ⟨i 0, i 1, eq_ix2 i⟩
  obtain rfl : q' = q := Fin.ext hi1
  rw [normRelu_apply, normRelu_apply, hx, hmu, hv, hg, hbe]

/-- The same with a residual: the residual band at (p, q) is the residual matrix at i. -/
theorem normReluRes_rows {M N T : ℕ} (X : Mat M N) (mu v g be : Mat 1 N) (R : Mat M N)
    (x : Mat T N) (mu' v' g' be' : Mat 1 N) (r : Mat T N)
    (p : Fin T) (q : Fin N) (i : (⟨2, ![M, N]⟩ : Shape).Idx)
    (hi1 : (i 1).val = q.val)
    (hx : x (ix2 p q) = X i)
    (hmu : mu' (ix2 (0 : Fin 1) q) = mu (ix2 (0 : Fin 1) q))
    (hv : v' (ix2 (0 : Fin 1) q) = v (ix2 (0 : Fin 1) q))
    (hg : g' (ix2 (0 : Fin 1) q) = g (ix2 (0 : Fin 1) q))
    (hbe : be' (ix2 (0 : Fin 1) q) = be (ix2 (0 : Fin 1) q))
    (hr : r (ix2 p q) = R i) :
    normReluRes x mu' v' g' be' r (ix2 p q) = normReluRes X mu v g be R i := by
  show normRelu x mu' v' g' be' (ix2 p q) + r (ix2 p q) = normRelu X mu v g be i + R i
  rw [normRelu_rows X mu v g be x mu' v' g' be' p q i hi1 hx hmu hv hg hbe, hr]

end Cert.Gcn.NormLib

end
-- ==== Proof.Norm1.lean ====
/-
  The first normalising region. The region walks twenty bands of 5000 rows. At band t it reads rows 5000 t, …,
  5000 t + 4999 of the matrix and the whole one-row mean, variance, γ and β, and writes the normalised band to the same
  rows of the result. Every row lies in exactly one band (row r in band r / 5000), so after the twenty bands the result
  is the normalised matrix.
-/
import proofs.«143695_j28905129902721_1_alg».proof.Proof.Spec
import proofs.«143695_j28905129902721_1_alg».proof.Proof.NormLib
import proofs.«143695_j28905129902721_1_alg».proof.Proof.Gen.KernelIdeal.Frame
import Idealize.ShloMosaic.Lib.Pipeline.Value
import Idealize.ShloMosaic.Lib.ValueLayout

noncomputable section

namespace Cert.Gcn.Norm1

open Idealize.ShloMosaic Idealize.ShloMosaic.TcCoe Idealize.ShloMosaic.ValueIdx Idealize.SL.Sem
open Idealize.ShloMosaic.Pipeline (Dat)
open Cert.KernelIdeal Cert.KernelIdeal.Gen Cert.Gcn Cert.Gcn.NormLib

variable (V : (c : Dev nD) → (b : Ref sig .tc) → Buf (Elt Ideal) ((c : Thread nD τ).loc b))

/-- Which block each window holds at band t: the matrix and the result their t-th band of rows, the four one-row
    operands their one block. -/
theorem band_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What band t writes back is band t of the normalised matrix. -/
theorem flushed_eq (c : Dev nD) (t : Fin cfg1.N) :
    (dat1 (F := Ideal) V c).flushed 5 t = ((cfg1.win 5).blk t).view.read (Elt Ideal)
      (normRelu (V c main_v31_0) (V c main_v44) (V c main_v45) (V c main_v46) (V c main_v47)) := by
  show (cfg1.win 5).cut (grid1.coords t) ((dat1 V c).after 5 t) = _
  rw [after1_5]
  unfold out1_5
  rw [View.canon_unit_zero zero_offsets]
  simp only [View.ld_unit_zero (S := S5000x128) zero_offsets, View.ld_unit_zero (S := S1x128) zero_offsets]
  obtain ⟨a00, a01, a10, a11, a20, a21, a30, a31, a40, a41, a50, a51⟩ := band_index t
  funext j
  obtain ⟨p, q, rfl⟩ : ∃ (p : Fin 5000) (q : Fin 128), j = ix2 p q := ⟨j 0, j 1, eq_ix2 j⟩
  show k1_pay1 (iblk1 V c 2 t) (iblk1 V c 3 t) (iblk1 V c 0 t) (iblk1 V c 1 t) (iblk1 V c 4 t) (ix2 p q)
    = normRelu (V c main_v31_0) (V c main_v44) (V c main_v45) (V c main_v46) (V c main_v47)
        (((cfg1.win 5).blk t).view.emb (ix2 p q))
  refine (pay1_entry (iblk1 V c 2 t) (iblk1 V c 3 t) (iblk1 V c 0 t) (iblk1 V c 1 t) (iblk1 V c 4 t) p q).trans ?_
  refine normRelu_rows (M := 100000) (N := 128) (T := 5000) (V c main_v31_0) (V c main_v44) (V c main_v45)
    (V c main_v46) (V c main_v47) (iblk1 V c 0 t) (iblk1 V c 1 t) (iblk1 V c 2 t) (iblk1 V c 3 t) (iblk1 V c 4 t)
    p q (((cfg1.win 5).blk t).view.emb (ix2 p q)) ?_ ?_ ?_ ?_ ?_ ?_
  · show win1_5.index t (1 : Fin 2) * 128 + 1 * q.val = q.val
    omega
  · show V c main_v31_0 (((cfg1.win 0).blk t).view.emb (ix2 p q)) = V c main_v31_0 (((cfg1.win 5).blk t).view.emb (ix2 p q))
    refine congrArg _ (funext fun a => Fin.ext ?_)
    match a with
    | ⟨0, _⟩ => show win1_0.index t (0 : Fin 2) * 5000 + 1 * p.val = win1_5.index t (0 : Fin 2) * 5000 + 1 * p.val; omega
    | ⟨1, _⟩ => show win1_0.index t (1 : Fin 2) * 128 + 1 * q.val = win1_5.index t (1 : Fin 2) * 128 + 1 * q.val; omega
  · show V c main_v44 (((cfg1.win 1).blk t).view.emb (ix2 (0 : Fin 1) q)) = V c main_v44 (ix2 (0 : Fin 1) q)
    refine congrArg _ (funext fun a => Fin.ext ?_)
    match a with
    | ⟨0, _⟩ => show win1_1.index t (0 : Fin 2) * 1 + 1 * 0 = 0; omega
    | ⟨1, _⟩ => show win1_1.index t (1 : Fin 2) * 128 + 1 * q.val = q.val; omega
  · show V c main_v45 (((cfg1.win 2).blk t).view.emb (ix2 (0 : Fin 1) q)) = V c main_v45 (ix2 (0 : Fin 1) q)
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * q.val = q.val; omega
  · show V c main_v46 (((cfg1.win 3).blk t).view.emb (ix2 (0 : Fin 1) q)) = V c main_v46 (ix2 (0 : Fin 1) q)
    refine congrArg _ (funext fun a => Fin.ext ?_)
    match a with
    | ⟨0, _⟩ => show win1_3.index t (0 : Fin 2) * 1 + 1 * 0 = 0; omega
    | ⟨1, _⟩ => show win1_3.index t (1 : Fin 2) * 128 + 1 * q.val = q.val; omega
  · show V c main_v47 (((cfg1.win 4).blk t).view.emb (ix2 (0 : Fin 1) q)) = V c main_v47 (ix2 (0 : Fin 1) q)
    refine congrArg _ (funext fun a => Fin.ext ?_)
    match a with
    | ⟨0, _⟩ => show win1_4.index t (0 : Fin 2) * 1 + 1 * 0 = 0; omega
    | ⟨1, _⟩ => show win1_4.index t (1 : Fin 2) * 128 + 1 * q.val = q.val; omega

/-- An entry of the result lies in band t exactly when its row is one of the band's and its column any. -/
theorem mem_band (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v48).slice (win1_5.rect t)).set ↔ _
  rw [View.set_slice_whole, Rect.mem_set_unit]
  exact Iff.rfl

/-- Row r lies in band r / 5000, and every band is written back. -/
theorem covered (i : S100000x128.Idx) :
    ∃ t : Fin cfg1.N, (cfg1.win 5).flush t = true ∧ i ∈ ((cfg1.win 5).blk t).view.set := by
  have hN : cfg1.N = 20 := N_1
  have h0 : (i 0).val < 100000 := idx2_lt0 i
  have h1 : (i 1).val < 128 := idx2_lt1 i
  have ht : (i 0).val / 5000 < cfg1.N := by rw [hN]; omega
  obtain ⟨-, -, -, -, -, -, -, -, -, -, a50, a51⟩ := band_index ⟨(i 0).val / 5000, ht⟩
  refine ⟨⟨(i 0).val / 5000, ht⟩, flush1_5 _, ?_⟩
  rw [mem_band]
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    rw [a50]
    show (i 0).val / 5000 * 5000 ≤ (i 0).val ∧ (i 0).val < (i 0).val / 5000 * 5000 + 5000
    omega
  | ⟨1, _⟩ =>
    show win1_5.index ⟨(i 0).val / 5000, ht⟩ (1 : Fin 2) * 128 ≤ (i 1).val
      ∧ (i 1).val < win1_5.index ⟨(i 0).val / 5000, ht⟩ (1 : Fin 2) * 128 + 128
    rw [a51]
    omega

/-- After the twenty bands the result array holds the normalised matrix. -/
theorem out_arr (c : Dev nD) : (dat1 (F := Ideal) V c).arrAt 5 cfg1.N
    = normRelu (V c main_v31_0) (V c main_v44) (V c main_v45) (V c main_v46) (V c main_v47) :=
  (dat1 (F := Ideal) V c).arrAt_eq_of_cover 5 _ (fun t _ => flushed_eq V c t) covered

end Cert.Gcn.Norm1

end
-- ==== Proof.NormRes3.lean ====
/-
  The second normalising region, which adds a residual. The region walks twenty bands of 5000 rows. At band t it reads
  rows 5000 t, …, 5000 t + 4999 of the matrix and of the residual matrix and the whole one-row mean, variance, γ and β,
  and writes the normalised band plus the residual band to the same rows of the result. Every row lies in exactly one
  band (row r in band r / 5000), so after the twenty bands the result is the normalised matrix plus the residual.
-/
import proofs.«143695_j28905129902721_1_alg».proof.Proof.Spec
import proofs.«143695_j28905129902721_1_alg».proof.Proof.NormLib
import proofs.«143695_j28905129902721_1_alg».proof.Proof.Gen.KernelIdeal.Frame
import Idealize.ShloMosaic.Lib.Pipeline.Value
import Idealize.ShloMosaic.Lib.ValueLayout

noncomputable section

namespace Cert.Gcn.NormRes3

open Idealize.ShloMosaic Idealize.ShloMosaic.TcCoe Idealize.ShloMosaic.ValueIdx Idealize.SL.Sem
open Idealize.ShloMosaic.Pipeline (Dat)
open Cert.KernelIdeal Cert.KernelIdeal.Gen Cert.Gcn Cert.Gcn.NormLib

variable (V : (c : Dev nD) → (b : Ref sig .tc) → Buf (Elt Ideal) ((c : Thread nD τ).loc b))

/-- Which block each window holds at band t: the matrix, the residual and the result their t-th band of rows, the four
    one-row operands their one block. -/
theorem band_index : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

/-- What band t writes back is band t of the normalised matrix plus the residual. -/
theorem flushed_eq (c : Dev nD) (t : Fin cfg3.N) :
    (dat3 (F := Ideal) V c).flushed 6 t = ((cfg3.win 6).blk t).view.read (Elt Ideal)
      (normReluRes (V c main_v68_0) (V c main_v81) (V c main_v82) (V c main_v83) (V c main_v84) (V c main_v48)) := by
  show (cfg3.win 6).cut (grid3.coords t) ((dat3 V c).after 6 t) = _
  rw [after3_6]
  unfold out3_6
  rw [View.canon_unit_zero zero_offsets]
  simp only [View.ld_unit_zero (S := S5000x128) zero_offsets, View.ld_unit_zero (S := S1x128) zero_offsets]
  obtain ⟨a00, a01, a10, a11, a20, a21, a30, a31, a40, a41, a50, a51, a60, a61⟩ := band_index t
  funext j
  obtain ⟨p, q, rfl⟩ : ∃ (p : Fin 5000) (q : Fin 128), j = ix2 p q := ⟨j 0, j 1, eq_ix2 j⟩
  show k3_pay1 (iblk3 V c 2 t) (iblk3 V c 3 t) (iblk3 V c 0 t) (iblk3 V c 1 t) (iblk3 V c 4 t) (iblk3 V c 5 t) (ix2 p q)
    = normReluRes (V c main_v68_0) (V c main_v81) (V c main_v82) (V c main_v83) (V c main_v84) (V c main_v48)
        (((cfg3.win 6).blk t).view.emb (ix2 p q))
  refine (pay3_entry (iblk3 V c 2 t) (iblk3 V c 3 t) (iblk3 V c 0 t) (iblk3 V c 1 t) (iblk3 V c 4 t) (iblk3 V c 5 t) p q).trans ?_
  refine normReluRes_rows (M := 100000) (N := 128) (T := 5000) (V c main_v68_0) (V c main_v81) (V c main_v82)
    (V c main_v83) (V c main_v84) (V c main_v48) (iblk3 V c 0 t) (iblk3 V c 1 t) (iblk3 V c 2 t) (iblk3 V c 3 t) (iblk3 V c 4 t) (iblk3 V c 5 t)
    p q (((cfg3.win 6).blk t).view.emb (ix2 p q)) ?_ ?_ ?_ ?_ ?_ ?_ ?_
  · show win3_6.index t (1 : Fin 2) * 128 + 1 * q.val = q.val
    omega
  · show V c main_v68_0 (((cfg3.win 0).blk t).view.emb (ix2 p q)) = V c main_v68_0 (((cfg3.win 6).blk t).view.emb (ix2 p q))
    refine congrArg _ (funext fun a => Fin.ext ?_)
    match a with
    | ⟨0, _⟩ => show win3_0.index t (0 : Fin 2) * 5000 + 1 * p.val = win3_6.index t (0 : Fin 2) * 5000 + 1 * p.val; omega
    | ⟨1, _⟩ => show win3_0.index t (1 : Fin 2) * 128 + 1 * q.val = win3_6.index t (1 : Fin 2) * 128 + 1 * q.val; omega
  · show V c main_v81 (((cfg3.win 1).blk t).view.emb (ix2 (0 : Fin 1) q)) = V c main_v81 (ix2 (0 : Fin 1) q)
    refine congrArg _ (funext fun a => Fin.ext ?_)
    match a with
    | ⟨0, _⟩ => show win3_1.index t (0 : Fin 2) * 1 + 1 * 0 = 0; omega
    | ⟨1, _⟩ => show win3_1.index t (1 : Fin 2) * 128 + 1 * q.val = q.val; omega
  · show V c main_v82 (((cfg3.win 2).blk t).view.emb (ix2 (0 : Fin 1) q)) = V c main_v82 (ix2 (0 : Fin 1) q)
    refine congrArg _ (funext fun a => Fin.ext ?_)
    match a with
    | ⟨0, _⟩ => show win3_2.index t (0 : Fin 2) * 1 + 1 * 0 = 0; omega
    | ⟨1, _⟩ => show win3_2.index t (1 : Fin 2) * 128 + 1 * q.val = q.val; omega
  · show V c main_v83 (((cfg3.win 3).blk t).view.emb (ix2 (0 : Fin 1) q)) = V c main_v83 (ix2 (0 : Fin 1) q)
    refine congrArg _ (funext fun a => Fin.ext ?_)
    match a with
    | ⟨0, _⟩ => show win3_3.index t (0 : Fin 2) * 1 + 1 * 0 = 0; omega
    | ⟨1, _⟩ => show win3_3.index t (1 : Fin 2) * 128 + 1 * q.val = q.val; omega
  · show V c main_v84 (((cfg3.win 4).blk t).view.emb (ix2 (0 : Fin 1) q)) = V c main_v84 (ix2 (0 : Fin 1) q)
    refine congrArg _ (funext fun a => Fin.ext ?_)
    match a with
    | ⟨0, _⟩ => show win3_4.index t (0 : Fin 2) * 1 + 1 * 0 = 0; omega
    | ⟨1, _⟩ => show win3_4.index t (1 : Fin 2) * 128 + 1 * q.val = q.val; omega
  · show V c main_v48 (((cfg3.win 5).blk t).view.emb (ix2 p q)) = V c main_v48 (((cfg3.win 6).blk t).view.emb (ix2 p q))
    refine congrArg _ (funext fun a => Fin.ext ?_)
    match a with
    | ⟨0, _⟩ => show win3_5.index t (0 : Fin 2) * 5000 + 1 * p.val = win3_6.index t (0 : Fin 2) * 5000 + 1 * p.val; omega
    | ⟨1, _⟩ => show win3_5.index t (1 : Fin 2) * 128 + 1 * q.val = win3_6.index t (1 : Fin 2) * 128 + 1 * q.val; omega

/-- An entry of the result lies in band t exactly when its row is one of the band's and its column any. -/
theorem mem_band (t : Fin cfg3.N) (i : S100000x128.Idx) :
    i ∈ ((cfg3.win 6).blk t).view.set ↔ ∀ a : Fin 2, win3_6.index t a * S5000x128.size a ≤ (i a).val
      ∧ (i a).val < win3_6.index t a * S5000x128.size a + S5000x128.size a := by
  show i ∈ ((View.whole main_v85).slice (win3_6.rect t)).set ↔ _
  rw [View.set_slice_whole, Rect.mem_set_unit]
  exact Iff.rfl

/-- Row r lies in band r / 5000, and every band is written back. -/
theorem covered (i : S100000x128.Idx) :
    ∃ t : Fin cfg3.N, (cfg3.win 6).flush t = true ∧ i ∈ ((cfg3.win 6).blk t).view.set := by
  have hN : cfg3.N = 20 := N_3
  have h0 : (i 0).val < 100000 := idx2_lt0 i
  have h1 : (i 1).val < 128 := idx2_lt1 i
  have ht : (i 0).val / 5000 < cfg3.N := by rw [hN]; omega
  obtain ⟨-, -, -, -, -, -, -, -, -, -, -, -, a60, a61⟩ := band_index ⟨(i 0).val / 5000, ht⟩
  refine ⟨⟨(i 0).val / 5000, ht⟩, flush3_6 _, ?_⟩
  rw [mem_band]
  intro a
  match a with
  | ⟨0, _⟩ =>
    show win3_6.index ⟨(i 0).val / 5000, ht⟩ (0 : Fin 2) * 5000 ≤ (i 0).val
      ∧ (i 0).val < win3_6.index ⟨(i 0).val / 5000, ht⟩ (0 : Fin 2) * 5000 + 5000
    rw [a60]
    show (i 0).val / 5000 * 5000 ≤ (i 0).val ∧ (i 0).val < (i 0).val / 5000 * 5000 + 5000
    omega
  | ⟨1, _⟩ =>
    show win3_6.index ⟨(i 0).val / 5000, ht⟩ (1 : Fin 2) * 128 ≤ (i 1).val
      ∧ (i 1).val < win3_6.index ⟨(i 0).val / 5000, ht⟩ (1 : Fin 2) * 128 + 128
    rw [a61]
    omega

/-- After the twenty bands the result array holds the normalised matrix plus the residual. -/
theorem out_arr (c : Dev nD) : (dat3 (F := Ideal) V c).arrAt 6 cfg3.N
    = normReluRes (V c main_v68_0) (V c main_v81) (V c main_v82) (V c main_v83) (V c main_v84) (V c main_v48) :=
  (dat3 (F := Ideal) V c).arrAt_eq_of_cover 6 _ (fun t _ => flushed_eq V c t) covered

end Cert.Gcn.NormRes3

end
-- ==== Proof.NormRes5.lean ====
/-
  The third normalising region, which adds a residual. The region walks twenty bands of 5000 rows. At band t it reads
  rows 5000 t, …, 5000 t + 4999 of the matrix and of the residual matrix and the whole one-row mean, variance, γ and β,
  and writes the normalised band plus the residual band to the same rows of the result. Every row lies in exactly one
  band (row r in band r / 5000), so after the twenty bands the result is the normalised matrix plus the residual.
-/
import proofs.«143695_j28905129902721_1_alg».proof.Proof.Spec
import proofs.«143695_j28905129902721_1_alg».proof.Proof.NormLib
import proofs.«143695_j28905129902721_1_alg».proof.Proof.Gen.KernelIdeal.Frame
import Idealize.ShloMosaic.Lib.Pipeline.Value
import Idealize.ShloMosaic.Lib.ValueLayout

noncomputable section

namespace Cert.Gcn.NormRes5

open Idealize.ShloMosaic Idealize.ShloMosaic.TcCoe Idealize.ShloMosaic.ValueIdx Idealize.SL.Sem
open Idealize.ShloMosaic.Pipeline (Dat)
open Cert.KernelIdeal Cert.KernelIdeal.Gen Cert.Gcn Cert.Gcn.NormLib

variable (V : (c : Dev nD) → (b : Ref sig .tc) → Buf (Elt Ideal) ((c : Thread nD τ).loc b))

/-- Which block each window holds at band t: the matrix, the residual and the result their t-th band of rows, the four
    one-row operands their one block. -/
theorem band_index : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0
    ∧ win5_6.index t (0 : Fin 2) = t.val ∧ win5_6.index t (1 : Fin 2) = 0 :=
  (by decide +kernel : ∀ t : Fin grid5.N, _)

/-- What band t writes back is band t of the normalised matrix plus the residual. -/
theorem flushed_eq (c : Dev nD) (t : Fin cfg5.N) :
    (dat5 (F := Ideal) V c).flushed 6 t = ((cfg5.win 6).blk t).view.read (Elt Ideal)
      (normReluRes (V c main_v105_0) (V c main_v118) (V c main_v119) (V c main_v120) (V c main_v121) (V c main_v48)) := by
  show (cfg5.win 6).cut (grid5.coords t) ((dat5 V c).after 6 t) = _
  rw [after5_6]
  unfold out5_6
  rw [View.canon_unit_zero zero_offsets]
  simp only [View.ld_unit_zero (S := S5000x128) zero_offsets, View.ld_unit_zero (S := S1x128) zero_offsets]
  obtain ⟨a00, a01, a10, a11, a20, a21, a30, a31, a40, a41, a50, a51, a60, a61⟩ := band_index t
  funext j
  obtain ⟨p, q, rfl⟩ : ∃ (p : Fin 5000) (q : Fin 128), j = ix2 p q := ⟨j 0, j 1, eq_ix2 j⟩
  show k5_pay1 (iblk5 V c 2 t) (iblk5 V c 3 t) (iblk5 V c 0 t) (iblk5 V c 1 t) (iblk5 V c 4 t) (iblk5 V c 5 t) (ix2 p q)
    = normReluRes (V c main_v105_0) (V c main_v118) (V c main_v119) (V c main_v120) (V c main_v121) (V c main_v48)
        (((cfg5.win 6).blk t).view.emb (ix2 p q))
  refine (pay5_entry (iblk5 V c 2 t) (iblk5 V c 3 t) (iblk5 V c 0 t) (iblk5 V c 1 t) (iblk5 V c 4 t) (iblk5 V c 5 t) p q).trans ?_
  refine normReluRes_rows (M := 100000) (N := 128) (T := 5000) (V c main_v105_0) (V c main_v118) (V c main_v119)
    (V c main_v120) (V c main_v121) (V c main_v48) (iblk5 V c 0 t) (iblk5 V c 1 t) (iblk5 V c 2 t) (iblk5 V c 3 t) (iblk5 V c 4 t) (iblk5 V c 5 t)
    p q (((cfg5.win 6).blk t).view.emb (ix2 p q)) ?_ ?_ ?_ ?_ ?_ ?_ ?_
  · show win5_6.index t (1 : Fin 2) * 128 + 1 * q.val = q.val
    omega
  · show V c main_v105_0 (((cfg5.win 0).blk t).view.emb (ix2 p q)) = V c main_v105_0 (((cfg5.win 6).blk t).view.emb (ix2 p q))
    refine congrArg _ (funext fun a => Fin.ext ?_)
    match a with
    | ⟨0, _⟩ => show win5_0.index t (0 : Fin 2) * 5000 + 1 * p.val = win5_6.index t (0 : Fin 2) * 5000 + 1 * p.val; omega
    | ⟨1, _⟩ => show win5_0.index t (1 : Fin 2) * 128 + 1 * q.val = win5_6.index t (1 : Fin 2) * 128 + 1 * q.val; omega
  · show V c main_v118 (((cfg5.win 1).blk t).view.emb (ix2 (0 : Fin 1) q)) = V c main_v118 (ix2 (0 : Fin 1) q)
    refine congrArg _ (funext fun a => Fin.ext ?_)
    match a with
    | ⟨0, _⟩ => show win5_1.index t (0 : Fin 2) * 1 + 1 * 0 = 0; omega
    | ⟨1, _⟩ => show win5_1.index t (1 : Fin 2) * 128 + 1 * q.val = q.val; omega
  · show V c main_v119 (((cfg5.win 2).blk t).view.emb (ix2 (0 : Fin 1) q)) = V c main_v119 (ix2 (0 : Fin 1) q)
    refine congrArg _ (funext fun a => Fin.ext ?_)
    match a with
    | ⟨0, _⟩ => show win5_2.index t (0 : Fin 2) * 1 + 1 * 0 = 0; omega
    | ⟨1, _⟩ => show win5_2.index t (1 : Fin 2) * 128 + 1 * q.val = q.val; omega
  · show V c main_v120 (((cfg5.win 3).blk t).view.emb (ix2 (0 : Fin 1) q)) = V c main_v120 (ix2 (0 : Fin 1) q)
    refine congrArg _ (funext fun a => Fin.ext ?_)
    match a with
    | ⟨0, _⟩ => show win5_3.index t (0 : Fin 2) * 1 + 1 * 0 = 0; omega
    | ⟨1, _⟩ => show win5_3.index t (1 : Fin 2) * 128 + 1 * q.val = q.val; omega
  · show V c main_v121 (((cfg5.win 4).blk t).view.emb (ix2 (0 : Fin 1) q)) = V c main_v121 (ix2 (0 : Fin 1) q)
    refine congrArg _ (funext fun a => Fin.ext ?_)
    match a with
    | ⟨0, _⟩ => show win5_4.index t (0 : Fin 2) * 1 + 1 * 0 = 0; omega
    | ⟨1, _⟩ => show win5_4.index t (1 : Fin 2) * 128 + 1 * q.val = q.val; omega
  · show V c main_v48 (((cfg5.win 5).blk t).view.emb (ix2 p q)) = V c main_v48 (((cfg5.win 6).blk t).view.emb (ix2 p q))
    refine congrArg _ (funext fun a => Fin.ext ?_)
    match a with
    | ⟨0, _⟩ => show win5_5.index t (0 : Fin 2) * 5000 + 1 * p.val = win5_6.index t (0 : Fin 2) * 5000 + 1 * p.val; omega
    | ⟨1, _⟩ => show win5_5.index t (1 : Fin 2) * 128 + 1 * q.val = win5_6.index t (1 : Fin 2) * 128 + 1 * q.val; omega

/-- An entry of the result lies in band t exactly when its row is one of the band's and its column any. -/
theorem mem_band (t : Fin cfg5.N) (i : S100000x128.Idx) :
    i ∈ ((cfg5.win 6).blk t).view.set ↔ ∀ a : Fin 2, win5_6.index t a * S5000x128.size a ≤ (i a).val
      ∧ (i a).val < win5_6.index t a * S5000x128.size a + S5000x128.size a := by
  show i ∈ ((View.whole main_v122).slice (win5_6.rect t)).set ↔ _
  rw [View.set_slice_whole, Rect.mem_set_unit]
  exact Iff.rfl

/-- Row r lies in band r / 5000, and every band is written back. -/
theorem covered (i : S100000x128.Idx) :
    ∃ t : Fin cfg5.N, (cfg5.win 6).flush t = true ∧ i ∈ ((cfg5.win 6).blk t).view.set := by
  have hN : cfg5.N = 20 := N_5
  have h0 : (i 0).val < 100000 := idx2_lt0 i
  have h1 : (i 1).val < 128 := idx2_lt1 i
  have ht : (i 0).val / 5000 < cfg5.N := by rw [hN]; omega
  obtain ⟨-, -, -, -, -, -, -, -, -, -, -, -, a60, a61⟩ := band_index ⟨(i 0).val / 5000, ht⟩
  refine ⟨⟨(i 0).val / 5000, ht⟩, flush5_6 _, ?_⟩
  rw [mem_band]
  intro a
  match a with
  | ⟨0, _⟩ =>
    show win5_6.index ⟨(i 0).val / 5000, ht⟩ (0 : Fin 2) * 5000 ≤ (i 0).val
      ∧ (i 0).val < win5_6.index ⟨(i 0).val / 5000, ht⟩ (0 : Fin 2) * 5000 + 5000
    rw [a60]
    show (i 0).val / 5000 * 5000 ≤ (i 0).val ∧ (i 0).val < (i 0).val / 5000 * 5000 + 5000
    omega
  | ⟨1, _⟩ =>
    show win5_6.index ⟨(i 0).val / 5000, ht⟩ (1 : Fin 2) * 128 ≤ (i 1).val
      ∧ (i 1).val < win5_6.index ⟨(i 0).val / 5000, ht⟩ (1 : Fin 2) * 128 + 128
    rw [a61]
    omega

/-- After the twenty bands the result array holds the normalised matrix plus the residual. -/
theorem out_arr (c : Dev nD) : (dat5 (F := Ideal) V c).arrAt 6 cfg5.N
    = normReluRes (V c main_v105_0) (V c main_v118) (V c main_v119) (V c main_v120) (V c main_v121) (V c main_v48) :=
  (dat5 (F := Ideal) V c).arrAt_eq_of_cover 6 _ (fun t _ => flushed_eq V c t) covered

end Cert.Gcn.NormRes5

end
-- ==== Proof.NormRes7.lean ====
/-
  The fourth normalising region, which adds a residual. The region walks twenty bands of 5000 rows. At band t it reads
  rows 5000 t, …, 5000 t + 4999 of the matrix and of the residual matrix and the whole one-row mean, variance, γ and β,
  and writes the normalised band plus the residual band to the same rows of the result. Every row lies in exactly one
  band (row r in band r / 5000), so after the twenty bands the result is the normalised matrix plus the residual.
-/
import proofs.«143695_j28905129902721_1_alg».proof.Proof.Spec
import proofs.«143695_j28905129902721_1_alg».proof.Proof.NormLib
import proofs.«143695_j28905129902721_1_alg».proof.Proof.Gen.KernelIdeal.Frame
import Idealize.ShloMosaic.Lib.Pipeline.Value
import Idealize.ShloMosaic.Lib.ValueLayout

noncomputable section

namespace Cert.Gcn.NormRes7

open Idealize.ShloMosaic Idealize.ShloMosaic.TcCoe Idealize.ShloMosaic.ValueIdx Idealize.SL.Sem
open Idealize.ShloMosaic.Pipeline (Dat)
open Cert.KernelIdeal Cert.KernelIdeal.Gen Cert.Gcn Cert.Gcn.NormLib

variable (V : (c : Dev nD) → (b : Ref sig .tc) → Buf (Elt Ideal) ((c : Thread nD τ).loc b))

/-- Which block each window holds at band t: the matrix, the residual and the result their t-th band of rows, the four
    one-row operands their one block. -/
theorem band_index : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0
    ∧ win7_6.index t (0 : Fin 2) = t.val ∧ win7_6.index t (1 : Fin 2) = 0 :=
  (by decide +kernel : ∀ t : Fin grid7.N, _)

/-- What band t writes back is band t of the normalised matrix plus the residual. -/
theorem flushed_eq (c : Dev nD) (t : Fin cfg7.N) :
    (dat7 (F := Ideal) V c).flushed 6 t = ((cfg7.win 6).blk t).view.read (Elt Ideal)
      (normReluRes (V c main_v142_0) (V c main_v155) (V c main_v156) (V c main_v157) (V c main_v158) (V c main_v48)) := by
  show (cfg7.win 6).cut (grid7.coords t) ((dat7 V c).after 6 t) = _
  rw [after7_6]
  unfold out7_6
  rw [View.canon_unit_zero zero_offsets]
  simp only [View.ld_unit_zero (S := S5000x128) zero_offsets, View.ld_unit_zero (S := S1x128) zero_offsets]
  obtain ⟨a00, a01, a10, a11, a20, a21, a30, a31, a40, a41, a50, a51, a60, a61⟩ := band_index t
  funext j
  obtain ⟨p, q, rfl⟩ : ∃ (p : Fin 5000) (q : Fin 128), j = ix2 p q := ⟨j 0, j 1, eq_ix2 j⟩
  show k7_pay1 (iblk7 V c 2 t) (iblk7 V c 3 t) (iblk7 V c 0 t) (iblk7 V c 1 t) (iblk7 V c 4 t) (iblk7 V c 5 t) (ix2 p q)
    = normReluRes (V c main_v142_0) (V c main_v155) (V c main_v156) (V c main_v157) (V c main_v158) (V c main_v48)
        (((cfg7.win 6).blk t).view.emb (ix2 p q))
  refine (pay7_entry (iblk7 V c 2 t) (iblk7 V c 3 t) (iblk7 V c 0 t) (iblk7 V c 1 t) (iblk7 V c 4 t) (iblk7 V c 5 t) p q).trans ?_
  refine normReluRes_rows (M := 100000) (N := 128) (T := 5000) (V c main_v142_0) (V c main_v155) (V c main_v156)
    (V c main_v157) (V c main_v158) (V c main_v48) (iblk7 V c 0 t) (iblk7 V c 1 t) (iblk7 V c 2 t) (iblk7 V c 3 t) (iblk7 V c 4 t) (iblk7 V c 5 t)
    p q (((cfg7.win 6).blk t).view.emb (ix2 p q)) ?_ ?_ ?_ ?_ ?_ ?_ ?_
  · show win7_6.index t (1 : Fin 2) * 128 + 1 * q.val = q.val
    omega
  · show V c main_v142_0 (((cfg7.win 0).blk t).view.emb (ix2 p q)) = V c main_v142_0 (((cfg7.win 6).blk t).view.emb (ix2 p q))
    refine congrArg _ (funext fun a => Fin.ext ?_)
    match a with
    | ⟨0, _⟩ => show win7_0.index t (0 : Fin 2) * 5000 + 1 * p.val = win7_6.index t (0 : Fin 2) * 5000 + 1 * p.val; omega
    | ⟨1, _⟩ => show win7_0.index t (1 : Fin 2) * 128 + 1 * q.val = win7_6.index t (1 : Fin 2) * 128 + 1 * q.val; omega
  · show V c main_v155 (((cfg7.win 1).blk t).view.emb (ix2 (0 : Fin 1) q)) = V c main_v155 (ix2 (0 : Fin 1) q)
    refine congrArg _ (funext fun a => Fin.ext ?_)
    match a with
    | ⟨0, _⟩ => show win7_1.index t (0 : Fin 2) * 1 + 1 * 0 = 0; omega
    | ⟨1, _⟩ => show win7_1.index t (1 : Fin 2) * 128 + 1 * q.val = q.val; omega
  · show V c main_v156 (((cfg7.win 2).blk t).view.emb (ix2 (0 : Fin 1) q)) = V c main_v156 (ix2 (0 : Fin 1) q)
    refine congrArg _ (funext fun a => Fin.ext ?_)
    match a with
    | ⟨0, _⟩ => show win7_2.index t (0 : Fin 2) * 1 + 1 * 0 = 0; omega
    | ⟨1, _⟩ => show win7_2.index t (1 : Fin 2) * 128 + 1 * q.val = q.val; omega
  · show V c main_v157 (((cfg7.win 3).blk t).view.emb (ix2 (0 : Fin 1) q)) = V c main_v157 (ix2 (0 : Fin 1) q)
    refine congrArg _ (funext fun a => Fin.ext ?_)
    match a with
    | ⟨0, _⟩ => show win7_3.index t (0 : Fin 2) * 1 + 1 * 0 = 0; omega
    | ⟨1, _⟩ => show win7_3.index t (1 : Fin 2) * 128 + 1 * q.val = q.val; omega
  · show V c main_v158 (((cfg7.win 4).blk t).view.emb (ix2 (0 : Fin 1) q)) = V c main_v158 (ix2 (0 : Fin 1) q)
    refine congrArg _ (funext fun a => Fin.ext ?_)
    match a with
    | ⟨0, _⟩ => show win7_4.index t (0 : Fin 2) * 1 + 1 * 0 = 0; omega
    | ⟨1, _⟩ => show win7_4.index t (1 : Fin 2) * 128 + 1 * q.val = q.val; omega
  · show V c main_v48 (((cfg7.win 5).blk t).view.emb (ix2 p q)) = V c main_v48 (((cfg7.win 6).blk t).view.emb (ix2 p q))
    refine congrArg _ (funext fun a => Fin.ext ?_)
    match a with
    | ⟨0, _⟩ => show win7_5.index t (0 : Fin 2) * 5000 + 1 * p.val = win7_6.index t (0 : Fin 2) * 5000 + 1 * p.val; omega
    | ⟨1, _⟩ => show win7_5.index t (1 : Fin 2) * 128 + 1 * q.val = win7_6.index t (1 : Fin 2) * 128 + 1 * q.val; omega

/-- An entry of the result lies in band t exactly when its row is one of the band's and its column any. -/
theorem mem_band (t : Fin cfg7.N) (i : S100000x128.Idx) :
    i ∈ ((cfg7.win 6).blk t).view.set ↔ ∀ a : Fin 2, win7_6.index t a * S5000x128.size a ≤ (i a).val
      ∧ (i a).val < win7_6.index t a * S5000x128.size a + S5000x128.size a := by
  show i ∈ ((View.whole main_v159).slice (win7_6.rect t)).set ↔ _
  rw [View.set_slice_whole, Rect.mem_set_unit]
  exact Iff.rfl

/-- Row r lies in band r / 5000, and every band is written back. -/
theorem covered (i : S100000x128.Idx) :
    ∃ t : Fin cfg7.N, (cfg7.win 6).flush t = true ∧ i ∈ ((cfg7.win 6).blk t).view.set := by
  have hN : cfg7.N = 20 := N_7
  have h0 : (i 0).val < 100000 := idx2_lt0 i
  have h1 : (i 1).val < 128 := idx2_lt1 i
  have ht : (i 0).val / 5000 < cfg7.N := by rw [hN]; omega
  obtain ⟨-, -, -, -, -, -, -, -, -, -, -, -, a60, a61⟩ := band_index ⟨(i 0).val / 5000, ht⟩
  refine ⟨⟨(i 0).val / 5000, ht⟩, flush7_6 _, ?_⟩
  rw [mem_band]
  intro a
  match a with
  | ⟨0, _⟩ =>
    show win7_6.index ⟨(i 0).val / 5000, ht⟩ (0 : Fin 2) * 5000 ≤ (i 0).val
      ∧ (i 0).val < win7_6.index ⟨(i 0).val / 5000, ht⟩ (0 : Fin 2) * 5000 + 5000
    rw [a60]
    show (i 0).val / 5000 * 5000 ≤ (i 0).val ∧ (i 0).val < (i 0).val / 5000 * 5000 + 5000
    omega
  | ⟨1, _⟩ =>
    show win7_6.index ⟨(i 0).val / 5000, ht⟩ (1 : Fin 2) * 128 ≤ (i 1).val
      ∧ (i 1).val < win7_6.index ⟨(i 0).val / 5000, ht⟩ (1 : Fin 2) * 128 + 128
    rw [a61]
    omega

/-- After the twenty bands the result array holds the normalised matrix plus the residual. -/
theorem out_arr (c : Dev nD) : (dat7 (F := Ideal) V c).arrAt 6 cfg7.N
    = normReluRes (V c main_v142_0) (V c main_v155) (V c main_v156) (V c main_v157) (V c main_v158) (V c main_v48) :=
  (dat7 (F := Ideal) V c).arrAt_eq_of_cover 6 _ (fun t _ => flushed_eq V c t) covered

end Cert.Gcn.NormRes7

end
-- ==== Proof.Head8.lean ====
/-
  The last region: rows times a 128 × 40 matrix plus a one-row bias. The region walks twenty bands of 5000 rows. At
  band t it reads rows 5000 t, …, 5000 t + 4999 of the left matrix and the whole right matrix and bias, multiplies the
  band by the right matrix (both narrowed to a shorter format, which changes nothing on exact values, and accumulated
  into zeros), adds the bias to every row, and writes the band to the same rows of the result. A band of rows of a
  product is the product of that band of rows, and every row lies in exactly one band, so after the twenty bands the
  result is the product plus the bias.
-/
import proofs.«143695_j28905129902721_1_alg».proof.Proof.Spec
import proofs.«143695_j28905129902721_1_alg».proof.Proof.LibMatProd
import proofs.«143695_j28905129902721_1_alg».proof.Proof.NormLib
import proofs.«143695_j28905129902721_1_alg».proof.Proof.Gen.KernelIdeal.Frame
import Idealize.ShloMosaic.Lib.Pipeline.Value
import Idealize.ShloMosaic.Lib.ValueLayout

noncomputable section

namespace Cert.Gcn.Head8

open Idealize.ShloMosaic Idealize.ShloMosaic.TcCoe Idealize.ShloMosaic.ValueIdx Idealize.SL.Sem
open Idealize.ShloMosaic.Pipeline (Dat)
open Cert.KernelIdeal Cert.KernelIdeal.Gen Cert.Gcn Cert.Gcn.NormLib Cert.LibMatProd

variable (V : (c : Dev nD) → (b : Ref sig .tc) → Buf (Elt Ideal) ((c : Thread nD τ).loc b))

/-- Entry (p, q) of one band: the band of the left matrix times the right matrix there, plus the bias at column q. -/
theorem pay8_entry (x : FVec Ideal S5000x128 .f32) (w : FVec Ideal S128x40 .f32) (b : FVec Ideal S1x40 .f32)
    (p : Fin 5000) (q : Fin 40) :
    k8_pay1 x w b (ix2 p q)
      = matProd (M := 5000) (K := 128) (N := 40) x w (ix2 p q) + b (ix2 (0 : Fin 1) q) := by
  unfold k8_pay1
  simp only [shapeCast_self]
  rw [addf_apply, broadcastTo_1b_ab_apply,
    matmul_eq dot_S5000x128_S128x40_S5000x40_1_0_0_1_n_n rfl rfl rfl rfl rfl rfl x w bitsLt_bf16_f32]

/-- Rows r, …, r + T − 1 of a product plus a bias: when x holds those rows of X, w is W and the bias rows agree at
    column q, the band's entry (p, q) is the whole's entry at the index i whose row is r + p and whose column is q. -/
theorem lin_rows {M K N T : ℕ} (X : Mat M K) (W : Mat K N) (B : Mat 1 N) (x : Mat T K) (w : Mat K N) (b : Mat 1 N)
    (r : ℕ) (hx : ∀ (p : Fin T) (k : Fin K) (hp : r + p.val < M), x (ix2 p k) = X (ix2 ⟨r + p.val, hp⟩ k))
    (hw : ∀ z, w z = W z) (p : Fin T) (q : Fin N) (i : (⟨2, ![M, N]⟩ : Shape).Idx)
    (hi0 : (i 0).val = r + p.val) (hi1 : (i 1).val = q.val)
    (hb : b (ix2 (0 : Fin 1) q) = B (ix2 (0 : Fin 1) q)) :
    matProd x w (ix2 p q) + b (ix2 (0 : Fin 1) q) = lin X W B i := by
  obtain ⟨p', q', rfl⟩ : ∃ (p' : Fin M) (q' : Fin N), i = ix2 p' q' := ⟨i 0, i 1, eq_ix2 i⟩
  obtain rfl : q' = q := Fin.ext hi1
  show _ = matProd X W (ix2 p' q') + B (ix2 (0 : Fin 1) q')
  rw [matProd_rows X W x w r hx hw (ix2 p q') (ix2 p' q') hi0 rfl, hb]

/-- Which block each window holds at band t: the left matrix and the result their t-th band of rows, the right matrix
    and the bias their one block. -/
theorem band_index : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0 :=
  (by decide +kernel : ∀ t : Fin grid8.N, _)

/-- What band t writes back is band t of the product plus the bias. -/
theorem flushed_eq (c : Dev nD) (t : Fin cfg8.N) :
    (dat8 (F := Ideal) V c).flushed 3 t = ((cfg8.win 3).blk t).view.read (Elt Ideal)
      (lin (V c main_v159) (V c main_v160) (V c main_v161)) := by
  show (cfg8.win 3).cut (grid8.coords t) ((dat8 V c).after 3 t) = _
  rw [after8_3]
  unfold out8_3
  rw [View.canon_unit_zero zero_offsets]
  simp only [View.ld_unit_zero (S := S5000x128) zero_offsets, View.ld_unit_zero (S := S128x40) zero_offsets,
    View.ld_unit_zero (S := S1x40) zero_offsets]
  obtain ⟨a00, a01, a10, a11, a20, a21, a30, a31⟩ := band_index t
  funext j
  obtain ⟨p, q, rfl⟩ : ∃ (p : Fin 5000) (q : Fin 40), j = ix2 p q := ⟨j 0, j 1, eq_ix2 j⟩
  show k8_pay1 (iblk8 V c 0 t) (iblk8 V c 1 t) (iblk8 V c 2 t) (ix2 p q)
    = lin (V c main_v159) (V c main_v160) (V c main_v161) (((cfg8.win 3).blk t).view.emb (ix2 p q))
  refine (pay8_entry (iblk8 V c 0 t) (iblk8 V c 1 t) (iblk8 V c 2 t) p q).trans ?_
  refine lin_rows (M := 100000) (K := 128) (N := 40) (T := 5000) (V c main_v159) (V c main_v160) (V c main_v161)
    (iblk8 V c 0 t) (iblk8 V c 1 t) (iblk8 V c 2 t) (5000 * t.val) ?_ ?_ p q
    (((cfg8.win 3).blk t).view.emb (ix2 p q)) ?_ ?_ ?_
  · intro p' k hp
    show V c main_v159 (((cfg8.win 0).blk t).view.emb (ix2 p' k)) = V c main_v159 (ix2 ⟨5000 * t.val + p'.val, hp⟩ k)
    refine congrArg _ (funext fun a => Fin.ext ?_)
    match a with
    | ⟨0, _⟩ => show win8_0.index t (0 : Fin 2) * 5000 + 1 * p'.val = 5000 * t.val + p'.val; omega
    | ⟨1, _⟩ => show win8_0.index t (1 : Fin 2) * 128 + 1 * k.val = k.val; omega
  · intro z
    show V c main_v160 (((cfg8.win 1).blk t).view.emb z) = V c main_v160 z
    refine congrArg _ (funext fun a => Fin.ext ?_)
    match a with
    | ⟨0, _⟩ => show win8_1.index t (0 : Fin 2) * 128 + 1 * (z 0).val = (z 0).val; omega
    | ⟨1, _⟩ => show win8_1.index t (1 : Fin 2) * 40 + 1 * (z 1).val = (z 1).val; omega
  · show win8_3.index t (0 : Fin 2) * 5000 + 1 * p.val = 5000 * t.val + p.val
    omega
  · show win8_3.index t (1 : Fin 2) * 40 + 1 * q.val = q.val
    omega
  · show V c main_v161 (((cfg8.win 2).blk t).view.emb (ix2 (0 : Fin 1) q)) = V c main_v161 (ix2 (0 : Fin 1) q)
    refine congrArg _ (funext fun a => Fin.ext ?_)
    match a with
    | ⟨0, _⟩ => show win8_2.index t (0 : Fin 2) * 1 + 1 * 0 = 0; omega
    | ⟨1, _⟩ => show win8_2.index t (1 : Fin 2) * 40 + 1 * q.val = q.val; omega

/-- An entry of the result lies in band t exactly when its row is one of the band's and its column any. -/
theorem mem_band (t : Fin cfg8.N) (i : S100000x40.Idx) :
    i ∈ ((cfg8.win 3).blk t).view.set ↔ ∀ a : Fin 2, win8_3.index t a * S5000x40.size a ≤ (i a).val
      ∧ (i a).val < win8_3.index t a * S5000x40.size a + S5000x40.size a := by
  show i ∈ ((View.whole main_v162).slice (win8_3.rect t)).set ↔ _
  rw [View.set_slice_whole, Rect.mem_set_unit]
  exact Iff.rfl

/-- Row r lies in band r / 5000, and every band is written back. -/
theorem covered (i : S100000x40.Idx) :
    ∃ t : Fin cfg8.N, (cfg8.win 3).flush t = true ∧ i ∈ ((cfg8.win 3).blk t).view.set := by
  have hN : cfg8.N = 20 := N_8
  have h0 : (i 0).val < 100000 := idx2_lt0 i
  have h1 : (i 1).val < 40 := idx2_lt1 i
  have ht : (i 0).val / 5000 < cfg8.N := by rw [hN]; omega
  obtain ⟨-, -, -, -, -, -, a30, a31⟩ := band_index ⟨(i 0).val / 5000, ht⟩
  refine ⟨⟨(i 0).val / 5000, ht⟩, flush8_3 _, ?_⟩
  rw [mem_band]
  intro a
  match a with
  | ⟨0, _⟩ =>
    show win8_3.index ⟨(i 0).val / 5000, ht⟩ (0 : Fin 2) * 5000 ≤ (i 0).val
      ∧ (i 0).val < win8_3.index ⟨(i 0).val / 5000, ht⟩ (0 : Fin 2) * 5000 + 5000
    rw [a30]
    show (i 0).val / 5000 * 5000 ≤ (i 0).val ∧ (i 0).val < (i 0).val / 5000 * 5000 + 5000
    omega
  | ⟨1, _⟩ =>
    show win8_3.index ⟨(i 0).val / 5000, ht⟩ (1 : Fin 2) * 40 ≤ (i 1).val
      ∧ (i 1).val < win8_3.index ⟨(i 0).val / 5000, ht⟩ (1 : Fin 2) * 40 + 40
    rw [a31]
    omega

/-- After the twenty bands the result array holds the product plus the bias. -/
theorem out_arr (c : Dev nD) : (dat8 (F := Ideal) V c).arrAt 3 cfg8.N
    = lin (V c main_v159) (V c main_v160) (V c main_v161) :=
  (dat8 (F := Ideal) V c).arrAt_eq_of_cover 3 _ (fun t _ => flushed_eq V c t) covered

end Cert.Gcn.Head8

end
-- ==== Proof.KernelValue.lean ====
/-
  What the tiled program's fold of host stretches and kernel regions leaves at each buffer a later stage reads, from the
  launch memory to the result: the arguments and the edge quantities are carried unchanged across the regions and
  stretches that do not write them; each statistics region leaves the layer's product and its two rows of column
  totals; each host stretch after it turns the totals into the mean row and the one-pass variance row and slices out
  the layer's scale and shift rows; each normalising region leaves the layer's hidden matrix; each host stretch before
  a product aggregates the hidden matrix along the edges and slices out the layer's weight slab and bias row. Composed,
  the result buffer ends at the one-pass network of the ten arguments.
-/
import proofs.«143695_j28905129902721_1_alg».proof.Proof.Gen.KernelIdeal.Frame
import proofs.«143695_j28905129902721_1_alg».proof.Proof.ModelDefs
import proofs.«143695_j28905129902721_1_alg».proof.Proof.Glue
import proofs.«143695_j28905129902721_1_alg».proof.Proof.KernelEdges
import proofs.«143695_j28905129902721_1_alg».proof.Proof.Stats0
import proofs.«143695_j28905129902721_1_alg».proof.Proof.Stats2
import proofs.«143695_j28905129902721_1_alg».proof.Proof.Stats4
import proofs.«143695_j28905129902721_1_alg».proof.Proof.Stats6
import proofs.«143695_j28905129902721_1_alg».proof.Proof.Norm1
import proofs.«143695_j28905129902721_1_alg».proof.Proof.NormRes3
import proofs.«143695_j28905129902721_1_alg».proof.Proof.NormRes5
import proofs.«143695_j28905129902721_1_alg».proof.Proof.NormRes7
import proofs.«143695_j28905129902721_1_alg».proof.Proof.Head8
import Idealize.ShloMosaic.Lib.StableHlo.Run
import Idealize.ShloMosaic.Lib.Pipeline.Value

set_option maxRecDepth 16384

noncomputable section

namespace Cert.KernelIdeal.Val

open Cert.KernelIdeal Cert.KernelIdeal.Gen
open Idealize.ShloMosaic Idealize.ShloMosaic.TcCoe Idealize.ShloMosaic.Tactic Idealize.SL.Sem Idealize.ShloMosaic.StableHlo
open Cert.Gcn Cert.Gcn.Glue

variable (m : (ℓ : Loc nD τ sig) → Buf (Elt Ideal) ℓ) (ρ : Dev nD → PrngReg) (c : Dev nD)

/-! ## The ten arguments as launched -/

abbrev X0 : Mat 100000 128 := m ((c.tc : Thread nD τ).loc main_arg0)
abbrev X1 : Model.Edges := m ((c.tc : Thread nD τ).loc main_arg1)
abbrev X2 : Mat 128 128 := m ((c.tc : Thread nD τ).loc main_arg2)
abbrev X3 : FVec Ideal ⟨1, ![128]⟩ .f32 := m ((c.tc : Thread nD τ).loc main_arg3)
abbrev X4 : FVec Ideal ⟨3, ![3, 128, 128]⟩ .f32 := m ((c.tc : Thread nD τ).loc main_arg4)
abbrev X5 : Mat 3 128 := m ((c.tc : Thread nD τ).loc main_arg5)
abbrev X6 : Mat 4 128 := m ((c.tc : Thread nD τ).loc main_arg6)
abbrev X7 : Mat 4 128 := m ((c.tc : Thread nD τ).loc main_arg7)
abbrev X8 : Mat 40 128 := m ((c.tc : Thread nD τ).loc main_arg8)
abbrev X9 : FVec Ideal ⟨1, ![40]⟩ .f32 := m ((c.tc : Thread nD τ).loc main_arg9)

/-! ## Buffers carried unchanged -/

set_option maxHeartbeats 8000000 in
theorem arg6_W4 : W4 m ρ c (Proc.devRef .tc main_arg6) = X6 m c := by
  rw [W4_of_ne m ρ c main_arg6 (by decide)]
  show StableHlo.after hostOps0_2 (StableHlo.after hostOps0_1 (StableHlo.after hostOps0 (W0 m ρ c))) (Proc.devRef .tc main_arg6) = _
  after_results
  all_goals rfl

set_option maxHeartbeats 8000000 in
theorem arg6_W8 : W8 m ρ c (Proc.devRef .tc main_arg6) = X6 m c := by
  rw [W8_of_ne m ρ c main_arg6 (by decide)]
  show StableHlo.after hostOps2 (W6 m ρ c) (Proc.devRef .tc main_arg6) = _
  after_results
  rw [W6_of_ne m ρ c main_arg6 (by decide)]
  show StableHlo.after hostOps1 (W4 m ρ c) (Proc.devRef .tc main_arg6) = _
  after_results
  exact arg6_W4 m ρ c

set_option maxHeartbeats 8000000 in
theorem arg6_W12 : W12 m ρ c (Proc.devRef .tc main_arg6) = X6 m c := by
  rw [W12_of_ne m ρ c main_arg6 (by decide)]
  show StableHlo.after hostOps4 (W10 m ρ c) (Proc.devRef .tc main_arg6) = _
  after_results
  rw [W10_of_ne m ρ c main_arg6 (by decide)]
  show StableHlo.after hostOps3 (W8 m ρ c) (Proc.devRef .tc main_arg6) = _
  after_results
  exact arg6_W8 m ρ c

set_option maxHeartbeats 8000000 in
theorem arg6_W16 : W16 m ρ c (Proc.devRef .tc main_arg6) = X6 m c := by
  rw [W16_of_ne m ρ c main_arg6 (by decide)]
  show StableHlo.after hostOps6 (W14 m ρ c) (Proc.devRef .tc main_arg6) = _
  after_results
  rw [W14_of_ne m ρ c main_arg6 (by decide)]
  show StableHlo.after hostOps5 (W12 m ρ c) (Proc.devRef .tc main_arg6) = _
  after_results
  exact arg6_W12 m ρ c

set_option maxHeartbeats 8000000 in
theorem arg7_W4 : W4 m ρ c (Proc.devRef .tc main_arg7) = X7 m c := by
  rw [W4_of_ne m ρ c main_arg7 (by decide)]
  show StableHlo.after hostOps0_2 (StableHlo.after hostOps0_1 (StableHlo.after hostOps0 (W0 m ρ c))) (Proc.devRef .tc main_arg7) = _
  after_results
  all_goals rfl

set_option maxHeartbeats 8000000 in
theorem arg7_W8 : W8 m ρ c (Proc.devRef .tc main_arg7) = X7 m c := by
  rw [W8_of_ne m ρ c main_arg7 (by decide)]
  show StableHlo.after hostOps2 (W6 m ρ c) (Proc.devRef .tc main_arg7) = _
  after_results
  rw [W6_of_ne m ρ c main_arg7 (by decide)]
  show StableHlo.after hostOps1 (W4 m ρ c) (Proc.devRef .tc main_arg7) = _
  after_results
  exact arg7_W4 m ρ c

set_option maxHeartbeats 8000000 in
theorem arg7_W12 : W12 m ρ c (Proc.devRef .tc main_arg7) = X7 m c := by
  rw [W12_of_ne m ρ c main_arg7 (by decide)]
  show StableHlo.after hostOps4 (W10 m ρ c) (Proc.devRef .tc main_arg7) = _
  after_results
  rw [W10_of_ne m ρ c main_arg7 (by decide)]
  show StableHlo.after hostOps3 (W8 m ρ c) (Proc.devRef .tc main_arg7) = _
  after_results
  exact arg7_W8 m ρ c

set_option maxHeartbeats 8000000 in
theorem arg7_W16 : W16 m ρ c (Proc.devRef .tc main_arg7) = X7 m c := by
  rw [W16_of_ne m ρ c main_arg7 (by decide)]
  show StableHlo.after hostOps6 (W14 m ρ c) (Proc.devRef .tc main_arg7) = _
  after_results
  rw [W14_of_ne m ρ c main_arg7 (by decide)]
  show StableHlo.after hostOps5 (W12 m ρ c) (Proc.devRef .tc main_arg7) = _
  after_results
  exact arg7_W12 m ρ c

set_option maxHeartbeats 8000000 in
theorem arg4_W6 : W6 m ρ c (Proc.devRef .tc main_arg4) = X4 m c := by
  rw [W6_of_ne m ρ c main_arg4 (by decide)]
  show StableHlo.after hostOps1 (W4 m ρ c) (Proc.devRef .tc main_arg4) = _
  after_results
  rw [W4_of_ne m ρ c main_arg4 (by decide)]
  show StableHlo.after hostOps0_2 (StableHlo.after hostOps0_1 (StableHlo.after hostOps0 (W0 m ρ c))) (Proc.devRef .tc main_arg4) = _
  after_results
  all_goals rfl

set_option maxHeartbeats 8000000 in
theorem arg4_W10 : W10 m ρ c (Proc.devRef .tc main_arg4) = X4 m c := by
  rw [W10_of_ne m ρ c main_arg4 (by decide)]
  show StableHlo.after hostOps3 (W8 m ρ c) (Proc.devRef .tc main_arg4) = _
  after_results
  rw [W8_of_ne m ρ c main_arg4 (by decide)]
  show StableHlo.after hostOps2 (W6 m ρ c) (Proc.devRef .tc main_arg4) = _
  after_results
  exact arg4_W6 m ρ c

set_option maxHeartbeats 8000000 in
theorem arg4_W14 : W14 m ρ c (Proc.devRef .tc main_arg4) = X4 m c := by
  rw [W14_of_ne m ρ c main_arg4 (by decide)]
  show StableHlo.after hostOps5 (W12 m ρ c) (Proc.devRef .tc main_arg4) = _
  after_results
  rw [W12_of_ne m ρ c main_arg4 (by decide)]
  show StableHlo.after hostOps4 (W10 m ρ c) (Proc.devRef .tc main_arg4) = _
  after_results
  exact arg4_W10 m ρ c

set_option maxHeartbeats 8000000 in
theorem arg5_W6 : W6 m ρ c (Proc.devRef .tc main_arg5) = X5 m c := by
  rw [W6_of_ne m ρ c main_arg5 (by decide)]
  show StableHlo.after hostOps1 (W4 m ρ c) (Proc.devRef .tc main_arg5) = _
  after_results
  rw [W4_of_ne m ρ c main_arg5 (by decide)]
  show StableHlo.after hostOps0_2 (StableHlo.after hostOps0_1 (StableHlo.after hostOps0 (W0 m ρ c))) (Proc.devRef .tc main_arg5) = _
  after_results
  all_goals rfl

set_option maxHeartbeats 8000000 in
theorem arg5_W10 : W10 m ρ c (Proc.devRef .tc main_arg5) = X5 m c := by
  rw [W10_of_ne m ρ c main_arg5 (by decide)]
  show StableHlo.after hostOps3 (W8 m ρ c) (Proc.devRef .tc main_arg5) = _
  after_results
  rw [W8_of_ne m ρ c main_arg5 (by decide)]
  show StableHlo.after hostOps2 (W6 m ρ c) (Proc.devRef .tc main_arg5) = _
  after_results
  exact arg5_W6 m ρ c

set_option maxHeartbeats 8000000 in
theorem arg5_W14 : W14 m ρ c (Proc.devRef .tc main_arg5) = X5 m c := by
  rw [W14_of_ne m ρ c main_arg5 (by decide)]
  show StableHlo.after hostOps5 (W12 m ρ c) (Proc.devRef .tc main_arg5) = _
  after_results
  rw [W12_of_ne m ρ c main_arg5 (by decide)]
  show StableHlo.after hostOps4 (W10 m ρ c) (Proc.devRef .tc main_arg5) = _
  after_results
  exact arg5_W10 m ρ c

set_option maxHeartbeats 8000000 in
theorem arg8_W18 : W18 m ρ c (Proc.devRef .tc main_arg8) = X8 m c := by
  rw [W18_of_ne m ρ c main_arg8 (by decide)]
  show StableHlo.after hostOps7 (W16 m ρ c) (Proc.devRef .tc main_arg8) = _
  after_results
  rw [W16_of_ne m ρ c main_arg8 (by decide)]
  show StableHlo.after hostOps6 (W14 m ρ c) (Proc.devRef .tc main_arg8) = _
  after_results
  rw [W14_of_ne m ρ c main_arg8 (by decide)]
  show StableHlo.after hostOps5 (W12 m ρ c) (Proc.devRef .tc main_arg8) = _
  after_results
  rw [W12_of_ne m ρ c main_arg8 (by decide)]
  show StableHlo.after hostOps4 (W10 m ρ c) (Proc.devRef .tc main_arg8) = _
  after_results
  rw [W10_of_ne m ρ c main_arg8 (by decide)]
  show StableHlo.after hostOps3 (W8 m ρ c) (Proc.devRef .tc main_arg8) = _
  after_results
  rw [W8_of_ne m ρ c main_arg8 (by decide)]
  show StableHlo.after hostOps2 (W6 m ρ c) (Proc.devRef .tc main_arg8) = _
  after_results
  rw [W6_of_ne m ρ c main_arg8 (by decide)]
  show StableHlo.after hostOps1 (W4 m ρ c) (Proc.devRef .tc main_arg8) = _
  after_results
  rw [W4_of_ne m ρ c main_arg8 (by decide)]
  show StableHlo.after hostOps0_2 (StableHlo.after hostOps0_1 (StableHlo.after hostOps0 (W0 m ρ c))) (Proc.devRef .tc main_arg8) = _
  after_results
  all_goals rfl

set_option maxHeartbeats 8000000 in
theorem arg9_W18 : W18 m ρ c (Proc.devRef .tc main_arg9) = X9 m c := by
  rw [W18_of_ne m ρ c main_arg9 (by decide)]
  show StableHlo.after hostOps7 (W16 m ρ c) (Proc.devRef .tc main_arg9) = _
  after_results
  rw [W16_of_ne m ρ c main_arg9 (by decide)]
  show StableHlo.after hostOps6 (W14 m ρ c) (Proc.devRef .tc main_arg9) = _
  after_results
  rw [W14_of_ne m ρ c main_arg9 (by decide)]
  show StableHlo.after hostOps5 (W12 m ρ c) (Proc.devRef .tc main_arg9) = _
  after_results
  rw [W12_of_ne m ρ c main_arg9 (by decide)]
  show StableHlo.after hostOps4 (W10 m ρ c) (Proc.devRef .tc main_arg9) = _
  after_results
  rw [W10_of_ne m ρ c main_arg9 (by decide)]
  show StableHlo.after hostOps3 (W8 m ρ c) (Proc.devRef .tc main_arg9) = _
  after_results
  rw [W8_of_ne m ρ c main_arg9 (by decide)]
  show StableHlo.after hostOps2 (W6 m ρ c) (Proc.devRef .tc main_arg9) = _
  after_results
  rw [W6_of_ne m ρ c main_arg9 (by decide)]
  show StableHlo.after hostOps1 (W4 m ρ c) (Proc.devRef .tc main_arg9) = _
  after_results
  rw [W4_of_ne m ρ c main_arg9 (by decide)]
  show StableHlo.after hostOps0_2 (StableHlo.after hostOps0_1 (StableHlo.after hostOps0 (W0 m ρ c))) (Proc.devRef .tc main_arg9) = _
  after_results
  all_goals rfl

set_option maxHeartbeats 8000000 in
theorem v1_W6 : W6 m ρ c (Proc.devRef .tc main_v1) = Cert.ReferenceIdeal.Read.val_main_v1 (F := Ideal) (X1 m c) := by
  rw [W6_of_ne m ρ c main_v1 (by decide)]
  show StableHlo.after hostOps1 (W4 m ρ c) (Proc.devRef .tc main_v1) = _
  after_results
  rw [W4_of_ne m ρ c main_v1 (by decide)]
  exact v1_W3 m ρ c

set_option maxHeartbeats 8000000 in
theorem v1_W10 : W10 m ρ c (Proc.devRef .tc main_v1) = Cert.ReferenceIdeal.Read.val_main_v1 (F := Ideal) (X1 m c) := by
  rw [W10_of_ne m ρ c main_v1 (by decide)]
  show StableHlo.after hostOps3 (W8 m ρ c) (Proc.devRef .tc main_v1) = _
  after_results
  rw [W8_of_ne m ρ c main_v1 (by decide)]
  show StableHlo.after hostOps2 (W6 m ρ c) (Proc.devRef .tc main_v1) = _
  after_results
  exact v1_W6 m ρ c

set_option maxHeartbeats 8000000 in
theorem v1_W14 : W14 m ρ c (Proc.devRef .tc main_v1) = Cert.ReferenceIdeal.Read.val_main_v1 (F := Ideal) (X1 m c) := by
  rw [W14_of_ne m ρ c main_v1 (by decide)]
  show StableHlo.after hostOps5 (W12 m ρ c) (Proc.devRef .tc main_v1) = _
  after_results
  rw [W12_of_ne m ρ c main_v1 (by decide)]
  show StableHlo.after hostOps4 (W10 m ρ c) (Proc.devRef .tc main_v1) = _
  after_results
  exact v1_W10 m ρ c

set_option maxHeartbeats 8000000 in
theorem v3_W6 : W6 m ρ c (Proc.devRef .tc main_v3) = Cert.ReferenceIdeal.Read.val_main_v3 (F := Ideal) (X1 m c) := by
  rw [W6_of_ne m ρ c main_v3 (by decide)]
  show StableHlo.after hostOps1 (W4 m ρ c) (Proc.devRef .tc main_v3) = _
  after_results
  rw [W4_of_ne m ρ c main_v3 (by decide)]
  exact v3_W3 m ρ c

set_option maxHeartbeats 8000000 in
theorem v3_W10 : W10 m ρ c (Proc.devRef .tc main_v3) = Cert.ReferenceIdeal.Read.val_main_v3 (F := Ideal) (X1 m c) := by
  rw [W10_of_ne m ρ c main_v3 (by decide)]
  show StableHlo.after hostOps3 (W8 m ρ c) (Proc.devRef .tc main_v3) = _
  after_results
  rw [W8_of_ne m ρ c main_v3 (by decide)]
  show StableHlo.after hostOps2 (W6 m ρ c) (Proc.devRef .tc main_v3) = _
  after_results
  exact v3_W6 m ρ c

set_option maxHeartbeats 8000000 in
theorem v3_W14 : W14 m ρ c (Proc.devRef .tc main_v3) = Cert.ReferenceIdeal.Read.val_main_v3 (F := Ideal) (X1 m c) := by
  rw [W14_of_ne m ρ c main_v3 (by decide)]
  show StableHlo.after hostOps5 (W12 m ρ c) (Proc.devRef .tc main_v3) = _
  after_results
  rw [W12_of_ne m ρ c main_v3 (by decide)]
  show StableHlo.after hostOps4 (W10 m ρ c) (Proc.devRef .tc main_v3) = _
  after_results
  exact v3_W10 m ρ c

set_option maxHeartbeats 8000000 in
theorem v28_W6 : W6 m ρ c (Proc.devRef .tc main_v28) = Cert.ReferenceIdeal.Read.val_main_v28 (F := Ideal) (X1 m c) := by
  rw [W6_of_ne m ρ c main_v28 (by decide)]
  show StableHlo.after hostOps1 (W4 m ρ c) (Proc.devRef .tc main_v28) = _
  after_results
  rw [W4_of_ne m ρ c main_v28 (by decide)]
  exact v28_W3 m ρ c

set_option maxHeartbeats 8000000 in
theorem v28_W10 : W10 m ρ c (Proc.devRef .tc main_v28) = Cert.ReferenceIdeal.Read.val_main_v28 (F := Ideal) (X1 m c) := by
  rw [W10_of_ne m ρ c main_v28 (by decide)]
  show StableHlo.after hostOps3 (W8 m ρ c) (Proc.devRef .tc main_v28) = _
  after_results
  rw [W8_of_ne m ρ c main_v28 (by decide)]
  show StableHlo.after hostOps2 (W6 m ρ c) (Proc.devRef .tc main_v28) = _
  after_results
  exact v28_W6 m ρ c

set_option maxHeartbeats 8000000 in
theorem v28_W14 : W14 m ρ c (Proc.devRef .tc main_v28) = Cert.ReferenceIdeal.Read.val_main_v28 (F := Ideal) (X1 m c) := by
  rw [W14_of_ne m ρ c main_v28 (by decide)]
  show StableHlo.after hostOps5 (W12 m ρ c) (Proc.devRef .tc main_v28) = _
  after_results
  rw [W12_of_ne m ρ c main_v28 (by decide)]
  show StableHlo.after hostOps4 (W10 m ρ c) (Proc.devRef .tc main_v28) = _
  after_results
  exact v28_W10 m ρ c

/-! ## Region 0: the first product and its column totals -/

set_option maxHeartbeats 8000000 in
theorem in0_0 : V3 m ρ c main_arg0 = X0 m c := by
  show StableHlo.after hostOps0_2 (StableHlo.after hostOps0_1 (StableHlo.after hostOps0 (W0 m ρ c))) (Proc.devRef .tc main_arg0) = _
  after_results
  all_goals rfl

set_option maxHeartbeats 8000000 in
theorem in0_1 : V3 m ρ c main_v29 = tr (X2 m c) := by
  show StableHlo.after hostOps0_2 (StableHlo.after hostOps0_1 (StableHlo.after hostOps0 (W0 m ρ c))) (Proc.devRef .tc main_v29) = _
  after_results
  exact tr_glue (X2 m c) transposes_S128x128_S128x128_1_0

set_option maxHeartbeats 8000000 in
theorem in0_2 : V3 m ρ c main_v30 = rowV (X3 m c) := by
  show StableHlo.after hostOps0_2 (StableHlo.after hostOps0_1 (StableHlo.after hostOps0 (W0 m ρ c))) (Proc.devRef .tc main_v30) = _
  after_results
  exact rowV_glue (X3 m c) shapeCasts_S128_S1x128

theorem out0_lin : W4 m ρ c (Proc.devRef .tc main_v31_0) = (Model.L0 (X0 m c) (X2 m c) (X3 m c)) :=
  (W4_arr m ρ c 3).trans ((Cert.Gcn.Stats0.lin_arr (V3 m ρ) c).trans (by rw [in0_0, in0_1, in0_2]; rfl))

theorem out0_tot : W4 m ρ c (Proc.devRef .tc main_v31_1) = tot (Model.L0 (X0 m c) (X2 m c) (X3 m c)) :=
  (W4_arr m ρ c 4).trans ((Cert.Gcn.Stats0.tot_arr (V3 m ρ) c).trans (by rw [in0_0, in0_1, in0_2]; rfl))

theorem out0_sq : W4 m ρ c (Proc.devRef .tc main_v31_2) = totSq (Model.L0 (X0 m c) (X2 m c) (X3 m c)) :=
  (W4_arr m ρ c 5).trans ((Cert.Gcn.Stats0.totSq_arr (V3 m ρ) c).trans (by rw [in0_0, in0_1, in0_2]; rfl))

/-! ## Region 1: layer 0's normalisation -/

set_option maxHeartbeats 8000000 in
theorem in1_0 : V5 m ρ c main_v31_0 = (Model.L0 (X0 m c) (X2 m c) (X3 m c)) := by
  show StableHlo.after hostOps1 (W4 m ρ c) (Proc.devRef .tc main_v31_0) = _
  after_results
  exact out0_lin m ρ c

set_option maxHeartbeats 8000000 in
theorem in1_1 : V5 m ρ c main_v44 = meanOf (tot (Model.L0 (X0 m c) (X2 m c) (X3 m c))) := by
  show StableHlo.after hostOps1 (W4 m ρ c) (Proc.devRef .tc main_v44) = _
  after_results
  rw [out0_tot m ρ c]
  exact mean_glue (tot (Model.L0 (X0 m c) (X2 m c) (X3 m c))) shapeCasts_S1x128_S128 shapeCasts_S128_S1x128 bcast_S_S128

set_option maxHeartbeats 8000000 in
theorem in1_2 : V5 m ρ c main_v45 = varOf (tot (Model.L0 (X0 m c) (X2 m c) (X3 m c))) (totSq (Model.L0 (X0 m c) (X2 m c) (X3 m c))) := by
  show StableHlo.after hostOps1 (W4 m ρ c) (Proc.devRef .tc main_v45) = _
  after_results
  rw [out0_tot m ρ c, out0_sq m ρ c]
  exact var_glue (tot (Model.L0 (X0 m c) (X2 m c) (X3 m c))) (totSq (Model.L0 (X0 m c) (X2 m c) (X3 m c))) shapeCasts_S1x128_S128 shapeCasts_S128_S1x128 bcast_S_S128

set_option maxHeartbeats 8000000 in
theorem in1_3 : V5 m ρ c main_v46 = rowOf (X6 m c) 0 := by
  show StableHlo.after hostOps1 (W4 m ρ c) (Proc.devRef .tc main_v46) = _
  after_results
  rw [arg6_W4 m ρ c]
  exact row_glue (X6 m c) 0 slices_S4x128_S1x128_0_0 shapeCasts_S1x128_S128 shapeCasts_S128_S1x128

set_option maxHeartbeats 8000000 in
theorem in1_4 : V5 m ρ c main_v47 = rowOf (X7 m c) 0 := by
  show StableHlo.after hostOps1 (W4 m ρ c) (Proc.devRef .tc main_v47) = _
  after_results
  rw [arg7_W4 m ρ c]
  exact row_glue (X7 m c) 0 slices_S4x128_S1x128_0_0 shapeCasts_S1x128_S128 shapeCasts_S128_S1x128

theorem out1 : W6 m ρ c (Proc.devRef .tc main_v48) = (Model.KH0 (X0 m c) (X2 m c) (X3 m c) (X6 m c) (X7 m c)) :=
  (W6_arr m ρ c 5).trans ((Cert.Gcn.Norm1.out_arr (V5 m ρ) c).trans (by rw [in1_0, in1_1, in1_2, in1_3, in1_4]; rfl))

/-! ## Region 2: layer 1's aggregation, product and column totals -/

set_option maxHeartbeats 8000000 in
theorem in2_0 : V7 m ρ c main_v61 = Cert.Gcn.Sparse.agg (X1 m c) (Model.KH0 (X0 m c) (X2 m c) (X3 m c) (X6 m c) (X7 m c)) := by
  show StableHlo.after hostOps2 (W6 m ρ c) (Proc.devRef .tc main_v61) = _
  after_results
  rw [v1_W6 m ρ c, v3_W6 m ρ c, v28_W6 m ρ c, out1 m ρ c]
  rfl

set_option maxHeartbeats 8000000 in
theorem in2_1 : V7 m ρ c main_v64 = trSlab (X4 m c) 0 := by
  show StableHlo.after hostOps2 (W6 m ρ c) (Proc.devRef .tc main_v64) = _
  after_results
  rw [arg4_W6 m ρ c]
  exact slab_glue (X4 m c) 0 slices_S3x128x128_S1x128x128_0_0_0 shapeCasts_S1x128x128_S128x128 transposes_S128x128_S128x128_1_0

set_option maxHeartbeats 8000000 in
theorem in2_2 : V7 m ρ c main_v67 = rowOf (X5 m c) 0 := by
  show StableHlo.after hostOps2 (W6 m ρ c) (Proc.devRef .tc main_v67) = _
  after_results
  rw [arg5_W6 m ρ c]
  exact row_glue (X5 m c) 0 slices_S3x128_S1x128_0_0 shapeCasts_S1x128_S128 shapeCasts_S128_S1x128

theorem out2_lin : W8 m ρ c (Proc.devRef .tc main_v68_0) = (Model.KL1 (X0 m c) (X1 m c) (X2 m c) (X3 m c) (X4 m c) (X5 m c) (X6 m c) (X7 m c)) :=
  (W8_arr m ρ c 3).trans ((Cert.Gcn.Stats2.lin_arr (V7 m ρ) c).trans (by rw [in2_0, in2_1, in2_2]; rfl))

theorem out2_tot : W8 m ρ c (Proc.devRef .tc main_v68_1) = tot (Model.KL1 (X0 m c) (X1 m c) (X2 m c) (X3 m c) (X4 m c) (X5 m c) (X6 m c) (X7 m c)) :=
  (W8_arr m ρ c 4).trans ((Cert.Gcn.Stats2.tot_arr (V7 m ρ) c).trans (by rw [in2_0, in2_1, in2_2]; rfl))

theorem out2_sq : W8 m ρ c (Proc.devRef .tc main_v68_2) = totSq (Model.KL1 (X0 m c) (X1 m c) (X2 m c) (X3 m c) (X4 m c) (X5 m c) (X6 m c) (X7 m c)) :=
  (W8_arr m ρ c 5).trans ((Cert.Gcn.Stats2.totSq_arr (V7 m ρ) c).trans (by rw [in2_0, in2_1, in2_2]; rfl))

/-! ## Region 3: layer 1's normalisation -/

set_option maxHeartbeats 8000000 in
theorem in3_0 : V9 m ρ c main_v68_0 = (Model.KL1 (X0 m c) (X1 m c) (X2 m c) (X3 m c) (X4 m c) (X5 m c) (X6 m c) (X7 m c)) := by
  show StableHlo.after hostOps3 (W8 m ρ c) (Proc.devRef .tc main_v68_0) = _
  after_results
  exact out2_lin m ρ c

set_option maxHeartbeats 8000000 in
theorem in3_1 : V9 m ρ c main_v81 = meanOf (tot (Model.KL1 (X0 m c) (X1 m c) (X2 m c) (X3 m c) (X4 m c) (X5 m c) (X6 m c) (X7 m c))) := by
  show StableHlo.after hostOps3 (W8 m ρ c) (Proc.devRef .tc main_v81) = _
  after_results
  rw [out2_tot m ρ c]
  exact mean_glue (tot (Model.KL1 (X0 m c) (X1 m c) (X2 m c) (X3 m c) (X4 m c) (X5 m c) (X6 m c) (X7 m c))) shapeCasts_S1x128_S128 shapeCasts_S128_S1x128 bcast_S_S128

set_option maxHeartbeats 8000000 in
theorem in3_2 : V9 m ρ c main_v82 = varOf (tot (Model.KL1 (X0 m c) (X1 m c) (X2 m c) (X3 m c) (X4 m c) (X5 m c) (X6 m c) (X7 m c))) (totSq (Model.KL1 (X0 m c) (X1 m c) (X2 m c) (X3 m c) (X4 m c) (X5 m c) (X6 m c) (X7 m c))) := by
  show StableHlo.after hostOps3 (W8 m ρ c) (Proc.devRef .tc main_v82) = _
  after_results
  rw [out2_tot m ρ c, out2_sq m ρ c]
  exact var_glue (tot (Model.KL1 (X0 m c) (X1 m c) (X2 m c) (X3 m c) (X4 m c) (X5 m c) (X6 m c) (X7 m c))) (totSq (Model.KL1 (X0 m c) (X1 m c) (X2 m c) (X3 m c) (X4 m c) (X5 m c) (X6 m c) (X7 m c))) shapeCasts_S1x128_S128 shapeCasts_S128_S1x128 bcast_S_S128

set_option maxHeartbeats 8000000 in
theorem in3_3 : V9 m ρ c main_v83 = rowOf (X6 m c) 1 := by
  show StableHlo.after hostOps3 (W8 m ρ c) (Proc.devRef .tc main_v83) = _
  after_results
  rw [arg6_W8 m ρ c]
  exact row_glue (X6 m c) 1 slices_S4x128_S1x128_1_0 shapeCasts_S1x128_S128 shapeCasts_S128_S1x128

set_option maxHeartbeats 8000000 in
theorem in3_4 : V9 m ρ c main_v84 = rowOf (X7 m c) 1 := by
  show StableHlo.after hostOps3 (W8 m ρ c) (Proc.devRef .tc main_v84) = _
  after_results
  rw [arg7_W8 m ρ c]
  exact row_glue (X7 m c) 1 slices_S4x128_S1x128_1_0 shapeCasts_S1x128_S128 shapeCasts_S128_S1x128

set_option maxHeartbeats 8000000 in
theorem v48_W8 : W8 m ρ c (Proc.devRef .tc main_v48) = (Model.KH0 (X0 m c) (X2 m c) (X3 m c) (X6 m c) (X7 m c)) := by
  rw [W8_of_ne m ρ c main_v48 (by decide)]
  show StableHlo.after hostOps2 (W6 m ρ c) (Proc.devRef .tc main_v48) = _
  after_results
  exact out1 m ρ c

set_option maxHeartbeats 8000000 in
theorem in3_5 : V9 m ρ c main_v48 = (Model.KH0 (X0 m c) (X2 m c) (X3 m c) (X6 m c) (X7 m c)) := by
  show StableHlo.after hostOps3 (W8 m ρ c) (Proc.devRef .tc main_v48) = _
  after_results
  exact v48_W8 m ρ c

theorem out3 : W10 m ρ c (Proc.devRef .tc main_v85) = (Model.KH1 (X0 m c) (X1 m c) (X2 m c) (X3 m c) (X4 m c) (X5 m c) (X6 m c) (X7 m c)) :=
  (W10_arr m ρ c 6).trans ((Cert.Gcn.NormRes3.out_arr (V9 m ρ) c).trans (by rw [in3_0, in3_1, in3_2, in3_3, in3_4, in3_5]; rfl))

/-! ## Region 4: layer 2's aggregation, product and column totals -/

set_option maxHeartbeats 8000000 in
theorem in4_0 : V11 m ρ c main_v98 = Cert.Gcn.Sparse.agg (X1 m c) (Model.KH1 (X0 m c) (X1 m c) (X2 m c) (X3 m c) (X4 m c) (X5 m c) (X6 m c) (X7 m c)) := by
  show StableHlo.after hostOps4 (W10 m ρ c) (Proc.devRef .tc main_v98) = _
  after_results
  rw [v1_W10 m ρ c, v3_W10 m ρ c, v28_W10 m ρ c, out3 m ρ c]
  rfl

set_option maxHeartbeats 8000000 in
theorem in4_1 : V11 m ρ c main_v101 = trSlab (X4 m c) 1 := by
  show StableHlo.after hostOps4 (W10 m ρ c) (Proc.devRef .tc main_v101) = _
  after_results
  rw [arg4_W10 m ρ c]
  exact slab_glue (X4 m c) 1 slices_S3x128x128_S1x128x128_1_0_0 shapeCasts_S1x128x128_S128x128 transposes_S128x128_S128x128_1_0

set_option maxHeartbeats 8000000 in
theorem in4_2 : V11 m ρ c main_v104 = rowOf (X5 m c) 1 := by
  show StableHlo.after hostOps4 (W10 m ρ c) (Proc.devRef .tc main_v104) = _
  after_results
  rw [arg5_W10 m ρ c]
  exact row_glue (X5 m c) 1 slices_S3x128_S1x128_1_0 shapeCasts_S1x128_S128 shapeCasts_S128_S1x128

theorem out4_lin : W12 m ρ c (Proc.devRef .tc main_v105_0) = (Model.KL2 (X0 m c) (X1 m c) (X2 m c) (X3 m c) (X4 m c) (X5 m c) (X6 m c) (X7 m c)) :=
  (W12_arr m ρ c 3).trans ((Cert.Gcn.Stats4.lin_arr (V11 m ρ) c).trans (by rw [in4_0, in4_1, in4_2]; rfl))

theorem out4_tot : W12 m ρ c (Proc.devRef .tc main_v105_1) = tot (Model.KL2 (X0 m c) (X1 m c) (X2 m c) (X3 m c) (X4 m c) (X5 m c) (X6 m c) (X7 m c)) :=
  (W12_arr m ρ c 4).trans ((Cert.Gcn.Stats4.tot_arr (V11 m ρ) c).trans (by rw [in4_0, in4_1, in4_2]; rfl))

theorem out4_sq : W12 m ρ c (Proc.devRef .tc main_v105_2) = totSq (Model.KL2 (X0 m c) (X1 m c) (X2 m c) (X3 m c) (X4 m c) (X5 m c) (X6 m c) (X7 m c)) :=
  (W12_arr m ρ c 5).trans ((Cert.Gcn.Stats4.totSq_arr (V11 m ρ) c).trans (by rw [in4_0, in4_1, in4_2]; rfl))

/-! ## Region 5: layer 2's normalisation -/

set_option maxHeartbeats 8000000 in
theorem in5_0 : V13 m ρ c main_v105_0 = (Model.KL2 (X0 m c) (X1 m c) (X2 m c) (X3 m c) (X4 m c) (X5 m c) (X6 m c) (X7 m c)) := by
  show StableHlo.after hostOps5 (W12 m ρ c) (Proc.devRef .tc main_v105_0) = _
  after_results
  exact out4_lin m ρ c

set_option maxHeartbeats 8000000 in
theorem in5_1 : V13 m ρ c main_v118 = meanOf (tot (Model.KL2 (X0 m c) (X1 m c) (X2 m c) (X3 m c) (X4 m c) (X5 m c) (X6 m c) (X7 m c))) := by
  show StableHlo.after hostOps5 (W12 m ρ c) (Proc.devRef .tc main_v118) = _
  after_results
  rw [out4_tot m ρ c]
  exact mean_glue (tot (Model.KL2 (X0 m c) (X1 m c) (X2 m c) (X3 m c) (X4 m c) (X5 m c) (X6 m c) (X7 m c))) shapeCasts_S1x128_S128 shapeCasts_S128_S1x128 bcast_S_S128

set_option maxHeartbeats 8000000 in
theorem in5_2 : V13 m ρ c main_v119 = varOf (tot (Model.KL2 (X0 m c) (X1 m c) (X2 m c) (X3 m c) (X4 m c) (X5 m c) (X6 m c) (X7 m c))) (totSq (Model.KL2 (X0 m c) (X1 m c) (X2 m c) (X3 m c) (X4 m c) (X5 m c) (X6 m c) (X7 m c))) := by
  show StableHlo.after hostOps5 (W12 m ρ c) (Proc.devRef .tc main_v119) = _
  after_results
  rw [out4_tot m ρ c, out4_sq m ρ c]
  exact var_glue (tot (Model.KL2 (X0 m c) (X1 m c) (X2 m c) (X3 m c) (X4 m c) (X5 m c) (X6 m c) (X7 m c))) (totSq (Model.KL2 (X0 m c) (X1 m c) (X2 m c) (X3 m c) (X4 m c) (X5 m c) (X6 m c) (X7 m c))) shapeCasts_S1x128_S128 shapeCasts_S128_S1x128 bcast_S_S128

set_option maxHeartbeats 8000000 in
theorem in5_3 : V13 m ρ c main_v120 = rowOf (X6 m c) 2 := by
  show StableHlo.after hostOps5 (W12 m ρ c) (Proc.devRef .tc main_v120) = _
  after_results
  rw [arg6_W12 m ρ c]
  exact row_glue (X6 m c) 2 slices_S4x128_S1x128_2_0 shapeCasts_S1x128_S128 shapeCasts_S128_S1x128

set_option maxHeartbeats 8000000 in
theorem in5_4 : V13 m ρ c main_v121 = rowOf (X7 m c) 2 := by
  show StableHlo.after hostOps5 (W12 m ρ c) (Proc.devRef .tc main_v121) = _
  after_results
  rw [arg7_W12 m ρ c]
  exact row_glue (X7 m c) 2 slices_S4x128_S1x128_2_0 shapeCasts_S1x128_S128 shapeCasts_S128_S1x128

set_option maxHeartbeats 8000000 in
theorem v48_W12 : W12 m ρ c (Proc.devRef .tc main_v48) = (Model.KH0 (X0 m c) (X2 m c) (X3 m c) (X6 m c) (X7 m c)) := by
  rw [W12_of_ne m ρ c main_v48 (by decide)]
  show StableHlo.after hostOps4 (W10 m ρ c) (Proc.devRef .tc main_v48) = _
  after_results
  rw [show W10 m ρ c (Proc.devRef .tc main_v48) = W9 m ρ c (Proc.devRef .tc main_v48) from
    (W10_arr m ρ c 5).trans (((dat3 (V9 m ρ) c).arrAt_in 5 rfl _).trans (A_eq3 (V9 m ρ) c 5))]
  show StableHlo.after hostOps3 (W8 m ρ c) (Proc.devRef .tc main_v48) = _
  after_results
  exact v48_W8 m ρ c

set_option maxHeartbeats 8000000 in
theorem in5_5 : V13 m ρ c main_v48 = (Model.KH0 (X0 m c) (X2 m c) (X3 m c) (X6 m c) (X7 m c)) := by
  show StableHlo.after hostOps5 (W12 m ρ c) (Proc.devRef .tc main_v48) = _
  after_results
  exact v48_W12 m ρ c

theorem out5 : W14 m ρ c (Proc.devRef .tc main_v122) = (Model.KH2 (X0 m c) (X1 m c) (X2 m c) (X3 m c) (X4 m c) (X5 m c) (X6 m c) (X7 m c)) :=
  (W14_arr m ρ c 6).trans ((Cert.Gcn.NormRes5.out_arr (V13 m ρ) c).trans (by rw [in5_0, in5_1, in5_2, in5_3, in5_4, in5_5]; rfl))

/-! ## Region 6: layer 3's aggregation, product and column totals -/

set_option maxHeartbeats 8000000 in
theorem in6_0 : V15 m ρ c main_v135 = Cert.Gcn.Sparse.agg (X1 m c) (Model.KH2 (X0 m c) (X1 m c) (X2 m c) (X3 m c) (X4 m c) (X5 m c) (X6 m c) (X7 m c)) := by
  show StableHlo.after hostOps6 (W14 m ρ c) (Proc.devRef .tc main_v135) = _
  after_results
  rw [v1_W14 m ρ c, v3_W14 m ρ c, v28_W14 m ρ c, out5 m ρ c]
  rfl

set_option maxHeartbeats 8000000 in
theorem in6_1 : V15 m ρ c main_v138 = trSlab (X4 m c) 2 := by
  show StableHlo.after hostOps6 (W14 m ρ c) (Proc.devRef .tc main_v138) = _
  after_results
  rw [arg4_W14 m ρ c]
  exact slab_glue (X4 m c) 2 slices_S3x128x128_S1x128x128_2_0_0 shapeCasts_S1x128x128_S128x128 transposes_S128x128_S128x128_1_0

set_option maxHeartbeats 8000000 in
theorem in6_2 : V15 m ρ c main_v141 = rowOf (X5 m c) 2 := by
  show StableHlo.after hostOps6 (W14 m ρ c) (Proc.devRef .tc main_v141) = _
  after_results
  rw [arg5_W14 m ρ c]
  exact row_glue (X5 m c) 2 slices_S3x128_S1x128_2_0 shapeCasts_S1x128_S128 shapeCasts_S128_S1x128

theorem out6_lin : W16 m ρ c (Proc.devRef .tc main_v142_0) = (Model.KL3 (X0 m c) (X1 m c) (X2 m c) (X3 m c) (X4 m c) (X5 m c) (X6 m c) (X7 m c)) :=
  (W16_arr m ρ c 3).trans ((Cert.Gcn.Stats6.lin_arr (V15 m ρ) c).trans (by rw [in6_0, in6_1, in6_2]; rfl))

theorem out6_tot : W16 m ρ c (Proc.devRef .tc main_v142_1) = tot (Model.KL3 (X0 m c) (X1 m c) (X2 m c) (X3 m c) (X4 m c) (X5 m c) (X6 m c) (X7 m c)) :=
  (W16_arr m ρ c 4).trans ((Cert.Gcn.Stats6.tot_arr (V15 m ρ) c).trans (by rw [in6_0, in6_1, in6_2]; rfl))

theorem out6_sq : W16 m ρ c (Proc.devRef .tc main_v142_2) = totSq (Model.KL3 (X0 m c) (X1 m c) (X2 m c) (X3 m c) (X4 m c) (X5 m c) (X6 m c) (X7 m c)) :=
  (W16_arr m ρ c 5).trans ((Cert.Gcn.Stats6.totSq_arr (V15 m ρ) c).trans (by rw [in6_0, in6_1, in6_2]; rfl))

/-! ## Region 7: layer 3's normalisation -/

set_option maxHeartbeats 8000000 in
theorem in7_0 : V17 m ρ c main_v142_0 = (Model.KL3 (X0 m c) (X1 m c) (X2 m c) (X3 m c) (X4 m c) (X5 m c) (X6 m c) (X7 m c)) := by
  show StableHlo.after hostOps7 (W16 m ρ c) (Proc.devRef .tc main_v142_0) = _
  after_results
  exact out6_lin m ρ c

set_option maxHeartbeats 8000000 in
theorem in7_1 : V17 m ρ c main_v155 = meanOf (tot (Model.KL3 (X0 m c) (X1 m c) (X2 m c) (X3 m c) (X4 m c) (X5 m c) (X6 m c) (X7 m c))) := by
  show StableHlo.after hostOps7 (W16 m ρ c) (Proc.devRef .tc main_v155) = _
  after_results
  rw [out6_tot m ρ c]
  exact mean_glue (tot (Model.KL3 (X0 m c) (X1 m c) (X2 m c) (X3 m c) (X4 m c) (X5 m c) (X6 m c) (X7 m c))) shapeCasts_S1x128_S128 shapeCasts_S128_S1x128 bcast_S_S128

set_option maxHeartbeats 8000000 in
theorem in7_2 : V17 m ρ c main_v156 = varOf (tot (Model.KL3 (X0 m c) (X1 m c) (X2 m c) (X3 m c) (X4 m c) (X5 m c) (X6 m c) (X7 m c))) (totSq (Model.KL3 (X0 m c) (X1 m c) (X2 m c) (X3 m c) (X4 m c) (X5 m c) (X6 m c) (X7 m c))) := by
  show StableHlo.after hostOps7 (W16 m ρ c) (Proc.devRef .tc main_v156) = _
  after_results
  rw [out6_tot m ρ c, out6_sq m ρ c]
  exact var_glue (tot (Model.KL3 (X0 m c) (X1 m c) (X2 m c) (X3 m c) (X4 m c) (X5 m c) (X6 m c) (X7 m c))) (totSq (Model.KL3 (X0 m c) (X1 m c) (X2 m c) (X3 m c) (X4 m c) (X5 m c) (X6 m c) (X7 m c))) shapeCasts_S1x128_S128 shapeCasts_S128_S1x128 bcast_S_S128

set_option maxHeartbeats 8000000 in
theorem in7_3 : V17 m ρ c main_v157 = rowOf (X6 m c) 3 := by
  show StableHlo.after hostOps7 (W16 m ρ c) (Proc.devRef .tc main_v157) = _
  after_results
  rw [arg6_W16 m ρ c]
  exact row_glue (X6 m c) 3 slices_S4x128_S1x128_3_0 shapeCasts_S1x128_S128 shapeCasts_S128_S1x128

set_option maxHeartbeats 8000000 in
theorem in7_4 : V17 m ρ c main_v158 = rowOf (X7 m c) 3 := by
  show StableHlo.after hostOps7 (W16 m ρ c) (Proc.devRef .tc main_v158) = _
  after_results
  rw [arg7_W16 m ρ c]
  exact row_glue (X7 m c) 3 slices_S4x128_S1x128_3_0 shapeCasts_S1x128_S128 shapeCasts_S128_S1x128

set_option maxHeartbeats 8000000 in
theorem v48_W16 : W16 m ρ c (Proc.devRef .tc main_v48) = (Model.KH0 (X0 m c) (X2 m c) (X3 m c) (X6 m c) (X7 m c)) := by
  rw [W16_of_ne m ρ c main_v48 (by decide)]
  show StableHlo.after hostOps6 (W14 m ρ c) (Proc.devRef .tc main_v48) = _
  after_results
  rw [show W14 m ρ c (Proc.devRef .tc main_v48) = W13 m ρ c (Proc.devRef .tc main_v48) from
    (W14_arr m ρ c 5).trans (((dat5 (V13 m ρ) c).arrAt_in 5 rfl _).trans (A_eq5 (V13 m ρ) c 5))]
  show StableHlo.after hostOps5 (W12 m ρ c) (Proc.devRef .tc main_v48) = _
  after_results
  exact v48_W12 m ρ c

set_option maxHeartbeats 8000000 in
theorem in7_5 : V17 m ρ c main_v48 = (Model.KH0 (X0 m c) (X2 m c) (X3 m c) (X6 m c) (X7 m c)) := by
  show StableHlo.after hostOps7 (W16 m ρ c) (Proc.devRef .tc main_v48) = _
  after_results
  exact v48_W16 m ρ c

theorem out7 : W18 m ρ c (Proc.devRef .tc main_v159) = (Model.KH3 (X0 m c) (X1 m c) (X2 m c) (X3 m c) (X4 m c) (X5 m c) (X6 m c) (X7 m c)) :=
  (W18_arr m ρ c 6).trans ((Cert.Gcn.NormRes7.out_arr (V17 m ρ) c).trans (by rw [in7_0, in7_1, in7_2, in7_3, in7_4, in7_5]; rfl))

/-! ## Region 8: the last product -/

set_option maxHeartbeats 8000000 in
theorem in8_0 : V19 m ρ c main_v159 = (Model.KH3 (X0 m c) (X1 m c) (X2 m c) (X3 m c) (X4 m c) (X5 m c) (X6 m c) (X7 m c)) := by
  show StableHlo.after hostOps8 (W18 m ρ c) (Proc.devRef .tc main_v159) = _
  after_results
  exact out7 m ρ c

set_option maxHeartbeats 8000000 in
theorem in8_1 : V19 m ρ c main_v160 = tr (X8 m c) := by
  show StableHlo.after hostOps8 (W18 m ρ c) (Proc.devRef .tc main_v160) = _
  after_results
  rw [arg8_W18 m ρ c]
  exact tr_glue (X8 m c) transposes_S40x128_S128x40_1_0

set_option maxHeartbeats 8000000 in
theorem in8_2 : V19 m ρ c main_v161 = rowV (X9 m c) := by
  show StableHlo.after hostOps8 (W18 m ρ c) (Proc.devRef .tc main_v161) = _
  after_results
  rw [arg9_W18 m ρ c]
  exact rowV_glue (X9 m c) shapeCasts_S40_S1x40

/-- The result buffer ends at the one-pass network of the ten arguments as launched. -/
theorem result : W20 m ρ c (Proc.devRef .tc main_v162) = Model.KOut (X0 m c) (X1 m c) (X2 m c) (X3 m c) (X4 m c) (X5 m c) (X6 m c) (X7 m c) (X8 m c) (X9 m c) :=
  (W20_arr m ρ c 3).trans ((Cert.Gcn.Head8.out_arr (V19 m ρ) c).trans (by rw [in8_0, in8_1, in8_2]; rfl))

end Cert.KernelIdeal.Val

end
-- ==== Proof.LibSegment.lean ====
/-
  Rows picked out of an array by a column of integer indices, and rows added into an array at a column of
  integer indices, read at an index.

  A column `idx : [M, 1]` of integers names, for each of `M` edges, one of `N` rows.
  * Picking (`x[idx]`, a `stablehlo.gather` with one collapsed axis): edge `e` reads row `idx[e, 0]`, the integer
    taken signed and clamped into `[0, N - 1]` — for a flat array `[N]` (`gather_entries_apply`) and for an array
    of rows `[N, D]` (`gather_rows_apply`).
  * Adding (`zeros.at[idx].add(upd)`, a `stablehlo.scatter` whose body adds): at the exact extended reals, row `n`
    of the result is the operand's row plus the sum of the updates of exactly those edges whose integer, taken
    signed and NOT clamped, is `n`; an edge whose integer is outside `[0, N)` contributes nowhere — for a flat
    array (`scatterAdd_entries_apply`) and for rows (`scatterAdd_rows_apply`).
  Both are stated for any extents, over the dimension numbers spelt out as `entryDims`, `rowDims`, `entryAddDims`,
  `rowAddDims`; a program's own record of the same numbers is one of these by `rfl`.
-/
import Idealize.ShloMosaic.PureOps.Ideal
import Idealize.ShloMosaic.Lib.ValueIdx

noncomputable section

open scoped BigOperators

namespace Cert.LibSegment

open Idealize.ShloMosaic Idealize.ShloMosaic.ValueIdx

variable {α : Type}

/-- The entry `(e, 0)` of a column `[M, 1]`. -/
abbrev colIdx {M : Nat} (e : Fin M) : (⟨2, ![M, 1]⟩ : Shape).Idx := ix2 e (⟨0, Nat.one_pos⟩ : Fin 1)

/-- An integer word taken signed and clamped into `[0, N - 1]`: the row a gather reads. -/
def clampRow (N : Nat) (hN : 0 < N) {w : Nat} (v : BitVec w) : Fin N := ⟨min v.toInt.toNat (N - 1), by omega⟩

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-! ## Picking entries of a flat array -/

/-- The dimension numbers of `x[idx]` for `x : [N]`, `idx : [M, 1]`, result `[M]`. -/
abbrev entryDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- Edge `e` of `x[idx]` is `x` at the clamped integer `idx[e, 0]`. -/
theorem gather_entries_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (entryDims N M wf) x idx (ix1 e) = x (ix1 (clampRow N hN (idx (colIdx e)))) := by
  unfold Host.gather
  congr 1
  funext a
  obtain rfl : a = 0 := Subsingleton.elim _ _
  refine Fin.ext ?_
  show (entryDims N M wf).start (ix1 e) idx 0 + (entryDims N M wf).batchCoord (ix1 e) 0
    + (entryDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entryDims N M wf).startIndexMap from List.mem_singleton.mpr rfl)]
  have hsi : (entryDims N M wf).siIdx (ix1 e) ⟨List.idxOf (0 : Fin 1) (entryDims N M wf).startIndexMap,
      List.idxOf_lt_length_iff.2 (List.mem_singleton.mpr rfl)⟩ = colIdx e := by
    funext b; refine Fin.ext ?_
    match b with
    | ⟨0, _⟩ => rfl
    | ⟨1, _⟩ => rfl
  rw [hsi]
  rfl

/-! ## Picking rows -/

/-- The dimension numbers of `x[idx]` for `x : [N, D]`, `idx : [M, 1]`, result `[M, D]`: whole rows. -/
abbrev rowDims (N D M : Nat) (wf : GatherDims.WF ⟨2, ![N, D]⟩ ⟨2, ![M, 1]⟩ ⟨2, ![M, D]⟩ [1] [0] [] [0] [] 1 ![1, D]) :
    GatherDims ⟨2, ![N, D]⟩ ⟨2, ![M, 1]⟩ ⟨2, ![M, D]⟩ where
  offsetDims := [1]
  collapsedSliceDims := [0]
  operandBatchingDims := []
  startIndicesBatchingDims := []
  startIndexMap := [0]
  indexVectorDim := 1
  sliceSizes := ![1, D]
  wf := wf

/-- Entry `(e, j)` of the picked rows is `x` at row (the clamped integer `idx[e, 0]`), column `j`. -/
theorem gather_rows_apply {N D M w : Nat} (hN : 0 < N)
    (wf : GatherDims.WF ⟨2, ![N, D]⟩ ⟨2, ![M, 1]⟩ ⟨2, ![M, D]⟩ [1] [0] [] [0] [] 1 ![1, D])
    (x : (⟨2, ![N, D]⟩ : Shape).Idx → α) (idx : IVec ⟨2, ![M, 1]⟩ w) (e : Fin M) (j : Fin D) :
    Host.gather (rowDims N D M wf) x idx (ix2 e j) = x (ix2 (clampRow N hN (idx (colIdx e))) j) := by
  unfold Host.gather
  congr 1
  funext a
  refine Fin.ext ?_
  match a with
  | ⟨0, _⟩ =>
    show (rowDims N D M wf).start (ix2 e j) idx 0 + (rowDims N D M wf).batchCoord (ix2 e j) 0
      + (rowDims N D M wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D M wf).startIndexMap from List.mem_singleton.mpr rfl)]
    have hsi : (rowDims N D M wf).siIdx (ix2 e j) ⟨List.idxOf (0 : Fin 2) (rowDims N D M wf).startIndexMap,
        List.idxOf_lt_length_iff.2 (List.mem_singleton.mpr rfl)⟩ = colIdx e := by
      funext b; refine Fin.ext ?_
      match b with
      | ⟨0, _⟩ => rfl
      | ⟨1, _⟩ => rfl
    rw [hsi]
    rfl
  | ⟨1, _⟩ =>
    show (rowDims N D M wf).start (ix2 e j) idx 1 + (rowDims N D M wf).batchCoord (ix2 e j) 1
      + (rowDims N D M wf).offCoord (ix2 e j) 1 = j.val
    rw [GatherDims.batchCoord_eq_zero _ _ _ List.not_mem_nil]
    have hs : (rowDims N D M wf).start (ix2 e j) idx 1 = 0 := by
      unfold GatherDims.start
      rw [dif_neg (show (1 : Fin 2) ∉ [(0 : Fin 2)] from by decide)]
    have hk : (1 : Fin 2) ∈ (rowDims N D M wf).sKept :=
      show (1 : Fin 2) ∈ (List.finRange 2).filter (· ∉ [(0 : Fin 2)] ++ []) from by decide
    rw [hs]
    unfold GatherDims.offCoord
    rw [dif_pos hk]
    simp only [Nat.zero_add, Nat.add_zero]
    rfl

/-! ## Adding entries into a flat array -/

/-- The dimension numbers of `x.at[idx].add(upd)` for `x : [N]`, `idx : [M, 1]`, `upd : [M]`. -/
abbrev entryAddDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Where edge `e`'s update lands: at its integer, signed. -/
theorem entryAdd_pos {N M w : Nat} (wf : ScatterDims.WF ⟨1, ![N]⟩ ⟨2, ![M, 1]⟩ ⟨1, ![M]⟩ [] [0] [0] 1)
    (idx : IVec ⟨2, ![M, 1]⟩ w) (e : Fin M) (a : Fin 1) :
    (entryAddDims N M wf).start (ix1 e) idx a + ((entryAddDims N M wf).window (ix1 e) a : Int)
      = (idx (colIdx e)).toInt := by
  obtain rfl : a = 0 := Subsingleton.elim _ _
  have hw : (entryAddDims N M wf).window (ix1 e) 0 = 0 := by
    unfold ScatterDims.window
    have hk : (0 : Fin 1) ∉ (entryAddDims N M wf).sKept :=
      show (0 : Fin 1) ∉ (List.finRange 1).filter (· ∉ [(0 : Fin 1)]) from by decide
    rw [dif_neg hk]
  rw [hw]
  unfold ScatterDims.start
  rw [dif_pos (show (0 : Fin 1) ∈ (entryAddDims N M wf).scatterDimsToOperandDims from List.mem_singleton.mpr rfl)]
  have hsi : (entryAddDims N M wf).siIdx (ix1 e) ⟨List.idxOf (0 : Fin 1) (entryAddDims N M wf).scatterDimsToOperandDims,
      List.idxOf_lt_length_iff.2 (List.mem_singleton.mpr rfl)⟩ = colIdx e := by
    funext b; refine Fin.ext ?_
    match b with
    | ⟨0, _⟩ => rfl
    | ⟨1, _⟩ => rfl
  rw [hsi]
  simp

/-- Edge `e`'s update lands on entry `n` exactly when its integer, signed, is `n`. -/
theorem entryAdd_resultIdx_iff {N M w : Nat} (wf : ScatterDims.WF ⟨1, ![N]⟩ ⟨2, ![M, 1]⟩ ⟨1, ![M]⟩ [] [0] [0] 1)
    (idx : IVec ⟨2, ![M, 1]⟩ w) (e : Fin M) (n : Fin N) :
    (entryAddDims N M wf).resultIdx? (ix1 e) idx = some (ix1 n) ↔ (idx (colIdx e)).toInt = (n.val : Int) := by
  unfold ScatterDims.resultIdx?
  constructor
  · intro h
    split at h
    · next hb =>
      have h0 := congrArg Fin.val (congrFun (Option.some.inj h) 0)
      have h1 := (hb 0).1
      simp only [entryAdd_pos] at h0 h1
      have h2 : (idx (colIdx e)).toInt.toNat = n.val := h0
      omega
    · exact absurd h (by simp)
  · intro h
    have hb : ∀ a, 0 ≤ (entryAddDims N M wf).start (ix1 e) idx a + ((entryAddDims N M wf).window (ix1 e) a : Int)
        ∧ (entryAddDims N M wf).start (ix1 e) idx a + ((entryAddDims N M wf).window (ix1 e) a : Int)
          < ((⟨1, ![N]⟩ : Shape).size a : Int) := by
      intro a
      obtain rfl : a = 0 := Subsingleton.elim _ _
      rw [entryAdd_pos, h]
      exact ⟨Int.natCast_nonneg _, by exact_mod_cast n.isLt⟩
    rw [dif_pos hb]
    congr 1
    funext a
    obtain rfl : a = 0 := Subsingleton.elim _ _
    refine Fin.ext ?_
    show ((entryAddDims N M wf).start (ix1 e) idx 0 + ((entryAddDims N M wf).window (ix1 e) 0 : Int)).toNat = n.val
    rw [entryAdd_pos, h]
    simp

/-- Entry `n` after the additions: the operand's entry plus the updates of the edges whose integer is `n`. -/
theorem scatterAdd_entries_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal) (n : Fin N) :
    Ideal.hostScatterAdd (entryAddDims N M wf) x idx upd (ix1 n)
      = x (ix1 n) + ∑ e ∈ Finset.univ.filter (fun e : Fin M => (idx (colIdx e)).toInt = (n.val : Int)), upd (ix1 e) := by
  unfold Ideal.hostScatterAdd
  congr 1
  rw [Finset.sum_filter, Finset.sum_filter]
  refine Fintype.sum_equiv idxEquiv1 _ _ (fun i => ?_)
  rw [eq_ix1 i]
  exact if_congr (entryAdd_resultIdx_iff wf idx (i 0) n) rfl rfl

/-- The same for the host operation as a program prints it. -/
theorem hostScatterAdd_entries_apply {N M w : Nat} {φ : FTy}
    (wf : ScatterDims.WF ⟨1, ![N]⟩ ⟨2, ![M, 1]⟩ ⟨1, ![M]⟩ [] [0] [0] 1)
    (x : FVec Ideal ⟨1, ![N]⟩ φ) (idx : IVec ⟨2, ![M, 1]⟩ w) (upd : FVec Ideal ⟨1, ![M]⟩ φ) (n : Fin N) :
    Host.scatterAdd (F := Ideal) (entryAddDims N M wf) x idx upd (ix1 n)
      = x (ix1 n) + ∑ e ∈ Finset.univ.filter (fun e : Fin M => (idx (colIdx e)).toInt = (n.val : Int)), upd (ix1 e) := by
  unfold Host.scatterAdd
  rw [Ideal.hostScatterAdd_def]
  exact scatterAdd_entries_apply wf x idx upd n

/-! ## Adding rows -/

/-- The dimension numbers of `x.at[idx].add(upd)` for `x : [N, D]`, `idx : [M, 1]`, `upd : [M, D]`: whole rows. -/
abbrev rowAddDims (N D M : Nat) (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

/-- Where entry `(e, c)` of the updates lands, row coordinate: at edge `e`'s integer, signed. -/
theorem rowAdd_pos0 {N D M w : Nat} (wf : ScatterDims.WF ⟨2, ![N, D]⟩ ⟨2, ![M, 1]⟩ ⟨2, ![M, D]⟩ [1] [0] [0] 1)
    (idx : IVec ⟨2, ![M, 1]⟩ w) (e : Fin M) (c : Fin D) :
    (rowAddDims N D M wf).start (ix2 e c) idx 0 + ((rowAddDims N D M wf).window (ix2 e c) 0 : Int)
      = (idx (colIdx e)).toInt := by
  have hw : (rowAddDims N D M wf).window (ix2 e c) 0 = 0 := by
    unfold ScatterDims.window
    have hk : (0 : Fin 2) ∉ (rowAddDims N D M wf).sKept :=
      show (0 : Fin 2) ∉ (List.finRange 2).filter (· ∉ [(0 : Fin 2)]) from by decide
    rw [dif_neg hk]
  rw [hw]
  unfold ScatterDims.start
  rw [dif_pos (show (0 : Fin 2) ∈ (rowAddDims N D M wf).scatterDimsToOperandDims from List.mem_singleton.mpr rfl)]
  have hsi : (rowAddDims N D M wf).siIdx (ix2 e c) ⟨List.idxOf (0 : Fin 2) (rowAddDims N D M wf).scatterDimsToOperandDims,
      List.idxOf_lt_length_iff.2 (List.mem_singleton.mpr rfl)⟩ = colIdx e := by
    funext b; refine Fin.ext ?_
    match b with
    | ⟨0, _⟩ => rfl
    | ⟨1, _⟩ => rfl
  rw [hsi]
  simp

/-- Where entry `(e, c)` of the updates lands, column coordinate: at `c`. -/
theorem rowAdd_pos1 {N D M w : Nat} (wf : ScatterDims.WF ⟨2, ![N, D]⟩ ⟨2, ![M, 1]⟩ ⟨2, ![M, D]⟩ [1] [0] [0] 1)
    (idx : IVec ⟨2, ![M, 1]⟩ w) (e : Fin M) (c : Fin D) :
    (rowAddDims N D M wf).start (ix2 e c) idx 1 + ((rowAddDims N D M wf).window (ix2 e c) 1 : Int) = (c.val : Int) := by
  have hs : (rowAddDims N D M wf).start (ix2 e c) idx 1 = 0 := by
    unfold ScatterDims.start
    rw [dif_neg (show (1 : Fin 2) ∉ [(0 : Fin 2)] from by decide)]
  have hw : (rowAddDims N D M wf).window (ix2 e c) 1 = c.val := by
    unfold ScatterDims.window
    have hk : (1 : Fin 2) ∈ (rowAddDims N D M wf).sKept :=
      show (1 : Fin 2) ∈ (List.finRange 2).filter (· ∉ [(0 : Fin 2)]) from by decide
    rw [dif_pos hk]
    rfl
  rw [hs, hw]
  simp

/-- Entry `(e, c)` of the updates lands on `(n, j)` exactly when edge `e`'s integer, signed, is `n` and `c = j`. -/
theorem rowAdd_resultIdx_iff {N D M w : Nat} (wf : ScatterDims.WF ⟨2, ![N, D]⟩ ⟨2, ![M, 1]⟩ ⟨2, ![M, D]⟩ [1] [0] [0] 1)
    (idx : IVec ⟨2, ![M, 1]⟩ w) (e : Fin M) (c : Fin D) (n : Fin N) (j : Fin D) :
    (rowAddDims N D M wf).resultIdx? (ix2 e c) idx = some (ix2 n j)
      ↔ (idx (colIdx e)).toInt = (n.val : Int) ∧ c = j := by
  unfold ScatterDims.resultIdx?
  constructor
  · intro h
    split at h
    · next hb =>
      have h0 := congrArg Fin.val (congrFun (Option.some.inj h) 0)
      have h1 := congrArg Fin.val (congrFun (Option.some.inj h) 1)
      have h2 := (hb 0).1
      simp only [rowAdd_pos0] at h0 h2
      simp only [rowAdd_pos1] at h1
      have h3 : (idx (colIdx e)).toInt.toNat = n.val := h0
      have h4 : ((c.val : Int)).toNat = j.val := h1
      refine ⟨by omega, Fin.ext (by simpa using h4)⟩
    · exact absurd h (by simp)
  · rintro ⟨h, rfl⟩
    have hb : ∀ a, 0 ≤ (rowAddDims N D M wf).start (ix2 e c) idx a + ((rowAddDims N D M wf).window (ix2 e c) a : Int)
        ∧ (rowAddDims N D M wf).start (ix2 e c) idx a + ((rowAddDims N D M wf).window (ix2 e c) a : Int)
          < ((⟨2, ![N, D]⟩ : Shape).size a : Int) := by
      intro a
      match a with
      | ⟨0, _⟩ =>
        show 0 ≤ (rowAddDims N D M wf).start (ix2 e c) idx 0 + ((rowAddDims N D M wf).window (ix2 e c) 0 : Int)
          ∧ (rowAddDims N D M wf).start (ix2 e c) idx 0 + ((rowAddDims N D M wf).window (ix2 e c) 0 : Int) < (N : Int)
        rw [rowAdd_pos0, h]
        exact ⟨Int.natCast_nonneg _, by exact_mod_cast n.isLt⟩
      | ⟨1, _⟩ =>
        show 0 ≤ (rowAddDims N D M wf).start (ix2 e c) idx 1 + ((rowAddDims N D M wf).window (ix2 e c) 1 : Int)
          ∧ (rowAddDims N D M wf).start (ix2 e c) idx 1 + ((rowAddDims N D M wf).window (ix2 e c) 1 : Int) < (D : Int)
        rw [rowAdd_pos1]
        exact ⟨Int.natCast_nonneg _, by exact_mod_cast c.isLt⟩
    rw [dif_pos hb]
    congr 1
    funext a
    refine Fin.ext ?_
    match a with
    | ⟨0, _⟩ =>
      show ((rowAddDims N D M wf).start (ix2 e c) idx 0 + ((rowAddDims N D M wf).window (ix2 e c) 0 : Int)).toNat = n.val
      rw [rowAdd_pos0, h]; simp
    | ⟨1, _⟩ =>
      show ((rowAddDims N D M wf).start (ix2 e c) idx 1 + ((rowAddDims N D M wf).window (ix2 e c) 1 : Int)).toNat = c.val
      rw [rowAdd_pos1]; simp

/-- Entry `(n, j)` after the additions: the operand's entry plus column `j` of the updates of the edges whose
    integer is `n`. -/
theorem scatterAdd_rows_apply {N D M w : Nat} (wf : ScatterDims.WF ⟨2, ![N, D]⟩ ⟨2, ![M, 1]⟩ ⟨2, ![M, D]⟩ [1] [0] [0] 1)
    (x : (⟨2, ![N, D]⟩ : Shape).Idx → EReal) (idx : IVec ⟨2, ![M, 1]⟩ w) (upd : (⟨2, ![M, D]⟩ : Shape).Idx → EReal)
    (n : Fin N) (j : Fin D) :
    Ideal.hostScatterAdd (rowAddDims N D M wf) x idx upd (ix2 n j)
      = x (ix2 n j) + ∑ e ∈ Finset.univ.filter (fun e : Fin M => (idx (colIdx e)).toInt = (n.val : Int)), upd (ix2 e j) := by
  unfold Ideal.hostScatterAdd
  congr 1
  rw [Finset.sum_filter, Finset.sum_filter, sum_idx2]
  refine Finset.sum_congr rfl (fun e _ => ?_)
  by_cases hA : (idx (colIdx e)).toInt = (n.val : Int)
  · rw [if_pos hA]
    rw [Finset.sum_eq_single j]
    · rw [if_pos ((rowAdd_resultIdx_iff wf idx e j n j).mpr ⟨hA, rfl⟩)]
    · intro c _ hc
      rw [if_neg (fun h => hc ((rowAdd_resultIdx_iff wf idx e c n j).mp h).2)]
    · intro h; exact absurd (Finset.mem_univ j) h
  · rw [if_neg hA]
    refine Finset.sum_eq_zero (fun c _ => ?_)
    rw [if_neg (fun h => hA ((rowAdd_resultIdx_iff wf idx e c n j).mp h).1)]

/-- The same for the host operation as a program prints it. -/
theorem hostScatterAdd_rows_apply {N D M w : Nat} {φ : FTy}
    (wf : ScatterDims.WF ⟨2, ![N, D]⟩ ⟨2, ![M, 1]⟩ ⟨2, ![M, D]⟩ [1] [0] [0] 1)
    (x : FVec Ideal ⟨2, ![N, D]⟩ φ) (idx : IVec ⟨2, ![M, 1]⟩ w) (upd : FVec Ideal ⟨2, ![M, D]⟩ φ) (n : Fin N) (j : Fin D) :
    Host.scatterAdd (F := Ideal) (rowAddDims N D M wf) x idx upd (ix2 n j)
      = x (ix2 n j) + ∑ e ∈ Finset.univ.filter (fun e : Fin M => (idx (colIdx e)).toInt = (n.val : Int)), upd (ix2 e j) := by
  unfold Host.scatterAdd
  rw [Ideal.hostScatterAdd_def]
  exact scatterAdd_rows_apply wf x idx upd n j

end Cert.LibSegment

end
-- ==== Proof.RefStages.lean ====
/-
  The reference program's stages as the functions of the specification.

  The reference computes a graph network in plain array operations. Its dense stages are read here entry by entry:
  a linear stage is a contraction of the rows with a transposed weight matrix plus a bias laid as one row and repeated
  down the rows, which is rows times columns plus the bias; a normalisation stage takes the column means (a sum from
  zero divided by the number of rows), the column means of the squared deviations, and then scales, shifts and clips
  below at zero, with a residual matrix added in the later layers. The sparse stage of the later layers is the same
  chain of host operations as the first one, on that layer's node matrix. Last, the sparse stage keeps real matrices
  real: an edge's weight is a product of two entries of a vector each of whose entries is either zero or the
  reciprocal square root of a number that is at least one, hence a real number, so every entry of the result is a
  finite sum of products of reals.
-/
import proofs.«143695_j28905129902721_1_alg».proof.Proof.Spec
import proofs.«143695_j28905129902721_1_alg».proof.Proof.ReadP
import proofs.«143695_j28905129902721_1_alg».proof.Proof.LibSegment
import proofs.«143695_j28905129902721_1_alg».proof.Proof.Sparse

noncomputable section

open scoped BigOperators

namespace Cert.Gcn.Ref

open Cert.ReferenceIdeal Cert.ReferenceIdeal.Gen Cert.ReferenceIdeal.Read Idealize.ShloMosaic Idealize.ShloMosaic.ValueIdx
  Cert.Gcn Cert.Gcn.Sparse Cert.LibMatProd Cert.LibPlainDot Cert.LibSegment

/-! ## Real numbers among the extended reals -/

/-- An extended real that is a real number. -/
def isR (x : EReal) : Prop := ∃ r : ℝ, x = (r : EReal)

theorem isR_zero : isR 0 := ⟨0, EReal.coe_zero.symm⟩

theorem isR_add {x y : EReal} (hx : isR x) (hy : isR y) : isR (x + y) := by
  obtain ⟨a, rfl⟩ := hx
  obtain ⟨b, rfl⟩ := hy
  exact ⟨a + b, (EReal.coe_add a b).symm⟩

theorem isR_mul {x y : EReal} (hx : isR x) (hy : isR y) : isR (x * y) := by
  obtain ⟨a, rfl⟩ := hx
  obtain ⟨b, rfl⟩ := hy
  exact ⟨a * b, (EReal.coe_mul a b).symm⟩

/-- A finite sum of real numbers is a real number. -/
theorem isR_sum {ι : Type} (s : Finset ι) (f : ι → EReal) : (∀ i ∈ s, isR (f i)) → isR (∑ i ∈ s, f i) := by
  classical
  refine Finset.induction_on s ?_ ?_
  · intro _
    rw [Finset.sum_empty]
    exact isR_zero
  · intro a s ha ih h
    rw [Finset.sum_insert ha]
    exact isR_add (h a (Finset.mem_insert_self a s)) (ih fun i hi => h i (Finset.mem_insert_of_mem hi))

/-- The larger of a real number and one, among the extended reals, is the larger among the reals. -/
theorem max_coe_one (r : ℝ) : max (r : EReal) 1 = ((max r 1 : ℝ) : EReal) := by
  rcases le_total r 1 with h | h
  · rw [max_eq_right h, max_eq_right (by exact_mod_cast h)]
    exact EReal.coe_one.symm
  · rw [max_eq_left h, max_eq_left (by exact_mod_cast h)]

/-- The reciprocal square root of a positive real number is a real number. -/
theorem isR_rsqrt_of_pos {r : ℝ} (h : 0 < r) : isR (Ideal.rsqrt (r : EReal)) := by
  rw [Ideal.rsqrt_coe, if_neg (not_lt.2 h.le), if_neg h.ne']
  exact ⟨_, rfl⟩

/-- The reciprocal square root of the larger of any extended real and one is a real number: at minus infinity the
    larger is one, at plus infinity the reciprocal square root is zero, and at a real number the larger is a real
    number that is at least one. -/
theorem isR_rsqrt_max_one (x : EReal) : isR (Ideal.rsqrt (max x 1)) := by
  induction x using EReal.rec with
  | bot =>
    rw [max_eq_right bot_le, ← EReal.coe_one]
    exact isR_rsqrt_of_pos one_pos
  | top =>
    rw [max_eq_left le_top, Ideal.rsqrt_top]
    exact isR_zero
  | coe r =>
    rw [max_coe_one]
    exact isR_rsqrt_of_pos (lt_of_lt_of_le one_pos (le_max_right r 1))

/-! ## The edge weights are real numbers -/

/-- Every entry of the reference's inverse square root degree vector is a real number, whatever the edge list: it is
    either zero or the reciprocal square root of the larger of the degree and one. -/
theorem v13_real (x1 : (⟨S2x1600000, .i32⟩ : BufTy).Contents (Elt Ideal)) (i : S100000.Idx) : isR (val_main_v13 (F := Ideal) x1 i) := by
  rw [val_main_v13_apply]
  unfold Scalar.select
  split
  · rw [val_main_v12_apply, val_main_v11_apply, val_main_v10_apply, val_main_cst_2_apply]
    simp only [Ideal.hostUnary_rsqrt_def, Ideal.maximumf_def, Ideal.ofBits_def, one_f32]
    exact isR_rsqrt_max_one _
  · rw [val_main_call0_v1_apply, val_main_call0_v0_apply, val_main_cst_3_apply]
    simp only [Ideal.ofBits_def, Ideal.ofBits_zero_f32]
    exact isR_zero

/-- Every edge's weight is a real number: the product of two picked entries of that vector. -/
theorem v28_real (x1 : (⟨S2x1600000, .i32⟩ : BufTy).Contents (Elt Ideal)) (i : S1600000.Idx) : isR (val_main_v28 (F := Ideal) x1 i) := by
  obtain ⟨e, rfl⟩ : ∃ e : Fin 1600000, i = ix1 e := ⟨i 0, eq_ix1 i⟩
  rw [val_main_v28_apply, Ideal.mulf_def]
  refine isR_mul ?_ ?_
  · have h := gather_entries_apply (N := 100000) (M := 1600000) (w := 32) (by decide)
      gather_S100000_S1600000x1_S1600000_n_0_n_n_0_1_1_wf (val_main_v13 (F := Ideal) x1) (val_main_v19 (F := Ideal) x1) e
    have h' : val_main_v20 (F := Ideal) x1 (ix1 e) = _ := h
    rw [h']
    exact v13_real x1 _
  · have h := gather_entries_apply (N := 100000) (M := 1600000) (w := 32) (by decide)
      gather_S100000_S1600000x1_S1600000_n_0_n_n_0_1_1_wf (val_main_v13 (F := Ideal) x1) (val_main_v26 (F := Ideal) x1) e
    have h' : val_main_v27 (F := Ideal) x1 (ix1 e) = _ := h
    rw [h']
    exact v13_real x1 _

/-! ## The sparse stage -/

/-! ## Rows, slabs and transposes of the parameters -/

/-- Rows times columns plus a vector repeated down the rows is rows times columns plus that vector as one row. -/
theorem affine_eq_lin {M K N : ℕ} (A : Mat M K) (W : Mat K N) (b : FVec Ideal ⟨1, ![N]⟩ .f32) (b' : Mat 1 N)
    (hb : ∀ q : Fin N, b (ix1 q) = b' (ix2 (0 : Fin 1) q)) : affine A W b = lin A W b' := by
  funext i
  obtain ⟨p, q, rfl⟩ : ∃ (p : Fin M) (q : Fin N), i = ix2 p q := ⟨i 0, i 1, eq_ix2 i⟩
  rw [affine_apply, lin_apply, hb]

/-- The first layer's weight matrix, transposed. -/
theorem v29_eq (x2 : (⟨S128x128, .f32⟩ : BufTy).Contents (Elt Ideal)) : val_main_v29 (F := Ideal) x2 = tr x2 := by
  funext i
  obtain ⟨k, q, rfl⟩ : ∃ (k : Fin 128) (q : Fin 128), i = ix2 k q := ⟨i 0, i 1, eq_ix2 i⟩
  rw [val_main_v29_apply]
  exact congrArg x2 (funext fun a => Fin.ext (by
    match a with
    | ⟨0, _⟩ => rfl
    | ⟨1, _⟩ => rfl))

/-- The last layer's weight matrix, transposed. -/
theorem v223_eq (x8 : (⟨S40x128, .f32⟩ : BufTy).Contents (Elt Ideal)) : val_main_v223 (F := Ideal) x8 = tr x8 := by
  funext i
  obtain ⟨k, q, rfl⟩ : ∃ (k : Fin 128) (q : Fin 40), i = ix2 k q := ⟨i 0, i 1, eq_ix2 i⟩
  rw [val_main_v223_apply]
  exact congrArg x8 (funext fun a => Fin.ext (by
    match a with
    | ⟨0, _⟩ => rfl
    | ⟨1, _⟩ => rfl))

theorem v79_eq (x4 : (⟨S3x128x128, .f32⟩ : BufTy).Contents (Elt Ideal)) : val_main_v79 (F := Ideal) x4 = trSlab x4 0 := by
  funext i
  obtain ⟨k, q, rfl⟩ : ∃ (k : Fin 128) (q : Fin 128), i = ix2 k q := ⟨i 0, i 1, eq_ix2 i⟩
  rw [val_main_v79_apply, val_main_v78_apply, val_main_v77_apply]
  have hk := k.isLt
  have hq := q.isLt
  exact congrArg x4 (funext fun a => Fin.ext (by
    match a with
    | ⟨0, _⟩ => rfl
    | ⟨1, _⟩ => show (q.val * 128 + k.val) / 128 % 128 = q.val; omega
    | ⟨2, _⟩ => show (q.val * 128 + k.val) % 128 = k.val; omega))

theorem v132_eq (x4 : (⟨S3x128x128, .f32⟩ : BufTy).Contents (Elt Ideal)) : val_main_v132 (F := Ideal) x4 = trSlab x4 1 := by
  funext i
  obtain ⟨k, q, rfl⟩ : ∃ (k : Fin 128) (q : Fin 128), i = ix2 k q := ⟨i 0, i 1, eq_ix2 i⟩
  rw [val_main_v132_apply, val_main_v131_apply, val_main_v130_apply]
  have hk := k.isLt
  have hq := q.isLt
  exact congrArg x4 (funext fun a => Fin.ext (by
    match a with
    | ⟨0, _⟩ => rfl
    | ⟨1, _⟩ => show (q.val * 128 + k.val) / 128 % 128 = q.val; omega
    | ⟨2, _⟩ => show (q.val * 128 + k.val) % 128 = k.val; omega))

theorem v185_eq (x4 : (⟨S3x128x128, .f32⟩ : BufTy).Contents (Elt Ideal)) : val_main_v185 (F := Ideal) x4 = trSlab x4 2 := by
  funext i
  obtain ⟨k, q, rfl⟩ : ∃ (k : Fin 128) (q : Fin 128), i = ix2 k q := ⟨i 0, i 1, eq_ix2 i⟩
  rw [val_main_v185_apply, val_main_v184_apply, val_main_v183_apply]
  have hk := k.isLt
  have hq := q.isLt
  exact congrArg x4 (funext fun a => Fin.ext (by
    match a with
    | ⟨0, _⟩ => rfl
    | ⟨1, _⟩ => show (q.val * 128 + k.val) / 128 % 128 = q.val; omega
    | ⟨2, _⟩ => show (q.val * 128 + k.val) % 128 = k.val; omega))

theorem v82_at (x5 : (⟨S3x128, .f32⟩ : BufTy).Contents (Elt Ideal)) (q : Fin 128) : val_main_v82 (F := Ideal) x5 (ix1 q) = rowOf x5 0 (ix2 (0 : Fin 1) q) := by
  rw [val_main_v82_apply, val_main_v81_apply]
  exact congrArg x5 (funext fun a => Fin.ext (by
    match a with
    | ⟨0, _⟩ => rfl
    | ⟨1, _⟩ => exact Nat.mod_eq_of_lt q.isLt))

theorem v135_at (x5 : (⟨S3x128, .f32⟩ : BufTy).Contents (Elt Ideal)) (q : Fin 128) : val_main_v135 (F := Ideal) x5 (ix1 q) = rowOf x5 1 (ix2 (0 : Fin 1) q) := by
  rw [val_main_v135_apply, val_main_v134_apply]
  exact congrArg x5 (funext fun a => Fin.ext (by
    match a with
    | ⟨0, _⟩ => rfl
    | ⟨1, _⟩ => exact Nat.mod_eq_of_lt q.isLt))

theorem v188_at (x5 : (⟨S3x128, .f32⟩ : BufTy).Contents (Elt Ideal)) (q : Fin 128) : val_main_v188 (F := Ideal) x5 (ix1 q) = rowOf x5 2 (ix2 (0 : Fin 1) q) := by
  rw [val_main_v188_apply, val_main_v187_apply]
  exact congrArg x5 (funext fun a => Fin.ext (by
    match a with
    | ⟨0, _⟩ => rfl
    | ⟨1, _⟩ => exact Nat.mod_eq_of_lt q.isLt))

theorem v35_at (x6 : (⟨S4x128, .f32⟩ : BufTy).Contents (Elt Ideal)) (q : Fin 128) : val_main_v35 (F := Ideal) x6 (ix1 q) = rowOf x6 0 (ix2 (0 : Fin 1) q) := by
  rw [val_main_v35_apply, val_main_v34_apply]
  exact congrArg x6 (funext fun a => Fin.ext (by
    match a with
    | ⟨0, _⟩ => rfl
    | ⟨1, _⟩ => exact Nat.mod_eq_of_lt q.isLt))

theorem v37_at (x7 : (⟨S4x128, .f32⟩ : BufTy).Contents (Elt Ideal)) (q : Fin 128) : val_main_v37 (F := Ideal) x7 (ix1 q) = rowOf x7 0 (ix2 (0 : Fin 1) q) := by
  rw [val_main_v37_apply, val_main_v36_apply]
  exact congrArg x7 (funext fun a => Fin.ext (by
    match a with
    | ⟨0, _⟩ => rfl
    | ⟨1, _⟩ => exact Nat.mod_eq_of_lt q.isLt))

theorem v87_at (x6 : (⟨S4x128, .f32⟩ : BufTy).Contents (Elt Ideal)) (q : Fin 128) : val_main_v87 (F := Ideal) x6 (ix1 q) = rowOf x6 1 (ix2 (0 : Fin 1) q) := by
  rw [val_main_v87_apply, val_main_v86_apply]
  exact congrArg x6 (funext fun a => Fin.ext (by
    match a with
    | ⟨0, _⟩ => rfl
    | ⟨1, _⟩ => exact Nat.mod_eq_of_lt q.isLt))

theorem v89_at (x7 : (⟨S4x128, .f32⟩ : BufTy).Contents (Elt Ideal)) (q : Fin 128) : val_main_v89 (F := Ideal) x7 (ix1 q) = rowOf x7 1 (ix2 (0 : Fin 1) q) := by
  rw [val_main_v89_apply, val_main_v88_apply]
  exact congrArg x7 (funext fun a => Fin.ext (by
    match a with
    | ⟨0, _⟩ => rfl
    | ⟨1, _⟩ => exact Nat.mod_eq_of_lt q.isLt))

theorem v140_at (x6 : (⟨S4x128, .f32⟩ : BufTy).Contents (Elt Ideal)) (q : Fin 128) : val_main_v140 (F := Ideal) x6 (ix1 q) = rowOf x6 2 (ix2 (0 : Fin 1) q) := by
  rw [val_main_v140_apply, val_main_v139_apply]
  exact congrArg x6 (funext fun a => Fin.ext (by
    match a with
    | ⟨0, _⟩ => rfl
    | ⟨1, _⟩ => exact Nat.mod_eq_of_lt q.isLt))

theorem v142_at (x7 : (⟨S4x128, .f32⟩ : BufTy).Contents (Elt Ideal)) (q : Fin 128) : val_main_v142 (F := Ideal) x7 (ix1 q) = rowOf x7 2 (ix2 (0 : Fin 1) q) := by
  rw [val_main_v142_apply, val_main_v141_apply]
  exact congrArg x7 (funext fun a => Fin.ext (by
    match a with
    | ⟨0, _⟩ => rfl
    | ⟨1, _⟩ => exact Nat.mod_eq_of_lt q.isLt))

theorem v193_at (x6 : (⟨S4x128, .f32⟩ : BufTy).Contents (Elt Ideal)) (q : Fin 128) : val_main_v193 (F := Ideal) x6 (ix1 q) = rowOf x6 3 (ix2 (0 : Fin 1) q) := by
  rw [val_main_v193_apply, val_main_v192_apply]
  exact congrArg x6 (funext fun a => Fin.ext (by
    match a with
    | ⟨0, _⟩ => rfl
    | ⟨1, _⟩ => exact Nat.mod_eq_of_lt q.isLt))

theorem v195_at (x7 : (⟨S4x128, .f32⟩ : BufTy).Contents (Elt Ideal)) (q : Fin 128) : val_main_v195 (F := Ideal) x7 (ix1 q) = rowOf x7 3 (ix2 (0 : Fin 1) q) := by
  rw [val_main_v195_apply, val_main_v194_apply]
  exact congrArg x7 (funext fun a => Fin.ext (by
    match a with
    | ⟨0, _⟩ => rfl
    | ⟨1, _⟩ => exact Nat.mod_eq_of_lt q.isLt))

/-! ## The normalisation stage, for any matrix -/

/-- A vector laid as one row and repeated down the rows. -/
def down (v : FVec Ideal S128 .f32) : Mat 100000 128 :=
  broadcastInDim S100000x128 ![0, 1] bcast_S1x128_S100000x128_0_1 (broadcastInDim S1x128 ![1] bcast_S128_S1x128_1 v)

theorem down_apply (v : FVec Ideal S128 .f32) (p : Fin 100000) (q : Fin 128) : down v (ix2 p q) = v (ix1 q) := by
  unfold down
  rw [bcast_1b_ab_apply, bcast_a_1a_apply]

/-- A scalar repeated along a vector reads the scalar. -/
theorem splat128_apply (c : FVec Ideal S_ .f32) (i : S128.Idx) : broadcastInDim S128 ![] bcast_S_S128 c i = c ix0 :=
  broadcastInDim_apply _ bcast_S_S128 c i ix0 (fun a => a.elim0)

/-- The host's sum down the rows from the zero word: at column q, the sum over the rows r of the entries (r, q). -/
theorem colSum_apply (X : Mat 100000 128) (q : Fin 128) :
    (Host.reduceAdd (F := Ideal) X (constant (F := Ideal) S_ .f32 0x00000000#32) reducesTo_S100000x128_S128_d0 h_S_) (ix1 q) = ∑ r : Fin 100000, X (ix2 r q) := by
  simp only [Host.reduceAdd, Ideal.hostReduceAdd_def]
  rw [Ideal.hostReduceAdd_single reducesTo_S100000x128_S128_d0 (by decide)]
  have h0 : (constant (F := Ideal) S_ .f32 0x00000000#32) (Shape.Idx.first h_S_) = 0 := Ideal.ofBits_zero_f32
  rw [h0, zero_add]
  refine Finset.sum_congr rfl fun k _ => ?_
  exact congrArg X (funext fun a => Fin.ext (by match a with | ⟨0, _⟩ => rfl | ⟨1, _⟩ => rfl))

/-- The column means: the sums down the rows divided by the number of rows. -/
def colMean (X : Mat 100000 128) : FVec Ideal S128 .f32 :=
  Host.divf (Host.reduceAdd (F := Ideal) X (constant (F := Ideal) S_ .f32 0x00000000#32) reducesTo_S100000x128_S128_d0 h_S_) (broadcastInDim S128 ![] bcast_S_S128 (constant (F := Ideal) S_ .f32 0x47C35000#32))

theorem colMean_apply (X : Mat 100000 128) (q : Fin 128) :
    colMean X (ix1 q) = Ideal.div (∑ r : Fin 100000, X (ix2 r q)) cnt := by
  show Ideal.div ((Host.reduceAdd (F := Ideal) X (constant (F := Ideal) S_ .f32 0x00000000#32) reducesTo_S100000x128_S128_d0 h_S_) (ix1 q)) (broadcastInDim S128 ![] bcast_S_S128 (constant (F := Ideal) S_ .f32 0x47C35000#32) (ix1 q)) = _
  rw [colSum_apply, splat128_apply]
  rfl

/-- The column variances: the means of the squared deviations from the column means. -/
def colVar (X : Mat 100000 128) : FVec Ideal S128 .f32 :=
  Host.divf (Host.reduceAdd (F := Ideal) (mulf (subf X (down (colMean X))) (subf X (down (colMean X)))) (constant (F := Ideal) S_ .f32 0x00000000#32) reducesTo_S100000x128_S128_d0 h_S_) (broadcastInDim S128 ![] bcast_S_S128 (constant (F := Ideal) S_ .f32 0x47C35000#32))

theorem colVar_apply (X : Mat 100000 128) (q : Fin 128) : colVar X (ix1 q) = varRef X (ix2 (0 : Fin 1) q) := by
  show Ideal.div ((Host.reduceAdd (F := Ideal) (mulf (subf X (down (colMean X))) (subf X (down (colMean X)))) (constant (F := Ideal) S_ .f32 0x00000000#32) reducesTo_S100000x128_S128_d0 h_S_) (ix1 q)) (broadcastInDim S128 ![] bcast_S_S128 (constant (F := Ideal) S_ .f32 0x47C35000#32) (ix1 q)) = _
  rw [colSum_apply, splat128_apply]
  show Ideal.div (∑ r : Fin 100000, (mulf (subf X (down (colMean X))) (subf X (down (colMean X)))) (ix2 r q)) cnt
    = Ideal.div (∑ r : Fin 100000, (X (ix2 r q) - Ideal.div (tot X (ix2 (0 : Fin 1) q)) cnt)
        * (X (ix2 r q) - Ideal.div (tot X (ix2 (0 : Fin 1) q)) cnt)) cnt
  refine congrArg (fun s => Ideal.div s cnt) (Finset.sum_congr rfl fun r _ => ?_)
  rw [mulf_apply, subf_apply, down_apply, colMean_apply]
  rfl

/-- Subtract the column means, scale by a vector and by the reciprocal square roots of the column variances plus the
    small offset, shift by a vector, clip below at the zero word. -/
def refNorm (X : Mat 100000 128) (g b : FVec Ideal S128 .f32) : Mat 100000 128 :=
  maximumf
    (addf (mulf (mulf (down g) (subf X (down (colMean X))))
        (down (Host.rsqrt (addf (colVar X) (broadcastInDim S128 ![] bcast_S_S128 (constant (F := Ideal) S_ .f32 0x3727C5AC#32))))))
      (down b))
    (broadcastInDim S100000x128 ![] bcast_S_S100000x128 (constant (F := Ideal) S_ .f32 0x00000000#32))

/-- That chain is the specification's normalisation with the two-pass variance, when the two vectors are rows G and B. -/
theorem refNorm_eq (X : Mat 100000 128) (g b : FVec Ideal S128 .f32) (G B : Mat 1 128)
    (hg : ∀ q : Fin 128, g (ix1 q) = G (ix2 (0 : Fin 1) q)) (hb : ∀ q : Fin 128, b (ix1 q) = B (ix2 (0 : Fin 1) q)) :
    refNorm X g b = normRelu X (meanOf (tot X)) (varRef X) G B := by
  funext i
  obtain ⟨p, q, rfl⟩ : ∃ (p : Fin 100000) (q : Fin 128), i = ix2 p q := ⟨i 0, i 1, eq_ix2 i⟩
  rw [normRelu_apply]
  show max (down g (ix2 p q) * (X (ix2 p q) - down (colMean X) (ix2 p q))
        * down (Host.rsqrt (addf (colVar X) (broadcastInDim S128 ![] bcast_S_S128 (constant (F := Ideal) S_ .f32 0x3727C5AC#32)))) (ix2 p q)
      + down b (ix2 p q))
      (broadcastInDim S100000x128 ![] bcast_S_S100000x128 (constant (F := Ideal) S_ .f32 0x00000000#32) (ix2 p q)) = _
  rw [down_apply, down_apply, down_apply, down_apply, hg, hb, colMean_apply,
    broadcastInDim_apply _ bcast_S_S100000x128 _ (ix2 p q) ix0 (fun a => a.elim0)]
  show max (G (ix2 (0 : Fin 1) q) * (X (ix2 p q) - Ideal.div (∑ r : Fin 100000, X (ix2 r q)) cnt)
        * Ideal.rsqrt (colVar X (ix1 q) + broadcastInDim S128 ![] bcast_S_S128 (constant (F := Ideal) S_ .f32 0x3727C5AC#32) (ix1 q))
      + B (ix2 (0 : Fin 1) q)) (Ideal.ofBits .f32 0x00000000#32) = _
  rw [colVar_apply, splat128_apply]
  rfl

/-! ## The reference's dense stages -/

theorem v33_eq (x0 : (⟨S100000x128, .f32⟩ : BufTy).Contents (Elt Ideal)) (x2 : (⟨S128x128, .f32⟩ : BufTy).Contents (Elt Ideal)) (x3 : (⟨S128, .f32⟩ : BufTy).Contents (Elt Ideal)) :
    val_main_v33 (F := Ideal) x0 x2 x3 = lin x0 (tr x2) (rowV x3) := by
  have h := dot_bias_eq dot_S100000x128_S128x128_S100000x128_1_0_0_1_n_n rfl rfl rfl rfl rfl rfl x0 (val_main_v29 (F := Ideal) x2) x3 bcast_S128_S1x128_1 bcast_S1x128_S100000x128_0_1
  have h' : val_main_v33 (F := Ideal) x0 x2 x3 = _ := h
  rw [h', v29_eq]
  exact affine_eq_lin _ _ _ _ (fun _ => rfl)

theorem v63_eq (x0 : (⟨S100000x128, .f32⟩ : BufTy).Contents (Elt Ideal)) (x2 : (⟨S128x128, .f32⟩ : BufTy).Contents (Elt Ideal)) (x3 : (⟨S128, .f32⟩ : BufTy).Contents (Elt Ideal)) (x6 x7 : (⟨S4x128, .f32⟩ : BufTy).Contents (Elt Ideal)) :
    val_main_v63 (F := Ideal) x0 x2 x3 x6 x7
      = normRelu (val_main_v33 (F := Ideal) x0 x2 x3) (meanOf (tot (val_main_v33 (F := Ideal) x0 x2 x3))) (varRef (val_main_v33 (F := Ideal) x0 x2 x3)) (rowOf x6 0) (rowOf x7 0) := by
  have h : val_main_v63 (F := Ideal) x0 x2 x3 x6 x7
      = refNorm (val_main_v33 (F := Ideal) x0 x2 x3) (val_main_v35 (F := Ideal) x6) (val_main_v37 (F := Ideal) x7) := rfl
  rw [h]
  exact refNorm_eq _ _ _ _ _ (v35_at x6) (v37_at x7)

theorem v85_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S3x128x128, .f32⟩ : BufTy).Contents (Elt Ideal)) (x5 : (⟨S3x128, .f32⟩ : BufTy).Contents (Elt Ideal)) (x6 x7 : (⟨S4x128, .f32⟩ : BufTy).Contents (Elt Ideal)) :
    val_main_v85 (F := Ideal) x0 x1 x2 x3 x4 x5 x6 x7 = lin (val_main_v76 (F := Ideal) x0 x1 x2 x3 x6 x7) (trSlab x4 0) (rowOf x5 0) := by
  have h := dot_bias_eq dot_S100000x128_S128x128_S100000x128_1_0_0_1_n_n rfl rfl rfl rfl rfl rfl (val_main_v76 (F := Ideal) x0 x1 x2 x3 x6 x7) (val_main_v79 (F := Ideal) x4) (val_main_v82 (F := Ideal) x5) bcast_S128_S1x128_1 bcast_S1x128_S100000x128_0_1
  have h' : val_main_v85 (F := Ideal) x0 x1 x2 x3 x4 x5 x6 x7 = _ := h
  rw [h', v79_eq]
  exact affine_eq_lin _ _ _ _ (v82_at x5)

theorem v116_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S3x128x128, .f32⟩ : BufTy).Contents (Elt Ideal)) (x5 : (⟨S3x128, .f32⟩ : BufTy).Contents (Elt Ideal)) (x6 x7 : (⟨S4x128, .f32⟩ : BufTy).Contents (Elt Ideal)) :
    val_main_v116 (F := Ideal) x0 x1 x2 x3 x4 x5 x6 x7
      = normReluRes (val_main_v85 (F := Ideal) x0 x1 x2 x3 x4 x5 x6 x7) (meanOf (tot (val_main_v85 (F := Ideal) x0 x1 x2 x3 x4 x5 x6 x7))) (varRef (val_main_v85 (F := Ideal) x0 x1 x2 x3 x4 x5 x6 x7)) (rowOf x6 1) (rowOf x7 1) (val_main_v63 (F := Ideal) x0 x2 x3 x6 x7) := by
  have h : val_main_v115 (F := Ideal) x0 x1 x2 x3 x4 x5 x6 x7
      = refNorm (val_main_v85 (F := Ideal) x0 x1 x2 x3 x4 x5 x6 x7) (val_main_v87 (F := Ideal) x6) (val_main_v89 (F := Ideal) x7) := rfl
  funext i
  show val_main_v115 (F := Ideal) x0 x1 x2 x3 x4 x5 x6 x7 i + val_main_v63 (F := Ideal) x0 x2 x3 x6 x7 i
    = normRelu _ _ _ _ _ i + val_main_v63 (F := Ideal) x0 x2 x3 x6 x7 i
  rw [h, refNorm_eq _ _ _ _ _ (v87_at x6) (v89_at x7)]

theorem v129_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S3x128x128, .f32⟩ : BufTy).Contents (Elt Ideal)) (x5 : (⟨S3x128, .f32⟩ : BufTy).Contents (Elt Ideal)) (x6 x7 : (⟨S4x128, .f32⟩ : BufTy).Contents (Elt Ideal)) :
    val_main_v129 (F := Ideal) x0 x1 x2 x3 x4 x5 x6 x7 = agg x1 (val_main_v116 (F := Ideal) x0 x1 x2 x3 x4 x5 x6 x7) := by
  rfl

theorem v138_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S3x128x128, .f32⟩ : BufTy).Contents (Elt Ideal)) (x5 : (⟨S3x128, .f32⟩ : BufTy).Contents (Elt Ideal)) (x6 x7 : (⟨S4x128, .f32⟩ : BufTy).Contents (Elt Ideal)) :
    val_main_v138 (F := Ideal) x0 x1 x2 x3 x4 x5 x6 x7 = lin (val_main_v129 (F := Ideal) x0 x1 x2 x3 x4 x5 x6 x7) (trSlab x4 1) (rowOf x5 1) := by
  have h := dot_bias_eq dot_S100000x128_S128x128_S100000x128_1_0_0_1_n_n rfl rfl rfl rfl rfl rfl (val_main_v129 (F := Ideal) x0 x1 x2 x3 x4 x5 x6 x7) (val_main_v132 (F := Ideal) x4) (val_main_v135 (F := Ideal) x5) bcast_S128_S1x128_1 bcast_S1x128_S100000x128_0_1
  have h' : val_main_v138 (F := Ideal) x0 x1 x2 x3 x4 x5 x6 x7 = _ := h
  rw [h', v132_eq]
  exact affine_eq_lin _ _ _ _ (v135_at x5)

theorem v169_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S3x128x128, .f32⟩ : BufTy).Contents (Elt Ideal)) (x5 : (⟨S3x128, .f32⟩ : BufTy).Contents (Elt Ideal)) (x6 x7 : (⟨S4x128, .f32⟩ : BufTy).Contents (Elt Ideal)) :
    val_main_v169 (F := Ideal) x0 x1 x2 x3 x4 x5 x6 x7
      = normReluRes (val_main_v138 (F := Ideal) x0 x1 x2 x3 x4 x5 x6 x7) (meanOf (tot (val_main_v138 (F := Ideal) x0 x1 x2 x3 x4 x5 x6 x7))) (varRef (val_main_v138 (F := Ideal) x0 x1 x2 x3 x4 x5 x6 x7)) (rowOf x6 2) (rowOf x7 2) (val_main_v63 (F := Ideal) x0 x2 x3 x6 x7) := by
  have h : val_main_v168 (F := Ideal) x0 x1 x2 x3 x4 x5 x6 x7
      = refNorm (val_main_v138 (F := Ideal) x0 x1 x2 x3 x4 x5 x6 x7) (val_main_v140 (F := Ideal) x6) (val_main_v142 (F := Ideal) x7) := rfl
  funext i
  show val_main_v168 (F := Ideal) x0 x1 x2 x3 x4 x5 x6 x7 i + val_main_v63 (F := Ideal) x0 x2 x3 x6 x7 i
    = normRelu _ _ _ _ _ i + val_main_v63 (F := Ideal) x0 x2 x3 x6 x7 i
  rw [h, refNorm_eq _ _ _ _ _ (v140_at x6) (v142_at x7)]

theorem v182_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S3x128x128, .f32⟩ : BufTy).Contents (Elt Ideal)) (x5 : (⟨S3x128, .f32⟩ : BufTy).Contents (Elt Ideal)) (x6 x7 : (⟨S4x128, .f32⟩ : BufTy).Contents (Elt Ideal)) :
    val_main_v182 (F := Ideal) x0 x1 x2 x3 x4 x5 x6 x7 = agg x1 (val_main_v169 (F := Ideal) x0 x1 x2 x3 x4 x5 x6 x7) := by
  rfl

theorem v191_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S3x128x128, .f32⟩ : BufTy).Contents (Elt Ideal)) (x5 : (⟨S3x128, .f32⟩ : BufTy).Contents (Elt Ideal)) (x6 x7 : (⟨S4x128, .f32⟩ : BufTy).Contents (Elt Ideal)) :
    val_main_v191 (F := Ideal) x0 x1 x2 x3 x4 x5 x6 x7 = lin (val_main_v182 (F := Ideal) x0 x1 x2 x3 x4 x5 x6 x7) (trSlab x4 2) (rowOf x5 2) := by
  have h := dot_bias_eq dot_S100000x128_S128x128_S100000x128_1_0_0_1_n_n rfl rfl rfl rfl rfl rfl (val_main_v182 (F := Ideal) x0 x1 x2 x3 x4 x5 x6 x7) (val_main_v185 (F := Ideal) x4) (val_main_v188 (F := Ideal) x5) bcast_S128_S1x128_1 bcast_S1x128_S100000x128_0_1
  have h' : val_main_v191 (F := Ideal) x0 x1 x2 x3 x4 x5 x6 x7 = _ := h
  rw [h', v185_eq]
  exact affine_eq_lin _ _ _ _ (v188_at x5)

theorem v222_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S3x128x128, .f32⟩ : BufTy).Contents (Elt Ideal)) (x5 : (⟨S3x128, .f32⟩ : BufTy).Contents (Elt Ideal)) (x6 x7 : (⟨S4x128, .f32⟩ : BufTy).Contents (Elt Ideal)) :
    val_main_v222 (F := Ideal) x0 x1 x2 x3 x4 x5 x6 x7
      = normReluRes (val_main_v191 (F := Ideal) x0 x1 x2 x3 x4 x5 x6 x7) (meanOf (tot (val_main_v191 (F := Ideal) x0 x1 x2 x3 x4 x5 x6 x7))) (varRef (val_main_v191 (F := Ideal) x0 x1 x2 x3 x4 x5 x6 x7)) (rowOf x6 3) (rowOf x7 3) (val_main_v63 (F := Ideal) x0 x2 x3 x6 x7) := by
  have h : val_main_v221 (F := Ideal) x0 x1 x2 x3 x4 x5 x6 x7
      = refNorm (val_main_v191 (F := Ideal) x0 x1 x2 x3 x4 x5 x6 x7) (val_main_v193 (F := Ideal) x6) (val_main_v195 (F := Ideal) x7) := rfl
  funext i
  show val_main_v221 (F := Ideal) x0 x1 x2 x3 x4 x5 x6 x7 i + val_main_v63 (F := Ideal) x0 x2 x3 x6 x7 i
    = normRelu _ _ _ _ _ i + val_main_v63 (F := Ideal) x0 x2 x3 x6 x7 i
  rw [h, refNorm_eq _ _ _ _ _ (v193_at x6) (v195_at x7)]

theorem v227_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S3x128x128, .f32⟩ : BufTy).Contents (Elt Ideal)) (x5 : (⟨S3x128, .f32⟩ : BufTy).Contents (Elt Ideal)) (x6 x7 : (⟨S4x128, .f32⟩ : BufTy).Contents (Elt Ideal)) (x8 : (⟨S40x128, .f32⟩ : BufTy).Contents (Elt Ideal)) (x9 : (⟨S40, .f32⟩ : BufTy).Contents (Elt Ideal)) :
    val_main_v227 (F := Ideal) x0 x1 x2 x3 x4 x5 x6 x7 x8 x9 = lin (val_main_v222 (F := Ideal) x0 x1 x2 x3 x4 x5 x6 x7) (tr x8) (rowV x9) := by
  have h := dot_bias_eq dot_S100000x128_S128x40_S100000x40_1_0_0_1_n_n rfl rfl rfl rfl rfl rfl (val_main_v222 (F := Ideal) x0 x1 x2 x3 x4 x5 x6 x7) (val_main_v223 (F := Ideal) x8) x9 bcast_S40_S1x40_1 bcast_S1x40_S100000x40_0_1
  have h' : val_main_v227 (F := Ideal) x0 x1 x2 x3 x4 x5 x6 x7 x8 x9 = _ := h
  rw [h', v223_eq]
  exact affine_eq_lin _ _ _ _ (fun _ => rfl)

theorem agg_real (x1 : (⟨S2x1600000, .i32⟩ : BufTy).Contents (Elt Ideal)) (H : Mat 100000 128) (hH : IsReal H) : IsReal (agg x1 H) := by
  intro i
  obtain ⟨n, j, rfl⟩ : ∃ (n : Fin 100000) (j : Fin 128), i = ix2 n j := ⟨i 0, i 1, eq_ix2 i⟩
  have h := hostScatterAdd_rows_apply (N := 100000) (D := 128) (M := 1600000) (w := 32) (φ := .f32)
    scatter_S100000x128_S1600000x1_S1600000x128_1_0_0_1_wf (val_main_v74 (F := Ideal)) (val_main_v75 (F := Ideal) x1)
    (mulf (val_main_v72 (F := Ideal) x1)
      (Host.gather gather_S100000x128_S1600000x1_S1600000x128_1_0_n_n_0_1_1128 H (val_main_v70 (F := Ideal) x1))) n j
  have h' : agg x1 H (ix2 n j) = _ := h
  show isR (agg x1 H (ix2 n j))
  rw [h']
  refine isR_add ?_ (isR_sum _ _ fun e _ => ?_)
  · rw [val_main_v74_apply, val_main_cst_14_apply]
    simp only [Ideal.ofBits_def, Ideal.ofBits_zero_f32]
    exact isR_zero
  · rw [mulf_apply]
    refine isR_mul ?_ ?_
    · rw [val_main_v72_apply, val_main_v64_apply]
      exact v28_real x1 _
    · have hg := gather_rows_apply (N := 100000) (D := 128) (M := 1600000) (w := 32) (by decide)
        gather_S100000x128_S1600000x1_S1600000x128_1_0_n_n_0_1_1128_wf H (val_main_v70 (F := Ideal) x1) e j
      have hg' : Host.gather gather_S100000x128_S1600000x1_S1600000x128_1_0_n_n_0_1_1128 H (val_main_v70 (F := Ideal) x1) (ix2 e j) = _ := hg
      rw [hg']
      exact hH _

end Cert.Gcn.Ref

end
-- ==== Proof.RefValue.lean ====
/-
  The reference's result, stage by stage, is the network with the two-pass variance: each dense stage of the
  reference is one of the layer's stage functions of the stage before it, and each aggregation the shared message-passing
  function of the hidden matrix before it; composing these equations from the result back to the arguments gives the
  whole composition.
-/
import proofs.«143695_j28905129902721_1_alg».proof.Proof.ModelDefs
import proofs.«143695_j28905129902721_1_alg».proof.Proof.RefStages

noncomputable section

namespace Cert.Gcn.RefValue

open Cert.ReferenceIdeal Cert.ReferenceIdeal.Read Idealize.ShloMosaic Cert.Gcn Cert.Gcn.Sparse

/-- The reference's last stage is the two-pass network of its ten arguments. -/
theorem out_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S3x128x128, .f32⟩ : BufTy).Contents (Elt Ideal)) (x5 : (⟨S3x128, .f32⟩ : BufTy).Contents (Elt Ideal))
    (x6 x7 : (⟨S4x128, .f32⟩ : BufTy).Contents (Elt Ideal)) (x8 : (⟨S40x128, .f32⟩ : BufTy).Contents (Elt Ideal))
    (x9 : (⟨S40, .f32⟩ : BufTy).Contents (Elt Ideal)) :
    val_main_v227 (F := Ideal) x0 x1 x2 x3 x4 x5 x6 x7 x8 x9 = Model.ROut x0 x1 x2 x3 x4 x5 x6 x7 x8 x9 := by
  rw [Ref.v227_eq, Ref.v222_eq, Ref.v191_eq, Ref.v182_eq, Ref.v169_eq, Ref.v138_eq, Ref.v129_eq, Ref.v116_eq, Ref.v85_eq,
    Sparse.v76_eq, Ref.v63_eq, Ref.v33_eq]
  rfl

end Cert.Gcn.RefValue

end
-- ==== Proof.Algebra.lean ====
/-
  The real-number algebra of one layer of the network.

  Every entry of the input arrays is a real number. The stages of the module Spec keep entries real: a sum, a
  difference or a product of reals is a real; a quotient by the row count is a product with its reciprocal; the
  reciprocal square root of a positive real is a real; the larger of a real and zero is a real.

  The law that joins the two variance forms: for real numbers x_1, …, x_n with n ≠ 0 and mean μ = (Σ x) / n,

      (Σ x²) / n − μ²  =  (Σ (x − μ)²) / n,

  because Σ (x − μ)² = Σ x² − 2 μ Σ x + n μ² = Σ x² − n μ². Over the extended reals the identity fails as soon as an
  entry is infinite (both sides then pass through a difference of infinities), so realness of the entries is used.
-/
import proofs.«143695_j28905129902721_1_alg».proof.Proof.Spec
import Idealize.ShloMosaic.PureOps.Ideal.Laws

noncomputable section

open scoped BigOperators

namespace Cert.Gcn

open Idealize.ShloMosaic Idealize.ShloMosaic.ValueIdx Cert.LibMatProd

/-! ## The three float words -/

/-- The word 0x47C35000 has exponent field 143 and fraction 4411392: (2²³ + 4411392) · 2⁻⁷ = 100000. -/
theorem cnt_eq : cnt = ((100000 : ℝ) : EReal) := by
  unfold cnt
  simp [Ideal.ofBits, Ideal.ieee, -EReal.coe_mul]
  norm_num

/-- The word 0x3727C5AC has exponent field 110 and fraction 2606508: the positive real 10995116 · 2⁻⁴⁰. -/
theorem eps_pos : ∃ e : ℝ, 0 < e ∧ eps = (e : EReal) := by
  refine ⟨10995116 * (2 : ℝ) ^ (-40 : ℤ), by positivity, ?_⟩
  unfold eps
  simp [Ideal.ofBits, Ideal.ieee, -EReal.coe_mul]

/-- The all-zero word is zero. -/
theorem zero_eq : Ideal.ofBits .f32 0x00000000#32 = (0 : EReal) := Ideal.ofBits_zero_f32

/-! ## Reals inside the extended reals -/

namespace Alg

/-- The coercion of a finite sum of reals is the sum of the coercions. -/
theorem coe_sum {ι : Type*} (s : Finset ι) (f : ι → ℝ) : ((∑ i ∈ s, f i : ℝ) : EReal) = ∑ i ∈ s, (f i : EReal) := by
  classical
  refine Finset.induction_on s (by simp) ?_
  intro a s ha ih
  rw [Finset.sum_insert ha, Finset.sum_insert ha, EReal.coe_add, ih]

theorem real_add {x y : EReal} (hx : ∃ a : ℝ, x = (a : EReal)) (hy : ∃ b : ℝ, y = (b : EReal)) :
    ∃ c : ℝ, x + y = (c : EReal) := by
  obtain ⟨a, rfl⟩ := hx; obtain ⟨b, rfl⟩ := hy; exact ⟨a + b, (EReal.coe_add a b).symm⟩

theorem real_sub {x y : EReal} (hx : ∃ a : ℝ, x = (a : EReal)) (hy : ∃ b : ℝ, y = (b : EReal)) :
    ∃ c : ℝ, x - y = (c : EReal) := by
  obtain ⟨a, rfl⟩ := hx; obtain ⟨b, rfl⟩ := hy; exact ⟨a - b, (EReal.coe_sub a b).symm⟩

theorem real_mul {x y : EReal} (hx : ∃ a : ℝ, x = (a : EReal)) (hy : ∃ b : ℝ, y = (b : EReal)) :
    ∃ c : ℝ, x * y = (c : EReal) := by
  obtain ⟨a, rfl⟩ := hx; obtain ⟨b, rfl⟩ := hy; exact ⟨a * b, (EReal.coe_mul a b).symm⟩

theorem real_sum {ι : Type*} (s : Finset ι) (f : ι → EReal) (hf : ∀ i, ∃ a : ℝ, f i = (a : EReal)) :
    ∃ c : ℝ, ∑ i ∈ s, f i = (c : EReal) := by
  choose g hg using hf
  exact ⟨∑ i ∈ s, g i, by rw [coe_sum]; exact Finset.sum_congr rfl fun i _ => hg i⟩

/-- The larger of two reals, inside the extended reals. -/
theorem max_coe (a b : ℝ) : max (a : EReal) (b : EReal) = ((max a b : ℝ) : EReal) :=
  (EReal.coe_strictMono.monotone.map_max).symm

/-- A quotient by the row count is the product with its reciprocal. -/
theorem div_cnt (x : EReal) : Ideal.div x cnt = x * ((1 / 100000 : ℝ) : EReal) := by
  rw [cnt_eq]; exact Ideal.div_coe (by norm_num) x

/-- The reciprocal square root of a positive real. -/
theorem rsqrt_pos_real {r : ℝ} (h : 0 < r) : Ideal.rsqrt (r : EReal) = (((Real.sqrt r)⁻¹ : ℝ) : EReal) := by
  rw [Ideal.rsqrt_coe, if_neg (not_lt.2 h.le), if_neg h.ne']

/-! ## The variance law over the reals -/

/-- Σ (x − μ)² = Σ x² − 2 μ Σ x + n μ², for any real μ. -/
theorem sum_sq_dev {n : ℕ} (x : Fin n → ℝ) (μ : ℝ) :
    ∑ r, (x r - μ) * (x r - μ) = (∑ r, x r * x r) - 2 * μ * (∑ r, x r) + (n : ℝ) * (μ * μ) := by
  calc ∑ r, (x r - μ) * (x r - μ) = ∑ r, (x r * x r - 2 * μ * x r + μ * μ) :=
        Finset.sum_congr rfl fun r _ => by ring
    _ = (∑ r, x r * x r) - 2 * μ * (∑ r, x r) + (n : ℝ) * (μ * μ) := by
        rw [Finset.sum_add_distrib, Finset.sum_sub_distrib, Finset.sum_const, Finset.card_univ, Fintype.card_fin,
          nsmul_eq_mul, Finset.mul_sum]

/-- The mean of the squares minus the square of the mean is the mean of the squared deviations from the mean
    (c is the count n as a real, nonzero). -/
theorem var_identity {n : ℕ} (c : ℝ) (hc : c ≠ 0) (hn : (n : ℝ) = c) (x : Fin n → ℝ) :
    (∑ r, x r * x r) * (1 / c) - (∑ r, x r) * (1 / c) * ((∑ r, x r) * (1 / c))
      = (∑ r, (x r - (∑ r, x r) * (1 / c)) * (x r - (∑ r, x r) * (1 / c))) * (1 / c) := by
  rw [sum_sq_dev, hn]
  field_simp
  ring

end Alg

open Alg

/-! ## The two variance forms agree on a real matrix -/

theorem var_eq {N : ℕ} (X : Mat 100000 N) (hX : IsReal X) : varOf (tot X) (totSq X) = varRef X := by
  funext j
  choose x hx using fun r : Fin 100000 => hX (ix2 (n0 := 100000) (n1 := N) r (j 1))
  simp only [varOf, varRef, tot, totSq, hx, div_cnt, ← EReal.coe_mul, ← coe_sum, ← EReal.coe_sub]
  exact congrArg _ (var_identity 100000 (by norm_num) (by norm_num) x)

/-! ## The stages keep entries real -/

theorem lin_real {M K N : ℕ} (A : Mat M K) (W : Mat K N) (b : Mat 1 N) (hA : IsReal A) (hW : IsReal W)
    (hb : IsReal b) : IsReal (lin A W b) := by
  intro i
  unfold lin matProd
  exact real_add (real_sum _ _ fun k => real_mul (hA _) (hW _)) (hb _)

namespace Alg

theorem tot_real {M N : ℕ} (X : Mat M N) (hX : IsReal X) : IsReal (tot X) := by
  intro j
  unfold tot
  exact real_sum _ _ fun r => hX _

theorem meanOf_real {N : ℕ} (S : Mat 1 N) (hS : IsReal S) : IsReal (meanOf S) := by
  intro j
  unfold meanOf
  rw [div_cnt]
  exact real_mul (hS j) ⟨_, rfl⟩

/-- The two-pass variance of a real matrix is a real number that is not negative: a mean of squares. -/
theorem varRef_nonneg {N : ℕ} (X : Mat 100000 N) (hX : IsReal X) (j : (⟨2, ![1, N]⟩ : Shape).Idx) :
    ∃ w : ℝ, 0 ≤ w ∧ varRef X j = (w : EReal) := by
  choose x hx using fun r : Fin 100000 => hX (ix2 (n0 := 100000) (n1 := N) r (j 1))
  obtain ⟨μ, hμ⟩ := meanOf_real (tot X) (tot_real X hX) j
  have hμ' : Ideal.div (tot X j) cnt = (μ : EReal) := hμ
  refine ⟨(∑ r, (x r - μ) * (x r - μ)) * (1 / 100000),
    mul_nonneg (Finset.sum_nonneg fun r _ => mul_self_nonneg _) (by norm_num), ?_⟩
  unfold varRef
  simp only [hx, hμ']
  rw [div_cnt]
  simp only [← EReal.coe_sub, ← EReal.coe_mul, ← coe_sum]

end Alg

theorem norm_real {N : ℕ} (X : Mat 100000 N) (g be : Mat 1 N) (hX : IsReal X) (hg : IsReal g) (hbe : IsReal be) :
    IsReal (normRelu X (meanOf (tot X)) (varRef X) g be) := by
  intro i
  obtain ⟨w, hw0, hw⟩ := varRef_nonneg X hX (ix2 (n0 := 1) (n1 := N) (0 : Fin 1) (i 1))
  obtain ⟨e, he0, he⟩ := eps_pos
  obtain ⟨μ, hμ⟩ := meanOf_real (tot X) (tot_real X hX) (ix2 (n0 := 1) (n1 := N) (0 : Fin 1) (i 1))
  obtain ⟨a, ha⟩ := hX i
  obtain ⟨γ, hγ⟩ := hg (ix2 (n0 := 1) (n1 := N) (0 : Fin 1) (i 1))
  obtain ⟨β, hβ⟩ := hbe (ix2 (n0 := 1) (n1 := N) (0 : Fin 1) (i 1))
  refine ⟨max (γ * (a - μ) * (Real.sqrt (w + e))⁻¹ + β) 0, ?_⟩
  unfold normRelu
  rw [hγ, ha, hμ, hw, he, hβ, zero_eq, ← EReal.coe_add w e, rsqrt_pos_real (add_pos_of_nonneg_of_pos hw0 he0),
    ← EReal.coe_sub, ← EReal.coe_mul, ← EReal.coe_mul, ← EReal.coe_add, ← EReal.coe_zero, max_coe]

theorem normRes_real {N : ℕ} (X : Mat 100000 N) (g be : Mat 1 N) (R : Mat 100000 N) (hX : IsReal X) (hg : IsReal g)
    (hbe : IsReal be) (hR : IsReal R) : IsReal (normReluRes X (meanOf (tot X)) (varRef X) g be R) := by
  intro i
  unfold normReluRes
  exact real_add (norm_real X g be hX hg hbe i) (hR i)

/-! ## Re-layouts of a real array are real -/

theorem rowOf_real {R N : ℕ} (G : Mat R N) (k : Fin R) (h : IsReal G) : IsReal (rowOf G k) := fun _ => h _

theorem rowV_real {N : ℕ} (b : FVec Ideal ⟨1, ![N]⟩ .f32) (h : IsReal b) : IsReal (rowV b) := fun _ => h _

theorem tr_real {A B : ℕ} (W : Mat A B) (h : IsReal W) : IsReal (tr W) := fun _ => h _

theorem trSlab_real {L A B : ℕ} (W : FVec Ideal ⟨3, ![L, A, B]⟩ .f32) (k : Fin L) (h : IsReal W) :
    IsReal (trSlab W k) := fun _ => h _

end Cert.Gcn

end
-- ==== Proof.Model.lean ====
/-
  The one-pass and the two-pass networks agree on real arguments. A layer's output feeds the next layer's aggregation
  and product, so the two agree as long as every layer's pre-normalisation matrix is a matrix of real numbers — which
  it is when the arguments are: products, sums and aggregations of reals are real, and the normalised, clipped matrix is
  real because a two-pass variance is a non-negative real and the offset added to it is positive.
-/
import proofs.«143695_j28905129902721_1_alg».proof.Proof.ModelDefs
import proofs.«143695_j28905129902721_1_alg».proof.Proof.Algebra
import proofs.«143695_j28905129902721_1_alg».proof.Proof.RefStages

noncomputable section

namespace Cert.Gcn.Model

open Idealize.ShloMosaic Cert.Gcn Cert.Gcn.Sparse

section
variable (x0 : Mat 100000 128) (x1 : Edges) (x2 : Mat 128 128) (x3 : FVec Ideal ⟨1, ![128]⟩ .f32)
  (x4 : FVec Ideal ⟨3, ![3, 128, 128]⟩ .f32) (x5 : Mat 3 128) (x6 x7 : Mat 4 128) (x8 : Mat 40 128)
  (x9 : FVec Ideal ⟨1, ![40]⟩ .f32)

/-! ### They agree on real arguments -/

variable (h0 : IsReal x0) (h2 : IsReal x2) (h3 : IsReal x3) (h4 : IsReal x4) (h5 : IsReal x5) (h6 : IsReal x6)
  (h7 : IsReal x7)

include h0 h2 h3 in
theorem L0_real : IsReal (L0 x0 x2 x3) := lin_real _ _ _ h0 (tr_real x2 h2) (rowV_real x3 h3)

include h0 h2 h3 in
theorem H0_eq : KH0 x0 x2 x3 x6 x7 = RH0 x0 x2 x3 x6 x7 := by
  unfold KH0 RH0
  rw [var_eq _ (L0_real x0 x2 x3 h0 h2 h3)]

include h0 h2 h3 h6 h7 in
theorem H0_real : IsReal (RH0 x0 x2 x3 x6 x7) :=
  norm_real _ _ _ (L0_real x0 x2 x3 h0 h2 h3) (rowOf_real x6 0 h6) (rowOf_real x7 0 h7)

include h0 h2 h3 in
theorem L1_eq : KL1 x0 x1 x2 x3 x4 x5 x6 x7 = RL1 x0 x1 x2 x3 x4 x5 x6 x7 := by
  unfold KL1 RL1
  rw [H0_eq x0 x2 x3 x6 x7 h0 h2 h3]

include h0 h2 h3 h4 h5 h6 h7 in
theorem L1_real : IsReal (RL1 x0 x1 x2 x3 x4 x5 x6 x7) :=
  lin_real _ _ _ (Ref.agg_real x1 _ (H0_real x0 x2 x3 x6 x7 h0 h2 h3 h6 h7)) (trSlab_real x4 0 h4) (rowOf_real x5 0 h5)

include h0 h2 h3 h4 h5 h6 h7 in
theorem H1_eq : KH1 x0 x1 x2 x3 x4 x5 x6 x7 = RH1 x0 x1 x2 x3 x4 x5 x6 x7 := by
  unfold KH1 RH1
  rw [L1_eq x0 x1 x2 x3 x4 x5 x6 x7 h0 h2 h3, H0_eq x0 x2 x3 x6 x7 h0 h2 h3,
    var_eq _ (L1_real x0 x1 x2 x3 x4 x5 x6 x7 h0 h2 h3 h4 h5 h6 h7)]

include h0 h2 h3 h4 h5 h6 h7 in
theorem H1_real : IsReal (RH1 x0 x1 x2 x3 x4 x5 x6 x7) :=
  normRes_real _ _ _ _ (L1_real x0 x1 x2 x3 x4 x5 x6 x7 h0 h2 h3 h4 h5 h6 h7) (rowOf_real x6 1 h6) (rowOf_real x7 1 h7)
    (H0_real x0 x2 x3 x6 x7 h0 h2 h3 h6 h7)

include h0 h2 h3 h4 h5 h6 h7 in
theorem L2_eq : KL2 x0 x1 x2 x3 x4 x5 x6 x7 = RL2 x0 x1 x2 x3 x4 x5 x6 x7 := by
  unfold KL2 RL2
  rw [H1_eq x0 x1 x2 x3 x4 x5 x6 x7 h0 h2 h3 h4 h5 h6 h7]

include h0 h2 h3 h4 h5 h6 h7 in
theorem L2_real : IsReal (RL2 x0 x1 x2 x3 x4 x5 x6 x7) :=
  lin_real _ _ _ (Ref.agg_real x1 _ (H1_real x0 x1 x2 x3 x4 x5 x6 x7 h0 h2 h3 h4 h5 h6 h7)) (trSlab_real x4 1 h4) (rowOf_real x5 1 h5)

include h0 h2 h3 h4 h5 h6 h7 in
theorem H2_eq : KH2 x0 x1 x2 x3 x4 x5 x6 x7 = RH2 x0 x1 x2 x3 x4 x5 x6 x7 := by
  unfold KH2 RH2
  rw [L2_eq x0 x1 x2 x3 x4 x5 x6 x7 h0 h2 h3 h4 h5 h6 h7, H0_eq x0 x2 x3 x6 x7 h0 h2 h3,
    var_eq _ (L2_real x0 x1 x2 x3 x4 x5 x6 x7 h0 h2 h3 h4 h5 h6 h7)]

include h0 h2 h3 h4 h5 h6 h7 in
theorem H2_real : IsReal (RH2 x0 x1 x2 x3 x4 x5 x6 x7) :=
  normRes_real _ _ _ _ (L2_real x0 x1 x2 x3 x4 x5 x6 x7 h0 h2 h3 h4 h5 h6 h7) (rowOf_real x6 2 h6) (rowOf_real x7 2 h7)
    (H0_real x0 x2 x3 x6 x7 h0 h2 h3 h6 h7)

include h0 h2 h3 h4 h5 h6 h7 in
theorem L3_eq : KL3 x0 x1 x2 x3 x4 x5 x6 x7 = RL3 x0 x1 x2 x3 x4 x5 x6 x7 := by
  unfold KL3 RL3
  rw [H2_eq x0 x1 x2 x3 x4 x5 x6 x7 h0 h2 h3 h4 h5 h6 h7]

include h0 h2 h3 h4 h5 h6 h7 in
theorem L3_real : IsReal (RL3 x0 x1 x2 x3 x4 x5 x6 x7) :=
  lin_real _ _ _ (Ref.agg_real x1 _ (H2_real x0 x1 x2 x3 x4 x5 x6 x7 h0 h2 h3 h4 h5 h6 h7)) (trSlab_real x4 2 h4) (rowOf_real x5 2 h5)

include h0 h2 h3 h4 h5 h6 h7 in
theorem H3_eq : KH3 x0 x1 x2 x3 x4 x5 x6 x7 = RH3 x0 x1 x2 x3 x4 x5 x6 x7 := by
  unfold KH3 RH3
  rw [L3_eq x0 x1 x2 x3 x4 x5 x6 x7 h0 h2 h3 h4 h5 h6 h7, H0_eq x0 x2 x3 x6 x7 h0 h2 h3,
    var_eq _ (L3_real x0 x1 x2 x3 x4 x5 x6 x7 h0 h2 h3 h4 h5 h6 h7)]

include h0 h2 h3 h4 h5 h6 h7 in
/-- On real arguments the one-pass and the two-pass networks are one function. -/
theorem out_eq : KOut x0 x1 x2 x3 x4 x5 x6 x7 x8 x9 = ROut x0 x1 x2 x3 x4 x5 x6 x7 x8 x9 := by
  unfold KOut ROut
  rw [H3_eq x0 x1 x2 x3 x4 x5 x6 x7 h0 h2 h3 h4 h5 h6 h7]

end

end Cert.Gcn.Model

end
-- ==== Proof.PreReal.lean ====
/-
  From the precondition to realness of the arguments.

  The precondition is a conjunction of nine tests, one per float argument array x: every entry satisfies
  |x| < +∞. An extended real whose absolute value max(x, −x) lies strictly below +∞ is neither +∞ (then the maximum
  is +∞) nor −∞ (then −x is +∞), so it is a real number. A conjunction of one-bit words is 1 exactly when each word
  is 1, and a reduction by "and" over a whole array that comes out 1 met a 1 at every index.
-/
import proofs.«143695_j28905129902721_1_alg».proof.Defs
import proofs.«143695_j28905129902721_1_alg».proof.Proof.Gen.Pre_finite_inputs
import proofs.«143695_j28905129902721_1_alg».proof.Proof.Spec
import Idealize.ShloMosaic.Lib.ReduceAll

noncomputable section

namespace Cert.Gcn.Pre

open Idealize.ShloMosaic Idealize.ShloMosaic.ValueIdx Idealize.SL.Sem Cert.Gcn

/-- The scalar shape has one index. -/
instance : Subsingleton Cert.Pre_finite_inputs.S_.Idx := ⟨fun a b => funext fun d => d.elim0⟩

/-- The word 0x7F800000 is +∞. -/
theorem top_eq : Ideal.ofBits .f32 0x7F800000#32 = (⊤ : EReal) := by simp [Ideal.ofBits, Ideal.ieee]

/-- An extended real whose absolute value is strictly below +∞ is a real number. -/
theorem real_of_abs_lt (x : EReal)
    (h : Ideal.cmp .olt (max x (-x)) (Ideal.ofBits .f32 0x7F800000#32) = 1#1) : ∃ r : ℝ, x = (r : EReal) := by
  rw [top_eq] at h
  induction x using EReal.rec with
  | bot => simp [Ideal.cmp] at h
  | coe r => exact ⟨r, rfl⟩
  | top => simp [Ideal.cmp] at h

/-- One test of the precondition: if "every entry of |x| is below +∞" reduces to 1, every entry of x is real. -/
theorem isReal_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (h : Host.reduce IntOp.andi
          (cmpf .olt (Host.absf x)
            (broadcastInDim s ![] hb (constant Cert.Pre_finite_inputs.S_ .f32 0x7F800000#32)))
          (constantI Cert.Pre_finite_inputs.S_ 1 1#1) hr hu ix0 = 1#1) : IsReal x :=
  fun i => real_of_abs_lt (x i) (Host.reduce_andi_all _ _ hr hu ix0 h i)

/-- Under the precondition every float argument array holds real numbers only. -/
theorem args_real [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    IsReal (m ((c.tc : Thread Cert.KernelIdeal.nD Cert.KernelIdeal.τ).loc Cert.KernelIdeal.main_arg0))
      ∧ IsReal (m ((c.tc : Thread Cert.KernelIdeal.nD Cert.KernelIdeal.τ).loc Cert.KernelIdeal.main_arg2))
      ∧ IsReal (m ((c.tc : Thread Cert.KernelIdeal.nD Cert.KernelIdeal.τ).loc Cert.KernelIdeal.main_arg3))
      ∧ IsReal (m ((c.tc : Thread Cert.KernelIdeal.nD Cert.KernelIdeal.τ).loc Cert.KernelIdeal.main_arg4))
      ∧ IsReal (m ((c.tc : Thread Cert.KernelIdeal.nD Cert.KernelIdeal.τ).loc Cert.KernelIdeal.main_arg5))
      ∧ IsReal (m ((c.tc : Thread Cert.KernelIdeal.nD Cert.KernelIdeal.τ).loc Cert.KernelIdeal.main_arg6))
      ∧ IsReal (m ((c.tc : Thread Cert.KernelIdeal.nD Cert.KernelIdeal.τ).loc Cert.KernelIdeal.main_arg7))
      ∧ IsReal (m ((c.tc : Thread Cert.KernelIdeal.nD Cert.KernelIdeal.τ).loc Cert.KernelIdeal.main_arg8))
      ∧ IsReal (m ((c.tc : Thread Cert.KernelIdeal.nD Cert.KernelIdeal.τ).loc Cert.KernelIdeal.main_arg9)) := by
  have hc := congrFun (h c) ix0
  dsimp only [Cert.Pre_finite_inputs.fn, Cert.Pre_finite_inputs.fn_part1, Cert.Pre_finite_inputs.fn_part2] at hc
  obtain ⟨hc, h9⟩ := IntOp.andi_eq_one.1 hc
  obtain ⟨hc, h8⟩ := IntOp.andi_eq_one.1 hc
  obtain ⟨hc, h7⟩ := IntOp.andi_eq_one.1 hc
  obtain ⟨hc, h6⟩ := IntOp.andi_eq_one.1 hc
  obtain ⟨hc, h5⟩ := IntOp.andi_eq_one.1 hc
  obtain ⟨hc, h4⟩ := IntOp.andi_eq_one.1 hc
  obtain ⟨hc, h3⟩ := IntOp.andi_eq_one.1 hc
  obtain ⟨h0, h2⟩ := IntOp.andi_eq_one.1 hc
  exact ⟨isReal_of_all _ _ _ _ h0, isReal_of_all _ _ _ _ h2, isReal_of_all _ _ _ _ h3, isReal_of_all _ _ _ _ h4,
    isReal_of_all _ _ _ _ h5, isReal_of_all _ _ _ _ h6, isReal_of_all _ _ _ _ h7, isReal_of_all _ _ _ _ h8,
    isReal_of_all _ _ _ _ h9⟩

end Cert.Gcn.Pre

end
-- ==== Proof.Claims.lean ====
/-
  The five claims about a three-layer graph network on 100000 nodes, tiled into nine kernel regions with the sparse
  steps on the host, against its plain form.

  The three frames: the two tiled programs terminate, fault-free, with their arguments unchanged, by the launch over
  their segments; the plain program by its run. The idealized tiled program is the tiled program's text read at the
  exact values, so nothing is owed for that. The value claim: at the exact values the tiled program's result is the
  network with each layer's column variance taken as the mean of the squares minus the squared mean, the plain
  program's the same network with the variance taken as the mean of the squared deviations; under the precondition every
  float argument is a matrix of real numbers, on which the two variances — hence, layer after layer, the two networks —
  agree.
-/
import proofs.«143695_j28905129902721_1_alg».proof.Defs
import proofs.«143695_j28905129902721_1_alg».proof.Proof.Gen.Kernel.Frame
import proofs.«143695_j28905129902721_1_alg».proof.Proof.Gen.KernelIdeal.Frame
import proofs.«143695_j28905129902721_1_alg».proof.Proof.Gen.ReferenceIdeal
import proofs.«143695_j28905129902721_1_alg».proof.Proof.Gen.Pre_finite_inputs
import proofs.«143695_j28905129902721_1_alg».proof.Proof.RunP
import proofs.«143695_j28905129902721_1_alg».proof.Proof.KernelRun
import proofs.«143695_j28905129902721_1_alg».proof.Proof.KernelValue
import proofs.«143695_j28905129902721_1_alg».proof.Proof.RefValue
import proofs.«143695_j28905129902721_1_alg».proof.Proof.Model
import proofs.«143695_j28905129902721_1_alg».proof.Proof.PreReal

noncomputable section

namespace Cert.Proof.GcnClaims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on real arguments the two programs end with one result: the one-pass network of the
    arguments (the tiled program's fold, read back) is the two-pass network (the plain program's last stage). -/
theorem algebraic : Cert.algebraic_KernelIdeal_ReferenceIdeal := by
  intro m ρ m' ρ' hpre hagree
  refine ⟨fun c => Cert.KernelIdeal.Gen.W20 m ρ c (Proc.devRef .tc Cert.KernelIdeal.main_v162),
    Cert.KernelIdeal.Named.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  obtain ⟨r0, r2, r3, r4, r5, r6, r7, r8, r9⟩ := Cert.Gcn.Pre.args_real m hpre c
  rw [a0, a1, a2, a3, a4, a5, a6, a7, a8, a9, Cert.Gcn.RefValue.out_eq]
  refine Eq.trans ?_ (Cert.KernelIdeal.Val.result m ρ c).symm
  exact (Cert.Gcn.Model.out_eq _ _ _ _ _ _ _ _ _ _ r0 r2 r3 r4 r5 r6 r7).symm

end Cert.Proof.GcnClaims

end
-- ==== Proof.lean ====
/-
  A three-layer graph network on 100000 nodes and 1600000 edges — a dense first layer, then three rounds of
  aggregation along the edges, product with a weight matrix, column normalisation with scale and shift, clipping at
  zero and a residual, then a dense head — computed as nine tiled kernel regions between host stretches, against the
  same network written plainly. The claims (proof/Proof/Claims.lean): the three programs terminate fault-free with
  their arguments unchanged; the idealized tiled program is the tiled program's own text at the exact values; and at
  the exact values, from memories agreeing on finite arguments, the two idealized programs end with one result. The
  one place where they compute differently is a layer's column variance — the mean of the squares minus the squared
  mean in the tiled program, the mean of the squared deviations in the plain one — and these agree on real numbers.
-/
import proofs.«143695_j28905129902721_1_alg».proof.Defs
import proofs.«143695_j28905129902721_1_alg».proof.Proof.Gen.Kernel
import proofs.«143695_j28905129902721_1_alg».proof.Proof.Gen.Kernel.Skeleton
import proofs.«143695_j28905129902721_1_alg».proof.Proof.Gen.Kernel.Launch
import proofs.«143695_j28905129902721_1_alg».proof.Proof.Gen.Kernel.Points
import proofs.«143695_j28905129902721_1_alg».proof.Proof.Gen.Kernel.Frame
import proofs.«143695_j28905129902721_1_alg».proof.Proof.Gen.KernelIdeal
import proofs.«143695_j28905129902721_1_alg».proof.Proof.Gen.KernelIdeal.Skeleton
import proofs.«143695_j28905129902721_1_alg».proof.Proof.Gen.KernelIdeal.Launch
import proofs.«143695_j28905129902721_1_alg».proof.Proof.Gen.KernelIdeal.Points
import proofs.«143695_j28905129902721_1_alg».proof.Proof.Gen.KernelIdeal.Frame
import proofs.«143695_j28905129902721_1_alg».proof.Proof.Gen.ReferenceIdeal
import proofs.«143695_j28905129902721_1_alg».proof.Proof.Gen.Pre_finite_inputs
import proofs.«143695_j28905129902721_1_alg».proof.Proof.ReadP
import proofs.«143695_j28905129902721_1_alg».proof.Proof.RunP
import proofs.«143695_j28905129902721_1_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    GcnClaims.frame_k, GcnClaims.frame_ki, GcnClaims.frame_ri, GcnClaims.preserves, GcnClaims.algebraic⟩

end Cert.Proof

end
